-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg16 : FVec F S16 .f32) (main_arg17 : FVec F S16 .f32) (main_arg18 : FVec F S16 .f32) (main_v63 : IVec S_ 1) (main_v67 : IVec S_ 1) : IVec S_ 1 :=
  let main_v68 : IVec S_ 1 := andi main_v63 main_v67
  let main_v69 : FVec F S16 .f32 := Host.absf main_arg16
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16 .f32 := Host.absf main_arg17
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16 .f32 := Host.absf main_arg18
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  main_v83

def fn_part3 {F : FTy → Type} [FloatOps F] (main_arg13 : FVec F S128 .f32) (main_arg14 : FVec F S128 .f32) (main_arg15 : FVec F S128x16 .f32) (main_arg16 : FVec F S16 .f32) (main_arg17 : FVec F S16 .f32) (main_arg18 : FVec F S16 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x16 .f32 := Host.absf main_arg15
  let main_cst_24 : FVec F S_ .f32 := constant S_ .f32 0x7F800000#32
  let main_v65 : FVec F S128x16 .f32 := broadcastInDim S128x16 ![] bcast_S_S128x16 main_cst_24
  let main_v66 : IVec S128x16 1 := cmpf .olt main_v64 main_v65
  let main_c_25 : IVec S_ 1 := constantI S_ 1 1#1
  let main_v67 : IVec S_ 1 := (fun x v => Host.reduce IntOp.andi x v reducesTo_S128x16_S_d0_1 h_S_) main_v66 main_c_25
  fn_part4 (F := F) main_arg16 main_arg17 main_arg18 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x16 .f32) (main_arg16 : FVec F S16 .f32) (main_arg17 : FVec F S16 .f32) (main_arg18 : FVec F S16 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x16 .f32) (main_arg16 : FVec F S16 .f32) (main_arg17 : FVec F S16 .f32) (main_arg18 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x16 .f32) (main_arg16 : FVec F S16 .f32) (main_arg17 : FVec F S16 .f32) (main_arg18 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S1x16 : Shape := ⟨2, ![1, 16]⟩
abbrev S50000x16 : Shape := ⟨2, ![50000, 16]⟩
abbrev S5000x16 : Shape := ⟨2, ![5000, 16]⟩

abbrev nBuf : Space → Nat
  | .hbm => 109
  | .vmem => 55
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x16, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S50000x128, .f32⟩
  | .hbm, ⟨30, _⟩ => ⟨S600000x1, .i32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S50000x128, .f32⟩
  | .hbm, ⟨49, _⟩ => ⟨S1x128, .f32⟩
  | .hbm, ⟨50, _⟩ => ⟨S1x128, .f32⟩
  | .hbm, ⟨51, _⟩ => ⟨S_, .f32⟩
  | .hbm, ⟨52, _⟩ => ⟨S1x128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S50000x128, .f32⟩
  | .hbm, ⟨62, _⟩ => ⟨S_, .i32⟩
  | .hbm, ⟨63, _⟩ => ⟨S600000, .i32⟩
  | .hbm, ⟨64, _⟩ => ⟨S600000, .i1⟩
  | .hbm, ⟨65, _⟩ => ⟨S_, .i32⟩
  | .hbm, ⟨66, _⟩ => ⟨S600000, .i32⟩
  | .hbm, ⟨67, _⟩ => ⟨S600000, .i32⟩
  | .hbm, ⟨68, _⟩ => ⟨S600000, .i32⟩
  | .hbm, ⟨69, _⟩ => ⟨S600000x1, .i32⟩
  | .hbm, ⟨70, _⟩ => ⟨S600000x128, .f32⟩
  | .hbm, ⟨71, _⟩ => ⟨S_, .f32⟩
  | .hbm, ⟨72, _⟩ => ⟨S50000x128, .f32⟩
  | .hbm, ⟨73, _⟩ => ⟨S600000x1, .i32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S1x128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S_, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x16, .f32⟩
  | .hbm, ⟨91, _⟩ => ⟨S50000x16, .f32⟩
  | .hbm, ⟨92, _⟩ => ⟨S1x16, .f32⟩
  | .hbm, ⟨93, _⟩ => ⟨S1x16, .f32⟩
  | .hbm, ⟨94, _⟩ => ⟨S_, .f32⟩
  | .hbm, ⟨95, _⟩ => ⟨S1x16, .f32⟩
  | .hbm, ⟨96, _⟩ => ⟨S1x16, .f32⟩
  | .hbm, ⟨97, _⟩ => ⟨S_, .f32⟩
  | .hbm, ⟨98, _⟩ => ⟨S1x16, .f32⟩
  | .hbm, ⟨99, _⟩ => ⟨S1x16, .f32⟩
  | .hbm, ⟨100, _⟩ => ⟨S1x16, .f32⟩
  | .hbm, ⟨101, _⟩ => ⟨S1x16, .f32⟩
  | .hbm, ⟨102, _⟩ => ⟨S1x16, .f32⟩
  | .hbm, ⟨103, _⟩ => ⟨S1x16, .f32⟩
  | .hbm, ⟨104, _⟩ => ⟨S1x16, .f32⟩
  | .hbm, ⟨105, _⟩ => ⟨S_, .f32⟩
  | .hbm, ⟨106, _⟩ => ⟨S1x16, .f32⟩
  | .hbm, ⟨107, _⟩ => ⟨S1x16, .f32⟩
  | .hbm, ⟨108, _⟩ => ⟨S16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S128x16, .f32⟩
  | .local _ .vmem, ⟨43, _⟩ => ⟨S1x16, .f32⟩
  | .local _ .vmem, ⟨44, _⟩ => ⟨S5000x16, .f32⟩
  | .local _ .vmem, ⟨45, _⟩ => ⟨S5000x16, .f32⟩
  | .local _ .vmem, ⟨46, _⟩ => ⟨S1x16, .f32⟩
  | .local _ .vmem, ⟨47, _⟩ => ⟨S1x16, .f32⟩
  | .local _ .vmem, ⟨48, _⟩ => ⟨S5000x16, .f32⟩
  | .local _ .vmem, ⟨49, _⟩ => ⟨S5000x16, .f32⟩
  | .local _ .vmem, ⟨50, _⟩ => ⟨S1x16, .f32⟩
  | .local _ .vmem, ⟨51, _⟩ => ⟨S1x16, .f32⟩
  | .local _ .vmem, ⟨52, _⟩ => ⟨S1x16, .f32⟩
  | .local _ .vmem, ⟨53, _⟩ => ⟨S1x16, .f32⟩
  | .local _ .vmem, ⟨54, _⟩ => ⟨S1x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12_0 : Ref sig .tc := ⟨.hbm, 34, rfl⟩
abbrev main_v12_1 : Ref sig .tc := ⟨.hbm, 35, rfl⟩
abbrev main_v12_2 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22_0 : Ref sig .tc := ⟨.hbm, 48, rfl⟩
abbrev main_v22_1 : Ref sig .tc := ⟨.hbm, 49, rfl⟩
abbrev main_v22_2 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_cst_4 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_5 : Ref sig .tc := ⟨.hbm, 62, rfl⟩
abbrev main_v32 : Ref sig .tc := ⟨.hbm, 63, rfl⟩
abbrev main_v33 : Ref sig .tc := ⟨.hbm, 64, rfl⟩
abbrev main_c_6 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_7 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44_0 : Ref sig .tc := ⟨.hbm, 77, rfl⟩
abbrev main_v44_1 : Ref sig .tc := ⟨.hbm, 78, rfl⟩
abbrev main_v44_2 : Ref sig .tc := ⟨.hbm, 79, rfl⟩
abbrev main_cst_8 : Ref sig .tc := ⟨.hbm, 80, rfl⟩
abbrev main_v45 : Ref sig .tc := ⟨.hbm, 81, rfl⟩
abbrev main_v46 : Ref sig .tc := ⟨.hbm, 82, rfl⟩
abbrev main_cst_9 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54_0 : Ref sig .tc := ⟨.hbm, 91, rfl⟩
abbrev main_v54_1 : Ref sig .tc := ⟨.hbm, 92, rfl⟩
abbrev main_v54_2 : Ref sig .tc := ⟨.hbm, 93, rfl⟩
abbrev main_cst_10 : Ref sig .tc := ⟨.hbm, 94, rfl⟩
abbrev main_v55 : Ref sig .tc := ⟨.hbm, 95, rfl⟩
abbrev main_v56 : Ref sig .tc := ⟨.hbm, 96, rfl⟩
abbrev main_cst_11 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_12 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg5_0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg7_0 : Ref sig .tc := ⟨.vmem, 44, rfl⟩
abbrev cc4_stg7_1 : Ref sig .tc := ⟨.vmem, 45, rfl⟩
abbrev cc4_stg8_0 : Ref sig .tc := ⟨.vmem, 46, rfl⟩
abbrev cc4_stg9_0 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem9_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem5_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem7_0 : DmaSem sig := 44
abbrev cc4_sem7_1 : DmaSem sig := 45
abbrev cc4_sem8_0 : DmaSem sig := 46
abbrev cc4_sem9_0 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem4_0 : DmaSem sig := 53
abbrev cc5_sem5_0 : DmaSem sig := 54

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x16 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x16 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x16 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x16 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x16 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  reduces_S5000x16_S16 : S5000x16.Reduces [0] S16
  bcast_S_S1x16 : S_.BroadcastsInDim S1x16 (![] : Fin 0 → Fin S1x16.rank)
  shapeCasts_S5000x16_S5000x16 : S5000x16.ShapeCasts S5000x16
  shapeCasts_S1x16_S16 : S1x16.ShapeCasts S16
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x16.size a ≤ S128x16.size a
  hwx4_5 : ∀ i : grid4.Coords, EltTy.bits .f32 = 32 ∨ (Rect.block (s := S128x16) S128x16.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x16.size a ≤ S1x16.size a
  hwx4_6 : ∀ i : grid4.Coords, EltTy.bits .f32 = 32 ∨ (Rect.block (s := S1x16) S1x16.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x16.size a ≤ S50000x16.size a
  hwx4_7 : ∀ i : grid4.Coords, EltTy.bits .f32 = 32 ∨ (Rect.block (s := S50000x16) S5000x16.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x16.size a ≤ S1x16.size a
  hwx4_8 : ∀ i : grid4.Coords, EltTy.bits .f32 = 32 ∨ (Rect.block (s := S1x16) S1x16.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x16.size a ≤ S1x16.size a
  hwx4_9 : ∀ i : grid4.Coords, EltTy.bits .f32 = 32 ∨ (Rect.block (s := S1x16) S1x16.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S50000x16.size a
  hwx5_0 : ∀ i : grid5.Coords, EltTy.bits .f32 = 32 ∨ (Rect.block (s := S50000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x16.size a ≤ S1x16.size a
  hwx5_3 : ∀ i : grid5.Coords, EltTy.bits .f32 = 32 ∨ (Rect.block (s := S1x16) S1x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x16.size a ≤ S1x16.size a
  hwx5_4 : ∀ i : grid5.Coords, EltTy.bits .f32 = 32 ∨ (Rect.block (s := S1x16) S1x16.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x16.size a ≤ S1x16.size a
  hwx5_5 : ∀ i : grid5.Coords, EltTy.bits .f32 = 32 ∨ (Rect.block (s := S1x16) S1x16.size (cc5_transform_5 i) (hinb5_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v22_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v22_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v22_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v22_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v31) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v44_1) S1x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44_2) S1x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v44_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v52) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg15) S128x16.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v53) S1x16.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v54_0) S5000x16.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v54_1) S1x16.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v54_2) S1x16.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v54_0) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v60) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v61) S1x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v62) S1x16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v63) S1x16.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000x16 : Shape := ⟨2, ![50000, 16]⟩
abbrev S1x16 : Shape := ⟨2, ![1, 16]⟩

abbrev nBuf : Space → Nat
  | .hbm => 245
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x16, .f32⟩
  | 16 => ⟨S16, .f32⟩
  | 17 => ⟨S16, .f32⟩
  | 18 => ⟨S16, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S_, .f32⟩
  | 29 => ⟨S50000x128, .f32⟩
  | 30 => ⟨S600000x1, .i32⟩
  | 31 => ⟨S50000x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S128, .f32⟩
  | 39 => ⟨S_, .f32⟩
  | 40 => ⟨S128, .f32⟩
  | 41 => ⟨S128, .f32⟩
  | 42 => ⟨S_, .i32⟩
  | 43 => ⟨S_, .f32⟩
  | 44 => ⟨S128, .f32⟩
  | 45 => ⟨S1x128, .f32⟩
  | 46 => ⟨S_, .f32⟩
  | 47 => ⟨S1x128, .f32⟩
  | 48 => ⟨S1x128, .f32⟩
  | 49 => ⟨S50000x128, .f32⟩
  | 50 => ⟨S50000x128, .f32⟩
  | 51 => ⟨S50000x128, .f32⟩
  | 52 => ⟨S_, .f32⟩
  | 53 => ⟨S_, .f32⟩
  | 54 => ⟨S_, .f32⟩
  | 55 => ⟨S_, .f32⟩
  | 56 => ⟨S128, .f32⟩
  | 57 => ⟨S128, .f32⟩
  | 58 => ⟨S128, .f32⟩
  | 59 => ⟨S_, .f32⟩
  | 60 => ⟨S_, .i1⟩
  | 61 => ⟨S_, .f32⟩
  | 62 => ⟨S_, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S128, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S128, .f32⟩
  | 88 => ⟨S_, .f32⟩
  | 89 => ⟨S128, .f32⟩
  | 90 => ⟨S128, .f32⟩
  | 91 => ⟨S_, .i32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S50000x128, .f32⟩
  | 99 => ⟨S50000x128, .f32⟩
  | 100 => ⟨S50000x128, .f32⟩
  | 101 => ⟨S_, .f32⟩
  | 102 => ⟨S_, .f32⟩
  | 103 => ⟨S_, .f32⟩
  | 104 => ⟨S_, .f32⟩
  | 105 => ⟨S128, .f32⟩
  | 106 => ⟨S128, .f32⟩
  | 107 => ⟨S128, .f32⟩
  | 108 => ⟨S_, .f32⟩
  | 109 => ⟨S_, .i1⟩
  | 110 => ⟨S_, .f32⟩
  | 111 => ⟨S_, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S_, .f32⟩
  | 118 => ⟨S128, .f32⟩
  | 119 => ⟨S128, .f32⟩
  | 120 => ⟨S128, .f32⟩
  | 121 => ⟨S128, .f32⟩
  | 122 => ⟨S1x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000x128, .f32⟩
  | 12 => ⟨S_, .f32⟩
  | 13 => ⟨S50000x128, .f32⟩
  | 14 => ⟨S600000x1, .i32⟩
  | 15 => ⟨S50000x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S128, .f32⟩
  | 23 => ⟨S_, .f32⟩
  | 24 => ⟨S128, .f32⟩
  | 25 => ⟨S128, .f32⟩
  | 26 => ⟨S_, .i32⟩
  | 27 => ⟨S_, .f32⟩
  | 28 => ⟨S128, .f32⟩
  | 29 => ⟨S1x128, .f32⟩
  | 30 => ⟨S_, .f32⟩
  | 31 => ⟨S1x128, .f32⟩
  | 32 => ⟨S1x128, .f32⟩
  | 33 => ⟨S50000x128, .f32⟩
  | 34 => ⟨S50000x128, .f32⟩
  | 35 => ⟨S50000x128, .f32⟩
  | 36 => ⟨S_, .f32⟩
  | 37 => ⟨S_, .f32⟩
  | 38 => ⟨S_, .f32⟩
  | 39 => ⟨S_, .f32⟩
  | 40 => ⟨S128, .f32⟩
  | 41 => ⟨S128, .f32⟩
  | 42 => ⟨S128, .f32⟩
  | 43 => ⟨S_, .f32⟩
  | 44 => ⟨S_, .i1⟩
  | 45 => ⟨S_, .f32⟩
  | 46 => ⟨S_, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S_, .f32⟩
  | 53 => ⟨S128, .f32⟩
  | 54 => ⟨S128, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x16, .f32⟩
  | 67 => ⟨S1x16, .f32⟩
  | 68 => ⟨S50000x16, .f32⟩
  | 69 => ⟨S50000x16, .f32⟩
  | 70 => ⟨S_, .f32⟩
  | 71 => ⟨S16, .f32⟩
  | 72 => ⟨S_, .f32⟩
  | 73 => ⟨S16, .f32⟩
  | 74 => ⟨S16, .f32⟩
  | 75 => ⟨S_, .i32⟩
  | 76 => ⟨S_, .f32⟩
  | 77 => ⟨S16, .f32⟩
  | 78 => ⟨S1x16, .f32⟩
  | 79 => ⟨S_, .f32⟩
  | 80 => ⟨S1x16, .f32⟩
  | 81 => ⟨S1x16, .f32⟩
  | 82 => ⟨S50000x16, .f32⟩
  | 83 => ⟨S50000x16, .f32⟩
  | 84 => ⟨S50000x16, .f32⟩
  | 85 => ⟨S_, .f32⟩
  | 86 => ⟨S_, .f32⟩
  | 87 => ⟨S_, .f32⟩
  | 88 => ⟨S_, .f32⟩
  | 89 => ⟨S16, .f32⟩
  | 90 => ⟨S16, .f32⟩
  | 91 => ⟨S16, .f32⟩
  | 92 => ⟨S_, .f32⟩
  | 93 => ⟨S_, .i1⟩
  | 94 => ⟨S_, .f32⟩
  | 95 => ⟨S_, .f32⟩
  | 96 => ⟨S16, .f32⟩
  | 97 => ⟨S16, .f32⟩
  | 98 => ⟨S1x16, .f32⟩
  | 99 => ⟨S50000x16, .f32⟩
  | 100 => ⟨S50000x16, .f32⟩
  | 101 => ⟨S_, .f32⟩
  | 102 => ⟨S16, .f32⟩
  | 103 => ⟨S16, .f32⟩
  | 104 => ⟨S16, .f32⟩
  | 105 => ⟨S16, .f32⟩
  | 106 => ⟨S1x16, .f32⟩
  | 107 => ⟨S50000x16, .f32⟩
  | 108 => ⟨S50000x16, .f32⟩
  | 109 => ⟨S1x16, .f32⟩
  | 110 => ⟨S50000x16, .f32⟩
  | 111 => ⟨S50000x16, .f32⟩
  | 112 => ⟨S_, .f32⟩
  | 113 => ⟨S16, .f32⟩
  | 114 => ⟨S_, .f32⟩
  | 115 => ⟨S16, .f32⟩
  | 116 => ⟨S16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_cst_2 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_cst_4 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_call1_cst : Ref sig .tc := ⟨.hbm, 79, rfl⟩
abbrev main_call1_v0 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_5 : Ref sig .tc := ⟨.hbm, 86, rfl⟩
abbrev main_v37 : Ref sig .tc := ⟨.hbm, 87, rfl⟩
abbrev main_cst_6 : Ref sig .tc := ⟨.hbm, 88, rfl⟩
abbrev main_v38 : Ref sig .tc := ⟨.hbm, 89, rfl⟩
abbrev main_v39 : Ref sig .tc := ⟨.hbm, 90, rfl⟩
abbrev main_c_7 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_cst_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_cst_1 : Ref sig .tc := ⟨.hbm, 102, rfl⟩
abbrev main_call2_v8 : Ref sig .tc := ⟨.hbm, 103, rfl⟩
abbrev main_call2_cst_2 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_cst_3 : Ref sig .tc := ⟨.hbm, 108, rfl⟩
abbrev main_call2_v12 : Ref sig .tc := ⟨.hbm, 109, rfl⟩
abbrev main_call2_cst_4 : Ref sig .tc := ⟨.hbm, 110, rfl⟩
abbrev main_call2_call0_v0 : Ref sig .tc := ⟨.hbm, 111, rfl⟩
abbrev main_call2_call0_v1 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_cst_8 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_call3_cst : Ref sig .tc := ⟨.hbm, 128, rfl⟩
abbrev main_call3_v0 : Ref sig .tc := ⟨.hbm, 129, rfl⟩
abbrev main_v54 : Ref sig .tc := ⟨.hbm, 130, rfl⟩
abbrev main_c_9 : Ref sig .tc := ⟨.hbm, 131, rfl⟩
abbrev main_v55 : Ref sig .tc := ⟨.hbm, 132, rfl⟩
abbrev main_v56 : Ref sig .tc := ⟨.hbm, 133, rfl⟩
abbrev main_c_10 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_cst_11 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_cst_12 : Ref sig .tc := ⟨.hbm, 149, rfl⟩
abbrev main_v70 : Ref sig .tc := ⟨.hbm, 150, rfl⟩
abbrev main_cst_13 : Ref sig .tc := ⟨.hbm, 151, rfl⟩
abbrev main_v71 : Ref sig .tc := ⟨.hbm, 152, rfl⟩
abbrev main_v72 : Ref sig .tc := ⟨.hbm, 153, rfl⟩
abbrev main_c_14 : Ref sig .tc := ⟨.hbm, 154, rfl⟩
abbrev main_call4_cst : Ref sig .tc := ⟨.hbm, 155, rfl⟩
abbrev main_call4_v0 : Ref sig .tc := ⟨.hbm, 156, rfl⟩
abbrev main_call4_v1 : Ref sig .tc := ⟨.hbm, 157, rfl⟩
abbrev main_call4_cst_0 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_v6 : Ref sig .tc := ⟨.hbm, 163, rfl⟩
abbrev main_call4_v7 : Ref sig .tc := ⟨.hbm, 164, rfl⟩
abbrev main_call4_cst_1 : Ref sig .tc := ⟨.hbm, 165, rfl⟩
abbrev main_call4_v8 : Ref sig .tc := ⟨.hbm, 166, rfl⟩
abbrev main_call4_cst_2 : Ref sig .tc := ⟨.hbm, 167, rfl⟩
abbrev main_call4_v9 : Ref sig .tc := ⟨.hbm, 168, rfl⟩
abbrev main_call4_v10 : Ref sig .tc := ⟨.hbm, 169, rfl⟩
abbrev main_call4_v11 : Ref sig .tc := ⟨.hbm, 170, rfl⟩
abbrev main_call4_cst_3 : Ref sig .tc := ⟨.hbm, 171, rfl⟩
abbrev main_call4_v12 : Ref sig .tc := ⟨.hbm, 172, rfl⟩
abbrev main_call4_cst_4 : Ref sig .tc := ⟨.hbm, 173, rfl⟩
abbrev main_call4_call0_v0 : Ref sig .tc := ⟨.hbm, 174, rfl⟩
abbrev main_call4_call0_v1 : Ref sig .tc := ⟨.hbm, 175, rfl⟩
abbrev main_v73 : Ref sig .tc := ⟨.hbm, 176, rfl⟩
abbrev main_v74 : Ref sig .tc := ⟨.hbm, 177, rfl⟩
abbrev main_v75 : Ref sig .tc := ⟨.hbm, 178, rfl⟩
abbrev main_v76 : Ref sig .tc := ⟨.hbm, 179, rfl⟩
abbrev main_cst_15 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_call5_cst : Ref sig .tc := ⟨.hbm, 191, rfl⟩
abbrev main_call5_v0 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_cst_16 : Ref sig .tc := ⟨.hbm, 198, rfl⟩
abbrev main_v92 : Ref sig .tc := ⟨.hbm, 199, rfl⟩
abbrev main_cst_17 : Ref sig .tc := ⟨.hbm, 200, rfl⟩
abbrev main_v93 : Ref sig .tc := ⟨.hbm, 201, rfl⟩
abbrev main_v94 : Ref sig .tc := ⟨.hbm, 202, rfl⟩
abbrev main_c_18 : Ref sig .tc := ⟨.hbm, 203, rfl⟩
abbrev main_call6_cst : Ref sig .tc := ⟨.hbm, 204, rfl⟩
abbrev main_call6_v0 : Ref sig .tc := ⟨.hbm, 205, rfl⟩
abbrev main_call6_v1 : Ref sig .tc := ⟨.hbm, 206, rfl⟩
abbrev main_call6_cst_0 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_call6_v5 : Ref sig .tc := ⟨.hbm, 211, rfl⟩
abbrev main_call6_v6 : Ref sig .tc := ⟨.hbm, 212, rfl⟩
abbrev main_call6_v7 : Ref sig .tc := ⟨.hbm, 213, rfl⟩
abbrev main_call6_cst_1 : Ref sig .tc := ⟨.hbm, 214, rfl⟩
abbrev main_call6_v8 : Ref sig .tc := ⟨.hbm, 215, rfl⟩
abbrev main_call6_cst_2 : Ref sig .tc := ⟨.hbm, 216, rfl⟩
abbrev main_call6_v9 : Ref sig .tc := ⟨.hbm, 217, rfl⟩
abbrev main_call6_v10 : Ref sig .tc := ⟨.hbm, 218, rfl⟩
abbrev main_call6_v11 : Ref sig .tc := ⟨.hbm, 219, rfl⟩
abbrev main_call6_cst_3 : Ref sig .tc := ⟨.hbm, 220, rfl⟩
abbrev main_call6_v12 : Ref sig .tc := ⟨.hbm, 221, rfl⟩
abbrev main_call6_cst_4 : Ref sig .tc := ⟨.hbm, 222, rfl⟩
abbrev main_call6_call0_v0 : Ref sig .tc := ⟨.hbm, 223, rfl⟩
abbrev main_call6_call0_v1 : Ref sig .tc := ⟨.hbm, 224, rfl⟩
abbrev main_v95 : Ref sig .tc := ⟨.hbm, 225, rfl⟩
abbrev main_v96 : Ref sig .tc := ⟨.hbm, 226, rfl⟩
abbrev main_v97 : Ref sig .tc := ⟨.hbm, 227, rfl⟩
abbrev main_v98 : Ref sig .tc := ⟨.hbm, 228, rfl⟩
abbrev main_cst_19 : Ref sig .tc := ⟨.hbm, 229, rfl⟩
abbrev main_v99 : Ref sig .tc := ⟨.hbm, 230, rfl⟩
abbrev main_v100 : Ref sig .tc := ⟨.hbm, 231, rfl⟩
abbrev main_v101 : Ref sig .tc := ⟨.hbm, 232, rfl⟩
abbrev main_v102 : Ref sig .tc := ⟨.hbm, 233, rfl⟩
abbrev main_v103 : Ref sig .tc := ⟨.hbm, 234, rfl⟩
abbrev main_v104 : Ref sig .tc := ⟨.hbm, 235, rfl⟩
abbrev main_v105 : Ref sig .tc := ⟨.hbm, 236, rfl⟩
abbrev main_v106 : Ref sig .tc := ⟨.hbm, 237, rfl⟩
abbrev main_v107 : Ref sig .tc := ⟨.hbm, 238, rfl⟩
abbrev main_v108 : Ref sig .tc := ⟨.hbm, 239, rfl⟩
abbrev main_cst_20 : Ref sig .tc := ⟨.hbm, 240, rfl⟩
abbrev main_v109 : Ref sig .tc := ⟨.hbm, 241, rfl⟩
abbrev main_cst_21 : Ref sig .tc := ⟨.hbm, 242, rfl⟩
abbrev main_v110 : Ref sig .tc := ⟨.hbm, 243, rfl⟩
abbrev main_v111 : Ref sig .tc := ⟨.hbm, 244, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S16_d0 : S50000x16.ReducesTo [0] S16
  bcast_S_S16 : S_.BroadcastsInDim S16 (![] : Fin 0 → Fin S16.rank)
  bcast_S_S1x16 : S_.BroadcastsInDim S1x16 (![] : Fin 0 → Fin S1x16.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.Spec.lean ====
/-
  The network, layer by layer, as functions of whole arrays over the extended reals.

  A graph-isomorphism layer adds to each node's feature row the sum of its in-neighbours' rows; a linear layer is a
  matrix product plus a bias row; batch normalisation subtracts the column mean and scales by
  `g * rsqrt (var + eps)`, where the column mean and variance are taken over all the rows. Both programs compute these
  layers; they differ in how the column statistics are arranged (sum and sum of squares against the mean of squared
  deviations) and in how the rows are tiled.  This module only NAMES the layers, index by index; it proves nothing.
-/
import Idealize.ShloMosaic.PureOps.Ideal
import Idealize.ShloMosaic.Lib.ValueIdx

noncomputable section

open scoped BigOperators

namespace Cert.Gin

open Idealize.ShloMosaic Idealize.ShloMosaic.ValueIdx

/-- An `a × b` array of extended reals, indexed as the programs index a rank-2 buffer. -/
abbrev Mat (a b : Nat) : Type := (⟨2, ![a, b]⟩ : Shape).Idx → EReal

/-- The stabiliser of the variance: the float word both programs carry, read exactly. -/
def eps : EReal := Ideal.ofBits .f32 0x3727C5AC#32

/-- A linear layer: entry `(r, j)` is row `r` of `x` against column `j` of `w`, plus the bias row's entry `j`. -/
def lin {n k o : Nat} (x : Mat n k) (w : Mat k o) (b : Mat 1 o) : Mat n o :=
  fun i => (∑ κ : Fin k, x (ix2 (i 0) κ) * w (ix2 κ (i 1))) + b (ix2 0 (i 1))

/-- The column sums of an array, as one row. -/
def colSum {n o : Nat} (z : Mat n o) : Mat 1 o := fun j => ∑ r : Fin n, z (ix2 r (j 1))

/-- The column sums of the squares, as one row. -/
def colSumSq {n o : Nat} (z : Mat n o) : Mat 1 o := fun j => ∑ r : Fin n, z (ix2 r (j 1)) * z (ix2 r (j 1))

/-- Normalisation by given column statistics: `(x - mean) * (g * rsqrt (var + eps)) + be`, column by column. -/
def norm {n o : Nat} (x : Mat n o) (mean var g be : Mat 1 o) : Mat n o :=
  fun i => (x i - mean (ix2 0 (i 1))) * (g (ix2 0 (i 1)) * Ideal.rsqrt (var (ix2 0 (i 1)) + eps)) + be (ix2 0 (i 1))

/-- A vector of length `o` as the one-row array both programs make of it before adding or scaling by it. -/
def rowOf {o : Nat} (a : (⟨1, ![o]⟩ : Shape).Idx → EReal) : Mat 1 o := fun j => a (ix1 (j 1))

/-- The positive part, entry by entry. -/
def relu {n o : Nat} (x : Mat n o) : Mat n o := fun i => max (x i) 0

end Cert.Gin

end
-- ==== Proof.KHost.lean ====
/-
  The idealized kernel's host operations between its regions, named: the neighbour sum, the division of a row of
  column sums by the row count, and the variance from the two running sums. Definitions only, in the program's own
  spelling, so that what a region finds can be stated without opening them.
-/
import proofs.«105059_j20856361189655_1_alg».proof.KernelIdeal
import proofs.«105059_j20856361189655_1_alg».proof.Proof.Gen.KernelIdeal
import Idealize.ShloMosaic.PureOps.Ideal

noncomputable section

namespace Cert.KernelIdeal.KHost

open Cert.KernelIdeal Cert.KernelIdeal.Gen Idealize.ShloMosaic

/-- The neighbour sum as the program's host operations spell it: to each row of `h` add the sum of the rows
    `h[src e]` over the edges `e` with `dst e` that row (a negative `src` read from the end). -/
def agg (h : FVec Ideal S50000x128 .f32) (src dst : IVec S600000 32) :
    FVec Ideal S50000x128 .f32 :=
  addf h (Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src))))

/-- A row divided by the row count, as the host spells it (a division by the broadcast count). -/
def divN128 (s : FVec Ideal S1x128 .f32) : FVec Ideal S1x128 .f32 :=
  Host.divf (F := Ideal) s (broadcastInDim S1x128 ![] bcast_S_S1x128 (constant (F := Ideal) S_ .f32 0x47435000#32))
/-- The same for a row of sixteen. -/
def divN16 (s : FVec Ideal S1x16 .f32) : FVec Ideal S1x16 .f32 :=
  Host.divf (F := Ideal) s (broadcastInDim S1x16 ![] bcast_S_S1x16 (constant (F := Ideal) S_ .f32 0x47435000#32))

/-- The variance from the two running sums: the mean of the squares less the square of the mean. -/
def varOf128 (s ss : FVec Ideal S1x128 .f32) : FVec Ideal S1x128 .f32 :=
  subf (F := Ideal) (φ := .f32) (divN128 ss) (mulf (F := Ideal) (φ := .f32) (divN128 s) (divN128 s))
/-- The same for a row of sixteen. -/
def varOf16 (s ss : FVec Ideal S1x16 .f32) : FVec Ideal S1x16 .f32 :=
  subf (F := Ideal) (φ := .f32) (divN16 ss) (mulf (F := Ideal) (φ := .f32) (divN16 s) (divN16 s))

end Cert.KernelIdeal.KHost

end
-- ==== Proof.KGlueArgs.lean ====
/-
  The idealized kernel's program between its regions, first part: no host operation and no region writes an argument
  array, so at every boundary where one is read it still holds what the launch memory held.
-/
import proofs.«105059_j20856361189655_1_alg».proof.Proof.Gen.KernelIdeal.Frame
import proofs.«105059_j20856361189655_1_alg».proof.Proof.Spec
import proofs.«105059_j20856361189655_1_alg».proof.Proof.KHost
import Idealize.ShloMosaic.Lib.StableHlo.Run
import Idealize.ShloMosaic.Lib.Tactic

set_option maxRecDepth 16384

noncomputable section

namespace Cert.KernelIdeal.KGlue

open Cert.KernelIdeal Cert.KernelIdeal.Gen Cert.KernelIdeal.KHost Cert.Gin
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The argument arrays at the boundaries where they are read: no host operation and no region writes one -/

theorem W1_arg1 : W1 m ρ c (Proc.devRef .tc main_arg1) = m ((c.tc : Thread nD τ).loc main_arg1) := by
  show StableHlo.after hostOps0 (W0 m ρ c) (Proc.devRef .tc main_arg1) = _
  after_results
theorem W2_arg1 : W2 m ρ c (Proc.devRef .tc main_arg1) = m ((c.tc : Thread nD τ).loc main_arg1) :=
  (W2_of_ne m ρ c main_arg1 (by decide)).trans (W1_arg1 m ρ c)
theorem W3_arg1 : W3 m ρ c (Proc.devRef .tc main_arg1) = m ((c.tc : Thread nD τ).loc main_arg1) := by
  show StableHlo.after hostOps1 (W2 m ρ c) (Proc.devRef .tc main_arg1) = _
  after_results
  exact W2_arg1 m ρ c
theorem W4_arg1 : W4 m ρ c (Proc.devRef .tc main_arg1) = m ((c.tc : Thread nD τ).loc main_arg1) :=
  (W4_of_ne m ρ c main_arg1 (by decide)).trans (W3_arg1 m ρ c)
theorem W5_arg1 : W5 m ρ c (Proc.devRef .tc main_arg1) = m ((c.tc : Thread nD τ).loc main_arg1) := by
  show StableHlo.after hostOps2 (W4 m ρ c) (Proc.devRef .tc main_arg1) = _
  after_results
  exact W4_arg1 m ρ c
theorem W6_arg1 : W6 m ρ c (Proc.devRef .tc main_arg1) = m ((c.tc : Thread nD τ).loc main_arg1) :=
  (W6_of_ne m ρ c main_arg1 (by decide)).trans (W5_arg1 m ρ c)

theorem W1_arg2 : W1 m ρ c (Proc.devRef .tc main_arg2) = m ((c.tc : Thread nD τ).loc main_arg2) := by
  show StableHlo.after hostOps0 (W0 m ρ c) (Proc.devRef .tc main_arg2) = _
  after_results
theorem W2_arg2 : W2 m ρ c (Proc.devRef .tc main_arg2) = m ((c.tc : Thread nD τ).loc main_arg2) :=
  (W2_of_ne m ρ c main_arg2 (by decide)).trans (W1_arg2 m ρ c)
theorem W3_arg2 : W3 m ρ c (Proc.devRef .tc main_arg2) = m ((c.tc : Thread nD τ).loc main_arg2) := by
  show StableHlo.after hostOps1 (W2 m ρ c) (Proc.devRef .tc main_arg2) = _
  after_results
  exact W2_arg2 m ρ c
theorem W4_arg2 : W4 m ρ c (Proc.devRef .tc main_arg2) = m ((c.tc : Thread nD τ).loc main_arg2) :=
  (W4_of_ne m ρ c main_arg2 (by decide)).trans (W3_arg2 m ρ c)
theorem W5_arg2 : W5 m ρ c (Proc.devRef .tc main_arg2) = m ((c.tc : Thread nD τ).loc main_arg2) := by
  show StableHlo.after hostOps2 (W4 m ρ c) (Proc.devRef .tc main_arg2) = _
  after_results
  exact W4_arg2 m ρ c
theorem W6_arg2 : W6 m ρ c (Proc.devRef .tc main_arg2) = m ((c.tc : Thread nD τ).loc main_arg2) :=
  (W6_of_ne m ρ c main_arg2 (by decide)).trans (W5_arg2 m ρ c)

theorem W1_arg3 : W1 m ρ c (Proc.devRef .tc main_arg3) = m ((c.tc : Thread nD τ).loc main_arg3) := by
  show StableHlo.after hostOps0 (W0 m ρ c) (Proc.devRef .tc main_arg3) = _
  after_results

theorem W1_arg5 : W1 m ρ c (Proc.devRef .tc main_arg5) = m ((c.tc : Thread nD τ).loc main_arg5) := by
  show StableHlo.after hostOps0 (W0 m ρ c) (Proc.devRef .tc main_arg5) = _
  after_results
theorem W2_arg5 : W2 m ρ c (Proc.devRef .tc main_arg5) = m ((c.tc : Thread nD τ).loc main_arg5) :=
  (W2_of_ne m ρ c main_arg5 (by decide)).trans (W1_arg5 m ρ c)

theorem W1_arg6 : W1 m ρ c (Proc.devRef .tc main_arg6) = m ((c.tc : Thread nD τ).loc main_arg6) := by
  show StableHlo.after hostOps0 (W0 m ρ c) (Proc.devRef .tc main_arg6) = _
  after_results
theorem W2_arg6 : W2 m ρ c (Proc.devRef .tc main_arg6) = m ((c.tc : Thread nD τ).loc main_arg6) :=
  (W2_of_ne m ρ c main_arg6 (by decide)).trans (W1_arg6 m ρ c)

theorem W1_arg7 : W1 m ρ c (Proc.devRef .tc main_arg7) = m ((c.tc : Thread nD τ).loc main_arg7) := by
  show StableHlo.after hostOps0 (W0 m ρ c) (Proc.devRef .tc main_arg7) = _
  after_results
theorem W2_arg7 : W2 m ρ c (Proc.devRef .tc main_arg7) = m ((c.tc : Thread nD τ).loc main_arg7) :=
  (W2_of_ne m ρ c main_arg7 (by decide)).trans (W1_arg7 m ρ c)
theorem W3_arg7 : W3 m ρ c (Proc.devRef .tc main_arg7) = m ((c.tc : Thread nD τ).loc main_arg7) := by
  show StableHlo.after hostOps1 (W2 m ρ c) (Proc.devRef .tc main_arg7) = _
  after_results
  exact W2_arg7 m ρ c

theorem W1_arg8 : W1 m ρ c (Proc.devRef .tc main_arg8) = m ((c.tc : Thread nD τ).loc main_arg8) := by
  show StableHlo.after hostOps0 (W0 m ρ c) (Proc.devRef .tc main_arg8) = _
  after_results
theorem W2_arg8 : W2 m ρ c (Proc.devRef .tc main_arg8) = m ((c.tc : Thread nD τ).loc main_arg8) :=
  (W2_of_ne m ρ c main_arg8 (by decide)).trans (W1_arg8 m ρ c)

theorem W1_arg9 : W1 m ρ c (Proc.devRef .tc main_arg9) = m ((c.tc : Thread nD τ).loc main_arg9) := by
  show StableHlo.after hostOps0 (W0 m ρ c) (Proc.devRef .tc main_arg9) = _
  after_results
theorem W2_arg9 : W2 m ρ c (Proc.devRef .tc main_arg9) = m ((c.tc : Thread nD τ).loc main_arg9) :=
  (W2_of_ne m ρ c main_arg9 (by decide)).trans (W1_arg9 m ρ c)
theorem W3_arg9 : W3 m ρ c (Proc.devRef .tc main_arg9) = m ((c.tc : Thread nD τ).loc main_arg9) := by
  show StableHlo.after hostOps1 (W2 m ρ c) (Proc.devRef .tc main_arg9) = _
  after_results
  exact W2_arg9 m ρ c
theorem W4_arg9 : W4 m ρ c (Proc.devRef .tc main_arg9) = m ((c.tc : Thread nD τ).loc main_arg9) :=
  (W4_of_ne m ρ c main_arg9 (by decide)).trans (W3_arg9 m ρ c)

theorem W1_arg10 : W1 m ρ c (Proc.devRef .tc main_arg10) = m ((c.tc : Thread nD τ).loc main_arg10) := by
  show StableHlo.after hostOps0 (W0 m ρ c) (Proc.devRef .tc main_arg10) = _
  after_results
theorem W2_arg10 : W2 m ρ c (Proc.devRef .tc main_arg10) = m ((c.tc : Thread nD τ).loc main_arg10) :=
  (W2_of_ne m ρ c main_arg10 (by decide)).trans (W1_arg10 m ρ c)
theorem W3_arg10 : W3 m ρ c (Proc.devRef .tc main_arg10) = m ((c.tc : Thread nD τ).loc main_arg10) := by
  show StableHlo.after hostOps1 (W2 m ρ c) (Proc.devRef .tc main_arg10) = _
  after_results
  exact W2_arg10 m ρ c
theorem W4_arg10 : W4 m ρ c (Proc.devRef .tc main_arg10) = m ((c.tc : Thread nD τ).loc main_arg10) :=
  (W4_of_ne m ρ c main_arg10 (by decide)).trans (W3_arg10 m ρ c)

theorem W1_arg11 : W1 m ρ c (Proc.devRef .tc main_arg11) = m ((c.tc : Thread nD τ).loc main_arg11) := by
  show StableHlo.after hostOps0 (W0 m ρ c) (Proc.devRef .tc main_arg11) = _
  after_results
theorem W2_arg11 : W2 m ρ c (Proc.devRef .tc main_arg11) = m ((c.tc : Thread nD τ).loc main_arg11) :=
  (W2_of_ne m ρ c main_arg11 (by decide)).trans (W1_arg11 m ρ c)
theorem W3_arg11 : W3 m ρ c (Proc.devRef .tc main_arg11) = m ((c.tc : Thread nD τ).loc main_arg11) := by
  show StableHlo.after hostOps1 (W2 m ρ c) (Proc.devRef .tc main_arg11) = _
  after_results
  exact W2_arg11 m ρ c
theorem W4_arg11 : W4 m ρ c (Proc.devRef .tc main_arg11) = m ((c.tc : Thread nD τ).loc main_arg11) :=
  (W4_of_ne m ρ c main_arg11 (by decide)).trans (W3_arg11 m ρ c)
theorem W5_arg11 : W5 m ρ c (Proc.devRef .tc main_arg11) = m ((c.tc : Thread nD τ).loc main_arg11) := by
  show StableHlo.after hostOps2 (W4 m ρ c) (Proc.devRef .tc main_arg11) = _
  after_results
  exact W4_arg11 m ρ c
theorem W6_arg11 : W6 m ρ c (Proc.devRef .tc main_arg11) = m ((c.tc : Thread nD τ).loc main_arg11) :=
  (W6_of_ne m ρ c main_arg11 (by decide)).trans (W5_arg11 m ρ c)
theorem W7_arg11 : W7 m ρ c (Proc.devRef .tc main_arg11) = m ((c.tc : Thread nD τ).loc main_arg11) := by
  show StableHlo.after hostOps3 (W6 m ρ c) (Proc.devRef .tc main_arg11) = _
  after_results
  exact W6_arg11 m ρ c

theorem W1_arg12 : W1 m ρ c (Proc.devRef .tc main_arg12) = m ((c.tc : Thread nD τ).loc main_arg12) := by
  show StableHlo.after hostOps0 (W0 m ρ c) (Proc.devRef .tc main_arg12) = _
  after_results
theorem W2_arg12 : W2 m ρ c (Proc.devRef .tc main_arg12) = m ((c.tc : Thread nD τ).loc main_arg12) :=
  (W2_of_ne m ρ c main_arg12 (by decide)).trans (W1_arg12 m ρ c)
theorem W3_arg12 : W3 m ρ c (Proc.devRef .tc main_arg12) = m ((c.tc : Thread nD τ).loc main_arg12) := by
  show StableHlo.after hostOps1 (W2 m ρ c) (Proc.devRef .tc main_arg12) = _
  after_results
  exact W2_arg12 m ρ c
theorem W4_arg12 : W4 m ρ c (Proc.devRef .tc main_arg12) = m ((c.tc : Thread nD τ).loc main_arg12) :=
  (W4_of_ne m ρ c main_arg12 (by decide)).trans (W3_arg12 m ρ c)
theorem W5_arg12 : W5 m ρ c (Proc.devRef .tc main_arg12) = m ((c.tc : Thread nD τ).loc main_arg12) := by
  show StableHlo.after hostOps2 (W4 m ρ c) (Proc.devRef .tc main_arg12) = _
  after_results
  exact W4_arg12 m ρ c
theorem W6_arg12 : W6 m ρ c (Proc.devRef .tc main_arg12) = m ((c.tc : Thread nD τ).loc main_arg12) :=
  (W6_of_ne m ρ c main_arg12 (by decide)).trans (W5_arg12 m ρ c)

theorem W1_arg13 : W1 m ρ c (Proc.devRef .tc main_arg13) = m ((c.tc : Thread nD τ).loc main_arg13) := by
  show StableHlo.after hostOps0 (W0 m ρ c) (Proc.devRef .tc main_arg13) = _
  after_results
theorem W2_arg13 : W2 m ρ c (Proc.devRef .tc main_arg13) = m ((c.tc : Thread nD τ).loc main_arg13) :=
  (W2_of_ne m ρ c main_arg13 (by decide)).trans (W1_arg13 m ρ c)
theorem W3_arg13 : W3 m ρ c (Proc.devRef .tc main_arg13) = m ((c.tc : Thread nD τ).loc main_arg13) := by
  show StableHlo.after hostOps1 (W2 m ρ c) (Proc.devRef .tc main_arg13) = _
  after_results
  exact W2_arg13 m ρ c
theorem W4_arg13 : W4 m ρ c (Proc.devRef .tc main_arg13) = m ((c.tc : Thread nD τ).loc main_arg13) :=
  (W4_of_ne m ρ c main_arg13 (by decide)).trans (W3_arg13 m ρ c)
theorem W5_arg13 : W5 m ρ c (Proc.devRef .tc main_arg13) = m ((c.tc : Thread nD τ).loc main_arg13) := by
  show StableHlo.after hostOps2 (W4 m ρ c) (Proc.devRef .tc main_arg13) = _
  after_results
  exact W4_arg13 m ρ c
theorem W6_arg13 : W6 m ρ c (Proc.devRef .tc main_arg13) = m ((c.tc : Thread nD τ).loc main_arg13) :=
  (W6_of_ne m ρ c main_arg13 (by decide)).trans (W5_arg13 m ρ c)
theorem W7_arg13 : W7 m ρ c (Proc.devRef .tc main_arg13) = m ((c.tc : Thread nD τ).loc main_arg13) := by
  show StableHlo.after hostOps3 (W6 m ρ c) (Proc.devRef .tc main_arg13) = _
  after_results
  exact W6_arg13 m ρ c
theorem W8_arg13 : W8 m ρ c (Proc.devRef .tc main_arg13) = m ((c.tc : Thread nD τ).loc main_arg13) :=
  (W8_of_ne m ρ c main_arg13 (by decide)).trans (W7_arg13 m ρ c)

theorem W1_arg14 : W1 m ρ c (Proc.devRef .tc main_arg14) = m ((c.tc : Thread nD τ).loc main_arg14) := by
  show StableHlo.after hostOps0 (W0 m ρ c) (Proc.devRef .tc main_arg14) = _
  after_results
theorem W2_arg14 : W2 m ρ c (Proc.devRef .tc main_arg14) = m ((c.tc : Thread nD τ).loc main_arg14) :=
  (W2_of_ne m ρ c main_arg14 (by decide)).trans (W1_arg14 m ρ c)
theorem W3_arg14 : W3 m ρ c (Proc.devRef .tc main_arg14) = m ((c.tc : Thread nD τ).loc main_arg14) := by
  show StableHlo.after hostOps1 (W2 m ρ c) (Proc.devRef .tc main_arg14) = _
  after_results
  exact W2_arg14 m ρ c
theorem W4_arg14 : W4 m ρ c (Proc.devRef .tc main_arg14) = m ((c.tc : Thread nD τ).loc main_arg14) :=
  (W4_of_ne m ρ c main_arg14 (by decide)).trans (W3_arg14 m ρ c)
theorem W5_arg14 : W5 m ρ c (Proc.devRef .tc main_arg14) = m ((c.tc : Thread nD τ).loc main_arg14) := by
  show StableHlo.after hostOps2 (W4 m ρ c) (Proc.devRef .tc main_arg14) = _
  after_results
  exact W4_arg14 m ρ c
theorem W6_arg14 : W6 m ρ c (Proc.devRef .tc main_arg14) = m ((c.tc : Thread nD τ).loc main_arg14) :=
  (W6_of_ne m ρ c main_arg14 (by decide)).trans (W5_arg14 m ρ c)
theorem W7_arg14 : W7 m ρ c (Proc.devRef .tc main_arg14) = m ((c.tc : Thread nD τ).loc main_arg14) := by
  show StableHlo.after hostOps3 (W6 m ρ c) (Proc.devRef .tc main_arg14) = _
  after_results
  exact W6_arg14 m ρ c
theorem W8_arg14 : W8 m ρ c (Proc.devRef .tc main_arg14) = m ((c.tc : Thread nD τ).loc main_arg14) :=
  (W8_of_ne m ρ c main_arg14 (by decide)).trans (W7_arg14 m ρ c)

theorem W1_arg15 : W1 m ρ c (Proc.devRef .tc main_arg15) = m ((c.tc : Thread nD τ).loc main_arg15) := by
  show StableHlo.after hostOps0 (W0 m ρ c) (Proc.devRef .tc main_arg15) = _
  after_results
theorem W2_arg15 : W2 m ρ c (Proc.devRef .tc main_arg15) = m ((c.tc : Thread nD τ).loc main_arg15) :=
  (W2_of_ne m ρ c main_arg15 (by decide)).trans (W1_arg15 m ρ c)
theorem W3_arg15 : W3 m ρ c (Proc.devRef .tc main_arg15) = m ((c.tc : Thread nD τ).loc main_arg15) := by
  show StableHlo.after hostOps1 (W2 m ρ c) (Proc.devRef .tc main_arg15) = _
  after_results
  exact W2_arg15 m ρ c
theorem W4_arg15 : W4 m ρ c (Proc.devRef .tc main_arg15) = m ((c.tc : Thread nD τ).loc main_arg15) :=
  (W4_of_ne m ρ c main_arg15 (by decide)).trans (W3_arg15 m ρ c)
theorem W5_arg15 : W5 m ρ c (Proc.devRef .tc main_arg15) = m ((c.tc : Thread nD τ).loc main_arg15) := by
  show StableHlo.after hostOps2 (W4 m ρ c) (Proc.devRef .tc main_arg15) = _
  after_results
  exact W4_arg15 m ρ c
theorem W6_arg15 : W6 m ρ c (Proc.devRef .tc main_arg15) = m ((c.tc : Thread nD τ).loc main_arg15) :=
  (W6_of_ne m ρ c main_arg15 (by decide)).trans (W5_arg15 m ρ c)
theorem W7_arg15 : W7 m ρ c (Proc.devRef .tc main_arg15) = m ((c.tc : Thread nD τ).loc main_arg15) := by
  show StableHlo.after hostOps3 (W6 m ρ c) (Proc.devRef .tc main_arg15) = _
  after_results
  exact W6_arg15 m ρ c
theorem W8_arg15 : W8 m ρ c (Proc.devRef .tc main_arg15) = m ((c.tc : Thread nD τ).loc main_arg15) :=
  (W8_of_ne m ρ c main_arg15 (by decide)).trans (W7_arg15 m ρ c)
theorem W9_arg15 : W9 m ρ c (Proc.devRef .tc main_arg15) = m ((c.tc : Thread nD τ).loc main_arg15) := by
  show StableHlo.after hostOps4 (W8 m ρ c) (Proc.devRef .tc main_arg15) = _
  after_results
  exact W8_arg15 m ρ c

theorem W1_arg16 : W1 m ρ c (Proc.devRef .tc main_arg16) = m ((c.tc : Thread nD τ).loc main_arg16) := by
  show StableHlo.after hostOps0 (W0 m ρ c) (Proc.devRef .tc main_arg16) = _
  after_results
theorem W2_arg16 : W2 m ρ c (Proc.devRef .tc main_arg16) = m ((c.tc : Thread nD τ).loc main_arg16) :=
  (W2_of_ne m ρ c main_arg16 (by decide)).trans (W1_arg16 m ρ c)
theorem W3_arg16 : W3 m ρ c (Proc.devRef .tc main_arg16) = m ((c.tc : Thread nD τ).loc main_arg16) := by
  show StableHlo.after hostOps1 (W2 m ρ c) (Proc.devRef .tc main_arg16) = _
  after_results
  exact W2_arg16 m ρ c
theorem W4_arg16 : W4 m ρ c (Proc.devRef .tc main_arg16) = m ((c.tc : Thread nD τ).loc main_arg16) :=
  (W4_of_ne m ρ c main_arg16 (by decide)).trans (W3_arg16 m ρ c)
theorem W5_arg16 : W5 m ρ c (Proc.devRef .tc main_arg16) = m ((c.tc : Thread nD τ).loc main_arg16) := by
  show StableHlo.after hostOps2 (W4 m ρ c) (Proc.devRef .tc main_arg16) = _
  after_results
  exact W4_arg16 m ρ c
theorem W6_arg16 : W6 m ρ c (Proc.devRef .tc main_arg16) = m ((c.tc : Thread nD τ).loc main_arg16) :=
  (W6_of_ne m ρ c main_arg16 (by decide)).trans (W5_arg16 m ρ c)
theorem W7_arg16 : W7 m ρ c (Proc.devRef .tc main_arg16) = m ((c.tc : Thread nD τ).loc main_arg16) := by
  show StableHlo.after hostOps3 (W6 m ρ c) (Proc.devRef .tc main_arg16) = _
  after_results
  exact W6_arg16 m ρ c
theorem W8_arg16 : W8 m ρ c (Proc.devRef .tc main_arg16) = m ((c.tc : Thread nD τ).loc main_arg16) :=
  (W8_of_ne m ρ c main_arg16 (by decide)).trans (W7_arg16 m ρ c)

theorem W1_arg17 : W1 m ρ c (Proc.devRef .tc main_arg17) = m ((c.tc : Thread nD τ).loc main_arg17) := by
  show StableHlo.after hostOps0 (W0 m ρ c) (Proc.devRef .tc main_arg17) = _
  after_results
theorem W2_arg17 : W2 m ρ c (Proc.devRef .tc main_arg17) = m ((c.tc : Thread nD τ).loc main_arg17) :=
  (W2_of_ne m ρ c main_arg17 (by decide)).trans (W1_arg17 m ρ c)
theorem W3_arg17 : W3 m ρ c (Proc.devRef .tc main_arg17) = m ((c.tc : Thread nD τ).loc main_arg17) := by
  show StableHlo.after hostOps1 (W2 m ρ c) (Proc.devRef .tc main_arg17) = _
  after_results
  exact W2_arg17 m ρ c
theorem W4_arg17 : W4 m ρ c (Proc.devRef .tc main_arg17) = m ((c.tc : Thread nD τ).loc main_arg17) :=
  (W4_of_ne m ρ c main_arg17 (by decide)).trans (W3_arg17 m ρ c)
theorem W5_arg17 : W5 m ρ c (Proc.devRef .tc main_arg17) = m ((c.tc : Thread nD τ).loc main_arg17) := by
  show StableHlo.after hostOps2 (W4 m ρ c) (Proc.devRef .tc main_arg17) = _
  after_results
  exact W4_arg17 m ρ c
theorem W6_arg17 : W6 m ρ c (Proc.devRef .tc main_arg17) = m ((c.tc : Thread nD τ).loc main_arg17) :=
  (W6_of_ne m ρ c main_arg17 (by decide)).trans (W5_arg17 m ρ c)
theorem W7_arg17 : W7 m ρ c (Proc.devRef .tc main_arg17) = m ((c.tc : Thread nD τ).loc main_arg17) := by
  show StableHlo.after hostOps3 (W6 m ρ c) (Proc.devRef .tc main_arg17) = _
  after_results
  exact W6_arg17 m ρ c
theorem W8_arg17 : W8 m ρ c (Proc.devRef .tc main_arg17) = m ((c.tc : Thread nD τ).loc main_arg17) :=
  (W8_of_ne m ρ c main_arg17 (by decide)).trans (W7_arg17 m ρ c)
theorem W9_arg17 : W9 m ρ c (Proc.devRef .tc main_arg17) = m ((c.tc : Thread nD τ).loc main_arg17) := by
  show StableHlo.after hostOps4 (W8 m ρ c) (Proc.devRef .tc main_arg17) = _
  after_results
  exact W8_arg17 m ρ c
theorem W10_arg17 : W10 m ρ c (Proc.devRef .tc main_arg17) = m ((c.tc : Thread nD τ).loc main_arg17) :=
  (W10_of_ne m ρ c main_arg17 (by decide)).trans (W9_arg17 m ρ c)

theorem W1_arg18 : W1 m ρ c (Proc.devRef .tc main_arg18) = m ((c.tc : Thread nD τ).loc main_arg18) := by
  show StableHlo.after hostOps0 (W0 m ρ c) (Proc.devRef .tc main_arg18) = _
  after_results
theorem W2_arg18 : W2 m ρ c (Proc.devRef .tc main_arg18) = m ((c.tc : Thread nD τ).loc main_arg18) :=
  (W2_of_ne m ρ c main_arg18 (by decide)).trans (W1_arg18 m ρ c)
theorem W3_arg18 : W3 m ρ c (Proc.devRef .tc main_arg18) = m ((c.tc : Thread nD τ).loc main_arg18) := by
  show StableHlo.after hostOps1 (W2 m ρ c) (Proc.devRef .tc main_arg18) = _
  after_results
  exact W2_arg18 m ρ c
theorem W4_arg18 : W4 m ρ c (Proc.devRef .tc main_arg18) = m ((c.tc : Thread nD τ).loc main_arg18) :=
  (W4_of_ne m ρ c main_arg18 (by decide)).trans (W3_arg18 m ρ c)
theorem W5_arg18 : W5 m ρ c (Proc.devRef .tc main_arg18) = m ((c.tc : Thread nD τ).loc main_arg18) := by
  show StableHlo.after hostOps2 (W4 m ρ c) (Proc.devRef .tc main_arg18) = _
  after_results
  exact W4_arg18 m ρ c
theorem W6_arg18 : W6 m ρ c (Proc.devRef .tc main_arg18) = m ((c.tc : Thread nD τ).loc main_arg18) :=
  (W6_of_ne m ρ c main_arg18 (by decide)).trans (W5_arg18 m ρ c)
theorem W7_arg18 : W7 m ρ c (Proc.devRef .tc main_arg18) = m ((c.tc : Thread nD τ).loc main_arg18) := by
  show StableHlo.after hostOps3 (W6 m ρ c) (Proc.devRef .tc main_arg18) = _
  after_results
  exact W6_arg18 m ρ c
theorem W8_arg18 : W8 m ρ c (Proc.devRef .tc main_arg18) = m ((c.tc : Thread nD τ).loc main_arg18) :=
  (W8_of_ne m ρ c main_arg18 (by decide)).trans (W7_arg18 m ρ c)
theorem W9_arg18 : W9 m ρ c (Proc.devRef .tc main_arg18) = m ((c.tc : Thread nD τ).loc main_arg18) := by
  show StableHlo.after hostOps4 (W8 m ρ c) (Proc.devRef .tc main_arg18) = _
  after_results
  exact W8_arg18 m ρ c
theorem W10_arg18 : W10 m ρ c (Proc.devRef .tc main_arg18) = m ((c.tc : Thread nD τ).loc main_arg18) :=
  (W10_of_ne m ρ c main_arg18 (by decide)).trans (W9_arg18 m ρ c)

end Cert.KernelIdeal.KGlue

end
-- ==== Proof.KGlue.lean ====
/-
  The idealized kernel's program between its regions: what each region finds in its operand arrays, as a function of
  the launch memory and of what the earlier regions left. The host operations between regions are few — the
  neighbour sum (a gather, a scatter-add into zeros, an add), the column statistics from the two running sums
  (two divisions by the row count, a square, a difference), and reshapes of the parameter vectors to rows.
-/
import proofs.«105059_j20856361189655_1_alg».proof.Proof.Gen.KernelIdeal.Frame
import proofs.«105059_j20856361189655_1_alg».proof.Proof.Spec
import proofs.«105059_j20856361189655_1_alg».proof.Proof.KHost
import proofs.«105059_j20856361189655_1_alg».proof.Proof.KGlueArgs
import Idealize.ShloMosaic.Lib.StableHlo.Run
import Idealize.ShloMosaic.Lib.Tactic

set_option maxRecDepth 16384

noncomputable section

namespace Cert.KernelIdeal.KGlue

open Cert.KernelIdeal Cert.KernelIdeal.Gen Cert.KernelIdeal.KHost Cert.Gin
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 0's operands -/

theorem V1_v10 : V1 m ρ c main_v10
    = agg (m ((c.tc : Thread nD τ).loc main_arg0)) (m ((c.tc : Thread nD τ).loc main_arg1)) (m ((c.tc : Thread nD τ).loc main_arg2)) := by
  show StableHlo.after hostOps0 (W0 m ρ c) (Proc.devRef .tc main_v10) = _
  after_results_simp
  rfl

theorem V1_arg3 : V1 m ρ c main_arg3 = m ((c.tc : Thread nD τ).loc main_arg3) := by
  show StableHlo.after hostOps0 (W0 m ρ c) (Proc.devRef .tc main_arg3) = _
  after_results_simp
  try rfl

theorem V1_v11 : V1 m ρ c main_v11 = shapeCast S1x128 (m ((c.tc : Thread nD τ).loc main_arg4)) shapeCasts_S128_S1x128 := by
  show StableHlo.after hostOps0 (W0 m ρ c) (Proc.devRef .tc main_v11) = _
  after_results_simp
  rfl

/-! ## Region 1's operands: region 0's three outputs, the statistics from its sums, three parameter rows -/

theorem V3_v12_0 : V3 m ρ c main_v12_0 = (dat0 (V1 m ρ) c).arrAt 3 cfg0.N := by
  show StableHlo.after hostOps1 (W2 m ρ c) (Proc.devRef .tc main_v12_0) = _
  after_results
  exact W2_arr m ρ c 3
theorem V3_v14 : V3 m ρ c main_v14 = divN128 ((dat0 (V1 m ρ) c).arrAt 4 cfg0.N) := by
  show StableHlo.after hostOps1 (W2 m ρ c) (Proc.devRef .tc main_v14) = _
  after_results
  exact congrArg divN128 (W2_arr m ρ c 4)
theorem V3_v18 : V3 m ρ c main_v18 = varOf128 ((dat0 (V1 m ρ) c).arrAt 4 cfg0.N) ((dat0 (V1 m ρ) c).arrAt 5 cfg0.N) := by
  show StableHlo.after hostOps1 (W2 m ρ c) (Proc.devRef .tc main_v18) = _
  after_results
  exact congrArg₂ varOf128 (W2_arr m ρ c 4) (W2_arr m ρ c 5)
theorem V3_v19 : V3 m ρ c main_v19 = shapeCast S1x128 (m ((c.tc : Thread nD τ).loc main_arg5)) shapeCasts_S128_S1x128 := by
  show StableHlo.after hostOps1 (W2 m ρ c) (Proc.devRef .tc main_v19) = _
  after_results
  rw [W2_arg5 m ρ c]
  rfl
theorem V3_v20 : V3 m ρ c main_v20 = shapeCast S1x128 (m ((c.tc : Thread nD τ).loc main_arg6)) shapeCasts_S128_S1x128 := by
  show StableHlo.after hostOps1 (W2 m ρ c) (Proc.devRef .tc main_v20) = _
  after_results
  rw [W2_arg6 m ρ c]
  rfl
theorem V3_v21 : V3 m ρ c main_v21 = shapeCast S1x128 (m ((c.tc : Thread nD τ).loc main_arg8)) shapeCasts_S128_S1x128 := by
  show StableHlo.after hostOps1 (W2 m ρ c) (Proc.devRef .tc main_v21) = _
  after_results
  rw [W2_arg8 m ρ c]
  rfl
theorem V3_arg7 : V3 m ρ c main_arg7 = m ((c.tc : Thread nD τ).loc main_arg7) := W3_arg7 m ρ c

/-! ## Region 2's operands -/

theorem V5_v22_0 : V5 m ρ c main_v22_0 = (dat1 (V3 m ρ) c).arrAt 7 cfg1.N := by
  show StableHlo.after hostOps2 (W4 m ρ c) (Proc.devRef .tc main_v22_0) = _
  after_results
  exact W4_arr m ρ c 7
theorem V5_v24 : V5 m ρ c main_v24 = divN128 ((dat1 (V3 m ρ) c).arrAt 8 cfg1.N) := by
  show StableHlo.after hostOps2 (W4 m ρ c) (Proc.devRef .tc main_v24) = _
  after_results
  exact congrArg divN128 (W4_arr m ρ c 8)
theorem V5_v28 : V5 m ρ c main_v28 = varOf128 ((dat1 (V3 m ρ) c).arrAt 8 cfg1.N) ((dat1 (V3 m ρ) c).arrAt 9 cfg1.N) := by
  show StableHlo.after hostOps2 (W4 m ρ c) (Proc.devRef .tc main_v28) = _
  after_results
  exact congrArg₂ varOf128 (W4_arr m ρ c 8) (W4_arr m ρ c 9)
theorem V5_v29 : V5 m ρ c main_v29 = shapeCast S1x128 (m ((c.tc : Thread nD τ).loc main_arg9)) shapeCasts_S128_S1x128 := by
  show StableHlo.after hostOps2 (W4 m ρ c) (Proc.devRef .tc main_v29) = _
  after_results
  rw [W4_arg9 m ρ c]
  rfl
theorem V5_v30 : V5 m ρ c main_v30 = shapeCast S1x128 (m ((c.tc : Thread nD τ).loc main_arg10)) shapeCasts_S128_S1x128 := by
  show StableHlo.after hostOps2 (W4 m ρ c) (Proc.devRef .tc main_v30) = _
  after_results
  rw [W4_arg10 m ρ c]
  rfl

/-! ## Region 3's operands: the neighbour sum of region 2's output -/

theorem V7_v42 : V7 m ρ c main_v42
    = agg ((dat2 (V5 m ρ) c).arrAt 5 cfg2.N) (m ((c.tc : Thread nD τ).loc main_arg1)) (m ((c.tc : Thread nD τ).loc main_arg2)) := by
  show StableHlo.after hostOps3 (W6 m ρ c) (Proc.devRef .tc main_v42) = _
  after_results_simp
  rw [W6_arg1 m ρ c, W6_arg2 m ρ c, ← W6_arr m ρ c 5]
  rfl
theorem V7_arg11 : V7 m ρ c main_arg11 = m ((c.tc : Thread nD τ).loc main_arg11) := W7_arg11 m ρ c
theorem V7_v43 : V7 m ρ c main_v43 = shapeCast S1x128 (m ((c.tc : Thread nD τ).loc main_arg12)) shapeCasts_S128_S1x128 := by
  show StableHlo.after hostOps3 (W6 m ρ c) (Proc.devRef .tc main_v43) = _
  after_results_simp
  rw [W6_arg12 m ρ c]
  rfl

/-! ## Region 4's operands -/

theorem V9_v44_0 : V9 m ρ c main_v44_0 = (dat3 (V7 m ρ) c).arrAt 3 cfg3.N := by
  show StableHlo.after hostOps4 (W8 m ρ c) (Proc.devRef .tc main_v44_0) = _
  after_results
  exact W8_arr m ρ c 3
theorem V9_v46 : V9 m ρ c main_v46 = divN128 ((dat3 (V7 m ρ) c).arrAt 4 cfg3.N) := by
  show StableHlo.after hostOps4 (W8 m ρ c) (Proc.devRef .tc main_v46) = _
  after_results
  exact congrArg divN128 (W8_arr m ρ c 4)
set_option maxHeartbeats 1000000 in
theorem V9_v50 : V9 m ρ c main_v50 = varOf128 ((dat3 (V7 m ρ) c).arrAt 4 cfg3.N) ((dat3 (V7 m ρ) c).arrAt 5 cfg3.N) := by
  show StableHlo.after hostOps4 (W8 m ρ c) (Proc.devRef .tc main_v50) = _
  after_results_simp
  rw [← W8_arr m ρ c 4, ← W8_arr m ρ c 5]
  rfl
theorem V9_v51 : V9 m ρ c main_v51 = shapeCast S1x128 (m ((c.tc : Thread nD τ).loc main_arg13)) shapeCasts_S128_S1x128 := by
  show StableHlo.after hostOps4 (W8 m ρ c) (Proc.devRef .tc main_v51) = _
  after_results
  rw [W8_arg13 m ρ c]
  rfl
theorem V9_v52 : V9 m ρ c main_v52 = shapeCast S1x128 (m ((c.tc : Thread nD τ).loc main_arg14)) shapeCasts_S128_S1x128 := by
  show StableHlo.after hostOps4 (W8 m ρ c) (Proc.devRef .tc main_v52) = _
  after_results
  rw [W8_arg14 m ρ c]
  rfl
theorem V9_v53 : V9 m ρ c main_v53 = shapeCast S1x16 (m ((c.tc : Thread nD τ).loc main_arg16)) shapeCasts_S16_S1x16 := by
  show StableHlo.after hostOps4 (W8 m ρ c) (Proc.devRef .tc main_v53) = _
  after_results
  rw [W8_arg16 m ρ c]
  rfl
theorem V9_arg15 : V9 m ρ c main_arg15 = m ((c.tc : Thread nD τ).loc main_arg15) := W9_arg15 m ρ c

/-! ## Region 5's operands -/

theorem V11_v54_0 : V11 m ρ c main_v54_0 = (dat4 (V9 m ρ) c).arrAt 7 cfg4.N := by
  show StableHlo.after hostOps5 (W10 m ρ c) (Proc.devRef .tc main_v54_0) = _
  after_results
  exact W10_arr m ρ c 7
theorem V11_v56 : V11 m ρ c main_v56 = divN16 ((dat4 (V9 m ρ) c).arrAt 8 cfg4.N) := by
  show StableHlo.after hostOps5 (W10 m ρ c) (Proc.devRef .tc main_v56) = _
  after_results
  exact congrArg divN16 (W10_arr m ρ c 8)
set_option maxHeartbeats 1000000 in
theorem V11_v60 : V11 m ρ c main_v60 = varOf16 ((dat4 (V9 m ρ) c).arrAt 8 cfg4.N) ((dat4 (V9 m ρ) c).arrAt 9 cfg4.N) := by
  show StableHlo.after hostOps5 (W10 m ρ c) (Proc.devRef .tc main_v60) = _
  after_results_simp
  rw [← W10_arr m ρ c 8, ← W10_arr m ρ c 9]
  rfl
theorem V11_v61 : V11 m ρ c main_v61 = shapeCast S1x16 (m ((c.tc : Thread nD τ).loc main_arg17)) shapeCasts_S16_S1x16 := by
  show StableHlo.after hostOps5 (W10 m ρ c) (Proc.devRef .tc main_v61) = _
  after_results
  rw [W10_arg17 m ρ c]
  rfl
theorem V11_v62 : V11 m ρ c main_v62 = shapeCast S1x16 (m ((c.tc : Thread nD τ).loc main_arg18)) shapeCasts_S16_S1x16 := by
  show StableHlo.after hostOps5 (W10 m ρ c) (Proc.devRef .tc main_v62) = _
  after_results
  rw [W10_arg18 m ρ c]
  rfl

/-! ## The result: the last region's sum over the row count, as a vector -/

theorem W13_v66 : W13 m ρ c (Proc.devRef .tc main_v66)
    = shapeCast S16 (divN16 ((dat5 (V11 m ρ) c).arrAt 5 cfg5.N)) shapeCasts_S1x16_S16 := by
  show StableHlo.after hostOps6 (W12 m ρ c) (Proc.devRef .tc main_v66) = _
  after_results
  rw [show W12 m ρ c (Proc.devRef .tc main_v63) = (dat5 (V11 m ρ) c).arrAt 5 cfg5.N from W12_arr m ρ c 5]
  rfl

end Cert.KernelIdeal.KGlue

end
-- ==== Proof.LibReal.lean ====
/-
  The real-number layer under the extended reals.

  An extended real is REAL when it is the image of a real number (neither infinity).  Sums, products, differences,
  maxima, quotients by a nonzero real and reciprocal square roots of positive reals of real values are real; the three
  float words the programs spell denote real numbers.  On real values the extended-real arithmetic is the arithmetic
  of the reals, so the textbook identity

      (1/N) ∑ (z r - m)² = (1/N) ∑ (z r)² - m²,      m = (1/N) ∑ z r,   N = the number of terms,

  holds for extended reals z r that are all real (it fails at the infinities, where a difference may be junk), and
  its left side is the image of a nonnegative real.
-/
import Mathlib.Data.EReal.Operations
import Mathlib.Data.EReal.Inv
import Mathlib.Analysis.SpecialFunctions.Pow.Real
import Idealize.ShloMosaic.PureOps.Ideal
import Idealize.ShloMosaic.PureOps.Ideal.Laws

noncomputable section

open scoped BigOperators

namespace Cert.Lib

open Idealize.ShloMosaic

/-- An extended real that is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real value is neither infinity. -/
theorem IsReal.ne_top {x : EReal} (h : IsReal x) : x ≠ ⊤ := by
  obtain ⟨a, rfl⟩ := h; exact EReal.coe_ne_top a

theorem IsReal.ne_bot {x : EReal} (h : IsReal x) : x ≠ ⊥ := by
  obtain ⟨a, rfl⟩ := h; exact EReal.coe_ne_bot a

/-- An extended real that is neither infinity is real. -/
theorem isReal_of_ne {x : EReal} (hb : x ≠ ⊥) (ht : x ≠ ⊤) : IsReal x := by
  induction x using EReal.rec with
  | bot => exact absurd rfl hb
  | coe a => exact ⟨a, rfl⟩
  | top => exact absurd rfl ht

/-- The sum of two real values is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two real values is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real value is real. -/
theorem IsReal.neg {x : EReal} (hx : IsReal x) : IsReal (-x) := by
  obtain ⟨a, rfl⟩ := hx; exact ⟨-a, (EReal.coe_neg a).symm⟩

/-- The difference of two real values is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The maximum of two real values is real. -/
theorem IsReal.max {x y : EReal} (hx : IsReal x) (hy : IsReal y) : IsReal (max x y) := by
  rcases le_total x y with h | h
  · rw [max_eq_right h]; exact hy
  · rw [max_eq_left h]; exact hx

/-- The minimum of two real values is real. -/
theorem IsReal.min {x y : EReal} (hx : IsReal x) (hy : IsReal y) : IsReal (min x y) := by
  rcases le_total x y with h | h
  · rw [min_eq_left h]; exact hx
  · rw [min_eq_right h]; exact hy

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real values is real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum of real values over a whole finite type is real. -/
theorem IsReal.sum_univ {ι : Type*} [Fintype ι] (f : ι → EReal) (h : ∀ i, IsReal (f i)) :
    IsReal (∑ i, f i) := IsReal.sum _ f fun i _ => h i

/-- The quotient of the images of two reals, the divisor nonzero, is the image of the quotient. -/
theorem div_coe_coe (a : ℝ) {d : ℝ} (hd : d ≠ 0) :
    Ideal.div (a : EReal) (d : EReal) = ((a / d : ℝ) : EReal) := by
  rw [Ideal.div_coe hd, ← EReal.coe_mul, mul_one_div]

/-- The quotient of a real value by a nonzero real is real. -/
theorem IsReal.div_coe {x : EReal} (hx : IsReal x) {d : ℝ} (hd : d ≠ 0) : IsReal (Ideal.div x (d : EReal)) := by
  obtain ⟨a, rfl⟩ := hx; exact ⟨a / d, div_coe_coe a hd⟩

/-- The reciprocal square root of a positive real is the image of the reciprocal of its square root. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_pos {v : ℝ} (hv : 0 < v) : IsReal (Ideal.rsqrt (v : EReal)) :=
  ⟨_, rsqrt_coe_pos hv⟩

/-- The reciprocal square root of a nonnegative real plus a positive real is real. -/
theorem isReal_rsqrt_add_pos {v e : ℝ} (hv : 0 ≤ v) (he : 0 < e) :
    IsReal (Ideal.rsqrt ((v : EReal) + (e : EReal))) := by
  rw [← EReal.coe_add]; exact isReal_rsqrt_pos (by linarith)

/-- The word `0x47435000` denotes the real `50000`. -/
theorem ofBits_50000 : Ideal.ofBits .f32 0x47435000#32 = ((50000 : ℝ) : EReal) := by
  simp [Ideal.ofBits, Ideal.ieee, -EReal.coe_mul]; norm_num

/-- The word `0x3727C5AC` (about `1e-5`) denotes a positive real. -/
theorem ofBits_eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The word `0x3727C5AC` denotes a real. -/
theorem isReal_ofBits_eps : IsReal (Ideal.ofBits .f32 0x3727C5AC#32) := by
  obtain ⟨e, _, h⟩ := ofBits_eps_pos; exact ⟨e, h⟩

/-- The word `0x47435000` denotes a real. -/
theorem isReal_ofBits_50000 : IsReal (Ideal.ofBits .f32 0x47435000#32) := ⟨_, ofBits_50000⟩

/-- The word `0x00000000` denotes a real (zero). -/
theorem isReal_ofBits_zero : IsReal (Ideal.ofBits .f32 0x00000000#32) := by
  rw [Ideal.ofBits_zero_f32]; exact isReal_zero

/-- Real witnesses of a family of real values. -/
theorem exists_real_family {ι : Type*} (z : ι → EReal) (hz : ∀ r, IsReal (z r)) :
    ∃ w : ι → ℝ, z = fun r => (w r : EReal) := by
  choose w hw using hz; exact ⟨w, funext hw⟩

/-- The identity among reals: the mean of the squared deviations from the mean is the mean of the squares less the
    square of the mean, when the divisor is the number of terms. -/
theorem real_var_identity {n : ℕ} (w : Fin n → ℝ) (N : ℝ) (hN : N ≠ 0) (hn : (n : ℝ) = N) :
    (∑ r, (w r - (∑ r, w r) / N) * (w r - (∑ r, w r) / N)) / N
      = (∑ r, w r * w r) / N - (∑ r, w r) / N * ((∑ r, w r) / N) := by
  have h1 : ∑ r, (w r - (∑ r, w r) / N) * (w r - (∑ r, w r) / N)
      = (∑ r, w r * w r) - 2 * ((∑ r, w r) / N) * (∑ r, w r) + N * ((∑ r, w r) / N * ((∑ r, w r) / N)) := by
    have h2 : ∀ r, (w r - (∑ r, w r) / N) * (w r - (∑ r, w r) / N)
        = w r * w r - 2 * ((∑ r, w r) / N) * w r + (∑ r, w r) / N * ((∑ r, w r) / N) := fun r => by ring
    simp only [h2]
    rw [Finset.sum_add_distrib, Finset.sum_sub_distrib, ← Finset.mul_sum, Finset.sum_const, Finset.card_univ,
      Fintype.card_fin, nsmul_eq_mul, hn]
  rw [h1]; field_simp; ring

/-- The variance identity on the extended reals, for real entries: with `mean = (∑ z) / N` and `N` the number of
    entries, `(∑ (z - mean)²) / N = (∑ z²) / N - mean²`. -/
theorem var_identity {n : ℕ} (z : Fin n → EReal) (hz : ∀ r, IsReal (z r)) (N : ℝ) (hN : N ≠ 0) (hn : (n : ℝ) = N) :
    Ideal.div (∑ r, (z r - Ideal.div (∑ r, z r) (N : EReal)) * (z r - Ideal.div (∑ r, z r) (N : EReal))) (N : EReal)
      = Ideal.div (∑ r, z r * z r) (N : EReal)
          - Ideal.div (∑ r, z r) (N : EReal) * Ideal.div (∑ r, z r) (N : EReal) := by
  obtain ⟨w, rfl⟩ := exists_real_family z hz
  simp only [← coe_finset_sum, div_coe_coe _ hN, ← EReal.coe_sub, ← EReal.coe_mul]
  rw [real_var_identity w N hN hn]

/-- The same identity with every sum spelled from a zero start, `0 + ∑`. -/
theorem var_identity_zero_add {n : ℕ} (z : Fin n → EReal) (hz : ∀ r, IsReal (z r)) (N : ℝ) (hN : N ≠ 0)
    (hn : (n : ℝ) = N) :
    Ideal.div (0 + ∑ r, (z r - Ideal.div (0 + ∑ r, z r) (N : EReal)) * (z r - Ideal.div (0 + ∑ r, z r) (N : EReal)))
        (N : EReal)
      = Ideal.div (0 + ∑ r, z r * z r) (N : EReal)
          - Ideal.div (0 + ∑ r, z r) (N : EReal) * Ideal.div (0 + ∑ r, z r) (N : EReal) := by
  simp only [zero_add]; exact var_identity z hz N hN hn

/-- The mean of the squared deviations of real entries is the image of a nonnegative real. -/
theorem var_nonneg {n : ℕ} (z : Fin n → EReal) (hz : ∀ r, IsReal (z r)) (N : ℝ) (hN : N ≠ 0) (hn : (n : ℝ) = N) :
    ∃ v : ℝ, 0 ≤ v ∧
      Ideal.div (∑ r, (z r - Ideal.div (∑ r, z r) (N : EReal)) * (z r - Ideal.div (∑ r, z r) (N : EReal))) (N : EReal)
        = (v : EReal) := by
  obtain ⟨w, rfl⟩ := exists_real_family z hz
  have hNpos : 0 < N := lt_of_le_of_ne (hn ▸ Nat.cast_nonneg n) (Ne.symm hN)
  simp only [← coe_finset_sum, div_coe_coe _ hN, ← EReal.coe_sub, ← EReal.coe_mul]
  exact ⟨_, div_nonneg (Finset.sum_nonneg fun r _ => mul_self_nonneg _) hNpos.le, rfl⟩

/-- The mean of the squares less the square of the mean, of real entries, is the image of a nonnegative real. -/
theorem var_nonneg' {n : ℕ} (z : Fin n → EReal) (hz : ∀ r, IsReal (z r)) (N : ℝ) (hN : N ≠ 0) (hn : (n : ℝ) = N) :
    ∃ v : ℝ, 0 ≤ v ∧
      Ideal.div (∑ r, z r * z r) (N : EReal)
          - Ideal.div (∑ r, z r) (N : EReal) * Ideal.div (∑ r, z r) (N : EReal) = (v : EReal) := by
  rw [← var_identity z hz N hN hn]; exact var_nonneg z hz N hN hn

/-- The reciprocal square root of a nonnegative real plus the stabiliser word `0x3727C5AC` is real. -/
theorem isReal_rsqrt_add_eps {x : EReal} (hx : ∃ v : ℝ, 0 ≤ v ∧ x = (v : EReal)) :
    IsReal (Ideal.rsqrt (x + Ideal.ofBits .f32 0x3727C5AC#32)) := by
  obtain ⟨v, hv, rfl⟩ := hx
  obtain ⟨e, he, h⟩ := ofBits_eps_pos
  rw [h]; exact isReal_rsqrt_add_pos hv he

end Cert.Lib

end
-- ==== Proof.SpecReal.lean ====
/-
  The layers of the network keep real arrays real.

  Each layer is built from sums, products, differences, maxima, quotients by the number of rows and a reciprocal
  square root of a nonnegative real plus a positive one; a gather picks operand entries and an accumulating scatter
  adds finitely many update entries to an operand entry.  So real inputs give real outputs, layer by layer, and on a
  real array the two arrangements of a column's variance agree.
-/
import proofs.«105059_j20856361189655_1_alg».proof.Proof.Spec
import proofs.«105059_j20856361189655_1_alg».proof.Proof.LibReal
import Idealize.ShloMosaic.PureOps.ShapeOps
import Idealize.ShloMosaic.PureOps.Contract
import Idealize.ShloMosaic.PureOps.Ideal

noncomputable section

open scoped BigOperators

namespace Cert.Gin

open Idealize.ShloMosaic Idealize.ShloMosaic.ValueIdx Cert.Lib

/-- A linear layer of real arrays is real. -/
theorem lin_real {n k o : Nat} (x : Mat n k) (w : Mat k o) (b : Mat 1 o) (hx : ∀ i, IsReal (x i))
    (hw : ∀ i, IsReal (w i)) (hb : ∀ i, IsReal (b i)) : ∀ i, IsReal (lin x w b i) := fun i =>
  (IsReal.sum_univ _ fun κ => (hx _).mul (hw _)).add (hb _)

/-- The column sums of a real array are real. -/
theorem colSum_real {n o : Nat} (z : Mat n o) (hz : ∀ i, IsReal (z i)) : ∀ j, IsReal (colSum z j) := fun _ =>
  IsReal.sum_univ _ fun _ => hz _

/-- The column sums of squares of a real array are real. -/
theorem colSumSq_real {n o : Nat} (z : Mat n o) (hz : ∀ i, IsReal (z i)) : ∀ j, IsReal (colSumSq z j) := fun _ =>
  IsReal.sum_univ _ fun _ => (hz _).mul (hz _)

/-- The positive part of a real array is real. -/
theorem relu_real {n o : Nat} (x : Mat n o) (hx : ∀ i, IsReal (x i)) : ∀ i, IsReal (relu x i) := fun i =>
  (hx i).max isReal_zero

/-- Normalisation of a real array by real statistics, the variance the image of a nonnegative real, is real. -/
theorem norm_real {n o : Nat} (x : Mat n o) (mean var g be : Mat 1 o) (hx : ∀ i, IsReal (x i))
    (hmean : ∀ j, IsReal (mean j)) (hg : ∀ j, IsReal (g j)) (hbe : ∀ j, IsReal (be j))
    (hvar : ∀ j, ∃ v : ℝ, 0 ≤ v ∧ var j = (v : EReal)) : ∀ i, IsReal (norm x mean var g be i) := fun i =>
  (((hx i).sub (hmean _)).mul ((hg _).mul (isReal_rsqrt_add_eps (hvar _)))).add (hbe _)

/-- The one-row array made of a real vector is real. -/
theorem rowOf_real {o : Nat} (a : (⟨1, ![o]⟩ : Shape).Idx → EReal) (ha : ∀ i, IsReal (a i)) :
    ∀ j, IsReal (rowOf a j) := fun _ => ha _

/-- A gather of a real array is real: every result entry is an operand entry. -/
theorem gather_real {s si t : Shape} {w : Nat} (d : GatherDims s si t) (x : s.Idx → EReal) (idx : IVec si w)
    (hx : ∀ i, IsReal (x i)) : ∀ j, IsReal (Host.gather d x idx j) := fun _ => hx _

/-- An accumulating scatter of real updates into a real array is real. -/
theorem scatterAdd_real {s si su : Shape} {w : Nat} (d : ScatterDims s si su) (x : s.Idx → EReal) (idx : IVec si w)
    (upd : su.Idx → EReal) (hx : ∀ i, IsReal (x i)) (hu : ∀ j, IsReal (upd j)) :
    ∀ i, IsReal (Ideal.hostScatterAdd d x idx upd i) := fun i =>
  (hx i).add (IsReal.sum _ _ fun j _ => hu j)

/-- The same, in the spelling of the host operation read at the extended reals. -/
theorem host_scatterAdd_real {φ : FTy} {s si su : Shape} {w : Nat} (d : ScatterDims s si su) (x : FVec Ideal s φ)
    (idx : IVec si w) (upd : FVec Ideal su φ) (hx : ∀ i, IsReal (x i)) (hu : ∀ j, IsReal (upd j)) :
    ∀ i, IsReal (Host.scatterAdd (F := Ideal) d x idx upd i) :=
  scatterAdd_real d x idx upd hx hu

/-- The two forms of a column's variance agree on a real array: the mean of the squared deviations from the column
    mean (its sums started from zero) is the mean of the column's squares less the square of the column mean. -/
theorem var_cols {n o : Nat} (z : Mat n o) (hz : ∀ i, IsReal (z i)) (N : ℝ) (hN : N ≠ 0) (hn : (n : ℝ) = N)
    (j : (⟨2, ![1, o]⟩ : Shape).Idx) :
    Ideal.div (0 + ∑ r : Fin n, (z (ix2 r (j 1)) - Ideal.div (0 + ∑ r : Fin n, z (ix2 r (j 1))) (N : EReal))
        * (z (ix2 r (j 1)) - Ideal.div (0 + ∑ r : Fin n, z (ix2 r (j 1))) (N : EReal))) (N : EReal)
      = Ideal.div (colSumSq z j) (N : EReal)
          - Ideal.div (colSum z j) (N : EReal) * Ideal.div (colSum z j) (N : EReal) := by
  unfold colSum colSumSq
  simp only [zero_add]
  exact var_identity (fun r => z (ix2 r (j 1))) (fun _ => hz _) N hN hn

/-- The mean of a column's squares less the square of its mean, on a real array, is the image of a nonnegative
    real. -/
theorem var_cols_nonneg {n o : Nat} (z : Mat n o) (hz : ∀ i, IsReal (z i)) (N : ℝ) (hN : N ≠ 0) (hn : (n : ℝ) = N)
    (j : (⟨2, ![1, o]⟩ : Shape).Idx) :
    ∃ v : ℝ, 0 ≤ v ∧
      Ideal.div (colSumSq z j) (N : EReal)
          - Ideal.div (colSum z j) (N : EReal) * Ideal.div (colSum z j) (N : EReal) = (v : EReal) := by
  unfold colSum colSumSq
  exact var_nonneg' (fun r => z (ix2 r (j 1))) (fun _ => hz _) N hN hn

end Cert.Gin

end
-- ==== Proof.Net.lean ====
/-
  The whole network under the two arrangements of the column statistics, and their agreement on real inputs.

  One arrangement takes a column's mean from its sum and its variance as the mean of the squares less the square of
  the mean; the other takes the variance as the mean of the squared deviations from the mean.  On a real array with as
  many rows as the divisor the two agree, normalisation by either is then the same function, and every layer keeps
  real arrays real; so, layer by layer, the network is the same function of real inputs under either arrangement.
-/
import proofs.«105059_j20856361189655_1_alg».proof.Proof.Spec
import proofs.«105059_j20856361189655_1_alg».proof.Proof.LibReal
import proofs.«105059_j20856361189655_1_alg».proof.Proof.SpecReal

noncomputable section

open scoped BigOperators

namespace Cert.Gin

open Idealize.ShloMosaic Idealize.ShloMosaic.ValueIdx Cert.Lib

/-- The row count, as the float word both programs carry. -/
def cnt : EReal := Ideal.ofBits .f32 0x47435000#32

/-- The row count is the real `50000`. -/
theorem cnt_eq : cnt = ((50000 : ℝ) : EReal) := ofBits_50000

/-- The column means, from the column sums. -/
def meanK {n o : Nat} (z : Mat n o) : Mat 1 o := fun j => Ideal.div (colSum z j) cnt

/-- The column variances as the mean of the squares less the square of the mean. -/
def varK {n o : Nat} (z : Mat n o) : Mat 1 o := fun j => Ideal.div (colSumSq z j) cnt - meanK z j * meanK z j

/-- The column means, the sum started from zero. -/
def meanR {n o : Nat} (z : Mat n o) : Mat 1 o := fun j => Ideal.div (0 + ∑ r : Fin n, z (ix2 r (j 1))) cnt

/-- The column variances as the mean of the squared deviations from the column mean, the sum started from zero. -/
def varR {n o : Nat} (z : Mat n o) : Mat 1 o := fun j =>
  Ideal.div (0 + ∑ r : Fin n, (z (ix2 r (j 1)) - meanR z j) * (z (ix2 r (j 1)) - meanR z j)) cnt

/-- Batch normalisation with the statistics arranged as sums and sums of squares. -/
def bnK {n o : Nat} (z : Mat n o) (g be : Mat 1 o) : Mat n o := norm z (meanK z) (varK z) g be

/-- Batch normalisation with the statistics arranged as mean and mean of squared deviations. -/
def bnR {n o : Nat} (z : Mat n o) (g be : Mat 1 o) : Mat n o := norm z (meanR z) (varR z) g be

/-- The two spellings of the column mean agree (a sum started from zero is the sum). -/
theorem meanR_eq {n o : Nat} (z : Mat n o) : meanR z = meanK z := by
  funext j; unfold meanR meanK colSum; rw [zero_add]

/-- On a real array of 50000 rows the two arrangements of the column variance agree. -/
theorem varR_eq {o : Nat} (z : Mat 50000 o) (hz : ∀ i, IsReal (z i)) : varR z = varK z := by
  funext j
  unfold varR varK meanR meanK
  rw [cnt_eq]
  exact var_cols z hz 50000 (by norm_num) (by norm_num) j

/-- On a real array of 50000 rows the two batch normalisations agree. -/
theorem bn_eq {o : Nat} (z : Mat 50000 o) (hz : ∀ i, IsReal (z i)) (g be : Mat 1 o) : bnR z g be = bnK z g be := by
  unfold bnR bnK; rw [meanR_eq, varR_eq z hz]

/-- The column means of a real array are real. -/
theorem meanK_real {n o : Nat} (z : Mat n o) (hz : ∀ i, IsReal (z i)) : ∀ j, IsReal (meanK z j) := fun j => by
  unfold meanK; rw [cnt_eq]; exact (colSum_real z hz j).div_coe (by norm_num)

/-- The column variances of a real array of 50000 rows are images of nonnegative reals. -/
theorem varK_nonneg {o : Nat} (z : Mat 50000 o) (hz : ∀ i, IsReal (z i)) :
    ∀ j, ∃ v : ℝ, 0 ≤ v ∧ varK z j = (v : EReal) := fun j => by
  unfold varK meanK; rw [cnt_eq]; exact var_cols_nonneg z hz 50000 (by norm_num) (by norm_num) j

/-- Batch normalisation of a real array of 50000 rows, with real scale and shift, is real. -/
theorem bnK_real {o : Nat} (z : Mat 50000 o) (hz : ∀ i, IsReal (z i)) (g be : Mat 1 o) (hg : ∀ j, IsReal (g j))
    (hbe : ∀ j, IsReal (be j)) : ∀ i, IsReal (bnK z g be i) :=
  norm_real z (meanK z) (varK z) g be hz (meanK_real z hz) hg hbe (varK_nonneg z hz)

/-- The network: two graph layers, each a neighbour sum, a linear layer, normalisation, the positive part and a
    second linear layer; the first graph layer ends in normalisation and the positive part, the second in
    normalisation alone.  The neighbour sum and the normalisations are parameters. -/
def net (aggf : Mat 50000 128 → Mat 50000 128)
    (bn128 : Mat 50000 128 → Mat 1 128 → Mat 1 128 → Mat 50000 128)
    (bn16 : Mat 50000 16 → Mat 1 16 → Mat 1 16 → Mat 50000 16)
    (x : Mat 50000 128) (w11 : Mat 128 128) (b11 g11 be11 : Mat 1 128) (w12 : Mat 128 128) (b12 g12 be12 : Mat 1 128)
    (w21 : Mat 128 128) (b21 g21 be21 : Mat 1 128) (w22 : Mat 128 16) (b22 g22 be22 : Mat 1 16) : Mat 50000 16 :=
  bn16 (lin (relu (bn128 (lin (aggf (relu (bn128 (lin (relu (bn128 (lin (aggf x) w11 b11) g11 be11)) w12 b12)
    g12 be12))) w21 b21) g21 be21)) w22 b22) g22 be22

/-- On real inputs, with a neighbour sum that keeps real arrays real, the network is the same under either
    arrangement of the column statistics. -/
theorem net_eq (aggf : Mat 50000 128 → Mat 50000 128)
    (x : Mat 50000 128) (w11 : Mat 128 128) (b11 g11 be11 : Mat 1 128) (w12 : Mat 128 128) (b12 g12 be12 : Mat 1 128)
    (w21 : Mat 128 128) (b21 g21 be21 : Mat 1 128) (w22 : Mat 128 16) (b22 g22 be22 : Mat 1 16)
    (hagg : ∀ h : Mat 50000 128, (∀ i, IsReal (h i)) → ∀ i, IsReal (aggf h i))
    (hx : ∀ i, IsReal (x i)) (hw11 : ∀ i, IsReal (w11 i)) (hb11 : ∀ i, IsReal (b11 i)) (hg11 : ∀ i, IsReal (g11 i))
    (hbe11 : ∀ i, IsReal (be11 i)) (hw12 : ∀ i, IsReal (w12 i)) (hb12 : ∀ i, IsReal (b12 i))
    (hg12 : ∀ i, IsReal (g12 i)) (hbe12 : ∀ i, IsReal (be12 i)) (hw21 : ∀ i, IsReal (w21 i))
    (hb21 : ∀ i, IsReal (b21 i)) (hg21 : ∀ i, IsReal (g21 i)) (hbe21 : ∀ i, IsReal (be21 i))
    (hw22 : ∀ i, IsReal (w22 i)) (hb22 : ∀ i, IsReal (b22 i)) (hg22 : ∀ i, IsReal (g22 i))
    (hbe22 : ∀ i, IsReal (be22 i)) :
    net aggf bnR bnR x w11 b11 g11 be11 w12 b12 g12 be12 w21 b21 g21 be21 w22 b22 g22 be22 = net aggf bnK bnK x w11 b11 g11 be11 w12 b12 g12 be12 w21 b21 g21 be21 w22 b22 g22 be22 := by
  have hz1 := lin_real (aggf x) w11 b11 (hagg x hx) hw11 hb11
  have e1 := bn_eq _ hz1 g11 be11
  have hz2 := lin_real _ w12 b12 (relu_real _ (bnK_real _ hz1 g11 be11 hg11 hbe11)) hw12 hb12
  have e2 := bn_eq _ hz2 g12 be12
  have hh1 := relu_real _ (bnK_real _ hz2 g12 be12 hg12 hbe12)
  have hz3 := lin_real _ w21 b21 (hagg _ hh1) hw21 hb21
  have e3 := bn_eq _ hz3 g21 be21
  have hz4 := lin_real _ w22 b22 (relu_real _ (bnK_real _ hz3 g21 be21 hg21 hbe21)) hw22 hb22
  have e4 := bn_eq _ hz4 g22 be22
  unfold net
  rw [e1, e2, e3, e4]

/-- The column means of the network's result, the sum started from zero, under either arrangement. -/
theorem out_eq (aggf : Mat 50000 128 → Mat 50000 128)
    (x : Mat 50000 128) (w11 : Mat 128 128) (b11 g11 be11 : Mat 1 128) (w12 : Mat 128 128) (b12 g12 be12 : Mat 1 128)
    (w21 : Mat 128 128) (b21 g21 be21 : Mat 1 128) (w22 : Mat 128 16) (b22 g22 be22 : Mat 1 16)
    (hagg : ∀ h : Mat 50000 128, (∀ i, IsReal (h i)) → ∀ i, IsReal (aggf h i))
    (hx : ∀ i, IsReal (x i)) (hw11 : ∀ i, IsReal (w11 i)) (hb11 : ∀ i, IsReal (b11 i)) (hg11 : ∀ i, IsReal (g11 i))
    (hbe11 : ∀ i, IsReal (be11 i)) (hw12 : ∀ i, IsReal (w12 i)) (hb12 : ∀ i, IsReal (b12 i))
    (hg12 : ∀ i, IsReal (g12 i)) (hbe12 : ∀ i, IsReal (be12 i)) (hw21 : ∀ i, IsReal (w21 i))
    (hb21 : ∀ i, IsReal (b21 i)) (hg21 : ∀ i, IsReal (g21 i)) (hbe21 : ∀ i, IsReal (be21 i))
    (hw22 : ∀ i, IsReal (w22 i)) (hb22 : ∀ i, IsReal (b22 i)) (hg22 : ∀ i, IsReal (g22 i))
    (hbe22 : ∀ i, IsReal (be22 i))
    (j : (⟨2, ![1, 16]⟩ : Shape).Idx) :
    Ideal.div (0 + ∑ r : Fin 50000, net aggf bnR bnR x w11 b11 g11 be11 w12 b12 g12 be12 w21 b21 g21 be21 w22 b22 g22 be22 (ix2 r (j 1))) cnt
      = Ideal.div (colSum (net aggf bnK bnK x w11 b11 g11 be11 w12 b12 g12 be12 w21 b21 g21 be21 w22 b22 g22 be22) j) cnt := by
  rw [net_eq aggf x w11 b11 g11 be11 w12 b12 g12 be12 w21 b21 g21 be21 w22 b22 g22 be22 hagg hx hw11 hb11 hg11 hbe11 hw12 hb12 hg12 hbe12 hw21 hb21 hg21 hbe21 hw22 hb22 hg22 hbe22,
    zero_add]
  rfl

end Cert.Gin

end
-- ==== Proof.KStats.lean ====
/-
  The idealized kernel's host operations between its regions, read at an index in the vocabulary of the layers.

  The division of a row by the broadcast row count is the entrywise quotient by that count, so the row of column sums
  divided by it is the row of column means, and the variance the host forms from the two running sums is the mean of
  the squares less the square of the mean.  A vector reshaped to one row, or a row back to a vector, keeps its
  entries in order.  The neighbour sum adds to each row finitely many gathered rows, so it keeps real arrays real.
-/
import proofs.«105059_j20856361189655_1_alg».proof.Proof.KHost
import proofs.«105059_j20856361189655_1_alg».proof.Proof.Spec
import proofs.«105059_j20856361189655_1_alg».proof.Proof.LibReal
import proofs.«105059_j20856361189655_1_alg».proof.Proof.SpecReal
import proofs.«105059_j20856361189655_1_alg».proof.Proof.Net
import Idealize.ShloMosaic.Lib.ValueIdx
import Idealize.ShloMosaic.Lib.ValueLayout
import Idealize.ShloMosaic.Lib.Pipeline.Value

noncomputable section

open scoped BigOperators

namespace Cert.KernelIdeal.KStats

open Cert.KernelIdeal Cert.KernelIdeal.Gen Cert.KernelIdeal.KHost Cert.Gin Cert.Lib Idealize.ShloMosaic
  Idealize.ShloMosaic.ValueIdx

/-- The host's division of a row by the broadcast row count, read at an index. -/
theorem divN128_apply (s : FVec Ideal S1x128 .f32) (j : S1x128.Idx) : divN128 s j = Ideal.div (s j) cnt := rfl

/-- The same for a row of sixteen. -/
theorem divN16_apply (s : FVec Ideal S1x16 .f32) (j : S1x16.Idx) : divN16 s j = Ideal.div (s j) cnt := rfl

/-- The row of column sums divided by the row count is the row of column means. -/
theorem mean128 (z : Mat 50000 128) : divN128 (colSum z) = meanK z := rfl

/-- The variance from the two running sums is the mean of the squares less the square of the mean. -/
theorem var128 (z : Mat 50000 128) : varOf128 (colSum z) (colSumSq z) = varK z := rfl

/-- The same for sixteen columns. -/
theorem mean16 (z : Mat 50000 16) : divN16 (colSum z) = meanK z := rfl

/-- The same for sixteen columns. -/
theorem var16 (z : Mat 50000 16) : varOf16 (colSum z) (colSumSq z) = varK z := rfl

/-- A vector reshaped to one row reads, at column `q`, the vector's entry `q`. -/
theorem row128 (a : FVec Ideal S128 .f32) : shapeCast S1x128 a shapeCasts_S128_S1x128 = rowOf a := by
  funext j
  refine (shapeCast_addUnit_apply ![128] a shapeCasts_S128_S1x128 j).trans ?_
  show a _ = a _
  congr 1
  funext d; match d with | ⟨0, _⟩ => rfl

/-- The same for a vector of sixteen. -/
theorem row16 (a : FVec Ideal S16 .f32) : shapeCast S1x16 a shapeCasts_S16_S1x16 = rowOf a := by
  funext j
  refine (shapeCast_addUnit_apply ![16] a shapeCasts_S16_S1x16 j).trans ?_
  show a _ = a _
  congr 1
  funext d; match d with | ⟨0, _⟩ => rfl

/-- A one-row array reshaped to a vector reads, at entry `q`, the row's column `q`. -/
theorem vec16 (r : FVec Ideal S1x16 .f32) :
    shapeCast S16 r shapeCasts_S1x16_S16 = fun j => r (ix2 0 (j 0)) := by
  funext j
  refine (shapeCast_dropUnit_apply ![16] r shapeCasts_S1x16_S16 j).trans ?_
  congr 1
  funext d; match d with | ⟨0, _⟩ => rfl | ⟨1, _⟩ => rfl

/-- The neighbour sum of a real array is real: each row plus finitely many gathered rows. -/
theorem agg_real (h : FVec Ideal S50000x128 .f32) (src dst : IVec S600000 32) (hh : ∀ i, IsReal (h i)) :
    ∀ i, IsReal (agg h src dst i) := fun i =>
  (hh i).add (host_scatterAdd_real _ _ _ _ (fun _ => isReal_ofBits_zero) (gather_real _ _ _ hh) i)

end Cert.KernelIdeal.KStats

end
-- ==== Proof.LibBlockSum.lean ====
/-
  Regrouping a sum over `N * B` consecutive rows into `N` blocks of `B` rows, and a running sum as a finite sum.
  Both hold in any additive commutative monoid: they move and bracket terms and never cancel or distribute, so on the
  extended reals they need no finiteness.
-/
import Mathlib.Algebra.BigOperators.Fin
import Mathlib.Logic.Equiv.Fin.Basic

open scoped BigOperators

namespace Cert.Lib

/-- Row `k` of block `t`, counted from the start, is a row of the whole. -/
theorem blk_lt {N B : Nat} (t : Fin N) (k : Fin B) : t.val * B + k.val < N * B :=
  calc t.val * B + k.val < t.val * B + B := Nat.add_lt_add_left k.isLt _
    _ = (t.val + 1) * B := (Nat.succ_mul _ _).symm
    _ ≤ N * B := Nat.mul_le_mul_right _ t.isLt

/-- A sum over `n = N * B` rows is the sum over the `N` blocks of each block's sum over its `B` rows, row `k` of
    block `t` being row `t * B + k` of the whole. -/
theorem sum_blocks {M : Type*} [AddCommMonoid M] {n : Nat} (N B : Nat) (h : n = N * B) (f : Fin n → M) :
    ∑ r : Fin n, f r = ∑ t : Fin N, ∑ k : Fin B, f ⟨t.val * B + k.val, lt_of_lt_of_eq (blk_lt t k) h.symm⟩ := by
  subst h
  rw [← Fintype.sum_prod_type (f := fun p : Fin N × Fin B => f ⟨p.1.val * B + p.2.val, blk_lt p.1 p.2⟩)]
  refine (Fintype.sum_equiv finProdFinEquiv _ _ fun p => congrArg f (Fin.ext ?_)).symm
  show p.1.val * B + p.2.val = p.2.val + B * p.1.val
  rw [Nat.mul_comm, Nat.add_comm]

/-- The running sum that starts from `0 + s 0` and adds `s (n + 1)` at step `n + 1`. -/
def chain {M : Type*} [AddCommMonoid M] (s : ℕ → M) : ℕ → M
  | 0 => 0 + s 0
  | n + 1 => chain s n + s (n + 1)

/-- After step `n` the running sum is the sum of the first `n + 1` terms. -/
theorem chain_eq_sum {M : Type*} [AddCommMonoid M] (s : ℕ → M) (n : ℕ) :
    chain s n = ∑ t ∈ Finset.range (n + 1), s t := by
  induction n with
  | zero => simp [chain]
  | succ n ih => rw [chain, ih, Finset.sum_range_succ (n := n + 1)]

/-- The same, with the terms indexed by the `N = n + 1` blocks. -/
theorem chain_eq_sum_fin {M : Type*} [AddCommMonoid M] (s : ℕ → M) (N : ℕ) (hN : 0 < N) :
    chain s (N - 1) = ∑ t : Fin N, s t.val := by
  rw [chain_eq_sum, Nat.sub_add_cancel hN, Finset.sum_range]

end Cert.Lib
-- ==== Proof.Region0.lean ====
/-
  The linear layer with its column statistics, read off the grid of row blocks.

  The rows of `x` are cut into ten blocks of 5000. At each block the body forms `z = x · w + b` for the block's rows
  (a product of the block against the whole weight array, row by column, plus the bias row), stores it as the block of
  the first output, and adds the block's column sums of `z` and of `z * z` to two running rows, which the first block
  starts from the zero row. Over the extended reals a change of float format is the identity and the product's
  accumulator is zero, so an entry of the block is the entry of the whole layer 5000 · t rows further down; and since
  addition there is commutative and associative with no side condition, the running rows after the last block are
  the column sums over all 50000 rows: `((0 + s₀) + s₁) + … + s₉` is regrouped, nothing is cancelled or distributed.

  So after the ten blocks the three output arrays hold `lin x w b`, `colSum (lin x w b)` and `colSumSq (lin x w b)`,
  whatever the three input arrays hold.
-/
import proofs.«105059_j20856361189655_1_alg».proof.Proof.Gen.KernelIdeal.Frame
import proofs.«105059_j20856361189655_1_alg».proof.Proof.Spec
import proofs.«105059_j20856361189655_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Gin

/-! ## The body's arithmetic, read at one entry over the extended reals -/

/-- The block product's dimension numbers: rows by the one contracted axis, contracted axis by columns. -/
abbrev D0 : DotDims S5000x128 S128x128 S5000x128 := dot_S5000x128_S128x128_S5000x128_1_0_0_1_n_n

/-- The left operand's row is the output's row, whatever the contraction position. -/
theorem lhs_row (i : S5000x128.Idx) (k : D0.contr.Idx) : (D0.lhsIdx i k 0).val = (i 0).val := by
  unfold DotDims.lhsIdx
  rw [dif_neg (show ¬(0 : Fin S5000x128.rank) ∈ D0.lhsBatch by decide),
    dif_pos (show (0 : Fin S5000x128.rank) ∈ D0.lhsNonContracting by decide)]
  rfl

/-- The right operand's column is the output's column, whatever the contraction position. -/
theorem rhs_col (i : S5000x128.Idx) (k : D0.contr.Idx) : (D0.rhsIdx i k 1).val = (i 1).val := by
  unfold DotDims.rhsIdx
  rw [dif_neg (show ¬(1 : Fin S128x128.rank) ∈ D0.rhsBatch by decide),
    dif_pos (show (1 : Fin S128x128.rank) ∈ D0.rhsNonContracting by decide)]
  rfl

/-- The block product read at an entry: row `r` of the left block against column `q` of the right one. -/
theorem mm_apply (a : FVec Ideal S5000x128 .bf16) (b : FVec Ideal S128x128 .bf16) (r : Fin 5000) (q : Fin 128) :
    matmul dot_S5000x128_S128x128_S5000x128_1_0_0_1_n_n none a b (constant (F := Ideal) S5000x128 .f32 0x00000000#32) (ix2 r q)
      = ∑ κ : Fin 128, a (ix2 r κ) * b (ix2 κ q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q)
      ((contrEquiv1 dot_S5000x128_S128x128_S5000x128_1_0_0_1_n_n 128 rfl rfl).symm k) = ix2 r k :=
    funext fun ax => Fin.ext (by
      match ax with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 r q)
      ((contrEquiv1 dot_S5000x128_S128x128_S5000x128_1_0_0_1_n_n 128 rfl rfl).symm k) = ix2 k q :=
    funext fun ax => Fin.ext (by
      match ax with
      | ⟨0, _⟩ => exact (dot_S5000x128_S128x128_S5000x128_1_0_0_1_n_n.rhsIdx_val_of_single rfl _ _).trans hk
      | ⟨1, _⟩ => exact rhs_col _ _)
  rw [el, er]

/-- The linear layer's block at an entry. -/
theorem pay1_apply (x0 : Vec Ideal S5000x128 .f32) (x1 : Vec Ideal S128x128 .f32) (x2 : Vec Ideal S1x128 .f32)
    (r : Fin 5000) (q : Fin 128) :
    k0_pay1 (F := Ideal) x0 x1 x2 (ix2 r q) = (∑ κ : Fin 128, x0 (ix2 r κ) * x1 (ix2 κ q)) + x2 (ix2 (0 : Fin 1) q) := by
  unfold k0_pay1
  rw [addf_apply]
  refine congrArg₂ (· + ·) ?_ ?_
  · refine (mm_apply _ _ r q).trans ?_
    refine Finset.sum_congr rfl fun κ _ => ?_
    rw [truncf_apply, truncf_apply, shapeCast_self]
  · rw [shapeCast_self]
    exact broadcastTo_1b_ab_apply x2 broadcasts_S1x128_S5000x128 r q

/-- A sum over the rows of a block, read at a column. -/
theorem rowsum_apply (src : FVec Ideal S5000x128 .f32) (q : Fin 128) :
    shapeCast S1x128 (multiReduction .add [0] S128 src 0x00000000#32 reduces_S5000x128_S128 (.inl rfl) rfl) shapeCasts_S128_S1x128
      (ix2 (0 : Fin 1) q) = ∑ r : Fin 5000, src (ix2 r q) := by
  refine (shapeCast_a_1a_apply _ shapeCasts_S128_S1x128 0 q).trans ?_
  refine (Ideal.multiReduction_add_single src 0x00000000#32 reduces_S5000x128_S128 (.inl rfl) rfl (ix1 q)).trans ?_
  refine Finset.sum_congr rfl fun k _ => congrArg src ?_
  funext ax
  match ax with
  | ⟨0, _⟩ => rfl
  | ⟨1, _⟩ => rfl

/-- The running column sum after a block: what it held plus the block's column sum. -/
theorem pay4_apply (x0 : Vec Ideal S5000x128 .f32) (x1 : Vec Ideal S128x128 .f32) (x2 : Vec Ideal S1x128 .f32)
    (acc : Vec Ideal S1x128 .f32) (q : Fin 128) :
    k0_pay4 (F := Ideal) x0 x1 x2 acc (ix2 (0 : Fin 1) q)
      = acc (ix2 (0 : Fin 1) q) + ∑ r : Fin 5000, k0_pay1 (F := Ideal) x0 x1 x2 (ix2 r q) := by
  unfold k0_pay4
  rw [addf_apply, shapeCast_self]
  exact congrArg (acc (ix2 (0 : Fin 1) q) + ·) (rowsum_apply _ q)

/-- The running column sum of squares after a block. -/
theorem pay5_apply (x0 : Vec Ideal S5000x128 .f32) (x1 : Vec Ideal S128x128 .f32) (x2 : Vec Ideal S1x128 .f32)
    (acc : Vec Ideal S1x128 .f32) (q : Fin 128) :
    k0_pay5 (F := Ideal) x0 x1 x2 acc (ix2 (0 : Fin 1) q)
      = acc (ix2 (0 : Fin 1) q) + ∑ r : Fin 5000, k0_pay1 (F := Ideal) x0 x1 x2 (ix2 r q) * k0_pay1 (F := Ideal) x0 x1 x2 (ix2 r q) := by
  unfold k0_pay5
  rw [addf_apply, shapeCast_self]
  refine congrArg (acc (ix2 (0 : Fin 1) q) + ·) ((rowsum_apply _ q).trans ?_)
  exact Finset.sum_congr rfl fun r _ => mulf_apply _ _ _

/-- The zero row the first block starts from. -/
theorem pay2_apply (j : S1x128.Idx) : k0_pay2 (F := Ideal) j = 0 := by
  unfold k0_pay2
  exact Ideal.ofBits_zero_f32

theorem pay3_apply (j : S1x128.Idx) : k0_pay3 (F := Ideal) j = 0 := by
  unfold k0_pay3
  exact Ideal.ofBits_zero_f32

/-! ## From blocks to whole arrays: one entry, one column -/

/-- An entry of a block's linear layer is the whole array's entry, once the blocks' entries are the arrays'. -/
theorem z_entry (X : Mat 50000 128) (W : Mat 128 128) (B : Mat 1 128)
    (x0 : Vec Ideal S5000x128 .f32) (x1 : Vec Ideal S128x128 .f32) (x2 : Vec Ideal S1x128 .f32)
    (r : Fin 5000) (q : Fin 128) (a : Fin 50000)
    (h0 : ∀ κ : Fin 128, x0 (ix2 r κ) = X (ix2 a κ)) (h1 : ∀ κ : Fin 128, x1 (ix2 κ q) = W (ix2 κ q))
    (h2 : x2 (ix2 (0 : Fin 1) q) = B (ix2 (0 : Fin 1) q)) :
    k0_pay1 (F := Ideal) x0 x1 x2 (ix2 r q) = lin X W B (ix2 a q) := by
  rw [pay1_apply, h2]
  show _ = (∑ κ : Fin 128, X (ix2 a κ) * W (ix2 κ q)) + B (ix2 (0 : Fin 1) q)
  refine congrArg (· + B (ix2 (0 : Fin 1) q)) (Finset.sum_congr rfl fun κ _ => ?_)
  rw [h0, h1]

/-- The sum of a function of the rows over the rows of block `t`. -/
def blkSum (f : Fin 50000 → EReal) (t : Fin 10) : EReal :=
  ∑ k : Fin 5000, f ⟨t.val * 5000 + k.val, Cert.Lib.blk_lt t k⟩

/-- A sum over all the rows is the sum of the ten blocks' sums. -/
theorem sum_rows_blocks (f : Fin 50000 → EReal) : ∑ r : Fin 50000, f r = ∑ t : Fin 10, blkSum f t :=
  Cert.Lib.sum_blocks 10 5000 rfl f

/-- A quantity that starts at `0 + s 0` and gains `s (n + 1)` at step `n + 1` is, after step `n`, the sum of the
    first `n + 1` terms: additions regrouped, nothing cancelled. -/
theorem running_sum {M : Type*} [AddCommMonoid M] (N : ℕ) (s : Fin N → M) (acc : (n : ℕ) → n < N → M)
    (h0 : ∀ h : 0 < N, acc 0 h = 0 + s ⟨0, h⟩)
    (hs : ∀ (n : ℕ) (h : n + 1 < N), acc (n + 1) h = acc n (Nat.lt_of_succ_lt h) + s ⟨n + 1, h⟩) :
    ∀ (n : ℕ) (h : n < N), acc n h = ∑ t : Fin (n + 1), s ⟨t.val, lt_of_lt_of_le t.isLt h⟩
  | 0, h => by rw [h0, zero_add, Fin.sum_univ_one]; rfl
  | n + 1, h => by
    rw [hs, running_sum N s acc h0 hs n (Nat.lt_of_succ_lt h)]
    exact (Fin.sum_univ_castSucc (fun t : Fin (n + 1 + 1) => s ⟨t.val, lt_of_lt_of_le t.isLt h⟩)).symm

/-! ## What each case of the body leaves in the three outputs -/

section Pieces
variable {F : FTy → Type} [FloatOps F]

theorem hz : (![0, 0] : Fin 2 → Nat) = fun _ => 0 := funext fun a => by fin_cases a <;> rfl

theorem outA3 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S128x128 .f32) (x2 : Vec F S1x128 .f32) :
    out0_A_3 c i a1 h1 a2 h2 a3 h3 a4 h4 a5 h5 a6 h6 hc x0 x1 x2 = k0_pay1 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  try sl_unfold_words
  rw [View.canon_unit_zero hz]
  simp only [View.readAt_eq_ld, h1.read_unread, h2.read_unread, h3.read_unread, View.ld_unit_zero (S := S5000x128) hz,
    View.ld_unit_zero (S := S128x128) hz, View.ld_unit_zero (S := S1x128) hz]

theorem outA4 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S128x128 .f32) (x2 : Vec F S1x128 .f32) :
    out0_A_4 c i a1 h1 a2 h2 a3 h3 a4 h4 a5 h5 a6 h6 hc x0 x1 x2 = k0_pay4 x0 x1 x2 (k0_pay2 (F := F)) := by
  unfold out0_A_4
  rw [View.read_writes_eq_canon _ _ _ (cover0_A_4 c i a1 h1 a2 h2 a3 h3 a4 h4 a5 h5 a6 h6 hc x0 x1 x2)]
  unfold kernelRun0_A
  dsimp only
  try sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S128x128) hz, View.ld_unit_zero (S := S1x128) hz]

theorem outA5 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S128x128 .f32) (x2 : Vec F S1x128 .f32) :
    out0_A_5 c i a1 h1 a2 h2 a3 h3 a4 h4 a5 h5 a6 h6 hc x0 x1 x2 = k0_pay5 x0 x1 x2 (k0_pay3 (F := F)) := by
  unfold out0_A_5
  rw [View.read_writes_eq_canon _ _ _ (cover0_A_5 c i a1 h1 a2 h2 a3 h3 a4 h4 a5 h5 a6 h6 hc x0 x1 x2)]
  unfold kernelRun0_A
  dsimp only
  try sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S128x128) hz, View.ld_unit_zero (S := S1x128) hz]

theorem outB3 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S128x128 .f32) (x2 : Vec F S1x128 .f32) (xo4 : Vec F S1x128 .f32) (xo5 : Vec F S1x128 .f32) :
    out0_B_3 c i a1 h1 a2 h2 a3 h3 a4 h4 a5 h5 a6 h6 hc x0 x1 x2 xo4 xo5 = k0_pay1 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  try sl_unfold_words
  rw [View.canon_unit_zero hz]
  simp only [View.readAt_eq_ld, h1.read_unread, h2.read_unread, h3.read_unread, View.ld_unit_zero (S := S5000x128) hz,
    View.ld_unit_zero (S := S128x128) hz, View.ld_unit_zero (S := S1x128) hz]

theorem outB4 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S128x128 .f32) (x2 : Vec F S1x128 .f32) (xo4 : Vec F S1x128 .f32) (xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  try sl_unfold_words
  rw [View.canon_unit_zero hz]
  simp only [View.readAt_eq_ld, h1.read_unread, h2.read_unread, h3.read_unread, h5.read_unread, View.ld_unit_zero (S := S5000x128) hz,
    View.ld_unit_zero (S := S128x128) hz, View.ld_unit_zero (S := S1x128) hz]

theorem outB5 (c : Dev nD) (i : grid0.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S128x128 .f32) (x2 : Vec F S1x128 .f32) (xo4 : Vec F S1x128 .f32) (xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  try sl_unfold_words
  rw [View.canon_unit_zero hz]
  simp only [View.readAt_eq_ld, h1.read_unread, h2.read_unread, h3.read_unread, h6.read_unread, View.ld_unit_zero (S := S5000x128) hz,
    View.ld_unit_zero (S := S128x128) hz, View.ld_unit_zero (S := S1x128) hz]

end Pieces

/-! ## The three output arrays after the ten blocks -/

section Value

variable (V : (c : Dev nD) → (b : Ref sig .tc) → Buf (Elt Ideal) ((c : Thread nD τ).loc b)) (c : Dev nD)

/-- The input rows, the weights and the bias row as the region finds them. -/
abbrev X : Mat 50000 128 := V c (Pipeline.arrRef spec0 0)
abbrev Wt : Mat 128 128 := V c (Pipeline.arrRef spec0 1)
abbrev B : Mat 1 128 := V c (Pipeline.arrRef spec0 2)

/-- Where the blocks sit: block `t` of the rows and of the layer's output starts at row `5000 t`; the weights, the bias
    row and the two statistics rows are whole arrays, at offset zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `r` of block `t` of the input is row `5000 t + r` of the array. -/
theorem blk_x (t : Fin cfg0.N) (r : Fin 5000) (κ : Fin 128) (a : Fin 50000) (ha : a.val = t.val * 5000 + r.val) :
    (iblk0 V c 0 t : Vec Ideal S5000x128 .f32) (ix2 r κ) = X V c (ix2 a κ) := by
  obtain ⟨e0, e1, -⟩ := idx_facts t
  unfold iblk0
  rw [View.read_apply]
  show V c (Pipeline.arrRef spec0 0) _ = V c (Pipeline.arrRef spec0 0) _
  congr 1
  funext ax
  apply Fin.ext
  match ax with
  | ⟨0, _⟩ => show win0_0.index t (0 : Fin 2) * 5000 + 1 * r.val = a.val; rw [e0, ha]; omega
  | ⟨1, _⟩ => show win0_0.index t (1 : Fin 2) * 128 + 1 * κ.val = κ.val; rw [e1]; omega

/-- The weights' block is the whole array. -/
theorem blk_w (t : Fin cfg0.N) (κ q : Fin 128) :
    (iblk0 V c 1 t : Vec Ideal S128x128 .f32) (ix2 κ q) = Wt V c (ix2 κ q) := by
  obtain ⟨-, -, e0, e1, -⟩ := idx_facts t
  unfold iblk0
  rw [View.read_apply]
  show V c (Pipeline.arrRef spec0 1) _ = V c (Pipeline.arrRef spec0 1) _
  congr 1
  funext ax
  apply Fin.ext
  match ax with
  | ⟨0, _⟩ => show win0_1.index t (0 : Fin 2) * 128 + 1 * κ.val = κ.val; rw [e0]; omega
  | ⟨1, _⟩ => show win0_1.index t (1 : Fin 2) * 128 + 1 * q.val = q.val; rw [e1]; omega

/-- The bias row's block is the whole row. -/
theorem blk_b (t : Fin cfg0.N) (q : Fin 128) :
    (iblk0 V c 2 t : Vec Ideal S1x128 .f32) (ix2 (0 : Fin 1) q) = B V c (ix2 (0 : Fin 1) q) := by
  obtain ⟨-, -, -, -, e0, e1, -⟩ := idx_facts t
  unfold iblk0
  rw [View.read_apply]
  show V c (Pipeline.arrRef spec0 2) _ = V c (Pipeline.arrRef spec0 2) _
  congr 1
  funext ax
  apply Fin.ext
  match ax with
  | ⟨0, _⟩ => show win0_2.index t (0 : Fin 2) * 1 + 1 * 0 = 0; rw [e0]
  | ⟨1, _⟩ => show win0_2.index t (1 : Fin 2) * 128 + 1 * q.val = q.val; rw [e1]; omega

/-- The first point: the layer's block, and the two statistics rows started from the zero row. -/
theorem outs_A (t : Fin cfg0.N) (h0 : t.val % 10 = 0) :
    outsAt0 V c t.val t.isLt
      = (k0_pay1 (iblk0 V c 0 t) (iblk0 V c 1 t) (iblk0 V c 2 t), k0_pay4 (iblk0 V c 0 t) (iblk0 V c 1 t) (iblk0 V c 2 t) (k0_pay2 (F := Ideal)),
          k0_pay5 (iblk0 V c 0 t) (iblk0 V c 1 t) (iblk0 V c 2 t) (k0_pay3 (F := Ideal))) := by
  rw [outsAt0_A V c t h0,
    outA3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t),
    outA4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t),
    outA5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)]

/-- A later point: the layer's block, and the two statistics rows continued from what the point before left. -/
theorem outs_B (t : Fin cfg0.N) (h0 : ¬t.val % 10 = 0) :
    outsAt0 V c t.val t.isLt
      = (k0_pay1 (iblk0 V c 0 t) (iblk0 V c 1 t) (iblk0 V c 2 t), k0_pay4 (iblk0 V c 0 t) (iblk0 V c 1 t) (iblk0 V c 2 t) (outsAt0 V c (t.val - 1) (Nat.lt_of_le_of_lt (Nat.sub_le _ _) t.isLt)).2.1,
          k0_pay5 (iblk0 V c 0 t) (iblk0 V c 1 t) (iblk0 V c 2 t) (outsAt0 V c (t.val - 1) (Nat.lt_of_le_of_lt (Nat.sub_le _ _) t.isLt)).2.2) := by
  rw [outsAt0_B V c t h0,
    outB3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
    outB4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
    outB5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2]

/-- At every point the first output's buffer holds the layer's block. -/
theorem outs_z (t : Fin cfg0.N) :
    (outsAt0 V c t.val t.isLt).1 = k0_pay1 (F := Ideal) (iblk0 V c 0 t) (iblk0 V c 1 t) (iblk0 V c 2 t) := by
  by_cases h0 : t.val % 10 = 0
  · rw [outs_A V c t h0]
  · rw [outs_B V c t h0]

/-- An entry of block `t` of the layer is the entry of the whole layer `5000 t` rows further down. -/
theorem z_block (t : Fin cfg0.N) (y : S5000x128.Idx) (i : S50000x128.Idx)
    (hi0 : (i 0).val = t.val * 5000 + (y 0).val) (hi1 : (i 1).val = (y 1).val) :
    k0_pay1 (F := Ideal) (iblk0 V c 0 t) (iblk0 V c 1 t) (iblk0 V c 2 t) y = (lin (X V c) (Wt V c) (B V c)) i := by
  obtain ⟨r, q, rfl⟩ : ∃ (r : Fin 5000) (q : Fin 128), y = ix2 r q := ⟨y 0, y 1, eq_ix2 y⟩
  obtain ⟨a, b, rfl⟩ : ∃ (a : Fin 50000) (b : Fin 128), i = ix2 a b := ⟨i 0, i 1, eq_ix2 i⟩
  obtain rfl : b = q := Fin.ext hi1
  exact z_entry (X V c) (Wt V c) (B V c) (iblk0 V c 0 t) (iblk0 V c 1 t) (iblk0 V c 2 t) r b a
    (fun κ => blk_x V c t r κ a hi0) (fun κ => blk_w V c t κ b) (blk_b V c t b)

/-- What point `t` writes back to the first output is block `t` of the whole layer. -/
theorem flushed_z (t : Fin cfg0.N) (hf : (cfg0.win 3).flush t = true) :
    (dat0 (F := Ideal) V c).flushed 3 t = ((cfg0.win 3).blk t).view.read (Elt Ideal) (lin (X V c) (Wt V c) (B V c)) := by
  show (cfg0.win 3).cut (grid0.coords t) ((dat0 (F := Ideal) V c).after 3 t) = _
  rw [after0_3, outs_z V c t]
  obtain ⟨-, -, -, -, -, -, e0, e1, -⟩ := idx_facts t
  funext y
  rw [View.read_apply]
  show k0_pay1 (F := Ideal) (iblk0 V c 0 t) (iblk0 V c 1 t) (iblk0 V c 2 t) y = (lin (X V c) (Wt V c) (B V c)) (((cfg0.win 3).blk t).view.emb y)
  refine z_block V c t y _ ?_ ?_
  · show win0_3.index t (0 : Fin 2) * 5000 + 1 * (y 0).val = t.val * 5000 + (y 0).val; rw [e0]; omega
  · show win0_3.index t (1 : Fin 2) * 128 + 1 * (y 1).val = (y 1).val; rw [e1]; omega

/-- An entry of the first output lies in block `t` iff its row is among the block's 5000 rows. -/
theorem mem_blk_z (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v12_0).slice (win0_3.rect t)).set ↔ _
  rw [View.set_slice_whole, Rect.mem_set_unit]
  exact Iff.rfl

/-- Every row lies in a block: row `r` in block `r / 5000`. -/
theorem cover_z (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 10 := N_0
  have ht : (i 0).val / 5000 < cfg0.N := by rw [hN]; omega
  obtain ⟨-, -, -, -, -, -, e0, e1, -⟩ := idx_facts ⟨(i 0).val / 5000, ht⟩
  refine ⟨⟨(i 0).val / 5000, ht⟩, flush0_3 _, ?_⟩
  rw [mem_blk_z]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]; dsimp only; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]; omega

/-- The first output array ends holding the whole linear layer. -/
theorem arr_z : (dat0 (F := Ideal) V c).arrAt 3 cfg0.N = (lin (X V c) (Wt V c) (B V c)) :=
  (dat0 (F := Ideal) V c).arrAt_eq_of_cover 3 (lin (X V c) (Wt V c) (B V c)) (fun t hf => flushed_z V c t hf) (cover_z)

/-- Column `q` of block `t`: the block's column sums are the whole layer's over rows `5000 t … 5000 t + 4999`. -/
theorem blk_sum (t : Fin cfg0.N) (q : Fin 128) (t' : Fin 10) (ht : t'.val = t.val) :
    (∑ r : Fin 5000, k0_pay1 (F := Ideal) (iblk0 V c 0 t) (iblk0 V c 1 t) (iblk0 V c 2 t) (ix2 r q))
      = blkSum (fun r => (lin (X V c) (Wt V c) (B V c)) (ix2 r q)) t' := by
  unfold blkSum
  refine Finset.sum_congr rfl fun r _ => ?_
  have e := z_block V c t (ix2 r q) (ix2 (⟨t'.val * 5000 + r.val, Cert.Lib.blk_lt t' r⟩ : Fin 50000) q)
    (by show t'.val * 5000 + r.val = t.val * 5000 + r.val; rw [ht]) rfl
  rw [e]

/-- After point `n` the running row holds, at column `q`, the sum of the first `n + 1` blocks' column sums. -/
theorem sum_at (q : Fin 128) : ∀ (n : ℕ) (h : n < cfg0.N),
    (outsAt0 V c n h).2.1 (ix2 (0 : Fin 1) q)
      = ∑ t : Fin (n + 1), ∑ r : Fin 5000, k0_pay1 (F := Ideal) (iblk0 V c 0 ⟨t.val, lt_of_lt_of_le t.isLt h⟩) (iblk0 V c 1 ⟨t.val, lt_of_lt_of_le t.isLt h⟩) (iblk0 V c 2 ⟨t.val, lt_of_lt_of_le t.isLt h⟩) (ix2 r q) :=
  running_sum cfg0.N (fun t => ∑ r : Fin 5000, k0_pay1 (F := Ideal) (iblk0 V c 0 t) (iblk0 V c 1 t) (iblk0 V c 2 t) (ix2 r q))
    (fun n h => (outsAt0 V c n h).2.1 (ix2 (0 : Fin 1) q))
    (fun h => by
      show (outsAt0 V c (⟨0, h⟩ : Fin cfg0.N).val (⟨0, h⟩ : Fin cfg0.N).isLt).2.1 (ix2 (0 : Fin 1) q) = _
      rw [outs_A V c ⟨0, h⟩ (Nat.zero_mod 10)]
      refine (pay4_apply (iblk0 V c 0 ⟨0, h⟩) (iblk0 V c 1 ⟨0, h⟩) (iblk0 V c 2 ⟨0, h⟩) (k0_pay2 (F := Ideal)) q).trans ?_
      rw [pay2_apply])
    (fun n h => by
      have hN : cfg0.N = 10 := N_0
      have hB : ¬(⟨n + 1, h⟩ : Fin cfg0.N).val % 10 = 0 := by dsimp only; omega
      show (outsAt0 V c (⟨n + 1, h⟩ : Fin cfg0.N).val (⟨n + 1, h⟩ : Fin cfg0.N).isLt).2.1 (ix2 (0 : Fin 1) q) = _
      rw [outs_B V c ⟨n + 1, h⟩ hB]
      exact pay4_apply (iblk0 V c 0 ⟨n + 1, h⟩) (iblk0 V c 1 ⟨n + 1, h⟩) (iblk0 V c 2 ⟨n + 1, h⟩) (outsAt0 V c n (Nat.lt_of_succ_lt h)).2.1 q)

/-- After the last point the running row holds the whole column's column sums. -/
theorem sum_last (t : Fin cfg0.N) (ht : t.val = 9) (y i : S1x128.Idx) (hi : (i 1).val = (y 1).val) :
    (outsAt0 V c t.val t.isLt).2.1 y = colSum (lin (X V c) (Wt V c) (B V c)) i := by
  obtain ⟨n, h9⟩ := t
  dsimp only at ht ⊢
  subst ht
  obtain ⟨u, q, rfl⟩ : ∃ (u : Fin 1) (q : Fin 128), y = ix2 u q := ⟨y 0, y 1, eq_ix2 y⟩
  obtain ⟨u', q', rfl⟩ : ∃ (u' : Fin 1) (q' : Fin 128), i = ix2 u' q' := ⟨i 0, i 1, eq_ix2 i⟩
  obtain rfl : q' = q := Fin.ext hi
  obtain rfl : u = 0 := Subsingleton.elim _ _
  rw [sum_at V c q' 9 h9]
  show _ = ∑ r : Fin 50000, (lin (X V c) (Wt V c) (B V c)) (ix2 r q')
  rw [sum_rows_blocks (fun r => (lin (X V c) (Wt V c) (B V c)) (ix2 r q'))]
  refine Finset.sum_congr rfl fun t _ => ?_
  exact blk_sum V c ⟨t.val, lt_of_lt_of_le t.isLt h9⟩ q' t rfl

/-- The one write-back of this row, at the last point, writes the whole column's column sums. -/
theorem flushed_sum (t : Fin cfg0.N) (hf : (cfg0.win 4).flush t = true) :
    (dat0 (F := Ideal) V c).flushed 4 t = ((cfg0.win 4).blk t).view.read (Elt Ideal) (colSum (lin (X V c) (Wt V c) (B V c))) := by
  have hN : cfg0.N = 10 := N_0
  have h9 : t.val = 9 := by have := (flush0_4 t).mp hf; have := t.isLt; omega
  show (cfg0.win 4).cut (grid0.coords t) ((dat0 (F := Ideal) V c).after 4 t) = _
  rw [after0_4]
  have key := sum_last V c t h9
  generalize (outsAt0 V c t.val t.isLt).2.1 = acc at key ⊢
  generalize colSum (lin (X V c) (Wt V c) (B V c)) = G at key ⊢
  obtain ⟨-, -, -, -, -, -, -, -, e0, e1, -⟩ := idx_facts t
  funext y
  rw [View.read_apply]
  refine key y _ ?_
  show win0_4.index t (1 : Fin 2) * 128 + 1 * (y 1).val = (y 1).val
  rw [e1]; omega

/-- An entry of this row lies in the one block, the whole row. -/
theorem mem_blk_sum (t : Fin cfg0.N) (i : S1x128.Idx) :
    i ∈ ((cfg0.win 4).blk t).view.set ↔ ∀ a : Fin 2, win0_4.index t a * S1x128.size a ≤ (i a).val
      ∧ (i a).val < win0_4.index t a * S1x128.size a + S1x128.size a := by
  show i ∈ ((View.whole main_v12_1).slice (win0_4.rect t)).set ↔ _
  rw [View.set_slice_whole, Rect.mem_set_unit]
  exact Iff.rfl

theorem cover_sum (i : S1x128.Idx) :
    ∃ t : Fin cfg0.N, (cfg0.win 4).flush t = true ∧ i ∈ ((cfg0.win 4).blk t).view.set := by
  have hi0 : (i 0).val < 1 := idx2_lt0 i
  have hi1 : (i 1).val < 128 := idx2_lt1 i
  obtain ⟨-, -, -, -, -, -, -, -, e0, e1, -⟩ := idx_facts t0_9
  refine ⟨t0_9, (flush0_4 t0_9).mpr rfl, ?_⟩
  rw [mem_blk_sum]
  intro a
  match a with
  | ⟨0, _⟩ =>
    show win0_4.index t0_9 (0 : Fin 2) * 1 ≤ (i 0).val ∧ (i 0).val < win0_4.index t0_9 (0 : Fin 2) * 1 + 1
    rw [e0]; omega
  | ⟨1, _⟩ =>
    show win0_4.index t0_9 (1 : Fin 2) * 128 ≤ (i 1).val ∧ (i 1).val < win0_4.index t0_9 (1 : Fin 2) * 128 + 128
    rw [e1]; omega

/-- The second output array ends holding the column sums of the whole linear layer. -/
theorem arr_sum : (dat0 (F := Ideal) V c).arrAt 4 cfg0.N = colSum (lin (X V c) (Wt V c) (B V c)) :=
  (dat0 (F := Ideal) V c).arrAt_eq_of_cover 4 (colSum (lin (X V c) (Wt V c) (B V c))) (fun t hf => flushed_sum V c t hf) (cover_sum)

/-- Column `q` of block `t`: the block's column sums of squares are the whole layer's over rows `5000 t … 5000 t + 4999`. -/
theorem blk_sumsq (t : Fin cfg0.N) (q : Fin 128) (t' : Fin 10) (ht : t'.val = t.val) :
    (∑ r : Fin 5000, k0_pay1 (F := Ideal) (iblk0 V c 0 t) (iblk0 V c 1 t) (iblk0 V c 2 t) (ix2 r q) * k0_pay1 (F := Ideal) (iblk0 V c 0 t) (iblk0 V c 1 t) (iblk0 V c 2 t) (ix2 r q))
      = blkSum (fun r => (lin (X V c) (Wt V c) (B V c)) (ix2 r q) * (lin (X V c) (Wt V c) (B V c)) (ix2 r q)) t' := by
  unfold blkSum
  refine Finset.sum_congr rfl fun r _ => ?_
  have e := z_block V c t (ix2 r q) (ix2 (⟨t'.val * 5000 + r.val, Cert.Lib.blk_lt t' r⟩ : Fin 50000) q)
    (by show t'.val * 5000 + r.val = t.val * 5000 + r.val; rw [ht]) rfl
  rw [e]

/-- After point `n` the running row holds, at column `q`, the sum of the first `n + 1` blocks' column sums of squares. -/
theorem sumsq_at (q : Fin 128) : ∀ (n : ℕ) (h : n < cfg0.N),
    (outsAt0 V c n h).2.2 (ix2 (0 : Fin 1) q)
      = ∑ t : Fin (n + 1), ∑ r : Fin 5000, k0_pay1 (F := Ideal) (iblk0 V c 0 ⟨t.val, lt_of_lt_of_le t.isLt h⟩) (iblk0 V c 1 ⟨t.val, lt_of_lt_of_le t.isLt h⟩) (iblk0 V c 2 ⟨t.val, lt_of_lt_of_le t.isLt h⟩) (ix2 r q) * k0_pay1 (F := Ideal) (iblk0 V c 0 ⟨t.val, lt_of_lt_of_le t.isLt h⟩) (iblk0 V c 1 ⟨t.val, lt_of_lt_of_le t.isLt h⟩) (iblk0 V c 2 ⟨t.val, lt_of_lt_of_le t.isLt h⟩) (ix2 r q) :=
  running_sum cfg0.N (fun t => ∑ r : Fin 5000, k0_pay1 (F := Ideal) (iblk0 V c 0 t) (iblk0 V c 1 t) (iblk0 V c 2 t) (ix2 r q) * k0_pay1 (F := Ideal) (iblk0 V c 0 t) (iblk0 V c 1 t) (iblk0 V c 2 t) (ix2 r q))
    (fun n h => (outsAt0 V c n h).2.2 (ix2 (0 : Fin 1) q))
    (fun h => by
      show (outsAt0 V c (⟨0, h⟩ : Fin cfg0.N).val (⟨0, h⟩ : Fin cfg0.N).isLt).2.2 (ix2 (0 : Fin 1) q) = _
      rw [outs_A V c ⟨0, h⟩ (Nat.zero_mod 10)]
      refine (pay5_apply (iblk0 V c 0 ⟨0, h⟩) (iblk0 V c 1 ⟨0, h⟩) (iblk0 V c 2 ⟨0, h⟩) (k0_pay3 (F := Ideal)) q).trans ?_
      rw [pay3_apply])
    (fun n h => by
      have hN : cfg0.N = 10 := N_0
      have hB : ¬(⟨n + 1, h⟩ : Fin cfg0.N).val % 10 = 0 := by dsimp only; omega
      show (outsAt0 V c (⟨n + 1, h⟩ : Fin cfg0.N).val (⟨n + 1, h⟩ : Fin cfg0.N).isLt).2.2 (ix2 (0 : Fin 1) q) = _
      rw [outs_B V c ⟨n + 1, h⟩ hB]
      exact pay5_apply (iblk0 V c 0 ⟨n + 1, h⟩) (iblk0 V c 1 ⟨n + 1, h⟩) (iblk0 V c 2 ⟨n + 1, h⟩) (outsAt0 V c n (Nat.lt_of_succ_lt h)).2.2 q)

/-- After the last point the running row holds the whole column's column sums of squares. -/
theorem sumsq_last (t : Fin cfg0.N) (ht : t.val = 9) (y i : S1x128.Idx) (hi : (i 1).val = (y 1).val) :
    (outsAt0 V c t.val t.isLt).2.2 y = colSumSq (lin (X V c) (Wt V c) (B V c)) i := by
  obtain ⟨n, h9⟩ := t
  dsimp only at ht ⊢
  subst ht
  obtain ⟨u, q, rfl⟩ : ∃ (u : Fin 1) (q : Fin 128), y = ix2 u q := ⟨y 0, y 1, eq_ix2 y⟩
  obtain ⟨u', q', rfl⟩ : ∃ (u' : Fin 1) (q' : Fin 128), i = ix2 u' q' := ⟨i 0, i 1, eq_ix2 i⟩
  obtain rfl : q' = q := Fin.ext hi
  obtain rfl : u = 0 := Subsingleton.elim _ _
  rw [sumsq_at V c q' 9 h9]
  show _ = ∑ r : Fin 50000, (lin (X V c) (Wt V c) (B V c)) (ix2 r q') * (lin (X V c) (Wt V c) (B V c)) (ix2 r q')
  rw [sum_rows_blocks (fun r => (lin (X V c) (Wt V c) (B V c)) (ix2 r q') * (lin (X V c) (Wt V c) (B V c)) (ix2 r q'))]
  refine Finset.sum_congr rfl fun t _ => ?_
  exact blk_sumsq V c ⟨t.val, lt_of_lt_of_le t.isLt h9⟩ q' t rfl

/-- The one write-back of this row, at the last point, writes the whole column's column sums of squares. -/
theorem flushed_sumsq (t : Fin cfg0.N) (hf : (cfg0.win 5).flush t = true) :
    (dat0 (F := Ideal) V c).flushed 5 t = ((cfg0.win 5).blk t).view.read (Elt Ideal) (colSumSq (lin (X V c) (Wt V c) (B V c))) := by
  have hN : cfg0.N = 10 := N_0
  have h9 : t.val = 9 := by have := (flush0_5 t).mp hf; have := t.isLt; omega
  show (cfg0.win 5).cut (grid0.coords t) ((dat0 (F := Ideal) V c).after 5 t) = _
  rw [after0_5]
  have key := sumsq_last V c t h9
  generalize (outsAt0 V c t.val t.isLt).2.2 = acc at key ⊢
  generalize colSumSq (lin (X V c) (Wt V c) (B V c)) = G at key ⊢
  obtain ⟨-, -, -, -, -, -, -, -, -, -, e0, e1⟩ := idx_facts t
  funext y
  rw [View.read_apply]
  refine key y _ ?_
  show win0_5.index t (1 : Fin 2) * 128 + 1 * (y 1).val = (y 1).val
  rw [e1]; omega

/-- An entry of this row lies in the one block, the whole row. -/
theorem mem_blk_sumsq (t : Fin cfg0.N) (i : S1x128.Idx) :
    i ∈ ((cfg0.win 5).blk t).view.set ↔ ∀ a : Fin 2, win0_5.index t a * S1x128.size a ≤ (i a).val
      ∧ (i a).val < win0_5.index t a * S1x128.size a + S1x128.size a := by
  show i ∈ ((View.whole main_v12_2).slice (win0_5.rect t)).set ↔ _
  rw [View.set_slice_whole, Rect.mem_set_unit]
  exact Iff.rfl

theorem cover_sumsq (i : S1x128.Idx) :
    ∃ t : Fin cfg0.N, (cfg0.win 5).flush t = true ∧ i ∈ ((cfg0.win 5).blk t).view.set := by
  have hi0 : (i 0).val < 1 := idx2_lt0 i
  have hi1 : (i 1).val < 128 := idx2_lt1 i
  obtain ⟨-, -, -, -, -, -, -, -, -, -, e0, e1⟩ := idx_facts t0_9
  refine ⟨t0_9, (flush0_5 t0_9).mpr rfl, ?_⟩
  rw [mem_blk_sumsq]
  intro a
  match a with
  | ⟨0, _⟩ =>
    show win0_5.index t0_9 (0 : Fin 2) * 1 ≤ (i 0).val ∧ (i 0).val < win0_5.index t0_9 (0 : Fin 2) * 1 + 1
    rw [e0]; omega
  | ⟨1, _⟩ =>
    show win0_5.index t0_9 (1 : Fin 2) * 128 ≤ (i 1).val ∧ (i 1).val < win0_5.index t0_9 (1 : Fin 2) * 128 + 128
    rw [e1]; omega

/-- The third output array ends holding the column sums of the squares of the whole linear layer. -/
theorem arr_sumsq : (dat0 (F := Ideal) V c).arrAt 5 cfg0.N = colSumSq (lin (X V c) (Wt V c) (B V c)) :=
  (dat0 (F := Ideal) V c).arrAt_eq_of_cover 5 (colSumSq (lin (X V c) (Wt V c) (B V c))) (fun t hf => flushed_sumsq V c t hf) (cover_sumsq)

end Value

end Cert.KernelIdeal.Region0

end
-- ==== Proof.Region1.lean ====
/-
  Normalisation, clipping and the linear layer with its column statistics, read off the grid of row blocks.

  The rows of `x` are cut into ten blocks of 5000. At each block the body first normalises and clips the block's rows,
  `xn = max ((x - mean) * (g * rsqrt (var + eps)) + be) 0`, the four single rows `mean`, `var`, `g`, `be` being spread
  over the block's rows; then it forms `z = xn · w + b` (the block against the whole weight array, row by column, plus
  the bias row), stores it as the block of the first output, and adds the block's column sums of `z` and of `z * z` to
  two running rows, which the first block starts from the zero row. Over the extended reals a change of float format
  is the identity and the product's accumulator is zero, so an entry of the block is the entry of the whole layer
  5000 · t rows further down; and since addition there is commutative and associative with no side condition, the
  running rows after the last block are the column sums over all 50000 rows: `((0 + s₀) + s₁) + … + s₉` is regrouped,
  nothing is cancelled or distributed.

  So after the ten blocks the three output arrays hold `lin (relu (norm x mean var g be)) w b` and its `colSum` and
  `colSumSq`, whatever the seven input arrays hold.
-/
import proofs.«105059_j20856361189655_1_alg».proof.Proof.Gen.KernelIdeal.Frame
import proofs.«105059_j20856361189655_1_alg».proof.Proof.Spec
import proofs.«105059_j20856361189655_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Gin

/-! ## The body's arithmetic, read at one entry over the extended reals -/

/-- The block product's dimension numbers: rows by the one contracted axis, contracted axis by columns. -/
abbrev D0 : DotDims S5000x128 S128x128 S5000x128 := dot_S5000x128_S128x128_S5000x128_1_0_0_1_n_n

/-- The left operand's row is the output's row, whatever the contraction position. -/
theorem lhs_row (i : S5000x128.Idx) (k : D0.contr.Idx) : (D0.lhsIdx i k 0).val = (i 0).val := by
  unfold DotDims.lhsIdx
  rw [dif_neg (show ¬(0 : Fin S5000x128.rank) ∈ D0.lhsBatch by decide),
    dif_pos (show (0 : Fin S5000x128.rank) ∈ D0.lhsNonContracting by decide)]
  rfl

/-- The right operand's column is the output's column, whatever the contraction position. -/
theorem rhs_col (i : S5000x128.Idx) (k : D0.contr.Idx) : (D0.rhsIdx i k 1).val = (i 1).val := by
  unfold DotDims.rhsIdx
  rw [dif_neg (show ¬(1 : Fin S128x128.rank) ∈ D0.rhsBatch by decide),
    dif_pos (show (1 : Fin S128x128.rank) ∈ D0.rhsNonContracting by decide)]
  rfl

/-- The block product read at an entry: row `r` of the left block against column `q` of the right one. -/
theorem mm_apply (a : FVec Ideal S5000x128 .bf16) (b : FVec Ideal S128x128 .bf16) (r : Fin 5000) (q : Fin 128) :
    matmul dot_S5000x128_S128x128_S5000x128_1_0_0_1_n_n none a b (constant (F := Ideal) S5000x128 .f32 0x00000000#32) (ix2 r q)
      = ∑ κ : Fin 128, a (ix2 r κ) * b (ix2 κ q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q)
      ((contrEquiv1 dot_S5000x128_S128x128_S5000x128_1_0_0_1_n_n 128 rfl rfl).symm k) = ix2 r k :=
    funext fun ax => Fin.ext (by
      match ax with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 r q)
      ((contrEquiv1 dot_S5000x128_S128x128_S5000x128_1_0_0_1_n_n 128 rfl rfl).symm k) = ix2 k q :=
    funext fun ax => Fin.ext (by
      match ax with
      | ⟨0, _⟩ => exact (dot_S5000x128_S128x128_S5000x128_1_0_0_1_n_n.rhsIdx_val_of_single rfl _ _).trans hk
      | ⟨1, _⟩ => exact rhs_col _ _)
  rw [el, er]

/-- An entry of the normalised and clipped block: the row's entry shifted by the column mean, scaled by
    `g * rsqrt (var + eps)` formed on the single rows, shifted by `be`, and clipped at zero. -/
def xnEntry (g var : Vec Ideal S1x128 .f32) (x : Vec Ideal S5000x128 .f32) (mean be : Vec Ideal S1x128 .f32)
    (r : Fin 5000) (κ : Fin 128) : EReal :=
  max ((x (ix2 r κ) - mean (ix2 (0 : Fin 1) κ)) * (g (ix2 (0 : Fin 1) κ) * Ideal.rsqrt (var (ix2 (0 : Fin 1) κ) + eps))
    + be (ix2 (0 : Fin 1) κ)) 0

/-- The layer's block at an entry: the normalised and clipped row against the weight column, plus the bias. -/
theorem pay3_apply (g var : Vec Ideal S1x128 .f32) (x : Vec Ideal S5000x128 .f32) (mean be : Vec Ideal S1x128 .f32)
    (w : Vec Ideal S128x128 .f32) (b : Vec Ideal S1x128 .f32) (r : Fin 5000) (q : Fin 128) :
    k1_pay3 (F := Ideal) g var x mean be w b (ix2 r q)
      = (∑ κ : Fin 128, xnEntry g var x mean be r κ * w (ix2 κ q)) + b (ix2 (0 : Fin 1) q) := by
  unfold k1_pay3
  rw [addf_apply]
  refine congrArg₂ (· + ·) ?_ ?_
  · refine (mm_apply _ _ r q).trans ?_
    refine Finset.sum_congr rfl fun κ _ => ?_
    rw [truncf_apply, truncf_apply]
    refine congrArg (· * w (ix2 κ q)) ?_
    rw [maximumf_apply, addf_apply, mulf_apply, subf_apply, shapeCast_self, shapeCast_self, shapeCast_self, shapeCast_self,
      shapeCast_self, broadcastTo_1b_ab_apply, broadcastTo_1b_ab_apply, broadcastTo_1b_ab_apply, mulf_apply, broadcast_apply]
    show max ((x (ix2 r κ) - mean (ix2 (0 : Fin 1) κ)) * (g (ix2 (0 : Fin 1) κ) * Ideal.rsqrt (var (ix2 (0 : Fin 1) κ) + Ideal.ofBits .f32 0x3727C5AC#32))
      + be (ix2 (0 : Fin 1) κ)) (Ideal.ofBits .f32 0x00000000#32) = _
    rw [Ideal.ofBits_zero_f32]
    rfl
  · rw [shapeCast_self]
    exact broadcastTo_1b_ab_apply b broadcasts_S1x128_S5000x128 r q

/-- A sum over the rows of a block, read at a column. -/
theorem rowsum_apply (src : FVec Ideal S5000x128 .f32) (q : Fin 128) :
    shapeCast S1x128 (multiReduction .add [0] S128 src 0x00000000#32 reduces_S5000x128_S128 (.inl rfl) rfl) shapeCasts_S128_S1x128
      (ix2 (0 : Fin 1) q) = ∑ r : Fin 5000, src (ix2 r q) := by
  refine (shapeCast_a_1a_apply _ shapeCasts_S128_S1x128 0 q).trans ?_
  refine (Ideal.multiReduction_add_single src 0x00000000#32 reduces_S5000x128_S128 (.inl rfl) rfl (ix1 q)).trans ?_
  refine Finset.sum_congr rfl fun k _ => congrArg src ?_
  funext ax
  match ax with
  | ⟨0, _⟩ => rfl
  | ⟨1, _⟩ => rfl

/-- The running column sum after a block: what it held plus the block's column sum. -/
theorem pay1_apply (z : FVec Ideal S5000x128 .f32) (acc : Vec Ideal S1x128 .f32) (q : Fin 128) :
    k1_pay1 (F := Ideal) z acc (ix2 (0 : Fin 1) q) = acc (ix2 (0 : Fin 1) q) + ∑ r : Fin 5000, z (ix2 r q) := by
  unfold k1_pay1
  rw [addf_apply, shapeCast_self]
  exact congrArg (acc (ix2 (0 : Fin 1) q) + ·) (rowsum_apply _ q)

/-- The running column sum of squares after a block. -/
theorem pay2_apply (z : FVec Ideal S5000x128 .f32) (acc : Vec Ideal S1x128 .f32) (q : Fin 128) :
    k1_pay2 (F := Ideal) z acc (ix2 (0 : Fin 1) q) = acc (ix2 (0 : Fin 1) q) + ∑ r : Fin 5000, z (ix2 r q) * z (ix2 r q) := by
  unfold k1_pay2
  rw [addf_apply, shapeCast_self]
  refine congrArg (acc (ix2 (0 : Fin 1) q) + ·) ((rowsum_apply _ q).trans ?_)
  exact Finset.sum_congr rfl fun r _ => mulf_apply _ _ _

/-- The zero row the first block starts from. -/
theorem pay4_apply (j : S1x128.Idx) : k1_pay4 (F := Ideal) j = 0 := by
  unfold k1_pay4
  exact Ideal.ofBits_zero_f32

theorem pay5_apply (j : S1x128.Idx) : k1_pay5 (F := Ideal) j = 0 := by
  unfold k1_pay5
  exact Ideal.ofBits_zero_f32

/-! ## From blocks to whole arrays: one entry, one column -/

/-- An entry of a block's layer is the whole array's entry, once the blocks' entries are the arrays'. -/
theorem z_entry (X : Mat 50000 128) (Mean Var G Be : Mat 1 128) (W : Mat 128 128) (B : Mat 1 128)
    (x0 : Vec Ideal S5000x128 .f32) (x1 x2 x3 x4 : Vec Ideal S1x128 .f32) (x5 : Vec Ideal S128x128 .f32) (x6 : Vec Ideal S1x128 .f32)
    (r : Fin 5000) (q : Fin 128) (a : Fin 50000)
    (h0 : ∀ κ : Fin 128, x0 (ix2 r κ) = X (ix2 a κ))
    (h1 : ∀ κ : Fin 128, x1 (ix2 (0 : Fin 1) κ) = Mean (ix2 (0 : Fin 1) κ))
    (h2 : ∀ κ : Fin 128, x2 (ix2 (0 : Fin 1) κ) = Var (ix2 (0 : Fin 1) κ))
    (h3 : ∀ κ : Fin 128, x3 (ix2 (0 : Fin 1) κ) = G (ix2 (0 : Fin 1) κ))
    (h4 : ∀ κ : Fin 128, x4 (ix2 (0 : Fin 1) κ) = Be (ix2 (0 : Fin 1) κ))
    (h5 : ∀ κ : Fin 128, x5 (ix2 κ q) = W (ix2 κ q))
    (h6 : x6 (ix2 (0 : Fin 1) q) = B (ix2 (0 : Fin 1) q)) :
    k1_pay3 (F := Ideal) x3 x2 x0 x1 x4 x5 x6 (ix2 r q) = lin (relu (norm X Mean Var G Be)) W B (ix2 a q) := by
  rw [pay3_apply, h6]
  show _ = (∑ κ : Fin 128, max ((X (ix2 a κ) - Mean (ix2 (0 : Fin 1) κ)) * (G (ix2 (0 : Fin 1) κ) * Ideal.rsqrt (Var (ix2 (0 : Fin 1) κ) + eps))
    + Be (ix2 (0 : Fin 1) κ)) 0 * W (ix2 κ q)) + B (ix2 (0 : Fin 1) q)
  refine congrArg (· + B (ix2 (0 : Fin 1) q)) (Finset.sum_congr rfl fun κ _ => ?_)
  unfold xnEntry
  rw [h0, h1, h2, h3, h4, h5]

/-- The sum of a function of the rows over the rows of block `t`. -/
def blkSum (f : Fin 50000 → EReal) (t : Fin 10) : EReal :=
  ∑ k : Fin 5000, f ⟨t.val * 5000 + k.val, Cert.Lib.blk_lt t k⟩

/-- A sum over all the rows is the sum of the ten blocks' sums. -/
theorem sum_rows_blocks (f : Fin 50000 → EReal) : ∑ r : Fin 50000, f r = ∑ t : Fin 10, blkSum f t :=
  Cert.Lib.sum_blocks 10 5000 rfl f

/-- A quantity that starts at `0 + s 0` and gains `s (n + 1)` at step `n + 1` is, after step `n`, the sum of the
    first `n + 1` terms: additions regrouped, nothing cancelled. -/
theorem running_sum {M : Type*} [AddCommMonoid M] (N : ℕ) (s : Fin N → M) (acc : (n : ℕ) → n < N → M)
    (h0 : ∀ h : 0 < N, acc 0 h = 0 + s ⟨0, h⟩)
    (hs : ∀ (n : ℕ) (h : n + 1 < N), acc (n + 1) h = acc n (Nat.lt_of_succ_lt h) + s ⟨n + 1, h⟩) :
    ∀ (n : ℕ) (h : n < N), acc n h = ∑ t : Fin (n + 1), s ⟨t.val, lt_of_lt_of_le t.isLt h⟩
  | 0, h => by rw [h0, zero_add, Fin.sum_univ_one]; rfl
  | n + 1, h => by
    rw [hs, running_sum N s acc h0 hs n (Nat.lt_of_succ_lt h)]
    exact (Fin.sum_univ_castSucc (fun t : Fin (n + 1 + 1) => s ⟨t.val, lt_of_lt_of_le t.isLt h⟩)).symm

/-! ## What each case of the body leaves in the three outputs -/

section Pieces
variable {F : FTy → Type} [FloatOps F]

theorem hz : (![0, 0] : Fin 2 → Nat) = fun _ => 0 := funext fun a => by fin_cases a <;> rfl

theorem outA7 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond1_0 i)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out1_A_7 c i a1 h1 a2 h2 a3 h3 a4 h4 a5 h5 a6 h6 a7 h7 a8 h8 a9 h9 a10 h10 hc x0 x1 x2 x3 x4 x5 x6 = (k1_pay3 x3 x2 x0 x1 x4 x5 x6) := by
  unfold out1_A_7
  rw [View.read_writes_eq_canon _ _ _ (cover1_A_7 c i a1 h1 a2 h2 a3 h3 a4 h4 a5 h5 a6 h6 a7 h7 a8 h8 a9 h9 a10 h10 hc x0 x1 x2 x3 x4 x5 x6)]
  unfold kernelRun1_A
  dsimp only
  try sl_unfold_words
  rw [View.canon_unit_zero hz]
  simp only [View.readAt_eq_ld, h1.read_unread, h2.read_unread, h3.read_unread, h4.read_unread, h5.read_unread, h6.read_unread, h7.read_unread, View.ld_unit_zero (S := S5000x128) hz,
    View.ld_unit_zero (S := S128x128) hz, View.ld_unit_zero (S := S1x128) hz]

theorem outA8 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond1_0 i)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out1_A_8 c i a1 h1 a2 h2 a3 h3 a4 h4 a5 h5 a6 h6 a7 h7 a8 h8 a9 h9 a10 h10 hc x0 x1 x2 x3 x4 x5 x6 = k1_pay1 (k1_pay3 x3 x2 x0 x1 x4 x5 x6) (k1_pay4 (F := F)) := by
  unfold out1_A_8
  rw [View.read_writes_eq_canon _ _ _ (cover1_A_8 c i a1 h1 a2 h2 a3 h3 a4 h4 a5 h5 a6 h6 a7 h7 a8 h8 a9 h9 a10 h10 hc x0 x1 x2 x3 x4 x5 x6)]
  unfold kernelRun1_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, View.ld_unit_zero (S := S5000x128) hz,
    View.ld_unit_zero (S := S128x128) hz, View.ld_unit_zero (S := S1x128) hz]

theorem outA9 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : cond1_0 i)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) :
    out1_A_9 c i a1 h1 a2 h2 a3 h3 a4 h4 a5 h5 a6 h6 a7 h7 a8 h8 a9 h9 a10 h10 hc x0 x1 x2 x3 x4 x5 x6 = k1_pay2 (k1_pay3 x3 x2 x0 x1 x4 x5 x6) (k1_pay5 (F := F)) := by
  unfold out1_A_9
  rw [View.read_writes_eq_canon _ _ _ (cover1_A_9 c i a1 h1 a2 h2 a3 h3 a4 h4 a5 h5 a6 h6 a7 h7 a8 h8 a9 h9 a10 h10 hc x0 x1 x2 x3 x4 x5 x6)]
  unfold kernelRun1_A
  dsimp only
  try sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread, h7.read_unread, View.ld_unit_zero (S := S5000x128) hz,
    View.ld_unit_zero (S := S128x128) hz, View.ld_unit_zero (S := S1x128) hz]

theorem outB7 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond1_0 i)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out1_B_7 c i a1 h1 a2 h2 a3 h3 a4 h4 a5 h5 a6 h6 a7 h7 a8 h8 a9 h9 a10 h10 hc x0 x1 x2 x3 x4 x5 x6 xo8 xo9 = (k1_pay3 x3 x2 x0 x1 x4 x5 x6) := by
  unfold out1_B_7
  rw [View.read_writes_eq_canon _ _ _ (cover1_B_7 c i a1 h1 a2 h2 a3 h3 a4 h4 a5 h5 a6 h6 a7 h7 a8 h8 a9 h9 a10 h10 hc x0 x1 x2 x3 x4 x5 x6 xo8 xo9)]
  unfold kernelRun1_B
  dsimp only
  try sl_unfold_words
  rw [View.canon_unit_zero hz]
  simp only [View.readAt_eq_ld, h1.read_unread, h2.read_unread, h3.read_unread, h4.read_unread, h5.read_unread, h6.read_unread, h7.read_unread, View.ld_unit_zero (S := S5000x128) hz,
    View.ld_unit_zero (S := S128x128) hz, View.ld_unit_zero (S := S1x128) hz]

theorem outB8 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond1_0 i)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out1_B_8 c i a1 h1 a2 h2 a3 h3 a4 h4 a5 h5 a6 h6 a7 h7 a8 h8 a9 h9 a10 h10 hc x0 x1 x2 x3 x4 x5 x6 xo8 xo9 = k1_pay1 (k1_pay3 x3 x2 x0 x1 x4 x5 x6) xo8 := by
  unfold out1_B_8
  rw [View.read_writes_eq_canon _ _ _ (cover1_B_8 c i a1 h1 a2 h2 a3 h3 a4 h4 a5 h5 a6 h6 a7 h7 a8 h8 a9 h9 a10 h10 hc x0 x1 x2 x3 x4 x5 x6 xo8 xo9)]
  unfold kernelRun1_B
  dsimp only
  try sl_unfold_words
  rw [View.canon_unit_zero hz]
  simp only [View.readAt_eq_ld, h1.read_unread, h2.read_unread, h3.read_unread, h4.read_unread, h5.read_unread, h6.read_unread, h7.read_unread, h9.read_unread, View.ld_unit_zero (S := S5000x128) hz,
    View.ld_unit_zero (S := S128x128) hz, View.ld_unit_zero (S := S1x128) hz]

theorem outB9 (c : Dev nD) (i : grid1.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S1x128 .f32) (h9 : a9.IsWhole) (a10 : Memref sig .tc .vmem S1x128 .f32) (h10 : a10.IsWhole) (hc : ¬cond1_0 i)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (xo8 : Vec F S1x128 .f32) (xo9 : Vec F S1x128 .f32) :
    out1_B_9 c i a1 h1 a2 h2 a3 h3 a4 h4 a5 h5 a6 h6 a7 h7 a8 h8 a9 h9 a10 h10 hc x0 x1 x2 x3 x4 x5 x6 xo8 xo9 = k1_pay2 (k1_pay3 x3 x2 x0 x1 x4 x5 x6) xo9 := by
  unfold out1_B_9
  rw [View.read_writes_eq_canon _ _ _ (cover1_B_9 c i a1 h1 a2 h2 a3 h3 a4 h4 a5 h5 a6 h6 a7 h7 a8 h8 a9 h9 a10 h10 hc x0 x1 x2 x3 x4 x5 x6 xo8 xo9)]
  unfold kernelRun1_B
  dsimp only
  try sl_unfold_words
  rw [View.canon_unit_zero hz]
  simp only [View.readAt_eq_ld, h1.read_unread, h2.read_unread, h3.read_unread, h4.read_unread, h5.read_unread, h6.read_unread, h7.read_unread, h10.read_unread, View.ld_unit_zero (S := S5000x128) hz,
    View.ld_unit_zero (S := S128x128) hz, View.ld_unit_zero (S := S1x128) hz]

end Pieces

/-! ## The three output arrays after the ten blocks -/

section Value

variable (V : (c : Dev nD) → (b : Ref sig .tc) → Buf (Elt Ideal) ((c : Thread nD τ).loc b)) (c : Dev nD)

/-- The input rows, the column means and variances, the scale and shift rows, the weights and the bias row as the
    region finds them. -/
abbrev X : Mat 50000 128 := V c (Pipeline.arrRef spec1 0)
abbrev Mean : Mat 1 128 := V c (Pipeline.arrRef spec1 1)
abbrev Var : Mat 1 128 := V c (Pipeline.arrRef spec1 2)
abbrev G : Mat 1 128 := V c (Pipeline.arrRef spec1 3)
abbrev Be : Mat 1 128 := V c (Pipeline.arrRef spec1 4)
abbrev Wt : Mat 128 128 := V c (Pipeline.arrRef spec1 5)
abbrev B : Mat 1 128 := V c (Pipeline.arrRef spec1 6)

/-- Where the blocks sit: block `t` of the rows and of the layer's output starts at row `5000 t`; the four statistics
    and scale rows, the weights, the bias row and the two running rows are whole arrays, at offset zero. -/
theorem idx_tiled : ∀ t : Fin cfg1.N,
    win1_0.index t (0 : Fin 2) = t.val ∧ win1_0.index t (1 : Fin 2) = 0
    ∧ win1_7.index t (0 : Fin 2) = t.val ∧ win1_7.index t (1 : Fin 2) = 0 :=
  (by decide +kernel : ∀ t : Fin grid1.N, _)
theorem idx_w1 : ∀ t : Fin cfg1.N, win1_1.index t (0 : Fin 2) = 0 ∧ win1_1.index t (1 : Fin 2) = 0 :=
  (by decide +kernel : ∀ t : Fin grid1.N, _)
theorem idx_w2 : ∀ t : Fin cfg1.N, win1_2.index t (0 : Fin 2) = 0 ∧ win1_2.index t (1 : Fin 2) = 0 :=
  (by decide +kernel : ∀ t : Fin grid1.N, _)
theorem idx_w3 : ∀ t : Fin cfg1.N, win1_3.index t (0 : Fin 2) = 0 ∧ win1_3.index t (1 : Fin 2) = 0 :=
  (by decide +kernel : ∀ t : Fin grid1.N, _)
theorem idx_w4 : ∀ t : Fin cfg1.N, win1_4.index t (0 : Fin 2) = 0 ∧ win1_4.index t (1 : Fin 2) = 0 :=
  (by decide +kernel : ∀ t : Fin grid1.N, _)
theorem idx_w5 : ∀ t : Fin cfg1.N, win1_5.index t (0 : Fin 2) = 0 ∧ win1_5.index t (1 : Fin 2) = 0 :=
  (by decide +kernel : ∀ t : Fin grid1.N, _)
theorem idx_w6 : ∀ t : Fin cfg1.N, win1_6.index t (0 : Fin 2) = 0 ∧ win1_6.index t (1 : Fin 2) = 0 :=
  (by decide +kernel : ∀ t : Fin grid1.N, _)
theorem idx_w8 : ∀ t : Fin cfg1.N, win1_8.index t (0 : Fin 2) = 0 ∧ win1_8.index t (1 : Fin 2) = 0 :=
  (by decide +kernel : ∀ t : Fin grid1.N, _)
theorem idx_w9 : ∀ t : Fin cfg1.N, win1_9.index t (0 : Fin 2) = 0 ∧ win1_9.index t (1 : Fin 2) = 0 :=
  (by decide +kernel : ∀ t : Fin grid1.N, _)

/-- Row `r` of block `t` of the input is row `5000 t + r` of the array. -/
theorem blk_x (t : Fin cfg1.N) (r : Fin 5000) (κ : Fin 128) (a : Fin 50000) (ha : a.val = t.val * 5000 + r.val) :
    (iblk1 V c 0 t : Vec Ideal S5000x128 .f32) (ix2 r κ) = X V c (ix2 a κ) := by
  obtain ⟨e0, e1, -⟩ := idx_tiled t
  unfold iblk1
  rw [View.read_apply]
  show V c (Pipeline.arrRef spec1 0) _ = V c (Pipeline.arrRef spec1 0) _
  congr 1
  funext ax
  apply Fin.ext
  match ax with
  | ⟨0, _⟩ => show win1_0.index t (0 : Fin 2) * 5000 + 1 * r.val = a.val; rw [e0, ha]; omega
  | ⟨1, _⟩ => show win1_0.index t (1 : Fin 2) * 128 + 1 * κ.val = κ.val; rw [e1]; omega

/-- The means' block is the whole row. -/
theorem blk_mean (t : Fin cfg1.N) (q : Fin 128) :
    (iblk1 V c 1 t : Vec Ideal S1x128 .f32) (ix2 (0 : Fin 1) q) = Mean V c (ix2 (0 : Fin 1) q) := by
  obtain ⟨e0, e1⟩ := idx_w1 t
  unfold iblk1
  rw [View.read_apply]
  show V c (Pipeline.arrRef spec1 1) _ = V c (Pipeline.arrRef spec1 1) _
  congr 1
  funext ax
  apply Fin.ext
  match ax with
  | ⟨0, _⟩ => show win1_1.index t (0 : Fin 2) * 1 + 1 * 0 = 0; rw [e0]
  | ⟨1, _⟩ => show win1_1.index t (1 : Fin 2) * 128 + 1 * q.val = q.val; rw [e1]; omega

/-- The variances' block is the whole row. -/
theorem blk_var (t : Fin cfg1.N) (q : Fin 128) :
    (iblk1 V c 2 t : Vec Ideal S1x128 .f32) (ix2 (0 : Fin 1) q) = Var V c (ix2 (0 : Fin 1) q) := by
  obtain ⟨e0, e1⟩ := idx_w2 t
  unfold iblk1
  rw [View.read_apply]
  show V c (Pipeline.arrRef spec1 2) _ = V c (Pipeline.arrRef spec1 2) _
  congr 1
  funext ax
  apply Fin.ext
  match ax with
  | ⟨0, _⟩ => show win1_2.index t (0 : Fin 2) * 1 + 1 * 0 = 0; rw [e0]
  | ⟨1, _⟩ => show win1_2.index t (1 : Fin 2) * 128 + 1 * q.val = q.val; rw [e1]; omega

/-- The scale row's block is the whole row. -/
theorem blk_g (t : Fin cfg1.N) (q : Fin 128) :
    (iblk1 V c 3 t : Vec Ideal S1x128 .f32) (ix2 (0 : Fin 1) q) = G V c (ix2 (0 : Fin 1) q) := by
  obtain ⟨e0, e1⟩ := idx_w3 t
  unfold iblk1
  rw [View.read_apply]
  show V c (Pipeline.arrRef spec1 3) _ = V c (Pipeline.arrRef spec1 3) _
  congr 1
  funext ax
  apply Fin.ext
  match ax with
  | ⟨0, _⟩ => show win1_3.index t (0 : Fin 2) * 1 + 1 * 0 = 0; rw [e0]
  | ⟨1, _⟩ => show win1_3.index t (1 : Fin 2) * 128 + 1 * q.val = q.val; rw [e1]; omega

/-- The shift row's block is the whole row. -/
theorem blk_be (t : Fin cfg1.N) (q : Fin 128) :
    (iblk1 V c 4 t : Vec Ideal S1x128 .f32) (ix2 (0 : Fin 1) q) = Be V c (ix2 (0 : Fin 1) q) := by
  obtain ⟨e0, e1⟩ := idx_w4 t
  unfold iblk1
  rw [View.read_apply]
  show V c (Pipeline.arrRef spec1 4) _ = V c (Pipeline.arrRef spec1 4) _
  congr 1
  funext ax
  apply Fin.ext
  match ax with
  | ⟨0, _⟩ => show win1_4.index t (0 : Fin 2) * 1 + 1 * 0 = 0; rw [e0]
  | ⟨1, _⟩ => show win1_4.index t (1 : Fin 2) * 128 + 1 * q.val = q.val; rw [e1]; omega

/-- The weights' block is the whole array. -/
theorem blk_w (t : Fin cfg1.N) (κ q : Fin 128) :
    (iblk1 V c 5 t : Vec Ideal S128x128 .f32) (ix2 κ q) = Wt V c (ix2 κ q) := by
  obtain ⟨e0, e1⟩ := idx_w5 t
  unfold iblk1
  rw [View.read_apply]
  show V c (Pipeline.arrRef spec1 5) _ = V c (Pipeline.arrRef spec1 5) _
  congr 1
  funext ax
  apply Fin.ext
  match ax with
  | ⟨0, _⟩ => show win1_5.index t (0 : Fin 2) * 128 + 1 * κ.val = κ.val; rw [e0]; omega
  | ⟨1, _⟩ => show win1_5.index t (1 : Fin 2) * 128 + 1 * q.val = q.val; rw [e1]; omega

/-- The bias row's block is the whole row. -/
theorem blk_b (t : Fin cfg1.N) (q : Fin 128) :
    (iblk1 V c 6 t : Vec Ideal S1x128 .f32) (ix2 (0 : Fin 1) q) = B V c (ix2 (0 : Fin 1) q) := by
  obtain ⟨e0, e1⟩ := idx_w6 t
  unfold iblk1
  rw [View.read_apply]
  show V c (Pipeline.arrRef spec1 6) _ = V c (Pipeline.arrRef spec1 6) _
  congr 1
  funext ax
  apply Fin.ext
  match ax with
  | ⟨0, _⟩ => show win1_6.index t (0 : Fin 2) * 1 + 1 * 0 = 0; rw [e0]
  | ⟨1, _⟩ => show win1_6.index t (1 : Fin 2) * 128 + 1 * q.val = q.val; rw [e1]; omega

/-- The first point: the layer's block, and the two statistics rows started from the zero row. -/
theorem outs_A (t : Fin cfg1.N) (h0 : t.val % 10 = 0) :
    outsAt1 V c t.val t.isLt
      = (k1_pay3 (F := Ideal) (iblk1 V c 3 t) (iblk1 V c 2 t) (iblk1 V c 0 t) (iblk1 V c 1 t) (iblk1 V c 4 t) (iblk1 V c 5 t) (iblk1 V c 6 t), k1_pay1 (k1_pay3 (F := Ideal) (iblk1 V c 3 t) (iblk1 V c 2 t) (iblk1 V c 0 t) (iblk1 V c 1 t) (iblk1 V c 4 t) (iblk1 V c 5 t) (iblk1 V c 6 t)) (k1_pay4 (F := Ideal)),
          k1_pay2 (k1_pay3 (F := Ideal) (iblk1 V c 3 t) (iblk1 V c 2 t) (iblk1 V c 0 t) (iblk1 V c 1 t) (iblk1 V c 4 t) (iblk1 V c 5 t) (iblk1 V c 6 t)) (k1_pay5 (F := Ideal))) := by
  rw [outsAt1_A V c t h0,
    outA7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t),
    outA8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t),
    outA9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)]

/-- A later point: the layer's block, and the two statistics rows continued from what the point before left. -/
theorem outs_B (t : Fin cfg1.N) (h0 : ¬t.val % 10 = 0) :
    outsAt1 V c t.val t.isLt
      = (k1_pay3 (F := Ideal) (iblk1 V c 3 t) (iblk1 V c 2 t) (iblk1 V c 0 t) (iblk1 V c 1 t) (iblk1 V c 4 t) (iblk1 V c 5 t) (iblk1 V c 6 t), k1_pay1 (k1_pay3 (F := Ideal) (iblk1 V c 3 t) (iblk1 V c 2 t) (iblk1 V c 0 t) (iblk1 V c 1 t) (iblk1 V c 4 t) (iblk1 V c 5 t) (iblk1 V c 6 t)) (outsAt1 V c (t.val - 1) (Nat.lt_of_le_of_lt (Nat.sub_le _ _) t.isLt)).2.1,
          k1_pay2 (k1_pay3 (F := Ideal) (iblk1 V c 3 t) (iblk1 V c 2 t) (iblk1 V c 0 t) (iblk1 V c 1 t) (iblk1 V c 4 t) (iblk1 V c 5 t) (iblk1 V c 6 t)) (outsAt1 V c (t.val - 1) (Nat.lt_of_le_of_lt (Nat.sub_le _ _) t.isLt)).2.2) := by
  rw [outsAt1_B V c t h0,
    outB7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
    outB8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2,
    outB9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2]

/-- At every point the first output's buffer holds the layer's block. -/
theorem outs_z (t : Fin cfg1.N) :
    (outsAt1 V c t.val t.isLt).1 = k1_pay3 (F := Ideal) (iblk1 V c 3 t) (iblk1 V c 2 t) (iblk1 V c 0 t) (iblk1 V c 1 t) (iblk1 V c 4 t) (iblk1 V c 5 t) (iblk1 V c 6 t) := by
  by_cases h0 : t.val % 10 = 0
  · rw [outs_A V c t h0]
  · rw [outs_B V c t h0]

/-- An entry of block `t` of the layer is the entry of the whole layer `5000 t` rows further down. -/
theorem z_block (t : Fin cfg1.N) (y : S5000x128.Idx) (i : S50000x128.Idx)
    (hi0 : (i 0).val = t.val * 5000 + (y 0).val) (hi1 : (i 1).val = (y 1).val) :
    k1_pay3 (F := Ideal) (iblk1 V c 3 t) (iblk1 V c 2 t) (iblk1 V c 0 t) (iblk1 V c 1 t) (iblk1 V c 4 t) (iblk1 V c 5 t) (iblk1 V c 6 t) y = (lin (relu (norm (X V c) (Mean V c) (Var V c) (G V c) (Be V c))) (Wt V c) (B V c)) i := by
  obtain ⟨r, q, rfl⟩ : ∃ (r : Fin 5000) (q : Fin 128), y = ix2 r q := ⟨y 0, y 1, eq_ix2 y⟩
  obtain ⟨a, b, rfl⟩ : ∃ (a : Fin 50000) (b : Fin 128), i = ix2 a b := ⟨i 0, i 1, eq_ix2 i⟩
  obtain rfl : b = q := Fin.ext hi1
  exact z_entry (X V c) (Mean V c) (Var V c) (G V c) (Be V c) (Wt V c) (B V c) (iblk1 V c 0 t) (iblk1 V c 1 t) (iblk1 V c 2 t) (iblk1 V c 3 t) (iblk1 V c 4 t) (iblk1 V c 5 t) (iblk1 V c 6 t) r b a
    (fun κ => blk_x V c t r κ a hi0) (fun κ => blk_mean V c t κ) (fun κ => blk_var V c t κ) (fun κ => blk_g V c t κ)
    (fun κ => blk_be V c t κ) (fun κ => blk_w V c t κ b) (blk_b V c t b)

/-- What point `t` writes back to the first output is block `t` of the whole layer. -/
theorem flushed_z (t : Fin cfg1.N) (hf : (cfg1.win 7).flush t = true) :
    (dat1 (F := Ideal) V c).flushed 7 t = ((cfg1.win 7).blk t).view.read (Elt Ideal) (lin (relu (norm (X V c) (Mean V c) (Var V c) (G V c) (Be V c))) (Wt V c) (B V c)) := by
  show (cfg1.win 7).cut (grid1.coords t) ((dat1 (F := Ideal) V c).after 7 t) = _
  rw [after1_7, outs_z V c t]
  obtain ⟨-, -, e0, e1⟩ := idx_tiled t
  funext y
  rw [View.read_apply]
  show k1_pay3 (F := Ideal) (iblk1 V c 3 t) (iblk1 V c 2 t) (iblk1 V c 0 t) (iblk1 V c 1 t) (iblk1 V c 4 t) (iblk1 V c 5 t) (iblk1 V c 6 t) y = (lin (relu (norm (X V c) (Mean V c) (Var V c) (G V c) (Be V c))) (Wt V c) (B V c)) (((cfg1.win 7).blk t).view.emb y)
  refine z_block V c t y _ ?_ ?_
  · show win1_7.index t (0 : Fin 2) * 5000 + 1 * (y 0).val = t.val * 5000 + (y 0).val; rw [e0]; omega
  · show win1_7.index t (1 : Fin 2) * 128 + 1 * (y 1).val = (y 1).val; rw [e1]; omega

/-- An entry of the first output lies in block `t` iff its row is among the block's 5000 rows. -/
theorem mem_blk_z (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v22_0).slice (win1_7.rect t)).set ↔ _
  rw [View.set_slice_whole, Rect.mem_set_unit]
  exact Iff.rfl

/-- Every row lies in a block: row `r` in block `r / 5000`. -/
theorem cover_z (i : S50000x128.Idx) :
    ∃ t : Fin cfg1.N, (cfg1.win 7).flush t = true ∧ i ∈ ((cfg1.win 7).blk t).view.set := by
  have hi0 : (i 0).val < 50000 := idx2_lt0 i
  have hi1 : (i 1).val < 128 := idx2_lt1 i
  have hN : cfg1.N = 10 := N_1
  have ht : (i 0).val / 5000 < cfg1.N := by rw [hN]; omega
  obtain ⟨-, -, e0, e1⟩ := idx_tiled ⟨(i 0).val / 5000, ht⟩
  refine ⟨⟨(i 0).val / 5000, ht⟩, flush1_7 _, ?_⟩
  rw [mem_blk_z]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [e0]; dsimp only; omega
  | ⟨1, _⟩ =>
    show win1_7.index ⟨(i 0).val / 5000, ht⟩ (1 : Fin 2) * 128 ≤ (i 1).val
      ∧ (i 1).val < win1_7.index ⟨(i 0).val / 5000, ht⟩ (1 : Fin 2) * 128 + 128
    rw [e1]; omega

/-- The first output array ends holding the whole linear layer. -/
theorem arr_z : (dat1 (F := Ideal) V c).arrAt 7 cfg1.N = (lin (relu (norm (X V c) (Mean V c) (Var V c) (G V c) (Be V c))) (Wt V c) (B V c)) :=
  (dat1 (F := Ideal) V c).arrAt_eq_of_cover 7 (lin (relu (norm (X V c) (Mean V c) (Var V c) (G V c) (Be V c))) (Wt V c) (B V c)) (fun t hf => flushed_z V c t hf) (cover_z)

/-- Column `q` of block `t`: the block's column sums are the whole layer's over rows `5000 t … 5000 t + 4999`. -/
theorem blk_sum (t : Fin cfg1.N) (q : Fin 128) (t' : Fin 10) (ht : t'.val = t.val) :
    (∑ r : Fin 5000, k1_pay3 (F := Ideal) (iblk1 V c 3 t) (iblk1 V c 2 t) (iblk1 V c 0 t) (iblk1 V c 1 t) (iblk1 V c 4 t) (iblk1 V c 5 t) (iblk1 V c 6 t) (ix2 r q))
      = blkSum (fun r => (lin (relu (norm (X V c) (Mean V c) (Var V c) (G V c) (Be V c))) (Wt V c) (B V c)) (ix2 r q)) t' := by
  unfold blkSum
  refine Finset.sum_congr rfl fun r _ => ?_
  have e := z_block V c t (ix2 r q) (ix2 (⟨t'.val * 5000 + r.val, Cert.Lib.blk_lt t' r⟩ : Fin 50000) q)
    (by show t'.val * 5000 + r.val = t.val * 5000 + r.val; rw [ht]) rfl
  rw [e]

/-- After point `n` the running row holds, at column `q`, the sum of the first `n + 1` blocks' column sums. -/
theorem sum_at (q : Fin 128) : ∀ (n : ℕ) (h : n < cfg1.N),
    (outsAt1 V c n h).2.1 (ix2 (0 : Fin 1) q)
      = ∑ t : Fin (n + 1), ∑ r : Fin 5000, k1_pay3 (F := Ideal) (iblk1 V c 3 ⟨t.val, lt_of_lt_of_le t.isLt h⟩) (iblk1 V c 2 ⟨t.val, lt_of_lt_of_le t.isLt h⟩) (iblk1 V c 0 ⟨t.val, lt_of_lt_of_le t.isLt h⟩) (iblk1 V c 1 ⟨t.val, lt_of_lt_of_le t.isLt h⟩) (iblk1 V c 4 ⟨t.val, lt_of_lt_of_le t.isLt h⟩) (iblk1 V c 5 ⟨t.val, lt_of_lt_of_le t.isLt h⟩) (iblk1 V c 6 ⟨t.val, lt_of_lt_of_le t.isLt h⟩) (ix2 r q) :=
  running_sum cfg1.N (fun t => ∑ r : Fin 5000, k1_pay3 (F := Ideal) (iblk1 V c 3 t) (iblk1 V c 2 t) (iblk1 V c 0 t) (iblk1 V c 1 t) (iblk1 V c 4 t) (iblk1 V c 5 t) (iblk1 V c 6 t) (ix2 r q))
    (fun n h => (outsAt1 V c n h).2.1 (ix2 (0 : Fin 1) q))
    (fun h => by
      show (outsAt1 V c (⟨0, h⟩ : Fin cfg1.N).val (⟨0, h⟩ : Fin cfg1.N).isLt).2.1 (ix2 (0 : Fin 1) q) = _
      rw [outs_A V c ⟨0, h⟩ (Nat.zero_mod 10)]
      refine (pay1_apply (k1_pay3 (F := Ideal) (iblk1 V c 3 ⟨0, h⟩) (iblk1 V c 2 ⟨0, h⟩) (iblk1 V c 0 ⟨0, h⟩) (iblk1 V c 1 ⟨0, h⟩) (iblk1 V c 4 ⟨0, h⟩) (iblk1 V c 5 ⟨0, h⟩) (iblk1 V c 6 ⟨0, h⟩)) (k1_pay4 (F := Ideal)) q).trans ?_
      rw [pay4_apply])
    (fun n h => by
      have hN : cfg1.N = 10 := N_1
      have hB : ¬(⟨n + 1, h⟩ : Fin cfg1.N).val % 10 = 0 := by dsimp only; omega
      show (outsAt1 V c (⟨n + 1, h⟩ : Fin cfg1.N).val (⟨n + 1, h⟩ : Fin cfg1.N).isLt).2.1 (ix2 (0 : Fin 1) q) = _
      rw [outs_B V c ⟨n + 1, h⟩ hB]
      exact pay1_apply (k1_pay3 (F := Ideal) (iblk1 V c 3 ⟨n + 1, h⟩) (iblk1 V c 2 ⟨n + 1, h⟩) (iblk1 V c 0 ⟨n + 1, h⟩) (iblk1 V c 1 ⟨n + 1, h⟩) (iblk1 V c 4 ⟨n + 1, h⟩) (iblk1 V c 5 ⟨n + 1, h⟩) (iblk1 V c 6 ⟨n + 1, h⟩)) (outsAt1 V c n (Nat.lt_of_succ_lt h)).2.1 q)

/-- After the last point the running row holds the whole column's column sums. -/
theorem sum_last (t : Fin cfg1.N) (ht : t.val = 9) (y i : S1x128.Idx) (hi : (i 1).val = (y 1).val) :
    (outsAt1 V c t.val t.isLt).2.1 y = colSum (lin (relu (norm (X V c) (Mean V c) (Var V c) (G V c) (Be V c))) (Wt V c) (B V c)) i := by
  obtain ⟨n, h9⟩ := t
  dsimp only at ht ⊢
  subst ht
  obtain ⟨u, q, rfl⟩ : ∃ (u : Fin 1) (q : Fin 128), y = ix2 u q := ⟨y 0, y 1, eq_ix2 y⟩
  obtain ⟨u', q', rfl⟩ : ∃ (u' : Fin 1) (q' : Fin 128), i = ix2 u' q' := ⟨i 0, i 1, eq_ix2 i⟩
  obtain rfl : q' = q := Fin.ext hi
  obtain rfl : u = 0 := Subsingleton.elim _ _
  rw [sum_at V c q' 9 h9]
  show _ = ∑ r : Fin 50000, (lin (relu (norm (X V c) (Mean V c) (Var V c) (G V c) (Be V c))) (Wt V c) (B V c)) (ix2 r q')
  rw [sum_rows_blocks (fun r => (lin (relu (norm (X V c) (Mean V c) (Var V c) (G V c) (Be V c))) (Wt V c) (B V c)) (ix2 r q'))]
  refine Finset.sum_congr rfl fun t _ => ?_
  exact blk_sum V c ⟨t.val, lt_of_lt_of_le t.isLt h9⟩ q' t rfl

/-- The one write-back of this row, at the last point, writes the whole column's column sums. -/
theorem flushed_sum (t : Fin cfg1.N) (hf : (cfg1.win 8).flush t = true) :
    (dat1 (F := Ideal) V c).flushed 8 t = ((cfg1.win 8).blk t).view.read (Elt Ideal) (colSum (lin (relu (norm (X V c) (Mean V c) (Var V c) (G V c) (Be V c))) (Wt V c) (B V c))) := by
  have hN : cfg1.N = 10 := N_1
  have h9 : t.val = 9 := by have := (flush1_8 t).mp hf; have := t.isLt; omega
  show (cfg1.win 8).cut (grid1.coords t) ((dat1 (F := Ideal) V c).after 8 t) = _
  rw [after1_8]
  have key := sum_last V c t h9
  generalize (outsAt1 V c t.val t.isLt).2.1 = acc at key ⊢
  generalize colSum (lin (relu (norm (X V c) (Mean V c) (Var V c) (G V c) (Be V c))) (Wt V c) (B V c)) = G at key ⊢
  obtain ⟨e0, e1⟩ := idx_w8 t
  funext y
  rw [View.read_apply]
  refine key y _ ?_
  show win1_8.index t (1 : Fin 2) * 128 + 1 * (y 1).val = (y 1).val
  rw [e1]; omega

/-- An entry of this row lies in the one block, the whole row. -/
theorem mem_blk_sum (t : Fin cfg1.N) (i : S1x128.Idx) :
    i ∈ ((cfg1.win 8).blk t).view.set ↔ ∀ a : Fin 2, win1_8.index t a * S1x128.size a ≤ (i a).val
      ∧ (i a).val < win1_8.index t a * S1x128.size a + S1x128.size a := by
  show i ∈ ((View.whole main_v22_1).slice (win1_8.rect t)).set ↔ _
  rw [View.set_slice_whole, Rect.mem_set_unit]
  exact Iff.rfl

theorem cover_sum (i : S1x128.Idx) :
    ∃ t : Fin cfg1.N, (cfg1.win 8).flush t = true ∧ i ∈ ((cfg1.win 8).blk t).view.set := by
  have hi0 : (i 0).val < 1 := idx2_lt0 i
  have hi1 : (i 1).val < 128 := idx2_lt1 i
  obtain ⟨e0, e1⟩ := idx_w8 t1_9
  refine ⟨t1_9, (flush1_8 t1_9).mpr rfl, ?_⟩
  rw [mem_blk_sum]
  intro a
  match a with
  | ⟨0, _⟩ =>
    show win1_8.index t1_9 (0 : Fin 2) * 1 ≤ (i 0).val ∧ (i 0).val < win1_8.index t1_9 (0 : Fin 2) * 1 + 1
    rw [e0]; omega
  | ⟨1, _⟩ =>
    show win1_8.index t1_9 (1 : Fin 2) * 128 ≤ (i 1).val ∧ (i 1).val < win1_8.index t1_9 (1 : Fin 2) * 128 + 128
    rw [e1]; omega

/-- The second output array ends holding the column sums of the whole linear layer. -/
theorem arr_sum : (dat1 (F := Ideal) V c).arrAt 8 cfg1.N = colSum (lin (relu (norm (X V c) (Mean V c) (Var V c) (G V c) (Be V c))) (Wt V c) (B V c)) :=
  (dat1 (F := Ideal) V c).arrAt_eq_of_cover 8 (colSum (lin (relu (norm (X V c) (Mean V c) (Var V c) (G V c) (Be V c))) (Wt V c) (B V c))) (fun t hf => flushed_sum V c t hf) (cover_sum)

/-- Column `q` of block `t`: the block's column sums of squares are the whole layer's over rows `5000 t … 5000 t + 4999`. -/
theorem blk_sumsq (t : Fin cfg1.N) (q : Fin 128) (t' : Fin 10) (ht : t'.val = t.val) :
    (∑ r : Fin 5000, k1_pay3 (F := Ideal) (iblk1 V c 3 t) (iblk1 V c 2 t) (iblk1 V c 0 t) (iblk1 V c 1 t) (iblk1 V c 4 t) (iblk1 V c 5 t) (iblk1 V c 6 t) (ix2 r q) * k1_pay3 (F := Ideal) (iblk1 V c 3 t) (iblk1 V c 2 t) (iblk1 V c 0 t) (iblk1 V c 1 t) (iblk1 V c 4 t) (iblk1 V c 5 t) (iblk1 V c 6 t) (ix2 r q))
      = blkSum (fun r => (lin (relu (norm (X V c) (Mean V c) (Var V c) (G V c) (Be V c))) (Wt V c) (B V c)) (ix2 r q) * (lin (relu (norm (X V c) (Mean V c) (Var V c) (G V c) (Be V c))) (Wt V c) (B V c)) (ix2 r q)) t' := by
  unfold blkSum
  refine Finset.sum_congr rfl fun r _ => ?_
  have e := z_block V c t (ix2 r q) (ix2 (⟨t'.val * 5000 + r.val, Cert.Lib.blk_lt t' r⟩ : Fin 50000) q)
    (by show t'.val * 5000 + r.val = t.val * 5000 + r.val; rw [ht]) rfl
  rw [e]

/-- After point `n` the running row holds, at column `q`, the sum of the first `n + 1` blocks' column sums of squares. -/
theorem sumsq_at (q : Fin 128) : ∀ (n : ℕ) (h : n < cfg1.N),
    (outsAt1 V c n h).2.2 (ix2 (0 : Fin 1) q)
      = ∑ t : Fin (n + 1), ∑ r : Fin 5000, k1_pay3 (F := Ideal) (iblk1 V c 3 ⟨t.val, lt_of_lt_of_le t.isLt h⟩) (iblk1 V c 2 ⟨t.val, lt_of_lt_of_le t.isLt h⟩) (iblk1 V c 0 ⟨t.val, lt_of_lt_of_le t.isLt h⟩) (iblk1 V c 1 ⟨t.val, lt_of_lt_of_le t.isLt h⟩) (iblk1 V c 4 ⟨t.val, lt_of_lt_of_le t.isLt h⟩) (iblk1 V c 5 ⟨t.val, lt_of_lt_of_le t.isLt h⟩) (iblk1 V c 6 ⟨t.val, lt_of_lt_of_le t.isLt h⟩) (ix2 r q) * k1_pay3 (F := Ideal) (iblk1 V c 3 ⟨t.val, lt_of_lt_of_le t.isLt h⟩) (iblk1 V c 2 ⟨t.val, lt_of_lt_of_le t.isLt h⟩) (iblk1 V c 0 ⟨t.val, lt_of_lt_of_le t.isLt h⟩) (iblk1 V c 1 ⟨t.val, lt_of_lt_of_le t.isLt h⟩) (iblk1 V c 4 ⟨t.val, lt_of_lt_of_le t.isLt h⟩) (iblk1 V c 5 ⟨t.val, lt_of_lt_of_le t.isLt h⟩) (iblk1 V c 6 ⟨t.val, lt_of_lt_of_le t.isLt h⟩) (ix2 r q) :=
  running_sum cfg1.N (fun t => ∑ r : Fin 5000, k1_pay3 (F := Ideal) (iblk1 V c 3 t) (iblk1 V c 2 t) (iblk1 V c 0 t) (iblk1 V c 1 t) (iblk1 V c 4 t) (iblk1 V c 5 t) (iblk1 V c 6 t) (ix2 r q) * k1_pay3 (F := Ideal) (iblk1 V c 3 t) (iblk1 V c 2 t) (iblk1 V c 0 t) (iblk1 V c 1 t) (iblk1 V c 4 t) (iblk1 V c 5 t) (iblk1 V c 6 t) (ix2 r q))
    (fun n h => (outsAt1 V c n h).2.2 (ix2 (0 : Fin 1) q))
    (fun h => by
      show (outsAt1 V c (⟨0, h⟩ : Fin cfg1.N).val (⟨0, h⟩ : Fin cfg1.N).isLt).2.2 (ix2 (0 : Fin 1) q) = _
      rw [outs_A V c ⟨0, h⟩ (Nat.zero_mod 10)]
      refine (pay2_apply (k1_pay3 (F := Ideal) (iblk1 V c 3 ⟨0, h⟩) (iblk1 V c 2 ⟨0, h⟩) (iblk1 V c 0 ⟨0, h⟩) (iblk1 V c 1 ⟨0, h⟩) (iblk1 V c 4 ⟨0, h⟩) (iblk1 V c 5 ⟨0, h⟩) (iblk1 V c 6 ⟨0, h⟩)) (k1_pay5 (F := Ideal)) q).trans ?_
      rw [pay5_apply])
    (fun n h => by
      have hN : cfg1.N = 10 := N_1
      have hB : ¬(⟨n + 1, h⟩ : Fin cfg1.N).val % 10 = 0 := by dsimp only; omega
      show (outsAt1 V c (⟨n + 1, h⟩ : Fin cfg1.N).val (⟨n + 1, h⟩ : Fin cfg1.N).isLt).2.2 (ix2 (0 : Fin 1) q) = _
      rw [outs_B V c ⟨n + 1, h⟩ hB]
      exact pay2_apply (k1_pay3 (F := Ideal) (iblk1 V c 3 ⟨n + 1, h⟩) (iblk1 V c 2 ⟨n + 1, h⟩) (iblk1 V c 0 ⟨n + 1, h⟩) (iblk1 V c 1 ⟨n + 1, h⟩) (iblk1 V c 4 ⟨n + 1, h⟩) (iblk1 V c 5 ⟨n + 1, h⟩) (iblk1 V c 6 ⟨n + 1, h⟩)) (outsAt1 V c n (Nat.lt_of_succ_lt h)).2.2 q)

/-- After the last point the running row holds the whole column's column sums of squares. -/
theorem sumsq_last (t : Fin cfg1.N) (ht : t.val = 9) (y i : S1x128.Idx) (hi : (i 1).val = (y 1).val) :
    (outsAt1 V c t.val t.isLt).2.2 y = colSumSq (lin (relu (norm (X V c) (Mean V c) (Var V c) (G V c) (Be V c))) (Wt V c) (B V c)) i := by
  obtain ⟨n, h9⟩ := t
  dsimp only at ht ⊢
  subst ht
  obtain ⟨u, q, rfl⟩ : ∃ (u : Fin 1) (q : Fin 128), y = ix2 u q := ⟨y 0, y 1, eq_ix2 y⟩
  obtain ⟨u', q', rfl⟩ : ∃ (u' : Fin 1) (q' : Fin 128), i = ix2 u' q' := ⟨i 0, i 1, eq_ix2 i⟩
  obtain rfl : q' = q := Fin.ext hi
  obtain rfl : u = 0 := Subsingleton.elim _ _
  rw [sumsq_at V c q' 9 h9]
  show _ = ∑ r : Fin 50000, (lin (relu (norm (X V c) (Mean V c) (Var V c) (G V c) (Be V c))) (Wt V c) (B V c)) (ix2 r q') * (lin (relu (norm (X V c) (Mean V c) (Var V c) (G V c) (Be V c))) (Wt V c) (B V c)) (ix2 r q')
  rw [sum_rows_blocks (fun r => (lin (relu (norm (X V c) (Mean V c) (Var V c) (G V c) (Be V c))) (Wt V c) (B V c)) (ix2 r q') * (lin (relu (norm (X V c) (Mean V c) (Var V c) (G V c) (Be V c))) (Wt V c) (B V c)) (ix2 r q'))]
  refine Finset.sum_congr rfl fun t _ => ?_
  exact blk_sumsq V c ⟨t.val, lt_of_lt_of_le t.isLt h9⟩ q' t rfl

/-- The one write-back of this row, at the last point, writes the whole column's column sums of squares. -/
theorem flushed_sumsq (t : Fin cfg1.N) (hf : (cfg1.win 9).flush t = true) :
    (dat1 (F := Ideal) V c).flushed 9 t = ((cfg1.win 9).blk t).view.read (Elt Ideal) (colSumSq (lin (relu (norm (X V c) (Mean V c) (Var V c) (G V c) (Be V c))) (Wt V c) (B V c))) := by
  have hN : cfg1.N = 10 := N_1
  have h9 : t.val = 9 := by have := (flush1_9 t).mp hf; have := t.isLt; omega
  show (cfg1.win 9).cut (grid1.coords t) ((dat1 (F := Ideal) V c).after 9 t) = _
  rw [after1_9]
  have key := sumsq_last V c t h9
  generalize (outsAt1 V c t.val t.isLt).2.2 = acc at key ⊢
  generalize colSumSq (lin (relu (norm (X V c) (Mean V c) (Var V c) (G V c) (Be V c))) (Wt V c) (B V c)) = G at key ⊢
  obtain ⟨e0, e1⟩ := idx_w9 t
  funext y
  rw [View.read_apply]
  refine key y _ ?_
  show win1_9.index t (1 : Fin 2) * 128 + 1 * (y 1).val = (y 1).val
  rw [e1]; omega

/-- An entry of this row lies in the one block, the whole row. -/
theorem mem_blk_sumsq (t : Fin cfg1.N) (i : S1x128.Idx) :
    i ∈ ((cfg1.win 9).blk t).view.set ↔ ∀ a : Fin 2, win1_9.index t a * S1x128.size a ≤ (i a).val
      ∧ (i a).val < win1_9.index t a * S1x128.size a + S1x128.size a := by
  show i ∈ ((View.whole main_v22_2).slice (win1_9.rect t)).set ↔ _
  rw [View.set_slice_whole, Rect.mem_set_unit]
  exact Iff.rfl

theorem cover_sumsq (i : S1x128.Idx) :
    ∃ t : Fin cfg1.N, (cfg1.win 9).flush t = true ∧ i ∈ ((cfg1.win 9).blk t).view.set := by
  have hi0 : (i 0).val < 1 := idx2_lt0 i
  have hi1 : (i 1).val < 128 := idx2_lt1 i
  obtain ⟨e0, e1⟩ := idx_w9 t1_9
  refine ⟨t1_9, (flush1_9 t1_9).mpr rfl, ?_⟩
  rw [mem_blk_sumsq]
  intro a
  match a with
  | ⟨0, _⟩ =>
    show win1_9.index t1_9 (0 : Fin 2) * 1 ≤ (i 0).val ∧ (i 0).val < win1_9.index t1_9 (0 : Fin 2) * 1 + 1
    rw [e0]; omega
  | ⟨1, _⟩ =>
    show win1_9.index t1_9 (1 : Fin 2) * 128 ≤ (i 1).val ∧ (i 1).val < win1_9.index t1_9 (1 : Fin 2) * 128 + 128
    rw [e1]; omega

/-- The third output array ends holding the column sums of the squares of the whole linear layer. -/
theorem arr_sumsq : (dat1 (F := Ideal) V c).arrAt 9 cfg1.N = colSumSq (lin (relu (norm (X V c) (Mean V c) (Var V c) (G V c) (Be V c))) (Wt V c) (B V c)) :=
  (dat1 (F := Ideal) V c).arrAt_eq_of_cover 9 (colSumSq (lin (relu (norm (X V c) (Mean V c) (Var V c) (G V c) (Be V c))) (Wt V c) (B V c))) (fun t hf => flushed_sumsq V c t hf) (cover_sumsq)

end Value

end Cert.KernelIdeal.Region1

end
-- ==== Proof.Region2.lean ====
/-
  The normalise-and-clip layer, read off its row tiles.

  The output array has 50000 rows of 128 entries, written in ten tiles of 5000 consecutive rows. Tile `t` is
  computed from rows `5000 t … 5000 t + 4999` of the input and from four single rows (the column means, the column
  variances, the scale and the shift), which every tile reads whole. Entry `(p, q)` of tile `t` is

      max ((x (5000 t + p, q) - mean q) * (g q * rsqrt (var q + eps)) + be q) 0,

  so the tiles are the restrictions of ONE function of the whole arrays, `relu (norm x mean var g be)`, and since
  every row lies in exactly the tile `row / 5000`, the array ends holding that function. Nothing here uses a law of
  arithmetic: both sides are the same expression, entry by entry.
-/
import proofs.«105059_j20856361189655_1_alg».proof.Proof.Spec
import proofs.«105059_j20856361189655_1_alg».proof.Proof.Gen.KernelIdeal.Frame
import Idealize.ShloMosaic.Lib.Pipeline.Value
import Idealize.ShloMosaic.Lib.ValueLayout
import Idealize.ShloMosaic.PureOps.Ideal.Laws

noncomputable section

namespace Cert.KernelIdeal.Region2

open Cert.KernelIdeal Cert.KernelIdeal.Gen Cert.Gin
open Idealize.ShloMosaic Idealize.ShloMosaic.TcCoe Idealize.ShloMosaic.ValueIdx Idealize.SL.Sem
open Idealize.ShloMosaic.Pipeline (Dat)
open Idealize.SL Idealize.SL.RA Idealize.SL.BI

variable (V : (c : Dev nD) → (b : Ref sig .tc) → Buf (Elt Ideal) ((c : Thread nD τ).loc b)) (c : Dev nD)

/-- The five arrays the layer reads, as it finds them: the rows to normalise, and the four single rows. -/
abbrev X : Mat 50000 128 := V c (Pipeline.arrRef spec2 0)
abbrev Mean : Mat 1 128 := V c (Pipeline.arrRef spec2 1)
abbrev Var : Mat 1 128 := V c (Pipeline.arrRef spec2 2)
abbrev G : Mat 1 128 := V c (Pipeline.arrRef spec2 3)
abbrev Be : Mat 1 128 := V c (Pipeline.arrRef spec2 4)

/-- What the output array ends holding: the normalised rows, clipped below at zero. -/
abbrev Out : Mat 50000 128 := relu (norm (X V c) (Mean V c) (Var V c) (G V c) (Be V c))

theorem hz : (![0, 0] : Fin 2 → Nat) = fun _ => 0 := funext fun a => by fin_cases a <;> rfl

/-- Two functions of a rank-2 index that agree at every pair of coordinates are equal. -/
theorem ext_ix2 {α : Type} {a b : Nat} {f g : (⟨2, ![a, b]⟩ : Shape).Idx → α}
    (h : ∀ (p : Fin a) (q : Fin b), f (ix2 p q) = g (ix2 p q)) : f = g :=
  funext fun j => by rw [eq_ix2 j]; exact h _ _

/-! ## One tile's entry -/

/-- Entry `(p, q)` of what the body stores, from the blocks it loads: the scale `g * rsqrt (var + eps)` is formed on
    the single rows, then each row of the tile is shifted by the mean, scaled, shifted by `be` and clipped at zero. -/
theorem pay_apply (g var : Vec Ideal S1x128 .f32) (x : Vec Ideal S5000x128 .f32) (mean be : Vec Ideal S1x128 .f32)
    (p : Fin 5000) (q : Fin 128) :
    k2_pay1 g var x mean be (ix2 p q)
      = max ((x (ix2 p q) - mean (ix2 0 q)) * (g (ix2 0 q) * Ideal.rsqrt (var (ix2 0 q) + eps)) + be (ix2 0 q)) 0 := by
  unfold k2_pay1
  simp only [maximumf_apply, addf_apply, mulf_apply, subf_apply, shapeCast_self, broadcastTo_1b_ab_apply, broadcast_apply]
  simp only [Ideal.ofBits_def, Ideal.ofBits_zero_f32]
  rfl

/-! ## Where each window's block sits in its array -/

/-- The tiled windows (the input rows and the output rows) are at block `(t, 0)` at point `t`; -/
theorem idx_x : ∀ t : Fin cfg2.N, win2_0.index t (0 : Fin 2) = t.val ∧ win2_0.index t (1 : Fin 2) = 0 :=
  (by decide +kernel : ∀ t : Fin grid2.N, _)
theorem idx_out : ∀ t : Fin cfg2.N, win2_5.index t (0 : Fin 2) = t.val ∧ win2_5.index t (1 : Fin 2) = 0 :=
  (by decide +kernel : ∀ t : Fin grid2.N, _)
/-- the four single rows stay at block `(0, 0)`. -/
theorem idx_mean : ∀ t : Fin cfg2.N, win2_1.index t (0 : Fin 2) = 0 ∧ win2_1.index t (1 : Fin 2) = 0 :=
  (by decide +kernel : ∀ t : Fin grid2.N, _)
theorem idx_var : ∀ t : Fin cfg2.N, win2_2.index t (0 : Fin 2) = 0 ∧ win2_2.index t (1 : Fin 2) = 0 :=
  (by decide +kernel : ∀ t : Fin grid2.N, _)
theorem idx_g : ∀ t : Fin cfg2.N, win2_3.index t (0 : Fin 2) = 0 ∧ win2_3.index t (1 : Fin 2) = 0 :=
  (by decide +kernel : ∀ t : Fin grid2.N, _)
theorem idx_be : ∀ t : Fin cfg2.N, win2_4.index t (0 : Fin 2) = 0 ∧ win2_4.index t (1 : Fin 2) = 0 :=
  (by decide +kernel : ∀ t : Fin grid2.N, _)

/-- Row `p` of the input block at point `t` is row `5000 t + p` of the input. -/
theorem iblk_x (t : Fin cfg2.N) (p : Fin 5000) (q : Fin 128) (r : Fin 50000) (hr : r.val = t.val * 5000 + p.val) :
    (iblk2 (F := Ideal) V c 0 t : Vec Ideal S5000x128 .f32) (ix2 p q) = X V c (ix2 r q) := by
  obtain ⟨e0, e1⟩ := idx_x t
  unfold iblk2
  rw [View.read_apply]
  show (X V c) _ = X V c (ix2 r q)
  refine congrArg (X V c) ?_
  funext a; apply Fin.ext
  match a with
  | ⟨0, _⟩ => show win2_0.index t (0 : Fin 2) * 5000 + 1 * p.val = r.val; rw [e0, hr]; omega
  | ⟨1, _⟩ => show win2_0.index t (1 : Fin 2) * 128 + 1 * q.val = q.val; rw [e1]; omega

/-- The block of the mean row is that row, whatever the tile. -/
theorem iblk_mean (t : Fin cfg2.N) (u : Fin 1) (q : Fin 128) :
    (iblk2 (F := Ideal) V c 1 t : Vec Ideal S1x128 .f32) (ix2 u q) = Mean V c (ix2 0 q) := by
  obtain ⟨e0, e1⟩ := idx_mean t
  unfold iblk2
  rw [View.read_apply]
  show (Mean V c) _ = Mean V c (ix2 0 q)
  refine congrArg (Mean V c) ?_
  funext a; apply Fin.ext
  match a with
  | ⟨0, _⟩ => show win2_1.index t (0 : Fin 2) * 1 + 1 * u.val = 0; rw [e0]; omega
  | ⟨1, _⟩ => show win2_1.index t (1 : Fin 2) * 128 + 1 * q.val = q.val; rw [e1]; omega

/-- The block of the variance row is that row, whatever the tile. -/
theorem iblk_var (t : Fin cfg2.N) (u : Fin 1) (q : Fin 128) :
    (iblk2 (F := Ideal) V c 2 t : Vec Ideal S1x128 .f32) (ix2 u q) = Var V c (ix2 0 q) := by
  obtain ⟨e0, e1⟩ := idx_var t
  unfold iblk2
  rw [View.read_apply]
  show (Var V c) _ = Var V c (ix2 0 q)
  refine congrArg (Var V c) ?_
  funext a; apply Fin.ext
  match a with
  | ⟨0, _⟩ => show win2_2.index t (0 : Fin 2) * 1 + 1 * u.val = 0; rw [e0]; omega
  | ⟨1, _⟩ => show win2_2.index t (1 : Fin 2) * 128 + 1 * q.val = q.val; rw [e1]; omega

/-- The block of the scale row is that row, whatever the tile. -/
theorem iblk_g (t : Fin cfg2.N) (u : Fin 1) (q : Fin 128) :
    (iblk2 (F := Ideal) V c 3 t : Vec Ideal S1x128 .f32) (ix2 u q) = G V c (ix2 0 q) := by
  obtain ⟨e0, e1⟩ := idx_g t
  unfold iblk2
  rw [View.read_apply]
  show (G V c) _ = G V c (ix2 0 q)
  refine congrArg (G V c) ?_
  funext a; apply Fin.ext
  match a with
  | ⟨0, _⟩ => show win2_3.index t (0 : Fin 2) * 1 + 1 * u.val = 0; rw [e0]; omega
  | ⟨1, _⟩ => show win2_3.index t (1 : Fin 2) * 128 + 1 * q.val = q.val; rw [e1]; omega

/-- The block of the shift row is that row, whatever the tile. -/
theorem iblk_be (t : Fin cfg2.N) (u : Fin 1) (q : Fin 128) :
    (iblk2 (F := Ideal) V c 4 t : Vec Ideal S1x128 .f32) (ix2 u q) = Be V c (ix2 0 q) := by
  obtain ⟨e0, e1⟩ := idx_be t
  unfold iblk2
  rw [View.read_apply]
  show (Be V c) _ = Be V c (ix2 0 q)
  refine congrArg (Be V c) ?_
  funext a; apply Fin.ext
  match a with
  | ⟨0, _⟩ => show win2_4.index t (0 : Fin 2) * 1 + 1 * u.val = 0; rw [e0]; omega
  | ⟨1, _⟩ => show win2_4.index t (1 : Fin 2) * 128 + 1 * q.val = q.val; rw [e1]; omega

/-! ## What a point writes back, and the whole array -/

/-- WHAT POINT `t` WRITES BACK is tile `t` of `Out`: rows `5000 t … 5000 t + 4999`. -/
theorem flushed_eq (t : Fin cfg2.N) :
    (dat2 (F := Ideal) V c).flushed 5 t = ((cfg2.win 5).blk t).view.read (Elt Ideal) (Out V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  refine ext_ix2 (a := 5000) (b := 128) fun p q => ?_
  have hN : t.val < 10 := lt_of_lt_of_eq t.isLt (show cfg2.N = 10 from N_2)
  have hb : t.val * 5000 + p.val < 50000 := by have := p.isLt; omega
  obtain ⟨e0, e1⟩ := idx_out t
  have hemb : ((cfg2.win 5).blk t).view.emb (ix2 p q) = ix2 (⟨t.val * 5000 + p.val, hb⟩ : Fin 50000) q := by
    funext a; apply Fin.ext
    match a with
    | ⟨0, _⟩ => show win2_5.index t (0 : Fin 2) * 5000 + 1 * p.val = t.val * 5000 + p.val; rw [e0]; omega
    | ⟨1, _⟩ => show win2_5.index t (1 : Fin 2) * 128 + 1 * q.val = q.val; rw [e1]; omega
  rw [View.read_apply, hemb]
  show k2_pay1 (iblk2 V c 3 t) (iblk2 V c 2 t) (iblk2 V c 0 t) (iblk2 V c 1 t) (iblk2 V c 4 t) (ix2 p q) = _
  refine (pay_apply (iblk2 V c 3 t) (iblk2 V c 2 t) (iblk2 V c 0 t) (iblk2 V c 1 t) (iblk2 V c 4 t) p q).trans ?_
  rw [iblk_x V c t p q ⟨t.val * 5000 + p.val, hb⟩ rfl, iblk_mean V c t 0 q, iblk_var V c t 0 q, iblk_g V c t 0 q,
    iblk_be V c t 0 q]
  rfl

/-- An index of the array is in point `t`'s tile iff each coordinate is in the tile's range on its axis. -/
theorem mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v31).slice (win2_5.rect t)).set ↔ _
  rw [View.set_slice_whole, Rect.mem_set_unit]
  exact Iff.rfl

/-- Every row is in a tile: row `r` in tile `r / 5000`. -/
theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨e0, e1⟩ := idx_out ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e1]; omega

/-- THE ARRAY after the region: the normalised rows, clipped at zero. -/
theorem arr_out : (dat2 (F := Ideal) V c).arrAt 5 cfg2.N = relu (norm (X V c) (Mean V c) (Var V c) (G V c) (Be V c)) :=
  (dat2 V c).arrAt_eq_of_cover 5 (Out V c) (fun t _ => flushed_eq V c t) (cover)

end Cert.KernelIdeal.Region2

end
-- ==== Proof.Region3.lean ====
/-
  The linear layer with its column statistics, read off the grid of row blocks: the layer's second use, on its own
  input, weight, bias and output arrays.

  The rows of `x` are cut into ten blocks of 5000. At each block the body forms `z = x · w + b` for the block's rows
  (a product of the block against the whole weight array, row by column, plus the bias row), stores it as the block of
  the first output, and adds the block's column sums of `z` and of `z * z` to two running rows, which the first block
  starts from the zero row. Over the extended reals a change of float format is the identity and the product's
  accumulator is zero, so an entry of the block is the entry of the whole layer 5000 · t rows further down; and since
  addition there is commutative and associative with no side condition, the running rows after the last block are
  the column sums over all 50000 rows: `((0 + s₀) + s₁) + … + s₉` is regrouped, nothing is cancelled or distributed.

  So after the ten blocks the three output arrays hold `lin x w b`, `colSum (lin x w b)` and `colSumSq (lin x w b)`,
  whatever the three input arrays hold.
-/
import proofs.«105059_j20856361189655_1_alg».proof.Proof.Gen.KernelIdeal.Frame
import proofs.«105059_j20856361189655_1_alg».proof.Proof.Spec
import proofs.«105059_j20856361189655_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Gin

/-! ## The body's arithmetic, read at one entry over the extended reals -/

/-- The block product's dimension numbers: rows by the one contracted axis, contracted axis by columns. -/
abbrev D0 : DotDims S5000x128 S128x128 S5000x128 := dot_S5000x128_S128x128_S5000x128_1_0_0_1_n_n

/-- The left operand's row is the output's row, whatever the contraction position. -/
theorem lhs_row (i : S5000x128.Idx) (k : D0.contr.Idx) : (D0.lhsIdx i k 0).val = (i 0).val := by
  unfold DotDims.lhsIdx
  rw [dif_neg (show ¬(0 : Fin S5000x128.rank) ∈ D0.lhsBatch by decide),
    dif_pos (show (0 : Fin S5000x128.rank) ∈ D0.lhsNonContracting by decide)]
  rfl

/-- The right operand's column is the output's column, whatever the contraction position. -/
theorem rhs_col (i : S5000x128.Idx) (k : D0.contr.Idx) : (D0.rhsIdx i k 1).val = (i 1).val := by
  unfold DotDims.rhsIdx
  rw [dif_neg (show ¬(1 : Fin S128x128.rank) ∈ D0.rhsBatch by decide),
    dif_pos (show (1 : Fin S128x128.rank) ∈ D0.rhsNonContracting by decide)]
  rfl

/-- The block product read at an entry: row `r` of the left block against column `q` of the right one. -/
theorem mm_apply (a : FVec Ideal S5000x128 .bf16) (b : FVec Ideal S128x128 .bf16) (r : Fin 5000) (q : Fin 128) :
    matmul dot_S5000x128_S128x128_S5000x128_1_0_0_1_n_n none a b (constant (F := Ideal) S5000x128 .f32 0x00000000#32) (ix2 r q)
      = ∑ κ : Fin 128, a (ix2 r κ) * b (ix2 κ q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q)
      ((contrEquiv1 dot_S5000x128_S128x128_S5000x128_1_0_0_1_n_n 128 rfl rfl).symm k) = ix2 r k :=
    funext fun ax => Fin.ext (by
      match ax with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 r q)
      ((contrEquiv1 dot_S5000x128_S128x128_S5000x128_1_0_0_1_n_n 128 rfl rfl).symm k) = ix2 k q :=
    funext fun ax => Fin.ext (by
      match ax with
      | ⟨0, _⟩ => exact (dot_S5000x128_S128x128_S5000x128_1_0_0_1_n_n.rhsIdx_val_of_single rfl _ _).trans hk
      | ⟨1, _⟩ => exact rhs_col _ _)
  rw [el, er]

/-- The linear layer's block at an entry. -/
theorem pay1_apply (x0 : Vec Ideal S5000x128 .f32) (x1 : Vec Ideal S128x128 .f32) (x2 : Vec Ideal S1x128 .f32)
    (r : Fin 5000) (q : Fin 128) :
    k3_pay1 (F := Ideal) x0 x1 x2 (ix2 r q) = (∑ κ : Fin 128, x0 (ix2 r κ) * x1 (ix2 κ q)) + x2 (ix2 (0 : Fin 1) q) := by
  unfold k3_pay1
  rw [addf_apply]
  refine congrArg₂ (· + ·) ?_ ?_
  · refine (mm_apply _ _ r q).trans ?_
    refine Finset.sum_congr rfl fun κ _ => ?_
    rw [truncf_apply, truncf_apply, shapeCast_self]
  · rw [shapeCast_self]
    exact broadcastTo_1b_ab_apply x2 broadcasts_S1x128_S5000x128 r q

/-- A sum over the rows of a block, read at a column. -/
theorem rowsum_apply (src : FVec Ideal S5000x128 .f32) (q : Fin 128) :
    shapeCast S1x128 (multiReduction .add [0] S128 src 0x00000000#32 reduces_S5000x128_S128 (.inl rfl) rfl) shapeCasts_S128_S1x128
      (ix2 (0 : Fin 1) q) = ∑ r : Fin 5000, src (ix2 r q) := by
  refine (shapeCast_a_1a_apply _ shapeCasts_S128_S1x128 0 q).trans ?_
  refine (Ideal.multiReduction_add_single src 0x00000000#32 reduces_S5000x128_S128 (.inl rfl) rfl (ix1 q)).trans ?_
  refine Finset.sum_congr rfl fun k _ => congrArg src ?_
  funext ax
  match ax with
  | ⟨0, _⟩ => rfl
  | ⟨1, _⟩ => rfl

/-- The running column sum after a block: what it held plus the block's column sum. -/
theorem pay4_apply (x0 : Vec Ideal S5000x128 .f32) (x1 : Vec Ideal S128x128 .f32) (x2 : Vec Ideal S1x128 .f32)
    (acc : Vec Ideal S1x128 .f32) (q : Fin 128) :
    k3_pay4 (F := Ideal) x0 x1 x2 acc (ix2 (0 : Fin 1) q)
      = acc (ix2 (0 : Fin 1) q) + ∑ r : Fin 5000, k3_pay1 (F := Ideal) x0 x1 x2 (ix2 r q) := by
  unfold k3_pay4
  rw [addf_apply, shapeCast_self]
  exact congrArg (acc (ix2 (0 : Fin 1) q) + ·) (rowsum_apply _ q)

/-- The running column sum of squares after a block. -/
theorem pay5_apply (x0 : Vec Ideal S5000x128 .f32) (x1 : Vec Ideal S128x128 .f32) (x2 : Vec Ideal S1x128 .f32)
    (acc : Vec Ideal S1x128 .f32) (q : Fin 128) :
    k3_pay5 (F := Ideal) x0 x1 x2 acc (ix2 (0 : Fin 1) q)
      = acc (ix2 (0 : Fin 1) q) + ∑ r : Fin 5000, k3_pay1 (F := Ideal) x0 x1 x2 (ix2 r q) * k3_pay1 (F := Ideal) x0 x1 x2 (ix2 r q) := by
  unfold k3_pay5
  rw [addf_apply, shapeCast_self]
  refine congrArg (acc (ix2 (0 : Fin 1) q) + ·) ((rowsum_apply _ q).trans ?_)
  exact Finset.sum_congr rfl fun r _ => mulf_apply _ _ _

/-- The zero row the first block starts from. -/
theorem pay2_apply (j : S1x128.Idx) : k3_pay2 (F := Ideal) j = 0 := by
  unfold k3_pay2
  exact Ideal.ofBits_zero_f32

theorem pay3_apply (j : S1x128.Idx) : k3_pay3 (F := Ideal) j = 0 := by
  unfold k3_pay3
  exact Ideal.ofBits_zero_f32

/-! ## From blocks to whole arrays: one entry, one column -/

/-- An entry of a block's linear layer is the whole array's entry, once the blocks' entries are the arrays'. -/
theorem z_entry (X : Mat 50000 128) (W : Mat 128 128) (B : Mat 1 128)
    (x0 : Vec Ideal S5000x128 .f32) (x1 : Vec Ideal S128x128 .f32) (x2 : Vec Ideal S1x128 .f32)
    (r : Fin 5000) (q : Fin 128) (a : Fin 50000)
    (h0 : ∀ κ : Fin 128, x0 (ix2 r κ) = X (ix2 a κ)) (h1 : ∀ κ : Fin 128, x1 (ix2 κ q) = W (ix2 κ q))
    (h2 : x2 (ix2 (0 : Fin 1) q) = B (ix2 (0 : Fin 1) q)) :
    k3_pay1 (F := Ideal) x0 x1 x2 (ix2 r q) = lin X W B (ix2 a q) := by
  rw [pay1_apply, h2]
  show _ = (∑ κ : Fin 128, X (ix2 a κ) * W (ix2 κ q)) + B (ix2 (0 : Fin 1) q)
  refine congrArg (· + B (ix2 (0 : Fin 1) q)) (Finset.sum_congr rfl fun κ _ => ?_)
  rw [h0, h1]

/-- The sum of a function of the rows over the rows of block `t`. -/
def blkSum (f : Fin 50000 → EReal) (t : Fin 10) : EReal :=
  ∑ k : Fin 5000, f ⟨t.val * 5000 + k.val, Cert.Lib.blk_lt t k⟩

/-- A sum over all the rows is the sum of the ten blocks' sums. -/
theorem sum_rows_blocks (f : Fin 50000 → EReal) : ∑ r : Fin 50000, f r = ∑ t : Fin 10, blkSum f t :=
  Cert.Lib.sum_blocks 10 5000 rfl f

/-- A quantity that starts at `0 + s 0` and gains `s (n + 1)` at step `n + 1` is, after step `n`, the sum of the
    first `n + 1` terms: additions regrouped, nothing cancelled. -/
theorem running_sum {M : Type*} [AddCommMonoid M] (N : ℕ) (s : Fin N → M) (acc : (n : ℕ) → n < N → M)
    (h0 : ∀ h : 0 < N, acc 0 h = 0 + s ⟨0, h⟩)
    (hs : ∀ (n : ℕ) (h : n + 1 < N), acc (n + 1) h = acc n (Nat.lt_of_succ_lt h) + s ⟨n + 1, h⟩) :
    ∀ (n : ℕ) (h : n < N), acc n h = ∑ t : Fin (n + 1), s ⟨t.val, lt_of_lt_of_le t.isLt h⟩
  | 0, h => by rw [h0, zero_add, Fin.sum_univ_one]; rfl
  | n + 1, h => by
    rw [hs, running_sum N s acc h0 hs n (Nat.lt_of_succ_lt h)]
    exact (Fin.sum_univ_castSucc (fun t : Fin (n + 1 + 1) => s ⟨t.val, lt_of_lt_of_le t.isLt h⟩)).symm

/-! ## What each case of the body leaves in the three outputs -/

section Pieces
variable {F : FTy → Type} [FloatOps F]

theorem hz : (![0, 0] : Fin 2 → Nat) = fun _ => 0 := funext fun a => by fin_cases a <;> rfl

theorem outA3 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond3_0 i)
    (x0 : Vec F S5000x128 .f32) (x1 : Vec F S128x128 .f32) (x2 : Vec F S1x128 .f32) :
    out3_A_3 c i a1 h1 a2 h2 a3 h3 a4 h4 a5 h5 a6 h6 hc x0 x1 x2 = k3_pay1 x0 x1 x2 := by
  unfold out3_A_3
  rw [View.read_writes_eq_canon _ _ _ (cover3_A_3 c i a1 h1 a2 h2 a3 h3 a4 h4 a5 h5 a6 h6 hc x0 x1 x2)]
  unfold kernelRun3_A
  dsimp only
  try sl_unfold_words
  rw [View.canon_unit_zero hz]
  simp only [View.readAt_eq_ld, h1.read_unread, h2.read_unread, h3.read_unread, View.ld_unit_zero (S := S5000x128) hz,
    View.ld_unit_zero (S := S128x128) hz, View.ld_unit_zero (S := S1x128) hz]

theorem outA4 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond3_0 i)
    (x0 : Vec F S5000x128 .f32) (x1 : Vec F S128x128 .f32) (x2 : Vec F S1x128 .f32) :
    out3_A_4 c i a1 h1 a2 h2 a3 h3 a4 h4 a5 h5 a6 h6 hc x0 x1 x2 = k3_pay4 x0 x1 x2 (k3_pay2 (F := F)) := by
  unfold out3_A_4
  rw [View.read_writes_eq_canon _ _ _ (cover3_A_4 c i a1 h1 a2 h2 a3 h3 a4 h4 a5 h5 a6 h6 hc x0 x1 x2)]
  unfold kernelRun3_A
  dsimp only
  try sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S128x128) hz, View.ld_unit_zero (S := S1x128) hz]

theorem outA5 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond3_0 i)
    (x0 : Vec F S5000x128 .f32) (x1 : Vec F S128x128 .f32) (x2 : Vec F S1x128 .f32) :
    out3_A_5 c i a1 h1 a2 h2 a3 h3 a4 h4 a5 h5 a6 h6 hc x0 x1 x2 = k3_pay5 x0 x1 x2 (k3_pay3 (F := F)) := by
  unfold out3_A_5
  rw [View.read_writes_eq_canon _ _ _ (cover3_A_5 c i a1 h1 a2 h2 a3 h3 a4 h4 a5 h5 a6 h6 hc x0 x1 x2)]
  unfold kernelRun3_A
  dsimp only
  try sl_unfold_words
  rw [View.canon_cons_unit_zero (S := S1x128) hz, View.readCov_unit_zero (S := S1x128) _ hz]
  simp only [View.readAt_eq_ld, h1.read_unread, h2.read_unread, h3.read_unread, View.ld_unit_zero (S := S5000x128) hz,
    View.ld_unit_zero (S := S128x128) hz, View.ld_unit_zero (S := S1x128) hz]

theorem outB3 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond3_0 i)
    (x0 : Vec F S5000x128 .f32) (x1 : Vec F S128x128 .f32) (x2 : Vec F S1x128 .f32) (xo4 : Vec F S1x128 .f32) (xo5 : Vec F S1x128 .f32) :
    out3_B_3 c i a1 h1 a2 h2 a3 h3 a4 h4 a5 h5 a6 h6 hc x0 x1 x2 xo4 xo5 = k3_pay1 x0 x1 x2 := by
  unfold out3_B_3
  rw [View.read_writes_eq_canon _ _ _ (cover3_B_3 c i a1 h1 a2 h2 a3 h3 a4 h4 a5 h5 a6 h6 hc x0 x1 x2 xo4 xo5)]
  unfold kernelRun3_B
  dsimp only
  try sl_unfold_words
  rw [View.canon_unit_zero hz]
  simp only [View.readAt_eq_ld, h1.read_unread, h2.read_unread, h3.read_unread, View.ld_unit_zero (S := S5000x128) hz,
    View.ld_unit_zero (S := S128x128) hz, View.ld_unit_zero (S := S1x128) hz]

theorem outB4 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond3_0 i)
    (x0 : Vec F S5000x128 .f32) (x1 : Vec F S128x128 .f32) (x2 : Vec F S1x128 .f32) (xo4 : Vec F S1x128 .f32) (xo5 : Vec F S1x128 .f32) :
    out3_B_4 c i a1 h1 a2 h2 a3 h3 a4 h4 a5 h5 a6 h6 hc x0 x1 x2 xo4 xo5 = k3_pay4 x0 x1 x2 xo4 := by
  unfold out3_B_4
  rw [View.read_writes_eq_canon _ _ _ (cover3_B_4 c i a1 h1 a2 h2 a3 h3 a4 h4 a5 h5 a6 h6 hc x0 x1 x2 xo4 xo5)]
  unfold kernelRun3_B
  dsimp only
  try sl_unfold_words
  rw [View.canon_unit_zero hz]
  simp only [View.readAt_eq_ld, h1.read_unread, h2.read_unread, h3.read_unread, h5.read_unread, View.ld_unit_zero (S := S5000x128) hz,
    View.ld_unit_zero (S := S128x128) hz, View.ld_unit_zero (S := S1x128) hz]

theorem outB5 (c : Dev nD) (i : grid3.Coords) (a1 : Memref sig .tc .vmem S5000x128 .f32) (h1 : a1.IsWhole) (a2 : Memref sig .tc .vmem S128x128 .f32) (h2 : a2.IsWhole) (a3 : Memref sig .tc .vmem S1x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond3_0 i)
    (x0 : Vec F S5000x128 .f32) (x1 : Vec F S128x128 .f32) (x2 : Vec F S1x128 .f32) (xo4 : Vec F S1x128 .f32) (xo5 : Vec F S1x128 .f32) :
    out3_B_5 c i a1 h1 a2 h2 a3 h3 a4 h4 a5 h5 a6 h6 hc x0 x1 x2 xo4 xo5 = k3_pay5 x0 x1 x2 xo5 := by
  unfold out3_B_5
  rw [View.read_writes_eq_canon _ _ _ (cover3_B_5 c i a1 h1 a2 h2 a3 h3 a4 h4 a5 h5 a6 h6 hc x0 x1 x2 xo4 xo5)]
  unfold kernelRun3_B
  dsimp only
  try sl_unfold_words
  rw [View.canon_unit_zero hz]
  simp only [View.readAt_eq_ld, h1.read_unread, h2.read_unread, h3.read_unread, h6.read_unread, View.ld_unit_zero (S := S5000x128) hz,
    View.ld_unit_zero (S := S128x128) hz, View.ld_unit_zero (S := S1x128) hz]

end Pieces

/-! ## The three output arrays after the ten blocks -/

section Value

variable (V : (c : Dev nD) → (b : Ref sig .tc) → Buf (Elt Ideal) ((c : Thread nD τ).loc b)) (c : Dev nD)

/-- The input rows, the weights and the bias row as the region finds them. -/
abbrev X : Mat 50000 128 := V c (Pipeline.arrRef spec3 0)
abbrev Wt : Mat 128 128 := V c (Pipeline.arrRef spec3 1)
abbrev B : Mat 1 128 := V c (Pipeline.arrRef spec3 2)

/-- Where the blocks sit: block `t` of the rows and of the layer's output starts at row `5000 t`; the weights, the bias
    row and the two statistics rows are whole arrays, at offset zero. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Row `r` of block `t` of the input is row `5000 t + r` of the array. -/
theorem blk_x (t : Fin cfg3.N) (r : Fin 5000) (κ : Fin 128) (a : Fin 50000) (ha : a.val = t.val * 5000 + r.val) :
    (iblk3 V c 0 t : Vec Ideal S5000x128 .f32) (ix2 r κ) = X V c (ix2 a κ) := by
  obtain ⟨e0, e1, -⟩ := idx_facts t
  unfold iblk3
  rw [View.read_apply]
  show V c (Pipeline.arrRef spec3 0) _ = V c (Pipeline.arrRef spec3 0) _
  congr 1
  funext ax
  apply Fin.ext
  match ax with
  | ⟨0, _⟩ => show win3_0.index t (0 : Fin 2) * 5000 + 1 * r.val = a.val; rw [e0, ha]; omega
  | ⟨1, _⟩ => show win3_0.index t (1 : Fin 2) * 128 + 1 * κ.val = κ.val; rw [e1]; omega

/-- The weights' block is the whole array. -/
theorem blk_w (t : Fin cfg3.N) (κ q : Fin 128) :
    (iblk3 V c 1 t : Vec Ideal S128x128 .f32) (ix2 κ q) = Wt V c (ix2 κ q) := by
  obtain ⟨-, -, e0, e1, -⟩ := idx_facts t
  unfold iblk3
  rw [View.read_apply]
  show V c (Pipeline.arrRef spec3 1) _ = V c (Pipeline.arrRef spec3 1) _
  congr 1
  funext ax
  apply Fin.ext
  match ax with
  | ⟨0, _⟩ => show win3_1.index t (0 : Fin 2) * 128 + 1 * κ.val = κ.val; rw [e0]; omega
  | ⟨1, _⟩ => show win3_1.index t (1 : Fin 2) * 128 + 1 * q.val = q.val; rw [e1]; omega

/-- The bias row's block is the whole row. -/
theorem blk_b (t : Fin cfg3.N) (q : Fin 128) :
    (iblk3 V c 2 t : Vec Ideal S1x128 .f32) (ix2 (0 : Fin 1) q) = B V c (ix2 (0 : Fin 1) q) := by
  obtain ⟨-, -, -, -, e0, e1, -⟩ := idx_facts t
  unfold iblk3
  rw [View.read_apply]
  show V c (Pipeline.arrRef spec3 2) _ = V c (Pipeline.arrRef spec3 2) _
  congr 1
  funext ax
  apply Fin.ext
  match ax with
  | ⟨0, _⟩ => show win3_2.index t (0 : Fin 2) * 1 + 1 * 0 = 0; rw [e0]
  | ⟨1, _⟩ => show win3_2.index t (1 : Fin 2) * 128 + 1 * q.val = q.val; rw [e1]; omega

/-- The first point: the layer's block, and the two statistics rows started from the zero row. -/
theorem outs_A (t : Fin cfg3.N) (h0 : t.val % 10 = 0) :
    outsAt3 V c t.val t.isLt
      = (k3_pay1 (iblk3 V c 0 t) (iblk3 V c 1 t) (iblk3 V c 2 t), k3_pay4 (iblk3 V c 0 t) (iblk3 V c 1 t) (iblk3 V c 2 t) (k3_pay2 (F := Ideal)),
          k3_pay5 (iblk3 V c 0 t) (iblk3 V c 1 t) (iblk3 V c 2 t) (k3_pay3 (F := Ideal))) := by
  rw [outsAt3_A V c t h0,
    outA3 c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t),
    outA4 c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t),
    outA5 c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t)]

/-- A later point: the layer's block, and the two statistics rows continued from what the point before left. -/
theorem outs_B (t : Fin cfg3.N) (h0 : ¬t.val % 10 = 0) :
    outsAt3 V c t.val t.isLt
      = (k3_pay1 (iblk3 V c 0 t) (iblk3 V c 1 t) (iblk3 V c 2 t), k3_pay4 (iblk3 V c 0 t) (iblk3 V c 1 t) (iblk3 V c 2 t) (outsAt3 V c (t.val - 1) (Nat.lt_of_le_of_lt (Nat.sub_le _ _) t.isLt)).2.1,
          k3_pay5 (iblk3 V c 0 t) (iblk3 V c 1 t) (iblk3 V c 2 t) (outsAt3 V c (t.val - 1) (Nat.lt_of_le_of_lt (Nat.sub_le _ _) t.isLt)).2.2) := by
  rw [outsAt3_B V c t h0,
    outB3 c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2,
    outB4 c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2,
    outB5 c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2]

/-- At every point the first output's buffer holds the layer's block. -/
theorem outs_z (t : Fin cfg3.N) :
    (outsAt3 V c t.val t.isLt).1 = k3_pay1 (F := Ideal) (iblk3 V c 0 t) (iblk3 V c 1 t) (iblk3 V c 2 t) := by
  by_cases h0 : t.val % 10 = 0
  · rw [outs_A V c t h0]
  · rw [outs_B V c t h0]

/-- An entry of block `t` of the layer is the entry of the whole layer `5000 t` rows further down. -/
theorem z_block (t : Fin cfg3.N) (y : S5000x128.Idx) (i : S50000x128.Idx)
    (hi0 : (i 0).val = t.val * 5000 + (y 0).val) (hi1 : (i 1).val = (y 1).val) :
    k3_pay1 (F := Ideal) (iblk3 V c 0 t) (iblk3 V c 1 t) (iblk3 V c 2 t) y = (lin (X V c) (Wt V c) (B V c)) i := by
  obtain ⟨r, q, rfl⟩ : ∃ (r : Fin 5000) (q : Fin 128), y = ix2 r q := ⟨y 0, y 1, eq_ix2 y⟩
  obtain ⟨a, b, rfl⟩ : ∃ (a : Fin 50000) (b : Fin 128), i = ix2 a b := ⟨i 0, i 1, eq_ix2 i⟩
  obtain rfl : b = q := Fin.ext hi1
  exact z_entry (X V c) (Wt V c) (B V c) (iblk3 V c 0 t) (iblk3 V c 1 t) (iblk3 V c 2 t) r b a
    (fun κ => blk_x V c t r κ a hi0) (fun κ => blk_w V c t κ b) (blk_b V c t b)

/-- What point `t` writes back to the first output is block `t` of the whole layer. -/
theorem flushed_z (t : Fin cfg3.N) (hf : (cfg3.win 3).flush t = true) :
    (dat3 (F := Ideal) V c).flushed 3 t = ((cfg3.win 3).blk t).view.read (Elt Ideal) (lin (X V c) (Wt V c) (B V c)) := by
  show (cfg3.win 3).cut (grid3.coords t) ((dat3 (F := Ideal) V c).after 3 t) = _
  rw [after3_3, outs_z V c t]
  obtain ⟨-, -, -, -, -, -, e0, e1, -⟩ := idx_facts t
  funext y
  rw [View.read_apply]
  show k3_pay1 (F := Ideal) (iblk3 V c 0 t) (iblk3 V c 1 t) (iblk3 V c 2 t) y = (lin (X V c) (Wt V c) (B V c)) (((cfg3.win 3).blk t).view.emb y)
  refine z_block V c t y _ ?_ ?_
  · show win3_3.index t (0 : Fin 2) * 5000 + 1 * (y 0).val = t.val * 5000 + (y 0).val; rw [e0]; omega
  · show win3_3.index t (1 : Fin 2) * 128 + 1 * (y 1).val = (y 1).val; rw [e1]; omega

/-- An entry of the first output lies in block `t` iff its row is among the block's 5000 rows. -/
theorem mem_blk_z (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v44_0).slice (win3_3.rect t)).set ↔ _
  rw [View.set_slice_whole, Rect.mem_set_unit]
  exact Iff.rfl

/-- Every row lies in a block: row `r` in block `r / 5000`. -/
theorem cover_z (i : S50000x128.Idx) :
    ∃ t : Fin cfg3.N, (cfg3.win 3).flush t = true ∧ i ∈ ((cfg3.win 3).blk t).view.set := by
  have hi0 : (i 0).val < 50000 := idx2_lt0 i
  have hi1 : (i 1).val < 128 := idx2_lt1 i
  have hN : cfg3.N = 10 := N_3
  have ht : (i 0).val / 5000 < cfg3.N := by rw [hN]; omega
  obtain ⟨-, -, -, -, -, -, e0, e1, -⟩ := idx_facts ⟨(i 0).val / 5000, ht⟩
  refine ⟨⟨(i 0).val / 5000, ht⟩, flush3_3 _, ?_⟩
  rw [mem_blk_z]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e0]; dsimp only; omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e1]; omega

/-- The first output array ends holding the whole linear layer. -/
theorem arr_z : (dat3 (F := Ideal) V c).arrAt 3 cfg3.N = (lin (X V c) (Wt V c) (B V c)) :=
  (dat3 (F := Ideal) V c).arrAt_eq_of_cover 3 (lin (X V c) (Wt V c) (B V c)) (fun t hf => flushed_z V c t hf) (cover_z)

/-- Column `q` of block `t`: the block's column sums are the whole layer's over rows `5000 t … 5000 t + 4999`. -/
theorem blk_sum (t : Fin cfg3.N) (q : Fin 128) (t' : Fin 10) (ht : t'.val = t.val) :
    (∑ r : Fin 5000, k3_pay1 (F := Ideal) (iblk3 V c 0 t) (iblk3 V c 1 t) (iblk3 V c 2 t) (ix2 r q))
      = blkSum (fun r => (lin (X V c) (Wt V c) (B V c)) (ix2 r q)) t' := by
  unfold blkSum
  refine Finset.sum_congr rfl fun r _ => ?_
  have e := z_block V c t (ix2 r q) (ix2 (⟨t'.val * 5000 + r.val, Cert.Lib.blk_lt t' r⟩ : Fin 50000) q)
    (by show t'.val * 5000 + r.val = t.val * 5000 + r.val; rw [ht]) rfl
  rw [e]

/-- After point `n` the running row holds, at column `q`, the sum of the first `n + 1` blocks' column sums. -/
theorem sum_at (q : Fin 128) : ∀ (n : ℕ) (h : n < cfg3.N),
    (outsAt3 V c n h).2.1 (ix2 (0 : Fin 1) q)
      = ∑ t : Fin (n + 1), ∑ r : Fin 5000, k3_pay1 (F := Ideal) (iblk3 V c 0 ⟨t.val, lt_of_lt_of_le t.isLt h⟩) (iblk3 V c 1 ⟨t.val, lt_of_lt_of_le t.isLt h⟩) (iblk3 V c 2 ⟨t.val, lt_of_lt_of_le t.isLt h⟩) (ix2 r q) :=
  running_sum cfg3.N (fun t => ∑ r : Fin 5000, k3_pay1 (F := Ideal) (iblk3 V c 0 t) (iblk3 V c 1 t) (iblk3 V c 2 t) (ix2 r q))
    (fun n h => (outsAt3 V c n h).2.1 (ix2 (0 : Fin 1) q))
    (fun h => by
      show (outsAt3 V c (⟨0, h⟩ : Fin cfg3.N).val (⟨0, h⟩ : Fin cfg3.N).isLt).2.1 (ix2 (0 : Fin 1) q) = _
      rw [outs_A V c ⟨0, h⟩ (Nat.zero_mod 10)]
      refine (pay4_apply (iblk3 V c 0 ⟨0, h⟩) (iblk3 V c 1 ⟨0, h⟩) (iblk3 V c 2 ⟨0, h⟩) (k3_pay2 (F := Ideal)) q).trans ?_
      rw [pay2_apply])
    (fun n h => by
      have hN : cfg3.N = 10 := N_3
      have hB : ¬(⟨n + 1, h⟩ : Fin cfg3.N).val % 10 = 0 := by dsimp only; omega
      show (outsAt3 V c (⟨n + 1, h⟩ : Fin cfg3.N).val (⟨n + 1, h⟩ : Fin cfg3.N).isLt).2.1 (ix2 (0 : Fin 1) q) = _
      rw [outs_B V c ⟨n + 1, h⟩ hB]
      exact pay4_apply (iblk3 V c 0 ⟨n + 1, h⟩) (iblk3 V c 1 ⟨n + 1, h⟩) (iblk3 V c 2 ⟨n + 1, h⟩) (outsAt3 V c n (Nat.lt_of_succ_lt h)).2.1 q)

/-- After the last point the running row holds the whole column's column sums. -/
theorem sum_last (t : Fin cfg3.N) (ht : t.val = 9) (y i : S1x128.Idx) (hi : (i 1).val = (y 1).val) :
    (outsAt3 V c t.val t.isLt).2.1 y = colSum (lin (X V c) (Wt V c) (B V c)) i := by
  obtain ⟨n, h9⟩ := t
  dsimp only at ht ⊢
  subst ht
  obtain ⟨u, q, rfl⟩ : ∃ (u : Fin 1) (q : Fin 128), y = ix2 u q := ⟨y 0, y 1, eq_ix2 y⟩
  obtain ⟨u', q', rfl⟩ : ∃ (u' : Fin 1) (q' : Fin 128), i = ix2 u' q' := ⟨i 0, i 1, eq_ix2 i⟩
  obtain rfl : q' = q := Fin.ext hi
  obtain rfl : u = 0 := Subsingleton.elim _ _
  rw [sum_at V c q' 9 h9]
  show _ = ∑ r : Fin 50000, (lin (X V c) (Wt V c) (B V c)) (ix2 r q')
  rw [sum_rows_blocks (fun r => (lin (X V c) (Wt V c) (B V c)) (ix2 r q'))]
  refine Finset.sum_congr rfl fun t _ => ?_
  exact blk_sum V c ⟨t.val, lt_of_lt_of_le t.isLt h9⟩ q' t rfl

/-- The one write-back of this row, at the last point, writes the whole column's column sums. -/
theorem flushed_sum (t : Fin cfg3.N) (hf : (cfg3.win 4).flush t = true) :
    (dat3 (F := Ideal) V c).flushed 4 t = ((cfg3.win 4).blk t).view.read (Elt Ideal) (colSum (lin (X V c) (Wt V c) (B V c))) := by
  have hN : cfg3.N = 10 := N_3
  have h9 : t.val = 9 := by have := (flush3_4 t).mp hf; have := t.isLt; omega
  show (cfg3.win 4).cut (grid3.coords t) ((dat3 (F := Ideal) V c).after 4 t) = _
  rw [after3_4]
  have key := sum_last V c t h9
  generalize (outsAt3 V c t.val t.isLt).2.1 = acc at key ⊢
  generalize colSum (lin (X V c) (Wt V c) (B V c)) = G at key ⊢
  obtain ⟨-, -, -, -, -, -, -, -, e0, e1, -⟩ := idx_facts t
  funext y
  rw [View.read_apply]
  refine key y _ ?_
  show win3_4.index t (1 : Fin 2) * 128 + 1 * (y 1).val = (y 1).val
  rw [e1]; omega

/-- An entry of this row lies in the one block, the whole row. -/
theorem mem_blk_sum (t : Fin cfg3.N) (i : S1x128.Idx) :
    i ∈ ((cfg3.win 4).blk t).view.set ↔ ∀ a : Fin 2, win3_4.index t a * S1x128.size a ≤ (i a).val
      ∧ (i a).val < win3_4.index t a * S1x128.size a + S1x128.size a := by
  show i ∈ ((View.whole main_v44_1).slice (win3_4.rect t)).set ↔ _
  rw [View.set_slice_whole, Rect.mem_set_unit]
  exact Iff.rfl

theorem cover_sum (i : S1x128.Idx) :
    ∃ t : Fin cfg3.N, (cfg3.win 4).flush t = true ∧ i ∈ ((cfg3.win 4).blk t).view.set := by
  have hi0 : (i 0).val < 1 := idx2_lt0 i
  have hi1 : (i 1).val < 128 := idx2_lt1 i
  obtain ⟨-, -, -, -, -, -, -, -, e0, e1, -⟩ := idx_facts t3_9
  refine ⟨t3_9, (flush3_4 t3_9).mpr rfl, ?_⟩
  rw [mem_blk_sum]
  intro a
  match a with
  | ⟨0, _⟩ =>
    show win3_4.index t3_9 (0 : Fin 2) * 1 ≤ (i 0).val ∧ (i 0).val < win3_4.index t3_9 (0 : Fin 2) * 1 + 1
    rw [e0]; omega
  | ⟨1, _⟩ =>
    show win3_4.index t3_9 (1 : Fin 2) * 128 ≤ (i 1).val ∧ (i 1).val < win3_4.index t3_9 (1 : Fin 2) * 128 + 128
    rw [e1]; omega

/-- The second output array ends holding the column sums of the whole linear layer. -/
theorem arr_sum : (dat3 (F := Ideal) V c).arrAt 4 cfg3.N = colSum (lin (X V c) (Wt V c) (B V c)) :=
  (dat3 (F := Ideal) V c).arrAt_eq_of_cover 4 (colSum (lin (X V c) (Wt V c) (B V c))) (fun t hf => flushed_sum V c t hf) (cover_sum)

/-- Column `q` of block `t`: the block's column sums of squares are the whole layer's over rows `5000 t … 5000 t + 4999`. -/
theorem blk_sumsq (t : Fin cfg3.N) (q : Fin 128) (t' : Fin 10) (ht : t'.val = t.val) :
    (∑ r : Fin 5000, k3_pay1 (F := Ideal) (iblk3 V c 0 t) (iblk3 V c 1 t) (iblk3 V c 2 t) (ix2 r q) * k3_pay1 (F := Ideal) (iblk3 V c 0 t) (iblk3 V c 1 t) (iblk3 V c 2 t) (ix2 r q))
      = blkSum (fun r => (lin (X V c) (Wt V c) (B V c)) (ix2 r q) * (lin (X V c) (Wt V c) (B V c)) (ix2 r q)) t' := by
  unfold blkSum
  refine Finset.sum_congr rfl fun r _ => ?_
  have e := z_block V c t (ix2 r q) (ix2 (⟨t'.val * 5000 + r.val, Cert.Lib.blk_lt t' r⟩ : Fin 50000) q)
    (by show t'.val * 5000 + r.val = t.val * 5000 + r.val; rw [ht]) rfl
  rw [e]

/-- After point `n` the running row holds, at column `q`, the sum of the first `n + 1` blocks' column sums of squares. -/
theorem sumsq_at (q : Fin 128) : ∀ (n : ℕ) (h : n < cfg3.N),
    (outsAt3 V c n h).2.2 (ix2 (0 : Fin 1) q)
      = ∑ t : Fin (n + 1), ∑ r : Fin 5000, k3_pay1 (F := Ideal) (iblk3 V c 0 ⟨t.val, lt_of_lt_of_le t.isLt h⟩) (iblk3 V c 1 ⟨t.val, lt_of_lt_of_le t.isLt h⟩) (iblk3 V c 2 ⟨t.val, lt_of_lt_of_le t.isLt h⟩) (ix2 r q) * k3_pay1 (F := Ideal) (iblk3 V c 0 ⟨t.val, lt_of_lt_of_le t.isLt h⟩) (iblk3 V c 1 ⟨t.val, lt_of_lt_of_le t.isLt h⟩) (iblk3 V c 2 ⟨t.val, lt_of_lt_of_le t.isLt h⟩) (ix2 r q) :=
  running_sum cfg3.N (fun t => ∑ r : Fin 5000, k3_pay1 (F := Ideal) (iblk3 V c 0 t) (iblk3 V c 1 t) (iblk3 V c 2 t) (ix2 r q) * k3_pay1 (F := Ideal) (iblk3 V c 0 t) (iblk3 V c 1 t) (iblk3 V c 2 t) (ix2 r q))
    (fun n h => (outsAt3 V c n h).2.2 (ix2 (0 : Fin 1) q))
    (fun h => by
      show (outsAt3 V c (⟨0, h⟩ : Fin cfg3.N).val (⟨0, h⟩ : Fin cfg3.N).isLt).2.2 (ix2 (0 : Fin 1) q) = _
      rw [outs_A V c ⟨0, h⟩ (Nat.zero_mod 10)]
      refine (pay5_apply (iblk3 V c 0 ⟨0, h⟩) (iblk3 V c 1 ⟨0, h⟩) (iblk3 V c 2 ⟨0, h⟩) (k3_pay3 (F := Ideal)) q).trans ?_
      rw [pay3_apply])
    (fun n h => by
      have hN : cfg3.N = 10 := N_3
      have hB : ¬(⟨n + 1, h⟩ : Fin cfg3.N).val % 10 = 0 := by dsimp only; omega
      show (outsAt3 V c (⟨n + 1, h⟩ : Fin cfg3.N).val (⟨n + 1, h⟩ : Fin cfg3.N).isLt).2.2 (ix2 (0 : Fin 1) q) = _
      rw [outs_B V c ⟨n + 1, h⟩ hB]
      exact pay5_apply (iblk3 V c 0 ⟨n + 1, h⟩) (iblk3 V c 1 ⟨n + 1, h⟩) (iblk3 V c 2 ⟨n + 1, h⟩) (outsAt3 V c n (Nat.lt_of_succ_lt h)).2.2 q)

/-- After the last point the running row holds the whole column's column sums of squares. -/
theorem sumsq_last (t : Fin cfg3.N) (ht : t.val = 9) (y i : S1x128.Idx) (hi : (i 1).val = (y 1).val) :
    (outsAt3 V c t.val t.isLt).2.2 y = colSumSq (lin (X V c) (Wt V c) (B V c)) i := by
  obtain ⟨n, h9⟩ := t
  dsimp only at ht ⊢
  subst ht
  obtain ⟨u, q, rfl⟩ : ∃ (u : Fin 1) (q : Fin 128), y = ix2 u q := ⟨y 0, y 1, eq_ix2 y⟩
  obtain ⟨u', q', rfl⟩ : ∃ (u' : Fin 1) (q' : Fin 128), i = ix2 u' q' := ⟨i 0, i 1, eq_ix2 i⟩
  obtain rfl : q' = q := Fin.ext hi
  obtain rfl : u = 0 := Subsingleton.elim _ _
  rw [sumsq_at V c q' 9 h9]
  show _ = ∑ r : Fin 50000, (lin (X V c) (Wt V c) (B V c)) (ix2 r q') * (lin (X V c) (Wt V c) (B V c)) (ix2 r q')
  rw [sum_rows_blocks (fun r => (lin (X V c) (Wt V c) (B V c)) (ix2 r q') * (lin (X V c) (Wt V c) (B V c)) (ix2 r q'))]
  refine Finset.sum_congr rfl fun t _ => ?_
  exact blk_sumsq V c ⟨t.val, lt_of_lt_of_le t.isLt h9⟩ q' t rfl

/-- The one write-back of this row, at the last point, writes the whole column's column sums of squares. -/
theorem flushed_sumsq (t : Fin cfg3.N) (hf : (cfg3.win 5).flush t = true) :
    (dat3 (F := Ideal) V c).flushed 5 t = ((cfg3.win 5).blk t).view.read (Elt Ideal) (colSumSq (lin (X V c) (Wt V c) (B V c))) := by
  have hN : cfg3.N = 10 := N_3
  have h9 : t.val = 9 := by have := (flush3_5 t).mp hf; have := t.isLt; omega
  show (cfg3.win 5).cut (grid3.coords t) ((dat3 (F := Ideal) V c).after 5 t) = _
  rw [after3_5]
  have key := sumsq_last V c t h9
  generalize (outsAt3 V c t.val t.isLt).2.2 = acc at key ⊢
  generalize colSumSq (lin (X V c) (Wt V c) (B V c)) = G at key ⊢
  obtain ⟨-, -, -, -, -, -, -, -, -, -, e0, e1⟩ := idx_facts t
  funext y
  rw [View.read_apply]
  refine key y _ ?_
  show win3_5.index t (1 : Fin 2) * 128 + 1 * (y 1).val = (y 1).val
  rw [e1]; omega

/-- An entry of this row lies in the one block, the whole row. -/
theorem mem_blk_sumsq (t : Fin cfg3.N) (i : S1x128.Idx) :
    i ∈ ((cfg3.win 5).blk t).view.set ↔ ∀ a : Fin 2, win3_5.index t a * S1x128.size a ≤ (i a).val
      ∧ (i a).val < win3_5.index t a * S1x128.size a + S1x128.size a := by
  show i ∈ ((View.whole main_v44_2).slice (win3_5.rect t)).set ↔ _
  rw [View.set_slice_whole, Rect.mem_set_unit]
  exact Iff.rfl

theorem cover_sumsq (i : S1x128.Idx) :
    ∃ t : Fin cfg3.N, (cfg3.win 5).flush t = true ∧ i ∈ ((cfg3.win 5).blk t).view.set := by
  have hi0 : (i 0).val < 1 := idx2_lt0 i
  have hi1 : (i 1).val < 128 := idx2_lt1 i
  obtain ⟨-, -, -, -, -, -, -, -, -, -, e0, e1⟩ := idx_facts t3_9
  refine ⟨t3_9, (flush3_5 t3_9).mpr rfl, ?_⟩
  rw [mem_blk_sumsq]
  intro a
  match a with
  | ⟨0, _⟩ =>
    show win3_5.index t3_9 (0 : Fin 2) * 1 ≤ (i 0).val ∧ (i 0).val < win3_5.index t3_9 (0 : Fin 2) * 1 + 1
    rw [e0]; omega
  | ⟨1, _⟩ =>
    show win3_5.index t3_9 (1 : Fin 2) * 128 ≤ (i 1).val ∧ (i 1).val < win3_5.index t3_9 (1 : Fin 2) * 128 + 128
    rw [e1]; omega

/-- The third output array ends holding the column sums of the squares of the whole linear layer. -/
theorem arr_sumsq : (dat3 (F := Ideal) V c).arrAt 5 cfg3.N = colSumSq (lin (X V c) (Wt V c) (B V c)) :=
  (dat3 (F := Ideal) V c).arrAt_eq_of_cover 5 (colSumSq (lin (X V c) (Wt V c) (B V c))) (fun t hf => flushed_sumsq V c t hf) (cover_sumsq)

end Value

end Cert.KernelIdeal.Region3

end
-- ==== Proof.Region4.lean ====
/-
  The normalise, clip, multiply layer with its column statistics, read off its row tiles.

  The input has 50000 rows of 128 entries, read in ten tiles of 5000 consecutive rows. At each tile the rows are
  normalised by the given column statistics and clipped at zero,

      xn (r, κ) = max ((x (r, κ) - mean κ) * (g κ * rsqrt (var κ + eps)) + be κ) 0,

  and multiplied by the 128 × 16 weights, plus the bias row: `z (r, q) = (∑ κ, xn (r, κ) * w (κ, q)) + b q`. The tile
  of `z` is written to rows `5000 t … 5000 t + 4999` of the first output, so that output ends holding `z` itself:
  the tiles are restrictions of one function of the whole arrays, and every row lies in the tile `row / 5000`.

  Two more outputs are single rows kept across the ten grid points: both are set to zero at the first point, and every
  point (the first included) adds to the one the column sums of its tile of `z`, to the other the column sums of
  the squares. After the last point entry `q` of each holds `((0 + s 0) + s 1) + … + s 9`, `s t` the tile's column
  sum. Addition of extended reals is commutative and associative (a commutative monoid, infinities included), so these
  running sums are the sums over all 50000 rows: only regrouping is used, never cancellation or distribution. Each
  row is written back once, after the last point, and that one block is its whole array.

  The product is taken after a change of number format that is the identity on extended reals, into a zero
  accumulator; at an entry it is the sum over the one contracted axis of the products of the operands' entries.
-/
import proofs.«105059_j20856361189655_1_alg».proof.Proof.Spec
import proofs.«105059_j20856361189655_1_alg».proof.Proof.LibBlockSum
import proofs.«105059_j20856361189655_1_alg».proof.Proof.Gen.KernelIdeal.Frame
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.Region4

open Cert.KernelIdeal Cert.KernelIdeal.Gen Cert.Gin
open Idealize.ShloMosaic Idealize.ShloMosaic.TcCoe Idealize.ShloMosaic.ValueIdx Idealize.SL.Sem
open Idealize.ShloMosaic.Pipeline (Dat)
open Idealize.SL Idealize.SL.RA Idealize.SL.BI

variable (V : (c : Dev nD) → (b : Ref sig .tc) → Buf (Elt Ideal) ((c : Thread nD τ).loc b)) (c : Dev nD)

/-- The seven arrays the layer reads, as it finds them: the rows to normalise, the four single rows of statistics,
    scale and shift, the weights and the bias row. -/
abbrev X : Mat 50000 128 := V c (Pipeline.arrRef spec4 0)
abbrev Mean : Mat 1 128 := V c (Pipeline.arrRef spec4 1)
abbrev Var : Mat 1 128 := V c (Pipeline.arrRef spec4 2)
abbrev G : Mat 1 128 := V c (Pipeline.arrRef spec4 3)
abbrev Be : Mat 1 128 := V c (Pipeline.arrRef spec4 4)
abbrev Wt : Mat 128 16 := V c (Pipeline.arrRef spec4 5)
abbrev B : Mat 1 16 := V c (Pipeline.arrRef spec4 6)

/-- The layer's result on the whole arrays. -/
abbrev Lin : Mat 50000 16 := lin (relu (norm (X V c) (Mean V c) (Var V c) (G V c) (Be V c))) (Wt V c) (B V c)

theorem hz : (![0, 0] : Fin 2 → Nat) = fun _ => 0 := funext fun a => by fin_cases a <;> rfl

/-- Two functions of a rank-2 index that agree at every pair of coordinates are equal. -/
theorem ext_ix2 {α : Type} {a b : Nat} {f g : (⟨2, ![a, b]⟩ : Shape).Idx → α}
    (h : ∀ (p : Fin a) (q : Fin b), f (ix2 p q) = g (ix2 p q)) : f = g :=
  funext fun j => by rw [eq_ix2 j]; exact h _ _

/-! ## What each kind of point leaves in the three outputs

  In the lemmas below `x0 … x6` are the blocks of the seven inputs and the tile of `z` is the stored value
  `k4_pay3 x3 x2 x0 x1 x4 x5 x6`. -/

/-- Every point stores its tile of `z`: the first point, -/
theorem out_A_7 (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x16 .f32) (h6 : a6.IsWhole) (a7 : Memref sig .tc .vmem S1x16 .f32) (h7 : a7.IsWhole) (a8 : Memref sig .tc .vmem S5000x16 .f32) (h8 : a8.IsWhole) (a9 : Memref sig .tc .vmem S1x16 .f32) (h9 : a9.IsWhole) (a10 : Memref sig .tc .vmem S1x16 .f32) (h10 : a10.IsWhole) (hc : cond4_0 i) (x0 : Vec Ideal S5000x128 .f32) (x1 x2 x3 x4 : Vec Ideal S1x128 .f32) (x5 : Vec Ideal S128x16 .f32) (x6 : Vec Ideal S1x16 .f32) :
    out4_A_7 c i a1 h1 a2 h2 a3 h3 a4 h4 a5 h5 a6 h6 a7 h7 a8 h8 a9 h9 a10 h10 hc x0 x1 x2 x3 x4 x5 x6 = (k4_pay3 x3 x2 x0 x1 x4 x5 x6) := by
  unfold out4_A_7
  rw [View.read_writes_eq_canon _ _ _ (cover4_A_7 c i a1 h1 a2 h2 a3 h3 a4 h4 a5 h5 a6 h6 a7 h7 a8 h8 a9 h9 a10 h10 hc x0 x1 x2 x3 x4 x5 x6)]
  unfold kernelRun4_A
  dsimp only
  try sl_unfold_words
  rw [View.canon_unit_zero hz]
  simp only [View.readAt_eq_ld, h1.read_unread, h2.read_unread, h3.read_unread, h4.read_unread, h5.read_unread,
    h6.read_unread, h7.read_unread, View.ld_unit_zero (S := S1x16) hz, View.ld_unit_zero (S := S1x128) hz,
    View.ld_unit_zero (S := S5000x128) hz, View.ld_unit_zero (S := S128x16) hz]

/-- and a later point. -/
theorem out_B_7 (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x16 .f32) (h6 : a6.IsWhole) (a7 : Memref sig .tc .vmem S1x16 .f32) (h7 : a7.IsWhole) (a8 : Memref sig .tc .vmem S5000x16 .f32) (h8 : a8.IsWhole) (a9 : Memref sig .tc .vmem S1x16 .f32) (h9 : a9.IsWhole) (a10 : Memref sig .tc .vmem S1x16 .f32) (h10 : a10.IsWhole) (hc : ¬cond4_0 i) (x0 : Vec Ideal S5000x128 .f32) (x1 x2 x3 x4 : Vec Ideal S1x128 .f32) (x5 : Vec Ideal S128x16 .f32) (x6 : Vec Ideal S1x16 .f32) (xo8 xo9 : Vec Ideal S1x16 .f32) :
    out4_B_7 c i a1 h1 a2 h2 a3 h3 a4 h4 a5 h5 a6 h6 a7 h7 a8 h8 a9 h9 a10 h10 hc x0 x1 x2 x3 x4 x5 x6 xo8 xo9 = (k4_pay3 x3 x2 x0 x1 x4 x5 x6) := by
  unfold out4_B_7
  rw [View.read_writes_eq_canon _ _ _ (cover4_B_7 c i a1 h1 a2 h2 a3 h3 a4 h4 a5 h5 a6 h6 a7 h7 a8 h8 a9 h9 a10 h10 hc x0 x1 x2 x3 x4 x5 x6 xo8 xo9)]
  unfold kernelRun4_B
  dsimp only
  try sl_unfold_words
  rw [View.canon_unit_zero hz]
  simp only [View.readAt_eq_ld, h1.read_unread, h2.read_unread, h3.read_unread, h4.read_unread, h5.read_unread,
    h6.read_unread, h7.read_unread, h9.read_unread, h10.read_unread, View.ld_unit_zero (S := S1x16) hz,
    View.ld_unit_zero (S := S1x128) hz, View.ld_unit_zero (S := S5000x128) hz, View.ld_unit_zero (S := S128x16) hz]

/-- THE FIRST POINT stores the zero row in the sums' row, reads it back, and leaves the zero row plus its tile's
    column sums; -/
theorem out_A_8 (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x16 .f32) (h6 : a6.IsWhole) (a7 : Memref sig .tc .vmem S1x16 .f32) (h7 : a7.IsWhole) (a8 : Memref sig .tc .vmem S5000x16 .f32) (h8 : a8.IsWhole) (a9 : Memref sig .tc .vmem S1x16 .f32) (h9 : a9.IsWhole) (a10 : Memref sig .tc .vmem S1x16 .f32) (h10 : a10.IsWhole) (hc : cond4_0 i) (x0 : Vec Ideal S5000x128 .f32) (x1 x2 x3 x4 : Vec Ideal S1x128 .f32) (x5 : Vec Ideal S128x16 .f32) (x6 : Vec Ideal S1x16 .f32) :
    out4_A_8 c i a1 h1 a2 h2 a3 h3 a4 h4 a5 h5 a6 h6 a7 h7 a8 h8 a9 h9 a10 h10 hc x0 x1 x2 x3 x4 x5 x6 = k4_pay1 (k4_pay3 x3 x2 x0 x1 x4 x5 x6) (k4_pay4 (F := Ideal)) := by
  unfold out4_A_8
  rw [View.read_writes_eq_canon _ _ _ (cover4_A_8 c i a1 h1 a2 h2 a3 h3 a4 h4 a5 h5 a6 h6 a7 h7 a8 h8 a9 h9 a10 h10 hc x0 x1 x2 x3 x4 x5 x6)]
  unfold kernelRun4_A
  dsimp only
  sl_unfold_words
  rw [View.canon_cons_unit_zero (S := S1x16) hz, View.readCov_unit_zero (S := S1x16) _ hz]
  simp only [View.readAt_eq_ld, h1.read_unread, h2.read_unread, h3.read_unread, h4.read_unread, h5.read_unread,
    h6.read_unread, h7.read_unread, View.ld_unit_zero (S := S1x16) hz, View.ld_unit_zero (S := S1x128) hz,
    View.ld_unit_zero (S := S5000x128) hz, View.ld_unit_zero (S := S128x16) hz]

/-- likewise in the row of the sums of squares. -/
theorem out_A_9 (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x16 .f32) (h6 : a6.IsWhole) (a7 : Memref sig .tc .vmem S1x16 .f32) (h7 : a7.IsWhole) (a8 : Memref sig .tc .vmem S5000x16 .f32) (h8 : a8.IsWhole) (a9 : Memref sig .tc .vmem S1x16 .f32) (h9 : a9.IsWhole) (a10 : Memref sig .tc .vmem S1x16 .f32) (h10 : a10.IsWhole) (hc : cond4_0 i) (x0 : Vec Ideal S5000x128 .f32) (x1 x2 x3 x4 : Vec Ideal S1x128 .f32) (x5 : Vec Ideal S128x16 .f32) (x6 : Vec Ideal S1x16 .f32) :
    out4_A_9 c i a1 h1 a2 h2 a3 h3 a4 h4 a5 h5 a6 h6 a7 h7 a8 h8 a9 h9 a10 h10 hc x0 x1 x2 x3 x4 x5 x6 = k4_pay2 (k4_pay3 x3 x2 x0 x1 x4 x5 x6) (k4_pay5 (F := Ideal)) := by
  unfold out4_A_9
  rw [View.read_writes_eq_canon _ _ _ (cover4_A_9 c i a1 h1 a2 h2 a3 h3 a4 h4 a5 h5 a6 h6 a7 h7 a8 h8 a9 h9 a10 h10 hc x0 x1 x2 x3 x4 x5 x6)]
  unfold kernelRun4_A
  dsimp only
  sl_unfold_words
  rw [View.canon_cons_unit_zero (S := S1x16) hz, View.readCov_unit_zero (S := S1x16) _ hz]
  simp only [View.readAt_eq_ld, h1.read_unread, h2.read_unread, h3.read_unread, h4.read_unread, h5.read_unread,
    h6.read_unread, h7.read_unread, View.ld_unit_zero (S := S1x16) hz, View.ld_unit_zero (S := S1x128) hz,
    View.ld_unit_zero (S := S5000x128) hz, View.ld_unit_zero (S := S128x16) hz]

/-- A LATER POINT leaves what the sums' row held plus its tile's column sums; -/
theorem out_B_8 (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x16 .f32) (h6 : a6.IsWhole) (a7 : Memref sig .tc .vmem S1x16 .f32) (h7 : a7.IsWhole) (a8 : Memref sig .tc .vmem S5000x16 .f32) (h8 : a8.IsWhole) (a9 : Memref sig .tc .vmem S1x16 .f32) (h9 : a9.IsWhole) (a10 : Memref sig .tc .vmem S1x16 .f32) (h10 : a10.IsWhole) (hc : ¬cond4_0 i) (x0 : Vec Ideal S5000x128 .f32) (x1 x2 x3 x4 : Vec Ideal S1x128 .f32) (x5 : Vec Ideal S128x16 .f32) (x6 : Vec Ideal S1x16 .f32) (xo8 xo9 : Vec Ideal S1x16 .f32) :
    out4_B_8 c i a1 h1 a2 h2 a3 h3 a4 h4 a5 h5 a6 h6 a7 h7 a8 h8 a9 h9 a10 h10 hc x0 x1 x2 x3 x4 x5 x6 xo8 xo9 = k4_pay1 (k4_pay3 x3 x2 x0 x1 x4 x5 x6) xo8 := by
  unfold out4_B_8
  rw [View.read_writes_eq_canon _ _ _ (cover4_B_8 c i a1 h1 a2 h2 a3 h3 a4 h4 a5 h5 a6 h6 a7 h7 a8 h8 a9 h9 a10 h10 hc x0 x1 x2 x3 x4 x5 x6 xo8 xo9)]
  unfold kernelRun4_B
  dsimp only
  try sl_unfold_words
  rw [View.canon_unit_zero hz]
  simp only [View.readAt_eq_ld, h1.read_unread, h2.read_unread, h3.read_unread, h4.read_unread, h5.read_unread,
    h6.read_unread, h7.read_unread, h9.read_unread, h10.read_unread, View.ld_unit_zero (S := S1x16) hz,
    View.ld_unit_zero (S := S1x128) hz, View.ld_unit_zero (S := S5000x128) hz, View.ld_unit_zero (S := S128x16) hz]

/-- likewise in the row of the sums of squares. -/
theorem out_B_9 (i : grid4.Coords) (a1 : Memref sig .tc .vmem S5000x128 .f32) (h1 : a1.IsWhole) (a2 : Memref sig .tc .vmem S1x128 .f32) (h2 : a2.IsWhole) (a3 : Memref sig .tc .vmem S1x128 .f32) (h3 : a3.IsWhole) (a4 : Memref sig .tc .vmem S1x128 .f32) (h4 : a4.IsWhole) (a5 : Memref sig .tc .vmem S1x128 .f32) (h5 : a5.IsWhole) (a6 : Memref sig .tc .vmem S128x16 .f32) (h6 : a6.IsWhole) (a7 : Memref sig .tc .vmem S1x16 .f32) (h7 : a7.IsWhole) (a8 : Memref sig .tc .vmem S5000x16 .f32) (h8 : a8.IsWhole) (a9 : Memref sig .tc .vmem S1x16 .f32) (h9 : a9.IsWhole) (a10 : Memref sig .tc .vmem S1x16 .f32) (h10 : a10.IsWhole) (hc : ¬cond4_0 i) (x0 : Vec Ideal S5000x128 .f32) (x1 x2 x3 x4 : Vec Ideal S1x128 .f32) (x5 : Vec Ideal S128x16 .f32) (x6 : Vec Ideal S1x16 .f32) (xo8 xo9 : Vec Ideal S1x16 .f32) :
    out4_B_9 c i a1 h1 a2 h2 a3 h3 a4 h4 a5 h5 a6 h6 a7 h7 a8 h8 a9 h9 a10 h10 hc x0 x1 x2 x3 x4 x5 x6 xo8 xo9 = k4_pay2 (k4_pay3 x3 x2 x0 x1 x4 x5 x6) xo9 := by
  unfold out4_B_9
  rw [View.read_writes_eq_canon _ _ _ (cover4_B_9 c i a1 h1 a2 h2 a3 h3 a4 h4 a5 h5 a6 h6 a7 h7 a8 h8 a9 h9 a10 h10 hc x0 x1 x2 x3 x4 x5 x6 xo8 xo9)]
  unfold kernelRun4_B
  dsimp only
  try sl_unfold_words
  rw [View.canon_unit_zero hz]
  simp only [View.readAt_eq_ld, h1.read_unread, h2.read_unread, h3.read_unread, h4.read_unread, h5.read_unread,
    h6.read_unread, h7.read_unread, h9.read_unread, h10.read_unread, View.ld_unit_zero (S := S1x16) hz,
    View.ld_unit_zero (S := S1x128) hz, View.ld_unit_zero (S := S5000x128) hz, View.ld_unit_zero (S := S128x16) hz]

/-! ## The stored values at an entry -/

/-- The product's dimension numbers: rows of the left operand against columns of the right, one contracted axis. -/
abbrev D : DotDims S5000x128 S128x16 S5000x16 := dot_S5000x128_S128x16_S5000x16_1_0_0_1_n_n

/-- The operands' indices at result entry `i` and contraction position `k`: `(i 0, k)` on the left, -/
theorem lhs_0 (i : S5000x16.Idx) (k : D.contr.Idx) : (D.lhsIdx i k 0).val = (i 0).val := by
  unfold DotDims.lhsIdx
  rw [dif_neg (show ¬(0 : Fin S5000x128.rank) ∈ D.lhsBatch by decide),
    dif_pos (show (0 : Fin S5000x128.rank) ∈ D.lhsNonContracting by decide)]
  rfl
theorem lhs_1 (i : S5000x16.Idx) (k : D.contr.Idx) : (D.lhsIdx i k 1).val = (k ⟨0, by decide⟩).val :=
  D.lhsIdx_val_of_single rfl i k
/-- `(k, i 1)` on the right. -/
theorem rhs_0 (i : S5000x16.Idx) (k : D.contr.Idx) : (D.rhsIdx i k 0).val = (k ⟨0, by decide⟩).val :=
  D.rhsIdx_val_of_single rfl i k
theorem rhs_1 (i : S5000x16.Idx) (k : D.contr.Idx) : (D.rhsIdx i k 1).val = (i 1).val := by
  unfold DotDims.rhsIdx
  rw [dif_neg (show ¬(1 : Fin S128x16.rank) ∈ D.rhsBatch by decide),
    dif_pos (show (1 : Fin S128x16.rank) ∈ D.rhsNonContracting by decide)]
  rfl

/-- Entry `(p, q)` of the product into the zero accumulator: row `p` of the left operand against column `q` of the
    right. -/
theorem matmul_entry {φ₁ φ₂ : FTy} (a : FVec Ideal S5000x128 φ₁) (b : FVec Ideal S128x16 φ₂) (p : Fin 5000) (q : Fin 16) :
    matmul D none a b (constant S5000x16 .f32 0x00000000#32) (ix2 p q) = ∑ κ : Fin 128, a (ix2 p κ) * b (ix2 κ q) := by
  show FloatOps.matmul D none a b (constant S5000x16 .f32 0x00000000#32) (ix2 p q) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 128 rfl rfl).symm k) = ix2 k q := funext fun a => Fin.ext (by
    match a with
    | ⟨0, _⟩ => exact (rhs_0 _ _).trans hk
    | ⟨1, _⟩ => exact rhs_1 _ _)
  rw [el, er]

/-- Entry `(p, q)` of the tile of `z` the body stores: row `p` of the normalised, clipped tile against column `q` of
    the weights, plus the bias. -/
theorem z_apply (g var : Vec Ideal S1x128 .f32) (x : Vec Ideal S5000x128 .f32) (mean be : Vec Ideal S1x128 .f32)
    (w : Vec Ideal S128x16 .f32) (b : Vec Ideal S1x16 .f32) (p : Fin 5000) (q : Fin 16) :
    k4_pay3 g var x mean be w b (ix2 p q)
      = (∑ κ : Fin 128, max ((x (ix2 p κ) - mean (ix2 0 κ)) * (g (ix2 0 κ) * Ideal.rsqrt (var (ix2 0 κ) + eps))
            + be (ix2 0 κ)) 0 * w (ix2 κ q)) + b (ix2 0 q) := by
  unfold k4_pay3
  simp only [addf_apply, shapeCast_self, broadcastTo_1b_ab_apply]
  refine congrArg (· + b (ix2 0 q)) ?_
  refine (matmul_entry _ _ p q).trans ?_
  refine Finset.sum_congr rfl fun κ _ => ?_
  simp only [truncf_apply, maximumf_apply, addf_apply, mulf_apply, subf_apply, broadcastTo_1b_ab_apply, broadcast_apply]
  simp only [Ideal.ofBits_def, Ideal.ofBits_zero_f32]
  rfl

/-- The sum down the 5000 rows of a tile, at column `q`. -/
theorem colReduce (v : FVec Ideal S5000x16 .f32) (hφ : FKind.Formats .f32)
    (hacc : (0x00000000#32 : BitVec 32) = 0x00000000#32) (q : Fin 16) :
    multiReduction .add [0] S16 v 0x00000000#32 reduces_S5000x16_S16 hφ hacc (ix1 q) = ∑ k : Fin 5000, v (ix2 k q) := by
  refine (Ideal.multiReduction_add_single v 0x00000000#32 reduces_S5000x16_S16 hφ hacc (ix1 q)).trans ?_
  refine Finset.sum_congr rfl fun k _ => congrArg v ?_
  funext a
  match a with
  | ⟨0, _⟩ => rfl
  | ⟨1, _⟩ => rfl

/-- Entry `q` of what a point stores in the sums' row: what the row held there, plus the tile's column sum. -/
theorem sum_apply (z : FVec Ideal S5000x16 .f32) (acc : Vec Ideal S1x16 .f32) (u : Fin 1) (q : Fin 16) :
    k4_pay1 z acc (ix2 u q) = acc (ix2 u q) + ∑ k : Fin 5000, z (ix2 k q) := by
  unfold k4_pay1
  simp only [addf_apply, shapeCast_self, shapeCast_a_1a_apply]
  exact congrArg (acc (ix2 u q) + ·) (colReduce _ _ _ q)

/-- Entry `q` of what a point stores in the row of the sums of squares. -/
theorem sumsq_apply (z : FVec Ideal S5000x16 .f32) (acc : Vec Ideal S1x16 .f32) (u : Fin 1) (q : Fin 16) :
    k4_pay2 z acc (ix2 u q) = acc (ix2 u q) + ∑ k : Fin 5000, z (ix2 k q) * z (ix2 k q) := by
  unfold k4_pay2
  simp only [addf_apply, shapeCast_self, shapeCast_a_1a_apply]
  refine congrArg (acc (ix2 u q) + ·) ?_
  refine (colReduce _ _ _ q).trans ?_
  exact Finset.sum_congr rfl fun k _ => rfl

/-- The zero rows are zero. -/
theorem zero8_apply (u : Fin 1) (q : Fin 16) : k4_pay4 (F := Ideal) (ix2 u q) = 0 := by
  unfold k4_pay4
  rw [broadcast_apply]
  exact Ideal.ofBits_zero_f32
theorem zero9_apply (u : Fin 1) (q : Fin 16) : k4_pay5 (F := Ideal) (ix2 u q) = 0 := by
  unfold k4_pay5
  rw [broadcast_apply]
  exact Ideal.ofBits_zero_f32

/-! ## Where each window's block sits in its array -/

/-- The tiled windows (the input rows and the rows of `z`) are at block `(t, 0)` at point `t`; -/
theorem idx_x : ∀ t : Fin cfg4.N, win4_0.index t (0 : Fin 2) = t.val ∧ win4_0.index t (1 : Fin 2) = 0 :=
  (by decide +kernel : ∀ t : Fin grid4.N, _)
theorem idx_z : ∀ t : Fin cfg4.N, win4_7.index t (0 : Fin 2) = t.val ∧ win4_7.index t (1 : Fin 2) = 0 :=
  (by decide +kernel : ∀ t : Fin grid4.N, _)
/-- every other window stays at block `(0, 0)`. -/
theorem idx_mean : ∀ t : Fin cfg4.N, win4_1.index t (0 : Fin 2) = 0 ∧ win4_1.index t (1 : Fin 2) = 0 :=
  (by decide +kernel : ∀ t : Fin grid4.N, _)
theorem idx_var : ∀ t : Fin cfg4.N, win4_2.index t (0 : Fin 2) = 0 ∧ win4_2.index t (1 : Fin 2) = 0 :=
  (by decide +kernel : ∀ t : Fin grid4.N, _)
theorem idx_g : ∀ t : Fin cfg4.N, win4_3.index t (0 : Fin 2) = 0 ∧ win4_3.index t (1 : Fin 2) = 0 :=
  (by decide +kernel : ∀ t : Fin grid4.N, _)
theorem idx_be : ∀ t : Fin cfg4.N, win4_4.index t (0 : Fin 2) = 0 ∧ win4_4.index t (1 : Fin 2) = 0 :=
  (by decide +kernel : ∀ t : Fin grid4.N, _)
theorem idx_w : ∀ t : Fin cfg4.N, win4_5.index t (0 : Fin 2) = 0 ∧ win4_5.index t (1 : Fin 2) = 0 :=
  (by decide +kernel : ∀ t : Fin grid4.N, _)
theorem idx_b : ∀ t : Fin cfg4.N, win4_6.index t (0 : Fin 2) = 0 ∧ win4_6.index t (1 : Fin 2) = 0 :=
  (by decide +kernel : ∀ t : Fin grid4.N, _)
theorem idx_sum : ∀ t : Fin cfg4.N, win4_8.index t (0 : Fin 2) = 0 ∧ win4_8.index t (1 : Fin 2) = 0 :=
  (by decide +kernel : ∀ t : Fin grid4.N, _)
theorem idx_sumsq : ∀ t : Fin cfg4.N, win4_9.index t (0 : Fin 2) = 0 ∧ win4_9.index t (1 : Fin 2) = 0 :=
  (by decide +kernel : ∀ t : Fin grid4.N, _)

/-- Row `p` of the input block at point `t` is row `5000 t + p` of the input. -/
theorem iblk_x (t : Fin cfg4.N) (p : Fin 5000) (κ : Fin 128) (r : Fin 50000) (hr : r.val = t.val * 5000 + p.val) :
    (iblk4 (F := Ideal) V c 0 t : Vec Ideal S5000x128 .f32) (ix2 p κ) = X V c (ix2 r κ) := by
  obtain ⟨e0, e1⟩ := idx_x t
  unfold iblk4
  rw [View.read_apply]
  show (X V c) _ = X V c (ix2 r κ)
  refine congrArg (X V c) ?_
  funext a; apply Fin.ext
  match a with
  | ⟨0, _⟩ => show win4_0.index t (0 : Fin 2) * 5000 + 1 * p.val = r.val; rw [e0, hr]; omega
  | ⟨1, _⟩ => show win4_0.index t (1 : Fin 2) * 128 + 1 * κ.val = κ.val; rw [e1]; omega

/-- The block of the mean row is that row, whatever the tile. -/
theorem iblk_mean (t : Fin cfg4.N) (u : Fin 1) (q : Fin 128) :
    (iblk4 (F := Ideal) V c 1 t : Vec Ideal S1x128 .f32) (ix2 u q) = Mean V c (ix2 0 q) := by
  obtain ⟨e0, e1⟩ := idx_mean t
  unfold iblk4
  rw [View.read_apply]
  show (Mean V c) _ = Mean V c (ix2 0 q)
  refine congrArg (Mean V c) ?_
  funext a; apply Fin.ext
  match a with
  | ⟨0, _⟩ => show win4_1.index t (0 : Fin 2) * 1 + 1 * u.val = 0; rw [e0]; omega
  | ⟨1, _⟩ => show win4_1.index t (1 : Fin 2) * 128 + 1 * q.val = q.val; rw [e1]; omega

/-- The block of the variance row is that row, whatever the tile. -/
theorem iblk_var (t : Fin cfg4.N) (u : Fin 1) (q : Fin 128) :
    (iblk4 (F := Ideal) V c 2 t : Vec Ideal S1x128 .f32) (ix2 u q) = Var V c (ix2 0 q) := by
  obtain ⟨e0, e1⟩ := idx_var t
  unfold iblk4
  rw [View.read_apply]
  show (Var V c) _ = Var V c (ix2 0 q)
  refine congrArg (Var V c) ?_
  funext a; apply Fin.ext
  match a with
  | ⟨0, _⟩ => show win4_2.index t (0 : Fin 2) * 1 + 1 * u.val = 0; rw [e0]; omega
  | ⟨1, _⟩ => show win4_2.index t (1 : Fin 2) * 128 + 1 * q.val = q.val; rw [e1]; omega

/-- The block of the scale row is that row, whatever the tile. -/
theorem iblk_g (t : Fin cfg4.N) (u : Fin 1) (q : Fin 128) :
    (iblk4 (F := Ideal) V c 3 t : Vec Ideal S1x128 .f32) (ix2 u q) = G V c (ix2 0 q) := by
  obtain ⟨e0, e1⟩ := idx_g t
  unfold iblk4
  rw [View.read_apply]
  show (G V c) _ = G V c (ix2 0 q)
  refine congrArg (G V c) ?_
  funext a; apply Fin.ext
  match a with
  | ⟨0, _⟩ => show win4_3.index t (0 : Fin 2) * 1 + 1 * u.val = 0; rw [e0]; omega
  | ⟨1, _⟩ => show win4_3.index t (1 : Fin 2) * 128 + 1 * q.val = q.val; rw [e1]; omega

/-- The block of the shift row is that row, whatever the tile. -/
theorem iblk_be (t : Fin cfg4.N) (u : Fin 1) (q : Fin 128) :
    (iblk4 (F := Ideal) V c 4 t : Vec Ideal S1x128 .f32) (ix2 u q) = Be V c (ix2 0 q) := by
  obtain ⟨e0, e1⟩ := idx_be t
  unfold iblk4
  rw [View.read_apply]
  show (Be V c) _ = Be V c (ix2 0 q)
  refine congrArg (Be V c) ?_
  funext a; apply Fin.ext
  match a with
  | ⟨0, _⟩ => show win4_4.index t (0 : Fin 2) * 1 + 1 * u.val = 0; rw [e0]; omega
  | ⟨1, _⟩ => show win4_4.index t (1 : Fin 2) * 128 + 1 * q.val = q.val; rw [e1]; omega

/-- The block of the bias row is that row, whatever the tile. -/
theorem iblk_b (t : Fin cfg4.N) (u : Fin 1) (q : Fin 16) :
    (iblk4 (F := Ideal) V c 6 t : Vec Ideal S1x16 .f32) (ix2 u q) = B V c (ix2 0 q) := by
  obtain ⟨e0, e1⟩ := idx_b t
  unfold iblk4
  rw [View.read_apply]
  show (B V c) _ = B V c (ix2 0 q)
  refine congrArg (B V c) ?_
  funext a; apply Fin.ext
  match a with
  | ⟨0, _⟩ => show win4_6.index t (0 : Fin 2) * 1 + 1 * u.val = 0; rw [e0]; omega
  | ⟨1, _⟩ => show win4_6.index t (1 : Fin 2) * 16 + 1 * q.val = q.val; rw [e1]; omega

/-- The block of the weights is the weights, whatever the tile. -/
theorem iblk_w (t : Fin cfg4.N) (κ : Fin 128) (q : Fin 16) :
    (iblk4 (F := Ideal) V c 5 t : Vec Ideal S128x16 .f32) (ix2 κ q) = Wt V c (ix2 κ q) := by
  obtain ⟨e0, e1⟩ := idx_w t
  unfold iblk4
  rw [View.read_apply]
  show (Wt V c) _ = Wt V c (ix2 κ q)
  refine congrArg (Wt V c) ?_
  funext a; apply Fin.ext
  match a with
  | ⟨0, _⟩ => show win4_5.index t (0 : Fin 2) * 128 + 1 * κ.val = κ.val; rw [e0]; omega
  | ⟨1, _⟩ => show win4_5.index t (1 : Fin 2) * 16 + 1 * q.val = q.val; rw [e1]; omega

/-! ## The tile of `z` at a point -/

/-- What point `t` stores as its tile of `z`, from the input windows' blocks there. -/
def Zblk (t : Fin cfg4.N) : Vec Ideal S5000x16 .f32 := k4_pay3 (iblk4 V c 3 t) (iblk4 V c 2 t) (iblk4 V c 0 t) (iblk4 V c 1 t) (iblk4 V c 4 t) (iblk4 V c 5 t) (iblk4 V c 6 t)

/-- Row `p` of it is row `5000 t + p` of the layer's result on the whole arrays. -/
theorem Zblk_apply (t : Fin cfg4.N) (p : Fin 5000) (q : Fin 16) (r : Fin 50000) (hr : r.val = t.val * 5000 + p.val) :
    Zblk V c t (ix2 p q) = Lin V c (ix2 r q) := by
  unfold Zblk
  refine (z_apply (iblk4 V c 3 t) (iblk4 V c 2 t) (iblk4 V c 0 t) (iblk4 V c 1 t) (iblk4 V c 4 t) (iblk4 V c 5 t) (iblk4 V c 6 t) p q).trans ?_
  rw [iblk_b V c t 0 q]
  show _ = (∑ κ : Fin 128, relu (norm (X V c) (Mean V c) (Var V c) (G V c) (Be V c)) (ix2 r κ) * Wt V c (ix2 κ q))
    + B V c (ix2 0 q)
  refine congrArg (· + B V c (ix2 0 q)) ?_
  refine Finset.sum_congr rfl fun κ _ => ?_
  rw [iblk_x V c t p κ r hr, iblk_mean V c t 0 κ, iblk_var V c t 0 κ, iblk_g V c t 0 κ, iblk_be V c t 0 κ,
    iblk_w V c t κ q]
  rfl

/-! ## The first output: the rows of `z` -/

/-- WHAT POINT `t` WRITES BACK to the first output is tile `t` of `Lin`: rows `5000 t … 5000 t + 4999`. -/
theorem flushed_z (outs1 : Vec Ideal S5000x16 .f32) (t : Fin cfg4.N) (h1 : outs1 = Zblk V c t) :
    (cfg4.win 7).cut (grid4.coords t) outs1 = ((cfg4.win 7).blk t).view.read (Elt Ideal) (Lin V c) := by
  subst h1
  refine ext_ix2 (a := 5000) (b := 16) fun p q => ?_
  have hN : t.val < 10 := lt_of_lt_of_eq t.isLt (show cfg4.N = 10 from N_4)
  have hb : t.val * 5000 + p.val < 50000 := by have := p.isLt; omega
  obtain ⟨e0, e1⟩ := idx_z t
  have hemb : ((cfg4.win 7).blk t).view.emb (ix2 p q) = ix2 (⟨t.val * 5000 + p.val, hb⟩ : Fin 50000) q := by
    funext a; apply Fin.ext
    match a with
    | ⟨0, _⟩ => show win4_7.index t (0 : Fin 2) * 5000 + 1 * p.val = t.val * 5000 + p.val; rw [e0]; omega
    | ⟨1, _⟩ => show win4_7.index t (1 : Fin 2) * 16 + 1 * q.val = q.val; rw [e1]; omega
  rw [View.read_apply, hemb]
  exact Zblk_apply V c t p q ⟨t.val * 5000 + p.val, hb⟩ rfl

/-- An index of the first output is in point `t`'s tile iff each coordinate is in the tile's range on its axis. -/
theorem mem_blk (t : Fin cfg4.N) (i : S50000x16.Idx) :
    i ∈ ((cfg4.win 7).blk t).view.set ↔ ∀ a : Fin 2, win4_7.index t a * S5000x16.size a ≤ (i a).val
      ∧ (i a).val < win4_7.index t a * S5000x16.size a + S5000x16.size a := by
  show i ∈ ((View.whole main_v54_0).slice (win4_7.rect t)).set ↔ _
  rw [View.set_slice_whole, Rect.mem_set_unit]
  exact Iff.rfl

/-- Every row is in a tile: row `r` in tile `r / 5000`. -/
theorem cover_z (i : S50000x16.Idx) :
    ∃ t : Fin cfg4.N, (cfg4.win 7).flush t = true ∧ i ∈ ((cfg4.win 7).blk t).view.set := by
  have hi0 : (i 0).val < 50000 := (i 0).isLt
  have hi1 : (i 1).val < 16 := (i 1).isLt
  have hN : cfg4.N = 10 := N_4
  have ht : (i 0).val / 5000 < cfg4.N := by rw [hN]; omega
  obtain ⟨e0, e1⟩ := idx_z ⟨(i 0).val / 5000, ht⟩
  refine ⟨⟨(i 0).val / 5000, ht⟩, flush4_7 _, ?_⟩
  rw [mem_blk]
  intro a
  match a with
  | ⟨0, _⟩ =>
    show win4_7.index ⟨(i 0).val / 5000, ht⟩ (0 : Fin 2) * 5000 ≤ (i 0).val
      ∧ (i 0).val < win4_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_7.index ⟨(i 0).val / 5000, ht⟩ (1 : Fin 2) * 16 ≤ (i 1).val
      ∧ (i 1).val < win4_7.index ⟨(i 0).val / 5000, ht⟩ (1 : Fin 2) * 16 + 16
    rw [e1]; omega

/-! ## The running sums -/

/-- The column sum of tile `t` of `z` at column `q` (zero past the tenth tile, where there is none), -/
def blockSum (q : Fin 16) (t : ℕ) : EReal :=
  if h : t < 10 then ∑ k : Fin 5000, Lin V c (ix2 (⟨t * 5000 + k.val, by have := k.isLt; omega⟩ : Fin 50000) q) else 0

/-- and of the squares. -/
def blockSumSq (q : Fin 16) (t : ℕ) : EReal :=
  if h : t < 10 then ∑ k : Fin 5000, Lin V c (ix2 (⟨t * 5000 + k.val, by have := k.isLt; omega⟩ : Fin 50000) q)
    * Lin V c (ix2 (⟨t * 5000 + k.val, by have := k.isLt; omega⟩ : Fin 50000) q) else 0

/-- What point `t` stores over a sums' row `acc`, at column `q`: `acc q` plus tile `t`'s column sum; -/
theorem point_sum (t : Fin cfg4.N) (acc : Vec Ideal S1x16 .f32) (u : Fin 1) (q : Fin 16) :
    k4_pay1 (Zblk V c t) acc (ix2 u q) = acc (ix2 u q) + blockSum V c q t.val := by
  have hN : t.val < 10 := lt_of_lt_of_eq t.isLt (show cfg4.N = 10 from N_4)
  refine (sum_apply (Zblk V c t) acc u q).trans ?_
  refine congrArg (acc (ix2 u q) + ·) ?_
  unfold blockSum
  rw [dif_pos hN]
  exact Finset.sum_congr rfl fun k _ => Zblk_apply V c t k q ⟨t.val * 5000 + k.val, by have := k.isLt; omega⟩ rfl

/-- likewise for the squares. -/
theorem point_sumsq (t : Fin cfg4.N) (acc : Vec Ideal S1x16 .f32) (u : Fin 1) (q : Fin 16) :
    k4_pay2 (Zblk V c t) acc (ix2 u q) = acc (ix2 u q) + blockSumSq V c q t.val := by
  have hN : t.val < 10 := lt_of_lt_of_eq t.isLt (show cfg4.N = 10 from N_4)
  refine (sumsq_apply (Zblk V c t) acc u q).trans ?_
  refine congrArg (acc (ix2 u q) + ·) ?_
  unfold blockSumSq
  rw [dif_pos hN]
  refine Finset.sum_congr rfl fun k _ => ?_
  rw [Zblk_apply V c t k q ⟨t.val * 5000 + k.val, by have := k.isLt; omega⟩ rfl]

/-- THE FIRST POINT leaves its tile of `z`, and in each sums' row the zero row plus the tile's column sums; -/
theorem outs_A (t : Fin cfg4.N) (h0 : t.val % 10 = 0) :
    outsAt4 (F := Ideal) V c t.val t.isLt
      = (Zblk V c t, k4_pay1 (F := Ideal) (Zblk V c t) (k4_pay4 (F := Ideal)),
          k4_pay2 (F := Ideal) (Zblk V c t) (k4_pay5 (F := Ideal))) := by
  unfold Zblk
  rw [outsAt4_A V c t h0,
    out_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t),
    out_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t),
    out_A_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t)]

/-- A LATER POINT leaves its tile of `z`, and in each sums' row what the point before left plus the tile's column
    sums. -/
theorem outs_B (t : Fin cfg4.N) (h0 : ¬t.val % 10 = 0) :
    outsAt4 (F := Ideal) V c t.val t.isLt
      = (Zblk V c t, k4_pay1 (Zblk V c t) (outsAt4 V c (t.val - 1) (Nat.lt_of_le_of_lt (Nat.sub_le _ _) t.isLt)).2.1, k4_pay2 (Zblk V c t) (outsAt4 V c (t.val - 1) (Nat.lt_of_le_of_lt (Nat.sub_le _ _) t.isLt)).2.2) := by
  unfold Zblk
  rw [outsAt4_B V c t h0,
    out_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2,
    out_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2,
    out_B_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2]

/-- WHAT THE THREE OUTPUTS' BUFFERS HOLD AFTER POINT `n`: the tile of `z` of that point, and the two running sums
    `((0 + s 0) + s 1) + … + s n` of the tiles' column sums — by induction on the point. -/
theorem outsAt_eq : ∀ (n : ℕ) (h : n < cfg4.N),
    (outsAt4 (F := Ideal) V c n h).1 = Zblk V c ⟨n, h⟩
    ∧ (∀ (u : Fin 1) (q : Fin 16), (outsAt4 (F := Ideal) V c n h).2.1 (ix2 u q) = Cert.Lib.chain (blockSum V c q) n)
    ∧ (∀ (u : Fin 1) (q : Fin 16), (outsAt4 (F := Ideal) V c n h).2.2 (ix2 u q) = Cert.Lib.chain (blockSumSq V c q) n)
  | 0, h => by
    have e := outs_A V c ⟨0, h⟩ rfl
    refine ⟨congrArg Prod.fst e, fun u q => ?_, fun u q => ?_⟩
    · refine (congrFun (congrArg (fun p => p.2.1) e) (ix2 u q)).trans ?_
      refine (point_sum V c ⟨0, h⟩ (k4_pay4 (F := Ideal)) u q).trans ?_
      rw [zero8_apply]
      rfl
    · refine (congrFun (congrArg (fun p => p.2.2) e) (ix2 u q)).trans ?_
      refine (point_sumsq V c ⟨0, h⟩ (k4_pay5 (F := Ideal)) u q).trans ?_
      rw [zero9_apply]
      rfl
  | n + 1, h => by
    have hN : cfg4.N = 10 := N_4
    have hB : ¬(⟨n + 1, h⟩ : Fin cfg4.N).val % 10 = 0 := by dsimp only; omega
    have e := outs_B V c ⟨n + 1, h⟩ hB
    obtain ⟨-, ih8, ih9⟩ := outsAt_eq n (Nat.lt_of_succ_lt h)
    refine ⟨congrArg Prod.fst e, fun u q => ?_, fun u q => ?_⟩
    · refine (congrFun (congrArg (fun p => p.2.1) e) (ix2 u q)).trans ?_
      refine (point_sum V c ⟨n + 1, h⟩ _ u q).trans ?_
      show (outsAt4 V c n _).2.1 (ix2 u q) + blockSum V c q (n + 1)
        = Cert.Lib.chain (blockSum V c q) n + blockSum V c q (n + 1)
      rw [ih8 u q]
    · refine (congrFun (congrArg (fun p => p.2.2) e) (ix2 u q)).trans ?_
      refine (point_sumsq V c ⟨n + 1, h⟩ _ u q).trans ?_
      show (outsAt4 V c n _).2.2 (ix2 u q) + blockSumSq V c q (n + 1)
        = Cert.Lib.chain (blockSumSq V c q) n + blockSumSq V c q (n + 1)
      rw [ih9 u q]

/-- THE FIRST OUTPUT after the region: the layer's result on the whole arrays. -/
theorem arr_z : (dat4 (F := Ideal) V c).arrAt 7 cfg4.N
    = lin (relu (norm (X V c) (Mean V c) (Var V c) (G V c) (Be V c))) (Wt V c) (B V c) :=
  (dat4 V c).arrAt_eq_of_cover 7 (Lin V c) (fun t _ => by
    show (cfg4.win 7).cut (grid4.coords t) ((dat4 V c).after 7 t) = _
    rw [after4_7]
    exact flushed_z V c _ t (outsAt_eq V c t.val t.isLt).1) (cover_z)

/-! ## The one write-back of each running sum, and the two arrays -/

/-- The running sum after the last point is the sum over all the rows: ten tiles of 5000 rows, regrouped; -/
theorem chain_last (q : Fin 16) : Cert.Lib.chain (blockSum V c q) 9 = colSum (Lin V c) (ix2 0 q) := by
  unfold colSum
  show _ = ∑ r : Fin 50000, Lin V c (ix2 r q)
  rw [show (9 : ℕ) = 10 - 1 from rfl, Cert.Lib.chain_eq_sum_fin _ 10 (by decide),
    Cert.Lib.sum_blocks 10 5000 rfl (fun r : Fin 50000 => Lin V c (ix2 r q))]
  refine Finset.sum_congr rfl fun s _ => ?_
  unfold blockSum
  rw [dif_pos s.isLt]

/-- likewise for the squares. -/
theorem chain_last_sq (q : Fin 16) : Cert.Lib.chain (blockSumSq V c q) 9 = colSumSq (Lin V c) (ix2 0 q) := by
  unfold colSumSq
  show _ = ∑ r : Fin 50000, Lin V c (ix2 r q) * Lin V c (ix2 r q)
  rw [show (9 : ℕ) = 10 - 1 from rfl, Cert.Lib.chain_eq_sum_fin _ 10 (by decide),
    Cert.Lib.sum_blocks 10 5000 rfl (fun r : Fin 50000 => Lin V c (ix2 r q) * Lin V c (ix2 r q))]
  refine Finset.sum_congr rfl fun s _ => ?_
  unfold blockSumSq
  rw [dif_pos s.isLt]

/-- The window of the column sums is the whole one-row array: read through its block, any row `S` is itself. -/
theorem read_sum (t : Fin cfg4.N) (S : Mat 1 16) (u : Fin 1) (q : Fin 16) :
    ((cfg4.win 8).blk t).view.read (Elt Ideal) S (ix2 u q) = S (ix2 0 q) := by
  obtain ⟨e0, e1⟩ := idx_sum t
  rw [View.read_apply]
  show S _ = S (ix2 0 q)
  refine congrArg S ?_
  funext a; apply Fin.ext
  match a with
  | ⟨0, _⟩ => show win4_8.index t (0 : Fin 2) * 1 + 1 * u.val = 0; rw [e0]; omega
  | ⟨1, _⟩ => show win4_8.index t (1 : Fin 2) * 16 + 1 * q.val = q.val; rw [e1]; omega

/-- THE ONE WRITE-BACK of the column sums, after the last point. -/
theorem flushed_sum (t : Fin cfg4.N) (hf : (cfg4.win 8).flush t = true) :
    (dat4 (F := Ideal) V c).flushed 8 t = ((cfg4.win 8).blk t).view.read (Elt Ideal) (colSum (Lin V c)) := by
  have hN : cfg4.N = 10 := N_4
  have h9 : t.val = 9 := by have := (flush4_8 t).mp hf; have := t.isLt; omega
  show (cfg4.win 8).cut (grid4.coords t) ((dat4 V c).after 8 t) = _
  rw [after4_8]
  refine ext_ix2 (a := 1) (b := 16) fun u q => ?_
  refine Eq.trans ?_ (read_sum t (colSum (Lin V c)) u q).symm
  refine ((outsAt_eq V c t.val t.isLt).2.1 u q).trans ?_
  rw [h9]
  exact chain_last V c q

/-- Its one block covers the one-row array. -/
theorem cover_sum (i : S1x16.Idx) :
    ∃ t : Fin cfg4.N, (cfg4.win 8).flush t = true ∧ i ∈ ((cfg4.win 8).blk t).view.set :=
  ⟨t4_9, (flush4_8 t4_9).mpr rfl, by
    show i ∈ ((View.whole main_v54_1).slice (win4_8.rect t4_9)).set
    rw [View.set_slice_whole, Rect.mem_set_unit]
    intro a
    have h0 : (i 0 : Nat) < 1 := (i 0).isLt
    have h1 : (i 1 : Nat) < 16 := (i 1).isLt
    obtain ⟨e0, e1⟩ := idx_sum t4_9
    match a with
    | ⟨0, _⟩ =>
      show win4_8.index t4_9 (0 : Fin 2) * 1 ≤ (i 0 : Nat) ∧ (i 0 : Nat) < win4_8.index t4_9 (0 : Fin 2) * 1 + 1
      rw [e0]; omega
    | ⟨1, _⟩ =>
      show win4_8.index t4_9 (1 : Fin 2) * 16 ≤ (i 1 : Nat) ∧ (i 1 : Nat) < win4_8.index t4_9 (1 : Fin 2) * 16 + 16
      rw [e1]; omega⟩

/-- The window of the column sums of squares is the whole one-row array: read through its block, any row `S` is itself. -/
theorem read_sumsq (t : Fin cfg4.N) (S : Mat 1 16) (u : Fin 1) (q : Fin 16) :
    ((cfg4.win 9).blk t).view.read (Elt Ideal) S (ix2 u q) = S (ix2 0 q) := by
  obtain ⟨e0, e1⟩ := idx_sumsq t
  rw [View.read_apply]
  show S _ = S (ix2 0 q)
  refine congrArg S ?_
  funext a; apply Fin.ext
  match a with
  | ⟨0, _⟩ => show win4_9.index t (0 : Fin 2) * 1 + 1 * u.val = 0; rw [e0]; omega
  | ⟨1, _⟩ => show win4_9.index t (1 : Fin 2) * 16 + 1 * q.val = q.val; rw [e1]; omega

/-- THE ONE WRITE-BACK of the column sums of squares, after the last point. -/
theorem flushed_sumsq (t : Fin cfg4.N) (hf : (cfg4.win 9).flush t = true) :
    (dat4 (F := Ideal) V c).flushed 9 t = ((cfg4.win 9).blk t).view.read (Elt Ideal) (colSumSq (Lin V c)) := by
  have hN : cfg4.N = 10 := N_4
  have h9 : t.val = 9 := by have := (flush4_9 t).mp hf; have := t.isLt; omega
  show (cfg4.win 9).cut (grid4.coords t) ((dat4 V c).after 9 t) = _
  rw [after4_9]
  refine ext_ix2 (a := 1) (b := 16) fun u q => ?_
  refine Eq.trans ?_ (read_sumsq t (colSumSq (Lin V c)) u q).symm
  refine ((outsAt_eq V c t.val t.isLt).2.2 u q).trans ?_
  rw [h9]
  exact chain_last_sq V c q

/-- Its one block covers the one-row array. -/
theorem cover_sumsq (i : S1x16.Idx) :
    ∃ t : Fin cfg4.N, (cfg4.win 9).flush t = true ∧ i ∈ ((cfg4.win 9).blk t).view.set :=
  ⟨t4_9, (flush4_9 t4_9).mpr rfl, by
    show i ∈ ((View.whole main_v54_2).slice (win4_9.rect t4_9)).set
    rw [View.set_slice_whole, Rect.mem_set_unit]
    intro a
    have h0 : (i 0 : Nat) < 1 := (i 0).isLt
    have h1 : (i 1 : Nat) < 16 := (i 1).isLt
    obtain ⟨e0, e1⟩ := idx_sumsq t4_9
    match a with
    | ⟨0, _⟩ =>
      show win4_9.index t4_9 (0 : Fin 2) * 1 ≤ (i 0 : Nat) ∧ (i 0 : Nat) < win4_9.index t4_9 (0 : Fin 2) * 1 + 1
      rw [e0]; omega
    | ⟨1, _⟩ =>
      show win4_9.index t4_9 (1 : Fin 2) * 16 ≤ (i 1 : Nat) ∧ (i 1 : Nat) < win4_9.index t4_9 (1 : Fin 2) * 16 + 16
      rw [e1]; omega⟩

/-- THE SECOND OUTPUT after the region: the column sums of the layer's result. -/
theorem arr_sum : (dat4 (F := Ideal) V c).arrAt 8 cfg4.N
    = colSum (lin (relu (norm (X V c) (Mean V c) (Var V c) (G V c) (Be V c))) (Wt V c) (B V c)) :=
  (dat4 V c).arrAt_eq_of_cover 8 (colSum (Lin V c)) (flushed_sum V c) (cover_sum)

/-- THE THIRD OUTPUT after the region: the column sums of its squares. -/
theorem arr_sumsq : (dat4 (F := Ideal) V c).arrAt 9 cfg4.N
    = colSumSq (lin (relu (norm (X V c) (Mean V c) (Var V c) (G V c) (Be V c))) (Wt V c) (B V c)) :=
  (dat4 V c).arrAt_eq_of_cover 9 (colSumSq (Lin V c)) (flushed_sumsq V c) (cover_sumsq)

end Cert.KernelIdeal.Region4

end
-- ==== Proof.Region5.lean ====
/-
  The column sums of the normalised rows, accumulated over the row tiles.

  The input has 50000 rows of 16 entries, read in ten tiles of 5000 consecutive rows. The one output row is kept
  across the ten grid points: the first point sets it to zero, and every point (the first included) adds to it the
  column sums of its tile's normalised rows

      xn (r, q) = (x (r, q) - mean q) * (g q * rsqrt (var q + eps)) + be q        (no clipping here),

  so after the last point entry `q` holds `((0 + s 0) + s 1) + … + s 9`, `s t` the sum of `xn (r, q)` over the rows
  `r` of tile `t`. Addition of extended reals is commutative and associative (a commutative monoid, infinities
  included), so this running sum is the one sum over all 50000 rows: only regrouping is used, never cancellation or
  distribution. The row is written back once, after the last point, and that one block is the whole output array.
-/
import proofs.«105059_j20856361189655_1_alg».proof.Proof.Spec
import proofs.«105059_j20856361189655_1_alg».proof.Proof.LibBlockSum
import proofs.«105059_j20856361189655_1_alg».proof.Proof.Gen.KernelIdeal.Frame
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.Region5

open Cert.KernelIdeal Cert.KernelIdeal.Gen Cert.Gin
open Idealize.ShloMosaic Idealize.ShloMosaic.TcCoe Idealize.ShloMosaic.ValueIdx Idealize.SL.Sem
open Idealize.ShloMosaic.Pipeline (Dat)
open Idealize.SL Idealize.SL.RA Idealize.SL.BI

variable (V : (c : Dev nD) → (b : Ref sig .tc) → Buf (Elt Ideal) ((c : Thread nD τ).loc b)) (c : Dev nD)

/-- The five arrays the layer reads, as it finds them: the rows to normalise, and the four single rows. -/
abbrev X : Mat 50000 16 := V c (Pipeline.arrRef spec5 0)
abbrev Mean : Mat 1 16 := V c (Pipeline.arrRef spec5 1)
abbrev Var : Mat 1 16 := V c (Pipeline.arrRef spec5 2)
abbrev G : Mat 1 16 := V c (Pipeline.arrRef spec5 3)
abbrev Be : Mat 1 16 := V c (Pipeline.arrRef spec5 4)

/-- The normalised rows. -/
abbrev Nrm : Mat 50000 16 := norm (X V c) (Mean V c) (Var V c) (G V c) (Be V c)

theorem hz : (![0, 0] : Fin 2 → Nat) = fun _ => 0 := funext fun a => by fin_cases a <;> rfl

/-- Two functions of a rank-2 index that agree at every pair of coordinates are equal. -/
theorem ext_ix2 {α : Type} {a b : Nat} {f g : (⟨2, ![a, b]⟩ : Shape).Idx → α}
    (h : ∀ (p : Fin a) (q : Fin b), f (ix2 p q) = g (ix2 p q)) : f = g :=
  funext fun j => by rw [eq_ix2 j]; exact h _ _

/-! ## What each kind of point leaves in the output row -/

/-- THE FIRST POINT stores the zero row, reads it back, and leaves the zero row plus its tile's column sums: the
    second store's value over the first store's. -/
theorem out_A (i : grid5.Coords) (a1 : Memref sig .tc .vmem S5000x16 .f32) (h1 : a1.IsWhole)
    (a2 : Memref sig .tc .vmem S1x16 .f32) (h2 : a2.IsWhole) (a3 : Memref sig .tc .vmem S1x16 .f32) (h3 : a3.IsWhole)
    (a4 : Memref sig .tc .vmem S1x16 .f32) (h4 : a4.IsWhole) (a5 : Memref sig .tc .vmem S1x16 .f32) (h5 : a5.IsWhole)
    (a6 : Memref sig .tc .vmem S1x16 .f32) (h6 : a6.IsWhole) (hc : cond5_0 i)
    (x0 : Vec Ideal S5000x16 .f32) (x1 x2 x3 x4 : Vec Ideal S1x16 .f32) :
    out5_A_5 c i a1 h1 a2 h2 a3 h3 a4 h4 a5 h5 a6 h6 hc x0 x1 x2 x3 x4 = k5_pay2 x3 x2 x0 x1 x4 (k5_pay1 (F := Ideal)) := by
  unfold out5_A_5
  rw [View.read_writes_eq_canon _ _ _ (cover5_A_5 c i a1 h1 a2 h2 a3 h3 a4 h4 a5 h5 a6 h6 hc x0 x1 x2 x3 x4)]
  unfold kernelRun5_A
  dsimp only
  sl_unfold_words
  rw [View.canon_cons_unit_zero (S := S1x16) hz, View.readCov_unit_zero (S := S1x16) _ hz]
  simp only [View.readAt_eq_ld, h1.read_unread, h2.read_unread, h3.read_unread, h4.read_unread, h5.read_unread,
    View.ld_unit_zero (S := S1x16) hz, View.ld_unit_zero (S := S5000x16) hz]

/-- A LATER POINT leaves what the row held plus its tile's column sums: its one store's value. -/
theorem out_B (i : grid5.Coords) (a1 : Memref sig .tc .vmem S5000x16 .f32) (h1 : a1.IsWhole)
    (a2 : Memref sig .tc .vmem S1x16 .f32) (h2 : a2.IsWhole) (a3 : Memref sig .tc .vmem S1x16 .f32) (h3 : a3.IsWhole)
    (a4 : Memref sig .tc .vmem S1x16 .f32) (h4 : a4.IsWhole) (a5 : Memref sig .tc .vmem S1x16 .f32) (h5 : a5.IsWhole)
    (a6 : Memref sig .tc .vmem S1x16 .f32) (h6 : a6.IsWhole) (hc : ¬cond5_0 i)
    (x0 : Vec Ideal S5000x16 .f32) (x1 x2 x3 x4 xo : Vec Ideal S1x16 .f32) :
    out5_B_5 c i a1 h1 a2 h2 a3 h3 a4 h4 a5 h5 a6 h6 hc x0 x1 x2 x3 x4 xo = k5_pay2 x3 x2 x0 x1 x4 xo := by
  unfold out5_B_5
  rw [View.read_writes_eq_canon _ _ _ (cover5_B_5 c i a1 h1 a2 h2 a3 h3 a4 h4 a5 h5 a6 h6 hc x0 x1 x2 x3 x4 xo)]
  unfold kernelRun5_B
  dsimp only
  try sl_unfold_words
  rw [View.canon_unit_zero hz]
  simp only [View.readAt_eq_ld, h1.read_unread, h2.read_unread, h3.read_unread, h4.read_unread, h5.read_unread,
    h6.read_unread, View.ld_unit_zero (S := S1x16) hz, View.ld_unit_zero (S := S5000x16) hz]

/-! ## The stored value at an entry -/

/-- The sum down the 5000 rows of a tile, at column `q`. -/
theorem colReduce (v : FVec Ideal S5000x16 .f32) (hφ : FKind.Formats .f32)
    (hacc : (0x00000000#32 : BitVec 32) = 0x00000000#32) (q : Fin 16) :
    multiReduction .add [0] S16 v 0x00000000#32 reduces_S5000x16_S16 hφ hacc (ix1 q) = ∑ k : Fin 5000, v (ix2 k q) := by
  refine (Ideal.multiReduction_add_single v 0x00000000#32 reduces_S5000x16_S16 hφ hacc (ix1 q)).trans ?_
  refine Finset.sum_congr rfl fun k _ => congrArg v ?_
  funext a
  match a with
  | ⟨0, _⟩ => rfl
  | ⟨1, _⟩ => rfl

/-- The zero row is zero. -/
theorem zero_apply (u : Fin 1) (q : Fin 16) : k5_pay1 (F := Ideal) (ix2 u q) = 0 := by
  unfold k5_pay1
  rw [broadcast_apply]
  exact Ideal.ofBits_zero_f32

/-- Entry `q` of what a point stores: what the row held there, plus the sum over the tile's rows of the normalised
    entries of column `q`. -/
theorem pay_apply (g var : Vec Ideal S1x16 .f32) (x : Vec Ideal S5000x16 .f32) (mean be acc : Vec Ideal S1x16 .f32)
    (u : Fin 1) (q : Fin 16) :
    k5_pay2 g var x mean be acc (ix2 u q)
      = acc (ix2 u q) + ∑ k : Fin 5000,
          ((x (ix2 k q) - mean (ix2 0 q)) * (g (ix2 0 q) * Ideal.rsqrt (var (ix2 0 q) + eps)) + be (ix2 0 q)) := by
  unfold k5_pay2
  simp only [addf_apply, shapeCast_self, shapeCast_a_1a_apply]
  refine congrArg (acc (ix2 u q) + ·) ?_
  refine (colReduce _ _ _ q).trans ?_
  refine Finset.sum_congr rfl fun k _ => ?_
  simp only [addf_apply, mulf_apply, subf_apply, broadcastTo_1b_ab_apply, broadcast_apply]
  rfl

/-! ## Where each window's block sits in its array -/

/-- The input rows are at block `(t, 0)` at point `t`; -/
theorem idx_x : ∀ t : Fin cfg5.N, win5_0.index t (0 : Fin 2) = t.val ∧ win5_0.index t (1 : Fin 2) = 0 :=
  (by decide +kernel : ∀ t : Fin grid5.N, _)
/-- the four single rows and the output row stay at block `(0, 0)`. -/
theorem idx_mean : ∀ t : Fin cfg5.N, win5_1.index t (0 : Fin 2) = 0 ∧ win5_1.index t (1 : Fin 2) = 0 :=
  (by decide +kernel : ∀ t : Fin grid5.N, _)
theorem idx_var : ∀ t : Fin cfg5.N, win5_2.index t (0 : Fin 2) = 0 ∧ win5_2.index t (1 : Fin 2) = 0 :=
  (by decide +kernel : ∀ t : Fin grid5.N, _)
theorem idx_g : ∀ t : Fin cfg5.N, win5_3.index t (0 : Fin 2) = 0 ∧ win5_3.index t (1 : Fin 2) = 0 :=
  (by decide +kernel : ∀ t : Fin grid5.N, _)
theorem idx_be : ∀ t : Fin cfg5.N, win5_4.index t (0 : Fin 2) = 0 ∧ win5_4.index t (1 : Fin 2) = 0 :=
  (by decide +kernel : ∀ t : Fin grid5.N, _)
theorem idx_out : ∀ t : Fin cfg5.N, win5_5.index t (0 : Fin 2) = 0 ∧ win5_5.index t (1 : Fin 2) = 0 :=
  (by decide +kernel : ∀ t : Fin grid5.N, _)

/-- Row `k` of the input block at point `t` is row `5000 t + k` of the input. -/
theorem iblk_x (t : Fin cfg5.N) (k : Fin 5000) (q : Fin 16) (r : Fin 50000) (hr : r.val = t.val * 5000 + k.val) :
    (iblk5 (F := Ideal) V c 0 t : Vec Ideal S5000x16 .f32) (ix2 k q) = X V c (ix2 r q) := by
  obtain ⟨e0, e1⟩ := idx_x t
  unfold iblk5
  rw [View.read_apply]
  show (X V c) _ = X V c (ix2 r q)
  refine congrArg (X V c) ?_
  funext a; apply Fin.ext
  match a with
  | ⟨0, _⟩ => show win5_0.index t (0 : Fin 2) * 5000 + 1 * k.val = r.val; rw [e0, hr]; omega
  | ⟨1, _⟩ => show win5_0.index t (1 : Fin 2) * 16 + 1 * q.val = q.val; rw [e1]; omega

/-- The block of the mean row is that row, whatever the tile. -/
theorem iblk_mean (t : Fin cfg5.N) (u : Fin 1) (q : Fin 16) :
    (iblk5 (F := Ideal) V c 1 t : Vec Ideal S1x16 .f32) (ix2 u q) = Mean V c (ix2 0 q) := by
  obtain ⟨e0, e1⟩ := idx_mean t
  unfold iblk5
  rw [View.read_apply]
  show (Mean V c) _ = Mean V c (ix2 0 q)
  refine congrArg (Mean V c) ?_
  funext a; apply Fin.ext
  match a with
  | ⟨0, _⟩ => show win5_1.index t (0 : Fin 2) * 1 + 1 * u.val = 0; rw [e0]; omega
  | ⟨1, _⟩ => show win5_1.index t (1 : Fin 2) * 16 + 1 * q.val = q.val; rw [e1]; omega

/-- The block of the variance row is that row, whatever the tile. -/
theorem iblk_var (t : Fin cfg5.N) (u : Fin 1) (q : Fin 16) :
    (iblk5 (F := Ideal) V c 2 t : Vec Ideal S1x16 .f32) (ix2 u q) = Var V c (ix2 0 q) := by
  obtain ⟨e0, e1⟩ := idx_var t
  unfold iblk5
  rw [View.read_apply]
  show (Var V c) _ = Var V c (ix2 0 q)
  refine congrArg (Var V c) ?_
  funext a; apply Fin.ext
  match a with
  | ⟨0, _⟩ => show win5_2.index t (0 : Fin 2) * 1 + 1 * u.val = 0; rw [e0]; omega
  | ⟨1, _⟩ => show win5_2.index t (1 : Fin 2) * 16 + 1 * q.val = q.val; rw [e1]; omega

/-- The block of the scale row is that row, whatever the tile. -/
theorem iblk_g (t : Fin cfg5.N) (u : Fin 1) (q : Fin 16) :
    (iblk5 (F := Ideal) V c 3 t : Vec Ideal S1x16 .f32) (ix2 u q) = G V c (ix2 0 q) := by
  obtain ⟨e0, e1⟩ := idx_g t
  unfold iblk5
  rw [View.read_apply]
  show (G V c) _ = G V c (ix2 0 q)
  refine congrArg (G V c) ?_
  funext a; apply Fin.ext
  match a with
  | ⟨0, _⟩ => show win5_3.index t (0 : Fin 2) * 1 + 1 * u.val = 0; rw [e0]; omega
  | ⟨1, _⟩ => show win5_3.index t (1 : Fin 2) * 16 + 1 * q.val = q.val; rw [e1]; omega

/-- The block of the shift row is that row, whatever the tile. -/
theorem iblk_be (t : Fin cfg5.N) (u : Fin 1) (q : Fin 16) :
    (iblk5 (F := Ideal) V c 4 t : Vec Ideal S1x16 .f32) (ix2 u q) = Be V c (ix2 0 q) := by
  obtain ⟨e0, e1⟩ := idx_be t
  unfold iblk5
  rw [View.read_apply]
  show (Be V c) _ = Be V c (ix2 0 q)
  refine congrArg (Be V c) ?_
  funext a; apply Fin.ext
  match a with
  | ⟨0, _⟩ => show win5_4.index t (0 : Fin 2) * 1 + 1 * u.val = 0; rw [e0]; omega
  | ⟨1, _⟩ => show win5_4.index t (1 : Fin 2) * 16 + 1 * q.val = q.val; rw [e1]; omega

/-! ## The running sum -/

/-- The column sum of tile `t` at column `q`: the normalised entries of rows `5000 t … 5000 t + 4999` (zero past the
    tenth tile, where there is none). -/
def blockSum (q : Fin 16) (t : ℕ) : EReal :=
  if h : t < 10 then ∑ k : Fin 5000, Nrm V c (ix2 (⟨t * 5000 + k.val, by have := k.isLt; omega⟩ : Fin 50000) q) else 0

/-- What point `t` stores over a row `acc`, at column `q`: `acc q` plus tile `t`'s column sum. -/
theorem point_val (t : Fin cfg5.N) (acc : Vec Ideal S1x16 .f32) (u : Fin 1) (q : Fin 16) :
    k5_pay2 (iblk5 V c 3 t) (iblk5 V c 2 t) (iblk5 V c 0 t) (iblk5 V c 1 t) (iblk5 V c 4 t) acc (ix2 u q) = acc (ix2 u q) + blockSum V c q t.val := by
  have hN : t.val < 10 := lt_of_lt_of_eq t.isLt (show cfg5.N = 10 from N_5)
  refine (pay_apply (iblk5 V c 3 t) (iblk5 V c 2 t) (iblk5 V c 0 t) (iblk5 V c 1 t) (iblk5 V c 4 t) acc u q).trans ?_
  refine congrArg (acc (ix2 u q) + ·) ?_
  unfold blockSum
  rw [dif_pos hN]
  refine Finset.sum_congr rfl fun k _ => ?_
  rw [iblk_x V c t k q ⟨t.val * 5000 + k.val, by have := k.isLt; omega⟩ rfl, iblk_mean V c t 0 q, iblk_var V c t 0 q,
    iblk_g V c t 0 q, iblk_be V c t 0 q]
  rfl

/-- WHAT THE OUTPUT ROW HOLDS AFTER POINT `n` is the running sum `((0 + s 0) + s 1) + … + s n` of the tiles' column
    sums — by induction on the point. -/
theorem outsAt_eq : ∀ (n : ℕ) (h : n < cfg5.N) (u : Fin 1) (q : Fin 16),
    outsAt5 (F := Ideal) V c n h (ix2 u q) = Cert.Lib.chain (blockSum V c q) n
  | 0, h, u, q => by
    refine (congrFun ((outsAt5_A V c ⟨0, h⟩ rfl).trans
      (out_A c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) (ms5_3 ⟨0, h⟩) (hs5_3 ⟨0, h⟩) (ms5_4 ⟨0, h⟩) (hs5_4 ⟨0, h⟩) (ms5_5 ⟨0, h⟩) (hs5_5 ⟨0, h⟩) ((hcond5_0 ⟨0, h⟩).mpr rfl) (iblk5 V c 0 ⟨0, h⟩) (iblk5 V c 1 ⟨0, h⟩) (iblk5 V c 2 ⟨0, h⟩) (iblk5 V c 3 ⟨0, h⟩) (iblk5 V c 4 ⟨0, h⟩))) (ix2 u q)).trans ?_
    refine (point_val V c ⟨0, h⟩ (k5_pay1 (F := Ideal)) u q).trans ?_
    rw [zero_apply]
    rfl
  | n + 1, h, u, q => by
    have hN : cfg5.N = 10 := N_5
    have hB : ¬(⟨n + 1, h⟩ : Fin cfg5.N).val % 10 = 0 := by dsimp only; omega
    refine (congrFun ((outsAt5_B V c ⟨n + 1, h⟩ hB).trans
      (out_B c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) (ms5_4 ⟨n + 1, h⟩) (hs5_4 ⟨n + 1, h⟩) (ms5_5 ⟨n + 1, h⟩) (hs5_5 ⟨n + 1, h⟩) (fun hh => hB ((hcond5_0 ⟨n + 1, h⟩).mp hh)) (iblk5 V c 0 ⟨n + 1, h⟩) (iblk5 V c 1 ⟨n + 1, h⟩) (iblk5 V c 2 ⟨n + 1, h⟩) (iblk5 V c 3 ⟨n + 1, h⟩) (iblk5 V c 4 ⟨n + 1, h⟩)
        (outsAt5 V c ((⟨n + 1, h⟩ : Fin cfg5.N).val - 1) (Nat.lt_of_le_of_lt (Nat.sub_le _ _) (⟨n + 1, h⟩ : Fin cfg5.N).isLt)))) (ix2 u q)).trans ?_
    refine (point_val V c ⟨n + 1, h⟩ _ u q).trans ?_
    show outsAt5 V c n _ (ix2 u q) + blockSum V c q (n + 1) = Cert.Lib.chain (blockSum V c q) n + blockSum V c q (n + 1)
    rw [outsAt_eq n _ u q]

/-! ## The one write-back, and the whole array -/

/-- The running sum after the last point is the sum over all the rows: ten tiles of 5000 rows, regrouped. -/
theorem chain_last (q : Fin 16) : Cert.Lib.chain (blockSum V c q) 9 = colSum (Nrm V c) (ix2 0 q) := by
  unfold colSum
  show _ = ∑ r : Fin 50000, Nrm V c (ix2 r q)
  rw [show (9 : ℕ) = 10 - 1 from rfl, Cert.Lib.chain_eq_sum_fin _ 10 (by decide),
    Cert.Lib.sum_blocks 10 5000 rfl (fun r : Fin 50000 => Nrm V c (ix2 r q))]
  refine Finset.sum_congr rfl fun s _ => ?_
  unfold blockSum
  rw [dif_pos s.isLt]

/-- The output window's block is the whole one-row array: read through it, any row `S` is itself. -/
theorem read_out (t : Fin cfg5.N) (S : Mat 1 16) (u : Fin 1) (q : Fin 16) :
    ((cfg5.win 5).blk t).view.read (Elt Ideal) S (ix2 u q) = S (ix2 0 q) := by
  obtain ⟨e0, e1⟩ := idx_out t
  rw [View.read_apply]
  show S _ = S (ix2 0 q)
  refine congrArg S ?_
  funext a; apply Fin.ext
  match a with
  | ⟨0, _⟩ => show win5_5.index t (0 : Fin 2) * 1 + 1 * u.val = 0; rw [e0]; omega
  | ⟨1, _⟩ => show win5_5.index t (1 : Fin 2) * 16 + 1 * q.val = q.val; rw [e1]; omega

/-- THE ONE WRITE-BACK, after the last point, writes the column sums of all the normalised rows. -/
theorem flushed_eq (t : Fin cfg5.N) (hf : (cfg5.win 5).flush t = true) :
    (dat5 (F := Ideal) V c).flushed 5 t = ((cfg5.win 5).blk t).view.read (Elt Ideal) (colSum (Nrm V c)) := by
  have hN : cfg5.N = 10 := N_5
  have h9 : t.val = 9 := by have := (flush5_5 t).mp hf; have := t.isLt; omega
  show (cfg5.win 5).cut (grid5.coords t) ((dat5 V c).after 5 t) = _
  rw [after5_5]
  refine ext_ix2 (a := 1) (b := 16) fun u q => ?_
  refine Eq.trans ?_ (read_out t (colSum (Nrm V c)) u q).symm
  refine (outsAt_eq V c t.val t.isLt u q).trans ?_
  rw [h9]
  exact chain_last V c q

/-- THE ARRAY after the region: the column sums of the normalised rows. -/
theorem arr_sum : (dat5 (F := Ideal) V c).arrAt 5 cfg5.N = colSum (norm (X V c) (Mean V c) (Var V c) (G V c) (Be V c)) :=
  (dat5 V c).arrAt_eq_of_cover 5 (colSum (Nrm V c)) (flushed_eq V c) fun i =>
    ⟨t5_9, (flush5_5 t5_9).mpr rfl, by
      show i ∈ ((View.whole main_v63).slice (win5_5.rect t5_9)).set
      rw [View.set_slice_whole, Rect.mem_set_unit]
      intro a
      have h0 : (i 0 : Nat) < 1 := (i 0).isLt
      have h1 : (i 1 : Nat) < 16 := (i 1).isLt
      obtain ⟨e0, e1⟩ := idx_out t5_9
      match a with
      | ⟨0, _⟩ =>
        show win5_5.index t5_9 (0 : Fin 2) * 1 ≤ (i 0 : Nat) ∧ (i 0 : Nat) < win5_5.index t5_9 (0 : Fin 2) * 1 + 1
        rw [e0]; omega
      | ⟨1, _⟩ =>
        show win5_5.index t5_9 (1 : Fin 2) * 16 ≤ (i 1 : Nat) ∧ (i 1 : Nat) < win5_5.index t5_9 (1 : Fin 2) * 16 + 16
        rw [e1]; omega⟩

end Cert.KernelIdeal.Region5

end
-- ==== Proof.KValue.lean ====
/-
  The idealized kernel's result as a function of its arguments. Region by region: the first linear layer of the
  neighbour sums with its two running column sums; the statistics from the sums; normalise, positive part and second
  linear layer with its sums; normalise and positive part; then the same three steps again on the neighbour sums of
  that array, the last linear layer sixteen columns wide; and the column sums of the last normalised array, divided
  by the row count. Each region's value is read off its frame (the region modules); what each region finds is the
  glue between them; together they are the network with the variance taken as the mean of the squares less the
  square of the mean.
-/
import proofs.«105059_j20856361189655_1_alg».proof.Proof.KGlue
import proofs.«105059_j20856361189655_1_alg».proof.Proof.KStats
import proofs.«105059_j20856361189655_1_alg».proof.Proof.Net
import proofs.«105059_j20856361189655_1_alg».proof.Proof.Region0
import proofs.«105059_j20856361189655_1_alg».proof.Proof.Region1
import proofs.«105059_j20856361189655_1_alg».proof.Proof.Region2
import proofs.«105059_j20856361189655_1_alg».proof.Proof.Region3
import proofs.«105059_j20856361189655_1_alg».proof.Proof.Region4
import proofs.«105059_j20856361189655_1_alg».proof.Proof.Region5

set_option maxRecDepth 16384

noncomputable section

namespace Cert.KernelIdeal.KValue

open Cert.KernelIdeal Cert.KernelIdeal.Gen Cert.KernelIdeal.KHost Cert.KernelIdeal.KGlue Cert.KernelIdeal.KStats Cert.Gin
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The neighbour sum over the launch memory's edge lists. -/
abbrev aggf : Mat 50000 128 → Mat 50000 128 := fun h => agg h (m ((c.tc : Thread nD τ).loc main_arg1)) (m ((c.tc : Thread nD τ).loc main_arg2))

/-- The first linear layer's output. -/
def z1 : Mat 50000 128 := lin (aggf m c (m ((c.tc : Thread nD τ).loc main_arg0))) (m ((c.tc : Thread nD τ).loc main_arg3)) (rowOf (m ((c.tc : Thread nD τ).loc main_arg4)))
/-- The second linear layer's output. -/
def z2 : Mat 50000 128 := lin (relu (bnK (z1 m c) (rowOf (m ((c.tc : Thread nD τ).loc main_arg5))) (rowOf (m ((c.tc : Thread nD τ).loc main_arg6))))) (m ((c.tc : Thread nD τ).loc main_arg7)) (rowOf (m ((c.tc : Thread nD τ).loc main_arg8)))
/-- The first half's output. -/
def h1 : Mat 50000 128 := relu (bnK (z2 m c) (rowOf (m ((c.tc : Thread nD τ).loc main_arg9))) (rowOf (m ((c.tc : Thread nD τ).loc main_arg10))))
/-- The third linear layer's output. -/
def z3 : Mat 50000 128 := lin (aggf m c (h1 m c)) (m ((c.tc : Thread nD τ).loc main_arg11)) (rowOf (m ((c.tc : Thread nD τ).loc main_arg12)))
/-- The last linear layer's output. -/
def z4 : Mat 50000 16 := lin (relu (bnK (z3 m c) (rowOf (m ((c.tc : Thread nD τ).loc main_arg13))) (rowOf (m ((c.tc : Thread nD τ).loc main_arg14))))) (m ((c.tc : Thread nD τ).loc main_arg15)) (rowOf (m ((c.tc : Thread nD τ).loc main_arg16)))
/-- The last normalised array. -/
def o4 : Mat 50000 16 := bnK (z4 m c) (rowOf (m ((c.tc : Thread nD τ).loc main_arg17))) (rowOf (m ((c.tc : Thread nD τ).loc main_arg18)))

/-- It is the network, statistics in the kernel's arrangement. -/
theorem o4_eq_net : o4 m c = net (aggf m c) bnK bnK (m ((c.tc : Thread nD τ).loc main_arg0)) (m ((c.tc : Thread nD τ).loc main_arg3)) (rowOf (m ((c.tc : Thread nD τ).loc main_arg4))) (rowOf (m ((c.tc : Thread nD τ).loc main_arg5))) (rowOf (m ((c.tc : Thread nD τ).loc main_arg6))) (m ((c.tc : Thread nD τ).loc main_arg7)) (rowOf (m ((c.tc : Thread nD τ).loc main_arg8))) (rowOf (m ((c.tc : Thread nD τ).loc main_arg9))) (rowOf (m ((c.tc : Thread nD τ).loc main_arg10))) (m ((c.tc : Thread nD τ).loc main_arg11)) (rowOf (m ((c.tc : Thread nD τ).loc main_arg12))) (rowOf (m ((c.tc : Thread nD τ).loc main_arg13))) (rowOf (m ((c.tc : Thread nD τ).loc main_arg14))) (m ((c.tc : Thread nD τ).loc main_arg15)) (rowOf (m ((c.tc : Thread nD τ).loc main_arg16))) (rowOf (m ((c.tc : Thread nD τ).loc main_arg17))) (rowOf (m ((c.tc : Thread nD τ).loc main_arg18))) := rfl

/-! ## Region 0 -/

theorem r0_z : (dat0 (V1 m ρ) c).arrAt 3 cfg0.N = z1 m c := by
  rw [Region0.arr_z]
  show lin (V1 m ρ c main_v10) (V1 m ρ c main_arg3) (V1 m ρ c main_v11) = _
  rw [V1_v10, V1_arg3, V1_v11, row128]
  rfl
theorem r0_sum : (dat0 (V1 m ρ) c).arrAt 4 cfg0.N = colSum (z1 m c) := by
  rw [Region0.arr_sum, ← Region0.arr_z, r0_z]
theorem r0_sumsq : (dat0 (V1 m ρ) c).arrAt 5 cfg0.N = colSumSq (z1 m c) := by
  rw [Region0.arr_sumsq, ← Region0.arr_z, r0_z]

/-! ## Region 1 -/

theorem r1_z : (dat1 (V3 m ρ) c).arrAt 7 cfg1.N = z2 m c := by
  rw [Region1.arr_z]
  show lin (relu (norm (V3 m ρ c main_v12_0) (V3 m ρ c main_v14) (V3 m ρ c main_v18) (V3 m ρ c main_v19) (V3 m ρ c main_v20)))
      (V3 m ρ c main_arg7) (V3 m ρ c main_v21) = _
  rw [V3_v12_0, V3_v14, V3_v18, V3_v19, V3_v20, V3_arg7, V3_v21, r0_z, r0_sum, r0_sumsq, mean128, var128, row128, row128, row128]
  rfl
theorem r1_sum : (dat1 (V3 m ρ) c).arrAt 8 cfg1.N = colSum (z2 m c) := by
  rw [Region1.arr_sum, ← Region1.arr_z, r1_z]
theorem r1_sumsq : (dat1 (V3 m ρ) c).arrAt 9 cfg1.N = colSumSq (z2 m c) := by
  rw [Region1.arr_sumsq, ← Region1.arr_z, r1_z]

/-! ## Region 2 -/

theorem r2_out : (dat2 (V5 m ρ) c).arrAt 5 cfg2.N = h1 m c := by
  rw [Region2.arr_out]
  show relu (norm (V5 m ρ c main_v22_0) (V5 m ρ c main_v24) (V5 m ρ c main_v28) (V5 m ρ c main_v29) (V5 m ρ c main_v30)) = _
  rw [V5_v22_0, V5_v24, V5_v28, V5_v29, V5_v30, r1_z, r1_sum, r1_sumsq, mean128, var128, row128, row128]
  rfl

/-! ## Region 3 -/

theorem r3_z : (dat3 (V7 m ρ) c).arrAt 3 cfg3.N = z3 m c := by
  rw [Region3.arr_z]
  show lin (V7 m ρ c main_v42) (V7 m ρ c main_arg11) (V7 m ρ c main_v43) = _
  rw [V7_v42, V7_arg11, V7_v43, r2_out, row128]
  rfl
theorem r3_sum : (dat3 (V7 m ρ) c).arrAt 4 cfg3.N = colSum (z3 m c) := by
  rw [Region3.arr_sum, ← Region3.arr_z, r3_z]
theorem r3_sumsq : (dat3 (V7 m ρ) c).arrAt 5 cfg3.N = colSumSq (z3 m c) := by
  rw [Region3.arr_sumsq, ← Region3.arr_z, r3_z]

/-! ## Region 4 -/

theorem r4_z : (dat4 (V9 m ρ) c).arrAt 7 cfg4.N = z4 m c := by
  rw [Region4.arr_z]
  show lin (relu (norm (V9 m ρ c main_v44_0) (V9 m ρ c main_v46) (V9 m ρ c main_v50) (V9 m ρ c main_v51) (V9 m ρ c main_v52)))
      (V9 m ρ c main_arg15) (V9 m ρ c main_v53) = _
  rw [V9_v44_0, V9_v46, V9_v50, V9_v51, V9_v52, V9_arg15, V9_v53, r3_z, r3_sum, r3_sumsq, mean128, var128, row128, row128, row16]
  rfl
theorem r4_sum : (dat4 (V9 m ρ) c).arrAt 8 cfg4.N = colSum (z4 m c) := by
  rw [Region4.arr_sum, ← Region4.arr_z, r4_z]
theorem r4_sumsq : (dat4 (V9 m ρ) c).arrAt 9 cfg4.N = colSumSq (z4 m c) := by
  rw [Region4.arr_sumsq, ← Region4.arr_z, r4_z]

/-! ## Region 5 and the result -/

theorem r5_sum : (dat5 (V11 m ρ) c).arrAt 5 cfg5.N = colSum (o4 m c) := by
  rw [Region5.arr_sum]
  show colSum (norm (V11 m ρ c main_v54_0) (V11 m ρ c main_v56) (V11 m ρ c main_v60) (V11 m ρ c main_v61) (V11 m ρ c main_v62)) = _
  rw [V11_v54_0, V11_v56, V11_v60, V11_v61, V11_v62, r4_z, r4_sum, r4_sumsq, mean16, var16, row16, row16]
  rfl

/-- The kernel's result: entry `j` is the column sum `j` of the last normalised array over the row count. -/
theorem result : W13 m ρ c (Proc.devRef .tc main_v66)
    = fun j : S16.Idx => Ideal.div (colSum (o4 m c) (ix2 0 (j 0))) cnt := by
  rw [W13_v66, r5_sum, vec16]
  funext j
  exact divN16_apply _ _

end Cert.KernelIdeal.KValue

end
-- ==== Proof.RefRun.lean ====
/-
  The reference program's run, written out: @main's 226 host operations as one list (each outlined function's
  operations standing in its call's place, over that call's own buffers), cut into thirteen consecutive stretches that
  end where a layer of the network ends; the program is that list run in order; and what the result buffer holds at
  the end, read stretch by stretch as a composition of the network's layers over the launch contents of the nineteen
  arguments, which no operation writes.
-/
import proofs.«105059_j20856361189655_1_alg».proof.ReferenceIdeal
import proofs.«105059_j20856361189655_1_alg».proof.Proof.Gen.ReferenceIdeal
import Idealize.ShloMosaic.Lib.StableHlo.Run
import Idealize.ShloMosaic.Lib.Tactic

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/

/-- Operations 1 … 14 of 226: up to the one that writes `main_v10`. -/
abbrev w0 : List (HloOp τ sig (Elt F)) :=
  [ StableHlo.nullary main_c (constantI S_ 32 0#32),
    StableHlo.unary main_c main_v0 (broadcastInDim S600000 ![] bcast_S_S600000 : (⟨S_, .i32⟩ : BufTy).Contents (Elt F) → (⟨S600000, .i32⟩ : BufTy).Contents (Elt F)),
    StableHlo.binary main_arg1 main_v0 main_v1 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v2 (broadcastInDim S600000 ![] bcast_S_S600000 : (⟨S_, .i32⟩ : BufTy).Contents (Elt F) → (⟨S600000, .i32⟩ : BufTy).Contents (Elt F)),
    StableHlo.binary main_arg1 main_v2 main_v3 (addi : (⟨S600000, .i32⟩ : BufTy).Contents (Elt F) → (⟨S600000, .i32⟩ : BufTy).Contents (Elt F) → (⟨S600000, .i32⟩ : BufTy).Contents (Elt F)),
    StableHlo.ternary main_v1 main_v3 main_arg1 main_v4 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v4 main_v5 (broadcastInDim S600000x1 ![0] bcast_S600000_S600000x1_0 : (⟨S600000, .i32⟩ : BufTy).Contents (Elt F) → (⟨S600000x1, .i32⟩ : BufTy).Contents (Elt F)),
    StableHlo.binary main_arg0 main_v5 main_v6 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v7 (broadcastInDim S50000x128 ![] bcast_S_S50000x128 : (⟨S_, .f32⟩ : BufTy).Contents (Elt F) → (⟨S50000x128, .f32⟩ : BufTy).Contents (Elt F)),
    StableHlo.unary main_arg2 main_v8 (broadcastInDim S600000x1 ![0] bcast_S600000_S600000x1_0 : (⟨S600000, .i32⟩ : BufTy).Contents (Elt F) → (⟨S600000x1, .i32⟩ : BufTy).Contents (Elt F)),
    StableHlo.ternary main_v7 main_v8 main_v6 main_v9 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v9 main_v10 (addf : (⟨S50000x128, .f32⟩ : BufTy).Contents (Elt F) → (⟨S50000x128, .f32⟩ : BufTy).Contents (Elt F) → (⟨S50000x128, .f32⟩ : BufTy).Contents (Elt F)) ]

/-- Operations 15 … 46 of 226: up to the one that writes `main_v18`. -/
abbrev w1 : List (HloOp τ sig (Elt F)) :=
  [ StableHlo.binary main_v10 main_arg3 main_v11 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S50000x128 ![0, 1] bcast_S1x128_S50000x128_0_1 : (⟨S1x128, .f32⟩ : BufTy).Contents (Elt F) → (⟨S50000x128, .f32⟩ : BufTy).Contents (Elt F)),
    StableHlo.binary main_v11 main_v13 main_v14 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.binary main_v14 main_cst_1 main_v15 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v16 (broadcastInDim S128 ![] bcast_S_S128 : (⟨S_, .f32⟩ : BufTy).Contents (Elt F) → (⟨S128, .f32⟩ : BufTy).Contents (Elt F)),
    StableHlo.binary main_v15 main_v16 main_v17 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v14 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v14 : StableHlo.TRef sig ⟨S50000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- Operations 47 … 63 of 226: up to the one that writes `main_v32`. -/
abbrev w2 : List (HloOp τ sig (Elt F)) :=
  [ StableHlo.unary main_v17 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S50000x128 ![0, 1] bcast_S1x128_S50000x128_0_1 : (⟨S1x128, .f32⟩ : BufTy).Contents (Elt F) → (⟨S50000x128, .f32⟩ : BufTy).Contents (Elt F)),
    StableHlo.binary main_v14 main_v20 main_v21 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v22 (broadcastInDim S128 ![] bcast_S_S128 : (⟨S_, .f32⟩ : BufTy).Contents (Elt F) → (⟨S128, .f32⟩ : BufTy).Contents (Elt F)),
    StableHlo.binary main_v18 main_v22 main_v23 (addf : (⟨S128, .f32⟩ : BufTy).Contents (Elt F) → (⟨S128, .f32⟩ : BufTy).Contents (Elt F) → (⟨S128, .f32⟩ : BufTy).Contents (Elt F)),
    StableHlo.unary main_v23 main_v24 (Host.rsqrt : (⟨S128, .f32⟩ : BufTy).Contents (Elt F) → (⟨S128, .f32⟩ : BufTy).Contents (Elt F)),
    StableHlo.binary main_arg5 main_v24 main_v25 (mulf : (⟨S128, .f32⟩ : BufTy).Contents (Elt F) → (⟨S128, .f32⟩ : BufTy).Contents (Elt F) → (⟨S128, .f32⟩ : BufTy).Contents (Elt F)),
    StableHlo.unary main_v25 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S50000x128 ![0, 1] bcast_S1x128_S50000x128_0_1 : (⟨S1x128, .f32⟩ : BufTy).Contents (Elt F) → (⟨S50000x128, .f32⟩ : BufTy).Contents (Elt F)),
    StableHlo.binary main_v21 main_v27 main_v28 (mulf : (⟨S50000x128, .f32⟩ : BufTy).Contents (Elt F) → (⟨S50000x128, .f32⟩ : BufTy).Contents (Elt F) → (⟨S50000x128, .f32⟩ : BufTy).Contents (Elt F)),
    StableHlo.unary main_arg6 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S50000x128 ![0, 1] bcast_S1x128_S50000x128_0_1 : (⟨S1x128, .f32⟩ : BufTy).Contents (Elt F) → (⟨S50000x128, .f32⟩ : BufTy).Contents (Elt F)),
    StableHlo.binary main_v28 main_v30 main_v31 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v31 : StableHlo.TRef sig ⟨S50000x128, .f32⟩) main_call1.v0 main_call1.v1 maximumf ]

/-- Operations 64 … 95 of 226: up to the one that writes `main_v40`. -/
abbrev w3 : List (HloOp τ sig (Elt F)) :=
  [ StableHlo.binary main_v32 main_arg7 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v33 main_v35 main_v36 (addf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x00000000#32),
    StableHlo.binary main_v36 main_cst_5 main_v37 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v38 (broadcastInDim S128 ![] bcast_S_S128 : (⟨S_, .f32⟩ : BufTy).Contents (Elt F) → (⟨S128, .f32⟩ : BufTy).Contents (Elt F)),
    StableHlo.binary main_v37 main_v38 main_v39 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (.of main_v36 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v36 : StableHlo.TRef sig ⟨S50000x128, .f32⟩) main_call2.v4 main_call2.v5 subf,
    StableHlo.TRef.binary main_call2.v5 main_call2.v5 main_call2.v6 mulf,
    StableHlo.TRef.unary (.of main_c_7 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- Operations 96 … 104 of 226: up to the one that writes `main_v48`. -/
abbrev w4 : List (HloOp τ sig (Elt F)) :=
  [ StableHlo.unary main_v39 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v42 main_v43 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v44 (broadcastInDim S128 ![] bcast_S_S128 : (⟨S_, .f32⟩ : BufTy).Contents (Elt F) → (⟨S128, .f32⟩ : BufTy).Contents (Elt F)),
    StableHlo.binary main_v40 main_v44 main_v45 (addf : (⟨S128, .f32⟩ : BufTy).Contents (Elt F) → (⟨S128, .f32⟩ : BufTy).Contents (Elt F) → (⟨S128, .f32⟩ : BufTy).Contents (Elt F)),
    StableHlo.unary main_v45 main_v46 (Host.rsqrt : (⟨S128, .f32⟩ : BufTy).Contents (Elt F) → (⟨S128, .f32⟩ : BufTy).Contents (Elt F)),
    StableHlo.binary main_arg9 main_v46 main_v47 (mulf : (⟨S128, .f32⟩ : BufTy).Contents (Elt F) → (⟨S128, .f32⟩ : BufTy).Contents (Elt F) → (⟨S128, .f32⟩ : BufTy).Contents (Elt F)),
    StableHlo.unary main_v47 main_v48 (broadcastInDim S1x128 ![1] bcast_S128_S1x128_1 : (⟨S128, .f32⟩ : BufTy).Contents (Elt F) → (⟨S1x128, .f32⟩ : BufTy).Contents (Elt F)) ]

/-- Operations 105 … 112 of 226: up to the one that writes `main_v54`. -/
abbrev w5 : List (HloOp τ sig (Elt F)) :=
  [ StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v49 main_v50 (mulf : (⟨S50000x128, .f32⟩ : BufTy).Contents (Elt F) → (⟨S50000x128, .f32⟩ : BufTy).Contents (Elt F) → (⟨S50000x128, .f32⟩ : BufTy).Contents (Elt F)),
    StableHlo.unary main_arg10 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v52 main_v53 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v53 : StableHlo.TRef sig ⟨S50000x128, .f32⟩) main_call3.v0 main_call3.v1 maximumf ]

/-- Operations 113 … 126 of 226: up to the one that writes `main_v65`. -/
abbrev w6 : List (HloOp τ sig (Elt F)) :=
  [ StableHlo.nullary main_c_9 (constantI S_ 32 0#32),
    StableHlo.unary main_c_9 main_v55 (broadcastInDim S600000 ![] bcast_S_S600000 : (⟨S_, .i32⟩ : BufTy).Contents (Elt F) → (⟨S600000, .i32⟩ : BufTy).Contents (Elt F)),
    StableHlo.binary main_arg1 main_v55 main_v56 (cmpi .slt : (⟨S600000, .i32⟩ : BufTy).Contents (Elt F) → (⟨S600000, .i32⟩ : BufTy).Contents (Elt F) → (⟨S600000, .i1⟩ : BufTy).Contents (Elt F)),
    StableHlo.nullary main_c_10 (constantI S_ 32 50000#32),
    StableHlo.unary main_c_10 main_v57 (broadcastInDim S600000 ![] bcast_S_S600000 : (⟨S_, .i32⟩ : BufTy).Contents (Elt F) → (⟨S600000, .i32⟩ : BufTy).Contents (Elt F)),
    StableHlo.binary main_arg1 main_v57 main_v58 (addi : (⟨S600000, .i32⟩ : BufTy).Contents (Elt F) → (⟨S600000, .i32⟩ : BufTy).Contents (Elt F) → (⟨S600000, .i32⟩ : BufTy).Contents (Elt F)),
    StableHlo.ternary main_v56 main_v58 main_arg1 main_v59 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v59 main_v60 (broadcastInDim S600000x1 ![0] bcast_S600000_S600000x1_0 : (⟨S600000, .i32⟩ : BufTy).Contents (Elt F) → (⟨S600000x1, .i32⟩ : BufTy).Contents (Elt F)),
    StableHlo.binary main_v54 main_v60 main_v61 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_11 (constant S_ .f32 0x00000000#32),
    StableHlo.unary main_cst_11 main_v62 (broadcastInDim S50000x128 ![] bcast_S_S50000x128 : (⟨S_, .f32⟩ : BufTy).Contents (Elt F) → (⟨S50000x128, .f32⟩ : BufTy).Contents (Elt F)),
    StableHlo.unary main_arg2 main_v63 (broadcastInDim S600000x1 ![0] bcast_S600000_S600000x1_0 : (⟨S600000, .i32⟩ : BufTy).Contents (Elt F) → (⟨S600000x1, .i32⟩ : BufTy).Contents (Elt F)),
    StableHlo.ternary main_v62 main_v63 main_v61 main_v64 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v54 main_v64 main_v65 (addf : (⟨S50000x128, .f32⟩ : BufTy).Contents (Elt F) → (⟨S50000x128, .f32⟩ : BufTy).Contents (Elt F) → (⟨S50000x128, .f32⟩ : BufTy).Contents (Elt F)) ]

/-- Operations 127 … 158 of 226: up to the one that writes `main_v73`. -/
abbrev w7 : List (HloOp τ sig (Elt F)) :=
  [ StableHlo.binary main_v65 main_arg11 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg12 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v66 main_v68 main_v69 (addf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x00000000#32),
    StableHlo.binary main_v69 main_cst_12 main_v70 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v71 (broadcastInDim S128 ![] bcast_S_S128 : (⟨S_, .f32⟩ : BufTy).Contents (Elt F) → (⟨S128, .f32⟩ : BufTy).Contents (Elt F)),
    StableHlo.binary main_v70 main_v71 main_v72 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call4.cst (constant S_ .f32 0x00000000#32),
    StableHlo.TRef.binary (.of main_v69 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v69 : StableHlo.TRef sig ⟨S50000x128, .f32⟩) main_call4.v4 main_call4.v5 subf,
    StableHlo.TRef.binary main_call4.v5 main_call4.v5 main_call4.v6 mulf,
    StableHlo.TRef.unary (.of main_c_14 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- Operations 159 … 175 of 226: up to the one that writes `main_v87`. -/
abbrev w8 : List (HloOp τ sig (Elt F)) :=
  [ StableHlo.unary main_v72 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v75 main_v76 (subf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v77 (broadcastInDim S128 ![] bcast_S_S128 : (⟨S_, .f32⟩ : BufTy).Contents (Elt F) → (⟨S128, .f32⟩ : BufTy).Contents (Elt F)),
    StableHlo.binary main_v73 main_v77 main_v78 (addf : (⟨S128, .f32⟩ : BufTy).Contents (Elt F) → (⟨S128, .f32⟩ : BufTy).Contents (Elt F) → (⟨S128, .f32⟩ : BufTy).Contents (Elt F)),
    StableHlo.unary main_v78 main_v79 (Host.rsqrt : (⟨S128, .f32⟩ : BufTy).Contents (Elt F) → (⟨S128, .f32⟩ : BufTy).Contents (Elt F)),
    StableHlo.binary main_arg13 main_v79 main_v80 (mulf : (⟨S128, .f32⟩ : BufTy).Contents (Elt F) → (⟨S128, .f32⟩ : BufTy).Contents (Elt F) → (⟨S128, .f32⟩ : BufTy).Contents (Elt F)),
    StableHlo.unary main_v80 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v82 main_v83 (mulf : (⟨S50000x128, .f32⟩ : BufTy).Contents (Elt F) → (⟨S50000x128, .f32⟩ : BufTy).Contents (Elt F) → (⟨S50000x128, .f32⟩ : BufTy).Contents (Elt F)),
    StableHlo.unary main_arg14 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v85 main_v86 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v86 : StableHlo.TRef sig ⟨S50000x128, .f32⟩) main_call5.v0 main_call5.v1 maximumf ]

/-- Operations 176 … 207 of 226: up to the one that writes `main_v95`. -/
abbrev w9 : List (HloOp τ sig (Elt F)) :=
  [ StableHlo.binary main_v87 main_arg15 main_v88 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    StableHlo.unary main_arg16 main_v89 (broadcastInDim S1x16 ![1] bcast_S16_S1x16_1 : (⟨S16, .f32⟩ : BufTy).Contents (Elt F) → (⟨S1x16, .f32⟩ : BufTy).Contents (Elt F)),
    StableHlo.unary main_v89 main_v90 (broadcastInDim S50000x16 ![0, 1] bcast_S1x16_S50000x16_0_1 : (⟨S1x16, .f32⟩ : BufTy).Contents (Elt F) → (⟨S50000x16, .f32⟩ : BufTy).Contents (Elt F)),
    StableHlo.binary main_v88 main_v90 main_v91 (addf : (⟨S50000x16, .f32⟩ : BufTy).Contents (Elt F) → (⟨S50000x16, .f32⟩ : BufTy).Contents (Elt F) → (⟨S50000x16, .f32⟩ : BufTy).Contents (Elt F)),
    StableHlo.nullary main_cst_16 (constant S_ .f32 0x00000000#32),
    StableHlo.binary main_v91 main_cst_16 main_v92 ((fun x v => Host.reduceAdd x v reducesTo_S50000x16_S16_d0 h_S_) : (⟨S50000x16, .f32⟩ : BufTy).Contents (Elt F) → (⟨S_, .f32⟩ : BufTy).Contents (Elt F) → (⟨S16, .f32⟩ : BufTy).Contents (Elt F)),
    StableHlo.nullary main_cst_17 (constant S_ .f32 0x47435000#32),
    StableHlo.unary main_cst_17 main_v93 (broadcastInDim S16 ![] bcast_S_S16 : (⟨S_, .f32⟩ : BufTy).Contents (Elt F) → (⟨S16, .f32⟩ : BufTy).Contents (Elt F)),
    StableHlo.binary main_v92 main_v93 main_v94 (Host.divf : (⟨S16, .f32⟩ : BufTy).Contents (Elt F) → (⟨S16, .f32⟩ : BufTy).Contents (Elt F) → (⟨S16, .f32⟩ : BufTy).Contents (Elt F)),
    StableHlo.nullary main_c_18 (constantI S_ 32 0#32),
    StableHlo.TRef.nullary main_call6.cst (constant S_ .f32 0x00000000#32),
    StableHlo.TRef.binary (.of main_v91 : StableHlo.TRef sig ⟨S50000x16, .f32⟩) main_call6.cst main_call6.v0 (fun x v => Host.reduceAdd x v reducesTo_S50000x16_S16_d0 h_S_),
    StableHlo.TRef.unary main_call6.v0 main_call6.v1 (broadcastInDim S1x16 ![1] bcast_S16_S1x16_1),
    StableHlo.TRef.nullary main_call6.cst_0 (constant S_ .f32 0x47435000#32),
    StableHlo.TRef.unary main_call6.cst_0 main_call6.v2 (broadcastInDim S1x16 ![] bcast_S_S1x16),
    StableHlo.TRef.binary main_call6.v1 main_call6.v2 main_call6.v3 Host.divf,
    StableHlo.TRef.unary main_call6.v3 main_call6.v4 (broadcastInDim S50000x16 ![0, 1] bcast_S1x16_S50000x16_0_1),
    StableHlo.TRef.binary (.of main_v91 : StableHlo.TRef sig ⟨S50000x16, .f32⟩) main_call6.v4 main_call6.v5 subf,
    StableHlo.TRef.binary main_call6.v5 main_call6.v5 main_call6.v6 mulf,
    StableHlo.TRef.unary (.of main_c_18 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x16_S16_d0 h_S_),
    StableHlo.TRef.unary main_call6.v8 main_call6.v10 (broadcastInDim S16 ![] bcast_S_S16),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S16 ![] bcast_S_S16),
    StableHlo.TRef.ternary main_call6.v12 main_call6.v11 main_call6.call0.v1 main_call6.call0.v2 (fun p a b => select (broadcastInDim S16 ![] bcast_S_S16 p) a b) ]

/-- Operations 208 … 210 of 226: up to the one that writes `main_v98`. -/
abbrev w10 : List (HloOp τ sig (Elt F)) :=
  [ StableHlo.unary main_v94 main_v96 (broadcastInDim S1x16 ![1] bcast_S16_S1x16_1 : (⟨S16, .f32⟩ : BufTy).Contents (Elt F) → (⟨S1x16, .f32⟩ : BufTy).Contents (Elt F)),
    StableHlo.unary main_v96 main_v97 (broadcastInDim S50000x16 ![0, 1] bcast_S1x16_S50000x16_0_1 : (⟨S1x16, .f32⟩ : BufTy).Contents (Elt F) → (⟨S50000x16, .f32⟩ : BufTy).Contents (Elt F)),
    StableHlo.binary main_v91 main_v97 main_v98 (subf : (⟨S50000x16, .f32⟩ : BufTy).Contents (Elt F) → (⟨S50000x16, .f32⟩ : BufTy).Contents (Elt F) → (⟨S50000x16, .f32⟩ : BufTy).Contents (Elt F)) ]

/-- Operations 211 … 221 of 226: up to the one that writes `main_v108`. -/
abbrev w11 : List (HloOp τ sig (Elt F)) :=
  [ StableHlo.nullary main_cst_19 (constant S_ .f32 0x3727C5AC#32),
    StableHlo.unary main_cst_19 main_v99 (broadcastInDim S16 ![] bcast_S_S16 : (⟨S_, .f32⟩ : BufTy).Contents (Elt F) → (⟨S16, .f32⟩ : BufTy).Contents (Elt F)),
    StableHlo.binary main_v95 main_v99 main_v100 (addf : (⟨S16, .f32⟩ : BufTy).Contents (Elt F) → (⟨S16, .f32⟩ : BufTy).Contents (Elt F) → (⟨S16, .f32⟩ : BufTy).Contents (Elt F)),
    StableHlo.unary main_v100 main_v101 (Host.rsqrt : (⟨S16, .f32⟩ : BufTy).Contents (Elt F) → (⟨S16, .f32⟩ : BufTy).Contents (Elt F)),
    StableHlo.binary main_arg17 main_v101 main_v102 (mulf : (⟨S16, .f32⟩ : BufTy).Contents (Elt F) → (⟨S16, .f32⟩ : BufTy).Contents (Elt F) → (⟨S16, .f32⟩ : BufTy).Contents (Elt F)),
    StableHlo.unary main_v102 main_v103 (broadcastInDim S1x16 ![1] bcast_S16_S1x16_1 : (⟨S16, .f32⟩ : BufTy).Contents (Elt F) → (⟨S1x16, .f32⟩ : BufTy).Contents (Elt F)),
    StableHlo.unary main_v103 main_v104 (broadcastInDim S50000x16 ![0, 1] bcast_S1x16_S50000x16_0_1 : (⟨S1x16, .f32⟩ : BufTy).Contents (Elt F) → (⟨S50000x16, .f32⟩ : BufTy).Contents (Elt F)),
    StableHlo.binary main_v98 main_v104 main_v105 (mulf : (⟨S50000x16, .f32⟩ : BufTy).Contents (Elt F) → (⟨S50000x16, .f32⟩ : BufTy).Contents (Elt F) → (⟨S50000x16, .f32⟩ : BufTy).Contents (Elt F)),
    StableHlo.unary main_arg18 main_v106 (broadcastInDim S1x16 ![1] bcast_S16_S1x16_1 : (⟨S16, .f32⟩ : BufTy).Contents (Elt F) → (⟨S1x16, .f32⟩ : BufTy).Contents (Elt F)),
    StableHlo.unary main_v106 main_v107 (broadcastInDim S50000x16 ![0, 1] bcast_S1x16_S50000x16_0_1 : (⟨S1x16, .f32⟩ : BufTy).Contents (Elt F) → (⟨S50000x16, .f32⟩ : BufTy).Contents (Elt F)),
    StableHlo.binary main_v105 main_v107 main_v108 (addf : (⟨S50000x16, .f32⟩ : BufTy).Contents (Elt F) → (⟨S50000x16, .f32⟩ : BufTy).Contents (Elt F) → (⟨S50000x16, .f32⟩ : BufTy).Contents (Elt F)) ]

/-- Operations 222 … 226 of 226: up to the one that writes `main_v111`. -/
abbrev w12 : List (HloOp τ sig (Elt F)) :=
  [ StableHlo.nullary main_cst_20 (constant S_ .f32 0x00000000#32),
    StableHlo.binary main_v108 main_cst_20 main_v109 ((fun x v => Host.reduceAdd x v reducesTo_S50000x16_S16_d0 h_S_) : (⟨S50000x16, .f32⟩ : BufTy).Contents (Elt F) → (⟨S_, .f32⟩ : BufTy).Contents (Elt F) → (⟨S16, .f32⟩ : BufTy).Contents (Elt F)),
    StableHlo.nullary main_cst_21 (constant S_ .f32 0x47435000#32),
    StableHlo.unary main_cst_21 main_v110 (broadcastInDim S16 ![] bcast_S_S16 : (⟨S_, .f32⟩ : BufTy).Contents (Elt F) → (⟨S16, .f32⟩ : BufTy).Contents (Elt F)),
    StableHlo.binary main_v109 main_v110 main_v111 (Host.divf : (⟨S16, .f32⟩ : BufTy).Contents (Elt F) → (⟨S16, .f32⟩ : BufTy).Contents (Elt F) → (⟨S16, .f32⟩ : BufTy).Contents (Elt F)) ]

/-- @main's 226 operations, in order. -/
abbrev ops : List (HloOp τ sig (Elt F)) :=
  w0 ++ (w1 ++ (w2 ++ (w3 ++ (w4 ++ (w5 ++ (w6 ++ (w7 ++ (w8 ++ (w9 ++ (w10 ++ (w11 ++ (w12))))))))))))

/-! ## The program is the list run in order -/

set_option maxRecDepth 65536 in
set_option maxHeartbeats 8000000 in
/-- The first window of @main, its calls unfolded, is its stretches run one after the other. -/
theorem main_part0_eq (c : Dev nD) : main_part0 (F := F) c = seq (w0 ++ (w1 ++ (w2 ++ (w3 ++ (w4))))) := by
  simp only [main_part0, fn_var.body, fn_where.body, fn_relu.body, fn_var_0.body, fn_where_1.body, List.cons_append, List.nil_append,
    seq, bind_assoc, pure_bind]
  rfl

set_option maxRecDepth 65536 in
set_option maxHeartbeats 8000000 in
/-- The second window of @main, its calls unfolded, is its stretches run one after the other. -/
theorem main_part1_eq (c : Dev nD) : main_part1 (F := F) c = seq (w5 ++ (w6 ++ (w7 ++ (w8 ++ (w9 ++ (w10)))))) := by
  simp only [main_part1, fn_var.body, fn_where.body, fn_relu.body, fn_var_0.body, fn_where_1.body, List.cons_append, List.nil_append,
    seq, bind_assoc, pure_bind]
  rfl

set_option maxRecDepth 65536 in
set_option maxHeartbeats 8000000 in
/-- The third window of @main, its calls unfolded, is its stretches run one after the other. -/
theorem main_part2_eq (c : Dev nD) : main_part2 (F := F) c = seq (w11 ++ (w12)) := by
  simp only [main_part2, List.cons_append, List.nil_append, seq, bind_assoc, pure_bind]

/-- @main is the whole list run in order: its three windows in turn, each its stretches in turn. -/
theorem main_eq (c : Dev nD) : main (F := F) c = seq ops := by
  simp only [main, main_part0_eq, main_part1_eq, main_part2_eq, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

set_option maxRecDepth 8192 in
theorem w0_sub : (w0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
set_option maxRecDepth 8192 in
theorem w1_sub : (w1 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem w2_sub : (w2 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem w3_sub : (w3 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem w4_sub : (w4 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., binary_bufs_sub .., unary_bufs_sub ..⟩
set_option maxRecDepth 8192 in
theorem w5_sub : (w5 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub ..⟩
set_option maxRecDepth 8192 in
theorem w6_sub : (w6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
set_option maxRecDepth 8192 in
theorem w7_sub : (w7 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem w8_sub : (w8 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem w9_sub : (w9 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem w10_sub : (w10 : List (HloOp τ sig (Elt F))).Forall fun op => op.bufs ⊆ tcRefs τ sig :=
  ⟨unary_bufs_sub .., unary_bufs_sub .., binary_bufs_sub ..⟩
set_option maxRecDepth 8192 in
theorem w11_sub : (w11 : List (HloOp τ sig (Elt F))).Forall fun op => op.bufs ⊆ tcRefs τ sig :=
  ⟨nullary_bufs_sub .., unary_bufs_sub .., binary_bufs_sub .., unary_bufs_sub .., binary_bufs_sub .., unary_bufs_sub .., unary_bufs_sub .., binary_bufs_sub .., unary_bufs_sub .., unary_bufs_sub .., binary_bufs_sub ..⟩
set_option maxRecDepth 8192 in
theorem w12_sub : (w12 : List (HloOp τ sig (Elt F))).Forall fun op => op.bufs ⊆ tcRefs τ sig :=
  ⟨nullary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h, List.forall_iff_forall_mem.mp w10_sub op h, List.forall_iff_forall_mem.mp w11_sub op h, List.forall_iff_forall_mem.mp w12_sub op h]

/-! ## What each stretch writes -/

/-- An operation whose one written buffer is among a list of references writes inside that list. -/
theorem writes_sub_of_mem {W : List (Ref sig .tc)} (op : HloOp τ sig (Elt F)) (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- The buffers stretch `w0` writes. -/
abbrev w0_W : List (Ref sig .tc) := [main_c, main_v0, main_v1, main_c_0, main_v2, main_v3, main_v4, main_v5, main_v6, main_cst, main_v7, main_v8, main_v9, main_v10]
set_option maxRecDepth 8192 in
theorem w0_writes : (w0 : List (HloOp τ sig (Elt F))).Forall fun op => op.writes ⊆ (w0_W.map (Proc.devRef (τ := τ) .tc)).toFinset :=
  ⟨writes_sub_of_mem _ main_c rfl (by decide),
   writes_sub_of_mem _ main_v0 rfl (by decide),
   writes_sub_of_mem _ main_v1 rfl (by decide),
   writes_sub_of_mem _ main_c_0 rfl (by decide),
   writes_sub_of_mem _ main_v2 rfl (by decide),
   writes_sub_of_mem _ main_v3 rfl (by decide),
   writes_sub_of_mem _ main_v4 rfl (by decide),
   writes_sub_of_mem _ main_v5 rfl (by decide),
   writes_sub_of_mem _ main_v6 rfl (by decide),
   writes_sub_of_mem _ main_cst rfl (by decide),
   writes_sub_of_mem _ main_v7 rfl (by decide),
   writes_sub_of_mem _ main_v8 rfl (by decide),
   writes_sub_of_mem _ main_v9 rfl (by decide),
   writes_sub_of_mem _ main_v10 rfl (by decide)⟩

/-- The buffers stretch `w1` writes. -/
abbrev w1_W : List (Ref sig .tc) := [main_v11, main_v12, main_v13, main_v14, main_cst_1, main_v15, main_cst_2, main_v16, main_v17, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v18]
set_option maxRecDepth 8192 in
theorem w1_writes : (w1 : List (HloOp τ sig (Elt F))).Forall fun op => op.writes ⊆ (w1_W.map (Proc.devRef (τ := τ) .tc)).toFinset :=
  ⟨writes_sub_of_mem _ main_v11 rfl (by decide),
   writes_sub_of_mem _ main_v12 rfl (by decide),
   writes_sub_of_mem _ main_v13 rfl (by decide),
   writes_sub_of_mem _ main_v14 rfl (by decide),
   writes_sub_of_mem _ main_cst_1 rfl (by decide),
   writes_sub_of_mem _ main_v15 rfl (by decide),
   writes_sub_of_mem _ main_cst_2 rfl (by decide),
   writes_sub_of_mem _ main_v16 rfl (by decide),
   writes_sub_of_mem _ main_v17 rfl (by decide),
   writes_sub_of_mem _ main_c_3 rfl (by decide),
   writes_sub_of_mem _ main_call0_cst rfl (by decide),
   writes_sub_of_mem _ main_call0_v0 rfl (by decide),
   writes_sub_of_mem _ main_call0_v1 rfl (by decide),
   writes_sub_of_mem _ main_call0_cst_0 rfl (by decide),
   writes_sub_of_mem _ main_call0_v2 rfl (by decide),
   writes_sub_of_mem _ main_call0_v3 rfl (by decide),
   writes_sub_of_mem _ main_call0_v4 rfl (by decide),
   writes_sub_of_mem _ main_call0_v5 rfl (by decide),
   writes_sub_of_mem _ main_call0_v6 rfl (by decide),
   writes_sub_of_mem _ main_call0_v7 rfl (by decide),
   writes_sub_of_mem _ main_call0_cst_1 rfl (by decide),
   writes_sub_of_mem _ main_call0_v8 rfl (by decide),
   writes_sub_of_mem _ main_call0_cst_2 rfl (by decide),
   writes_sub_of_mem _ main_call0_v9 rfl (by decide),
   writes_sub_of_mem _ main_call0_v10 rfl (by decide),
   writes_sub_of_mem _ main_call0_v11 rfl (by decide),
   writes_sub_of_mem _ main_call0_cst_3 rfl (by decide),
   writes_sub_of_mem _ main_call0_v12 rfl (by decide),
   writes_sub_of_mem _ main_call0_cst_4 rfl (by decide),
   writes_sub_of_mem _ main_call0_call0_v0 rfl (by decide),
   writes_sub_of_mem _ main_call0_call0_v1 rfl (by decide),
   writes_sub_of_mem _ main_v18 rfl (by decide)⟩

/-- The buffers stretch `w2` writes. -/
abbrev w2_W : List (Ref sig .tc) := [main_v19, main_v20, main_v21, main_cst_4, main_v22, main_v23, main_v24, main_v25, main_v26, main_v27, main_v28, main_v29, main_v30, main_v31, main_call1_cst, main_call1_v0, main_v32]
set_option maxRecDepth 8192 in
theorem w2_writes : (w2 : List (HloOp τ sig (Elt F))).Forall fun op => op.writes ⊆ (w2_W.map (Proc.devRef (τ := τ) .tc)).toFinset :=
  ⟨writes_sub_of_mem _ main_v19 rfl (by decide),
   writes_sub_of_mem _ main_v20 rfl (by decide),
   writes_sub_of_mem _ main_v21 rfl (by decide),
   writes_sub_of_mem _ main_cst_4 rfl (by decide),
   writes_sub_of_mem _ main_v22 rfl (by decide),
   writes_sub_of_mem _ main_v23 rfl (by decide),
   writes_sub_of_mem _ main_v24 rfl (by decide),
   writes_sub_of_mem _ main_v25 rfl (by decide),
   writes_sub_of_mem _ main_v26 rfl (by decide),
   writes_sub_of_mem _ main_v27 rfl (by decide),
   writes_sub_of_mem _ main_v28 rfl (by decide),
   writes_sub_of_mem _ main_v29 rfl (by decide),
   writes_sub_of_mem _ main_v30 rfl (by decide),
   writes_sub_of_mem _ main_v31 rfl (by decide),
   writes_sub_of_mem _ main_call1_cst rfl (by decide),
   writes_sub_of_mem _ main_call1_v0 rfl (by decide),
   writes_sub_of_mem _ main_v32 rfl (by decide)⟩

/-- The buffers stretch `w3` writes. -/
abbrev w3_W : List (Ref sig .tc) := [main_v33, main_v34, main_v35, main_v36, main_cst_5, main_v37, main_cst_6, main_v38, main_v39, main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v40]
set_option maxRecDepth 8192 in
theorem w3_writes : (w3 : List (HloOp τ sig (Elt F))).Forall fun op => op.writes ⊆ (w3_W.map (Proc.devRef (τ := τ) .tc)).toFinset :=
  ⟨writes_sub_of_mem _ main_v33 rfl (by decide),
   writes_sub_of_mem _ main_v34 rfl (by decide),
   writes_sub_of_mem _ main_v35 rfl (by decide),
   writes_sub_of_mem _ main_v36 rfl (by decide),
   writes_sub_of_mem _ main_cst_5 rfl (by decide),
   writes_sub_of_mem _ main_v37 rfl (by decide),
   writes_sub_of_mem _ main_cst_6 rfl (by decide),
   writes_sub_of_mem _ main_v38 rfl (by decide),
   writes_sub_of_mem _ main_v39 rfl (by decide),
   writes_sub_of_mem _ main_c_7 rfl (by decide),
   writes_sub_of_mem _ main_call2_cst rfl (by decide),
   writes_sub_of_mem _ main_call2_v0 rfl (by decide),
   writes_sub_of_mem _ main_call2_v1 rfl (by decide),
   writes_sub_of_mem _ main_call2_cst_0 rfl (by decide),
   writes_sub_of_mem _ main_call2_v2 rfl (by decide),
   writes_sub_of_mem _ main_call2_v3 rfl (by decide),
   writes_sub_of_mem _ main_call2_v4 rfl (by decide),
   writes_sub_of_mem _ main_call2_v5 rfl (by decide),
   writes_sub_of_mem _ main_call2_v6 rfl (by decide),
   writes_sub_of_mem _ main_call2_v7 rfl (by decide),
   writes_sub_of_mem _ main_call2_cst_1 rfl (by decide),
   writes_sub_of_mem _ main_call2_v8 rfl (by decide),
   writes_sub_of_mem _ main_call2_cst_2 rfl (by decide),
   writes_sub_of_mem _ main_call2_v9 rfl (by decide),
   writes_sub_of_mem _ main_call2_v10 rfl (by decide),
   writes_sub_of_mem _ main_call2_v11 rfl (by decide),
   writes_sub_of_mem _ main_call2_cst_3 rfl (by decide),
   writes_sub_of_mem _ main_call2_v12 rfl (by decide),
   writes_sub_of_mem _ main_call2_cst_4 rfl (by decide),
   writes_sub_of_mem _ main_call2_call0_v0 rfl (by decide),
   writes_sub_of_mem _ main_call2_call0_v1 rfl (by decide),
   writes_sub_of_mem _ main_v40 rfl (by decide)⟩

/-- The buffers stretch `w4` writes. -/
abbrev w4_W : List (Ref sig .tc) := [main_v41, main_v42, main_v43, main_cst_8, main_v44, main_v45, main_v46, main_v47, main_v48]
set_option maxRecDepth 8192 in
theorem w4_writes : (w4 : List (HloOp τ sig (Elt F))).Forall fun op => op.writes ⊆ (w4_W.map (Proc.devRef (τ := τ) .tc)).toFinset :=
  ⟨writes_sub_of_mem _ main_v41 rfl (by decide),
   writes_sub_of_mem _ main_v42 rfl (by decide),
   writes_sub_of_mem _ main_v43 rfl (by decide),
   writes_sub_of_mem _ main_cst_8 rfl (by decide),
   writes_sub_of_mem _ main_v44 rfl (by decide),
   writes_sub_of_mem _ main_v45 rfl (by decide),
   writes_sub_of_mem _ main_v46 rfl (by decide),
   writes_sub_of_mem _ main_v47 rfl (by decide),
   writes_sub_of_mem _ main_v48 rfl (by decide)⟩

/-- The buffers stretch `w5` writes. -/
abbrev w5_W : List (Ref sig .tc) := [main_v49, main_v50, main_v51, main_v52, main_v53, main_call3_cst, main_call3_v0, main_v54]
set_option maxRecDepth 8192 in
theorem w5_writes : (w5 : List (HloOp τ sig (Elt F))).Forall fun op => op.writes ⊆ (w5_W.map (Proc.devRef (τ := τ) .tc)).toFinset :=
  ⟨writes_sub_of_mem _ main_v49 rfl (by decide),
   writes_sub_of_mem _ main_v50 rfl (by decide),
   writes_sub_of_mem _ main_v51 rfl (by decide),
   writes_sub_of_mem _ main_v52 rfl (by decide),
   writes_sub_of_mem _ main_v53 rfl (by decide),
   writes_sub_of_mem _ main_call3_cst rfl (by decide),
   writes_sub_of_mem _ main_call3_v0 rfl (by decide),
   writes_sub_of_mem _ main_v54 rfl (by decide)⟩

/-- The buffers stretch `w6` writes. -/
abbrev w6_W : List (Ref sig .tc) := [main_c_9, main_v55, main_v56, main_c_10, main_v57, main_v58, main_v59, main_v60, main_v61, main_cst_11, main_v62, main_v63, main_v64, main_v65]
set_option maxRecDepth 8192 in
theorem w6_writes : (w6 : List (HloOp τ sig (Elt F))).Forall fun op => op.writes ⊆ (w6_W.map (Proc.devRef (τ := τ) .tc)).toFinset :=
  ⟨writes_sub_of_mem _ main_c_9 rfl (by decide),
   writes_sub_of_mem _ main_v55 rfl (by decide),
   writes_sub_of_mem _ main_v56 rfl (by decide),
   writes_sub_of_mem _ main_c_10 rfl (by decide),
   writes_sub_of_mem _ main_v57 rfl (by decide),
   writes_sub_of_mem _ main_v58 rfl (by decide),
   writes_sub_of_mem _ main_v59 rfl (by decide),
   writes_sub_of_mem _ main_v60 rfl (by decide),
   writes_sub_of_mem _ main_v61 rfl (by decide),
   writes_sub_of_mem _ main_cst_11 rfl (by decide),
   writes_sub_of_mem _ main_v62 rfl (by decide),
   writes_sub_of_mem _ main_v63 rfl (by decide),
   writes_sub_of_mem _ main_v64 rfl (by decide),
   writes_sub_of_mem _ main_v65 rfl (by decide)⟩

/-- The buffers stretch `w7` writes. -/
abbrev w7_W : List (Ref sig .tc) := [main_v66, main_v67, main_v68, main_v69, main_cst_12, main_v70, main_cst_13, main_v71, main_v72, main_c_14, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v73]
set_option maxRecDepth 8192 in
theorem w7_writes : (w7 : List (HloOp τ sig (Elt F))).Forall fun op => op.writes ⊆ (w7_W.map (Proc.devRef (τ := τ) .tc)).toFinset :=
  ⟨writes_sub_of_mem _ main_v66 rfl (by decide),
   writes_sub_of_mem _ main_v67 rfl (by decide),
   writes_sub_of_mem _ main_v68 rfl (by decide),
   writes_sub_of_mem _ main_v69 rfl (by decide),
   writes_sub_of_mem _ main_cst_12 rfl (by decide),
   writes_sub_of_mem _ main_v70 rfl (by decide),
   writes_sub_of_mem _ main_cst_13 rfl (by decide),
   writes_sub_of_mem _ main_v71 rfl (by decide),
   writes_sub_of_mem _ main_v72 rfl (by decide),
   writes_sub_of_mem _ main_c_14 rfl (by decide),
   writes_sub_of_mem _ main_call4_cst rfl (by decide),
   writes_sub_of_mem _ main_call4_v0 rfl (by decide),
   writes_sub_of_mem _ main_call4_v1 rfl (by decide),
   writes_sub_of_mem _ main_call4_cst_0 rfl (by decide),
   writes_sub_of_mem _ main_call4_v2 rfl (by decide),
   writes_sub_of_mem _ main_call4_v3 rfl (by decide),
   writes_sub_of_mem _ main_call4_v4 rfl (by decide),
   writes_sub_of_mem _ main_call4_v5 rfl (by decide),
   writes_sub_of_mem _ main_call4_v6 rfl (by decide),
   writes_sub_of_mem _ main_call4_v7 rfl (by decide),
   writes_sub_of_mem _ main_call4_cst_1 rfl (by decide),
   writes_sub_of_mem _ main_call4_v8 rfl (by decide),
   writes_sub_of_mem _ main_call4_cst_2 rfl (by decide),
   writes_sub_of_mem _ main_call4_v9 rfl (by decide),
   writes_sub_of_mem _ main_call4_v10 rfl (by decide),
   writes_sub_of_mem _ main_call4_v11 rfl (by decide),
   writes_sub_of_mem _ main_call4_cst_3 rfl (by decide),
   writes_sub_of_mem _ main_call4_v12 rfl (by decide),
   writes_sub_of_mem _ main_call4_cst_4 rfl (by decide),
   writes_sub_of_mem _ main_call4_call0_v0 rfl (by decide),
   writes_sub_of_mem _ main_call4_call0_v1 rfl (by decide),
   writes_sub_of_mem _ main_v73 rfl (by decide)⟩

/-- The buffers stretch `w8` writes. -/
abbrev w8_W : List (Ref sig .tc) := [main_v74, main_v75, main_v76, main_cst_15, main_v77, main_v78, main_v79, main_v80, main_v81, main_v82, main_v83, main_v84, main_v85, main_v86, main_call5_cst, main_call5_v0, main_v87]
set_option maxRecDepth 8192 in
theorem w8_writes : (w8 : List (HloOp τ sig (Elt F))).Forall fun op => op.writes ⊆ (w8_W.map (Proc.devRef (τ := τ) .tc)).toFinset :=
  ⟨writes_sub_of_mem _ main_v74 rfl (by decide),
   writes_sub_of_mem _ main_v75 rfl (by decide),
   writes_sub_of_mem _ main_v76 rfl (by decide),
   writes_sub_of_mem _ main_cst_15 rfl (by decide),
   writes_sub_of_mem _ main_v77 rfl (by decide),
   writes_sub_of_mem _ main_v78 rfl (by decide),
   writes_sub_of_mem _ main_v79 rfl (by decide),
   writes_sub_of_mem _ main_v80 rfl (by decide),
   writes_sub_of_mem _ main_v81 rfl (by decide),
   writes_sub_of_mem _ main_v82 rfl (by decide),
   writes_sub_of_mem _ main_v83 rfl (by decide),
   writes_sub_of_mem _ main_v84 rfl (by decide),
   writes_sub_of_mem _ main_v85 rfl (by decide),
   writes_sub_of_mem _ main_v86 rfl (by decide),
   writes_sub_of_mem _ main_call5_cst rfl (by decide),
   writes_sub_of_mem _ main_call5_v0 rfl (by decide),
   writes_sub_of_mem _ main_v87 rfl (by decide)⟩

/-- The buffers stretch `w9` writes. -/
abbrev w9_W : List (Ref sig .tc) := [main_v88, main_v89, main_v90, main_v91, main_cst_16, main_v92, main_cst_17, main_v93, main_v94, main_c_18, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v95]
set_option maxRecDepth 8192 in
theorem w9_writes : (w9 : List (HloOp τ sig (Elt F))).Forall fun op => op.writes ⊆ (w9_W.map (Proc.devRef (τ := τ) .tc)).toFinset :=
  ⟨writes_sub_of_mem _ main_v88 rfl (by decide),
   writes_sub_of_mem _ main_v89 rfl (by decide),
   writes_sub_of_mem _ main_v90 rfl (by decide),
   writes_sub_of_mem _ main_v91 rfl (by decide),
   writes_sub_of_mem _ main_cst_16 rfl (by decide),
   writes_sub_of_mem _ main_v92 rfl (by decide),
   writes_sub_of_mem _ main_cst_17 rfl (by decide),
   writes_sub_of_mem _ main_v93 rfl (by decide),
   writes_sub_of_mem _ main_v94 rfl (by decide),
   writes_sub_of_mem _ main_c_18 rfl (by decide),
   writes_sub_of_mem _ main_call6_cst rfl (by decide),
   writes_sub_of_mem _ main_call6_v0 rfl (by decide),
   writes_sub_of_mem _ main_call6_v1 rfl (by decide),
   writes_sub_of_mem _ main_call6_cst_0 rfl (by decide),
   writes_sub_of_mem _ main_call6_v2 rfl (by decide),
   writes_sub_of_mem _ main_call6_v3 rfl (by decide),
   writes_sub_of_mem _ main_call6_v4 rfl (by decide),
   writes_sub_of_mem _ main_call6_v5 rfl (by decide),
   writes_sub_of_mem _ main_call6_v6 rfl (by decide),
   writes_sub_of_mem _ main_call6_v7 rfl (by decide),
   writes_sub_of_mem _ main_call6_cst_1 rfl (by decide),
   writes_sub_of_mem _ main_call6_v8 rfl (by decide),
   writes_sub_of_mem _ main_call6_cst_2 rfl (by decide),
   writes_sub_of_mem _ main_call6_v9 rfl (by decide),
   writes_sub_of_mem _ main_call6_v10 rfl (by decide),
   writes_sub_of_mem _ main_call6_v11 rfl (by decide),
   writes_sub_of_mem _ main_call6_cst_3 rfl (by decide),
   writes_sub_of_mem _ main_call6_v12 rfl (by decide),
   writes_sub_of_mem _ main_call6_cst_4 rfl (by decide),
   writes_sub_of_mem _ main_call6_call0_v0 rfl (by decide),
   writes_sub_of_mem _ main_call6_call0_v1 rfl (by decide),
   writes_sub_of_mem _ main_v95 rfl (by decide)⟩

/-- The buffers stretch `w10` writes. -/
abbrev w10_W : List (Ref sig .tc) := [main_v96, main_v97, main_v98]
set_option maxRecDepth 8192 in
theorem w10_writes : (w10 : List (HloOp τ sig (Elt F))).Forall fun op => op.writes ⊆ (w10_W.map (Proc.devRef (τ := τ) .tc)).toFinset :=
  ⟨writes_sub_of_mem _ main_v96 rfl (by decide),
   writes_sub_of_mem _ main_v97 rfl (by decide),
   writes_sub_of_mem _ main_v98 rfl (by decide)⟩

/-- The buffers stretch `w11` writes. -/
abbrev w11_W : List (Ref sig .tc) := [main_cst_19, main_v99, main_v100, main_v101, main_v102, main_v103, main_v104, main_v105, main_v106, main_v107, main_v108]
set_option maxRecDepth 8192 in
theorem w11_writes : (w11 : List (HloOp τ sig (Elt F))).Forall fun op => op.writes ⊆ (w11_W.map (Proc.devRef (τ := τ) .tc)).toFinset :=
  ⟨writes_sub_of_mem _ main_cst_19 rfl (by decide),
   writes_sub_of_mem _ main_v99 rfl (by decide),
   writes_sub_of_mem _ main_v100 rfl (by decide),
   writes_sub_of_mem _ main_v101 rfl (by decide),
   writes_sub_of_mem _ main_v102 rfl (by decide),
   writes_sub_of_mem _ main_v103 rfl (by decide),
   writes_sub_of_mem _ main_v104 rfl (by decide),
   writes_sub_of_mem _ main_v105 rfl (by decide),
   writes_sub_of_mem _ main_v106 rfl (by decide),
   writes_sub_of_mem _ main_v107 rfl (by decide),
   writes_sub_of_mem _ main_v108 rfl (by decide)⟩

/-- The buffers stretch `w12` writes. -/
abbrev w12_W : List (Ref sig .tc) := [main_cst_20, main_v109, main_cst_21, main_v110, main_v111]
set_option maxRecDepth 8192 in
theorem w12_writes : (w12 : List (HloOp τ sig (Elt F))).Forall fun op => op.writes ⊆ (w12_W.map (Proc.devRef (τ := τ) .tc)).toFinset :=
  ⟨writes_sub_of_mem _ main_cst_20 rfl (by decide),
   writes_sub_of_mem _ main_v109 rfl (by decide),
   writes_sub_of_mem _ main_cst_21 rfl (by decide),
   writes_sub_of_mem _ main_v110 rfl (by decide),
   writes_sub_of_mem _ main_v111 rfl (by decide)⟩

/-! ## The layers, as the operations compose them

Each definition is the composition of the operations of one part of a layer, in the order and the spelling the program
prints them, over whole arrays: at any float values. -/

/-- The neighbour sum added to the node's own row: the gather of the source rows (a negative index wrapped by 50000),
    their scatter-add into zeros at the destination rows, plus the array itself. -/
def aggT (x : FVec F S50000x128 .f32) (src dst : IVec S600000 32) : FVec F S50000x128 .f32 :=
  addf x (Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 x
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src))))

/-- A row of 128 repeated down the 50000 rows. -/
def rows128 (v : FVec F S128 .f32) : FVec F S50000x128 .f32 :=
  broadcastInDim S50000x128 ![0, 1] bcast_S1x128_S50000x128_0_1 (broadcastInDim S1x128 ![1] bcast_S128_S1x128_1 v)

/-- A linear layer: the matrix product plus the bias row. -/
def linT (h : FVec F S50000x128 .f32) (w : FVec F S128x128 .f32) (b : FVec F S128 .f32) : FVec F S50000x128 .f32 :=
  addf (Host.dotGeneral dot_S50000x128_S128x128_S50000x128_1_0_0_1_n_n none h w) (rows128 b)

/-- The column mean: the column sums from zero, over 50000. -/
def meanT (z : FVec F S50000x128 .f32) : FVec F S128 .f32 :=
  Host.divf (Host.reduceAdd z (constant S_ .f32 0x00000000#32) reducesTo_S50000x128_S128_d0 h_S_)
    (broadcastInDim S128 ![] bcast_S_S128 (constant S_ .f32 0x47435000#32))

/-- The deviation from the column mean, the mean formed as a 1 × 128 array. -/
def devT (z : FVec F S50000x128 .f32) : FVec F S50000x128 .f32 :=
  subf z (broadcastInDim S50000x128 ![0, 1] bcast_S1x128_S50000x128_0_1
    (Host.divf
      (broadcastInDim S1x128 ![1] bcast_S128_S1x128_1
        (Host.reduceAdd z (constant S_ .f32 0x00000000#32) reducesTo_S50000x128_S128_d0 h_S_))
      (broadcastInDim S1x128 ![] bcast_S_S1x128 (constant S_ .f32 0x47435000#32))))

/-- The variance's divisor: 50000 minus the integer constant 0 converted. -/
def cntT : FVec F S_ .f32 :=
  subf (constant S_ .f32 0x47435000#32) (sitofp .f32 (constantI S_ 32 0#32))

/-- The column variance: the column sums of the squared deviations over the divisor, where the divisor is positive, and the
    constant 0x7FC00000 elsewhere. -/
def varT (z : FVec F S50000x128 .f32) : FVec F S128 .f32 :=
  select (broadcastInDim S128 ![] bcast_S_S128 (cmpf .ogt (cntT (F := F)) (constant S_ .f32 0x00000000#32)))
    (Host.divf (Host.reduceAdd (mulf (devT z) (devT z)) (constant S_ .f32 0x00000000#32) reducesTo_S50000x128_S128_d0 h_S_)
      (broadcastInDim S128 ![] bcast_S_S128 (cntT (F := F))))
    (broadcastInDim S128 ![] bcast_S_S128 (id (constant S_ .f32 0x7FC00000#32)))

/-- The scale row of a normalisation: `g * rsqrt (var + eps)`, as a 1 × 128 array. -/
def scaleT (var g : FVec F S128 .f32) : FVec F S1x128 .f32 :=
  broadcastInDim S1x128 ![1] bcast_S128_S1x128_1
    (mulf g (Host.rsqrt (addf var (broadcastInDim S128 ![] bcast_S_S128 (constant S_ .f32 0x3727C5AC#32)))))

/-- Normalisation by given column statistics: `(z - mean) * (g * rsqrt (var + eps)) + be`. -/
def bnT (z : FVec F S50000x128 .f32) (mean var g be : FVec F S128 .f32) : FVec F S50000x128 .f32 :=
  addf (mulf (subf z (rows128 mean)) (broadcastInDim S50000x128 ![0, 1] bcast_S1x128_S50000x128_0_1 (scaleT var g))) (rows128 be)

/-- The positive part. -/
def reluT (y : FVec F S50000x128 .f32) : FVec F S50000x128 .f32 :=
  maximumf y (broadcastInDim S50000x128 ![] bcast_S_S50000x128 (constant S_ .f32 0x00000000#32))

/-! The same at 16 columns (the last layer). -/

def rows16 (v : FVec F S16 .f32) : FVec F S50000x16 .f32 :=
  broadcastInDim S50000x16 ![0, 1] bcast_S1x16_S50000x16_0_1 (broadcastInDim S1x16 ![1] bcast_S16_S1x16_1 v)

def linT16 (h : FVec F S50000x128 .f32) (w : FVec F S128x16 .f32) (b : FVec F S16 .f32) : FVec F S50000x16 .f32 :=
  addf (Host.dotGeneral dot_S50000x128_S128x16_S50000x16_1_0_0_1_n_n none h w) (rows16 b)

def meanT16 (z : FVec F S50000x16 .f32) : FVec F S16 .f32 :=
  Host.divf (Host.reduceAdd z (constant S_ .f32 0x00000000#32) reducesTo_S50000x16_S16_d0 h_S_)
    (broadcastInDim S16 ![] bcast_S_S16 (constant S_ .f32 0x47435000#32))

def devT16 (z : FVec F S50000x16 .f32) : FVec F S50000x16 .f32 :=
  subf z (broadcastInDim S50000x16 ![0, 1] bcast_S1x16_S50000x16_0_1
    (Host.divf
      (broadcastInDim S1x16 ![1] bcast_S16_S1x16_1
        (Host.reduceAdd z (constant S_ .f32 0x00000000#32) reducesTo_S50000x16_S16_d0 h_S_))
      (broadcastInDim S1x16 ![] bcast_S_S1x16 (constant S_ .f32 0x47435000#32))))

def varT16 (z : FVec F S50000x16 .f32) : FVec F S16 .f32 :=
  select (broadcastInDim S16 ![] bcast_S_S16 (cmpf .ogt (cntT (F := F)) (constant S_ .f32 0x00000000#32)))
    (Host.divf (Host.reduceAdd (mulf (devT16 z) (devT16 z)) (constant S_ .f32 0x00000000#32) reducesTo_S50000x16_S16_d0 h_S_)
      (broadcastInDim S16 ![] bcast_S_S16 (cntT (F := F))))
    (broadcastInDim S16 ![] bcast_S_S16 (id (constant S_ .f32 0x7FC00000#32)))

def scaleT16 (var g : FVec F S16 .f32) : FVec F S1x16 .f32 :=
  broadcastInDim S1x16 ![1] bcast_S16_S1x16_1
    (mulf g (Host.rsqrt (addf var (broadcastInDim S16 ![] bcast_S_S16 (constant S_ .f32 0x3727C5AC#32)))))

def bnT16 (z : FVec F S50000x16 .f32) (mean var g be : FVec F S16 .f32) : FVec F S50000x16 .f32 :=
  addf (mulf (subf z (rows16 mean)) (broadcastInDim S50000x16 ![0, 1] bcast_S1x16_S50000x16_0_1 (scaleT16 var g))) (rows16 be)

/-! ## The named intermediates, over any contents `V` of the device's buffers -/

/-- The first neighbour sum (`main_v10`). -/
def a1 (V : Valuation τ sig (Elt F)) : FVec F S50000x128 .f32 :=
  aggT (V (Proc.devRef .tc main_arg0)) (V (Proc.devRef .tc main_arg1)) (V (Proc.devRef .tc main_arg2))
/-- The first linear layer (`main_v14`). -/
def z1 (V : Valuation τ sig (Elt F)) : FVec F S50000x128 .f32 := linT (a1 V) (V (Proc.devRef .tc main_arg3)) (V (Proc.devRef .tc main_arg4))
/-- Its normalisation and positive part (`main_v32`). -/
def h1 (V : Valuation τ sig (Elt F)) : FVec F S50000x128 .f32 :=
  reluT (bnT (z1 V) (meanT (z1 V)) (varT (z1 V)) (V (Proc.devRef .tc main_arg5)) (V (Proc.devRef .tc main_arg6)))
/-- The second linear layer (`main_v36`). -/
def z2 (V : Valuation τ sig (Elt F)) : FVec F S50000x128 .f32 := linT (h1 V) (V (Proc.devRef .tc main_arg7)) (V (Proc.devRef .tc main_arg8))
/-- Its normalisation and positive part (`main_v54`). -/
def h2 (V : Valuation τ sig (Elt F)) : FVec F S50000x128 .f32 :=
  reluT (bnT (z2 V) (meanT (z2 V)) (varT (z2 V)) (V (Proc.devRef .tc main_arg9)) (V (Proc.devRef .tc main_arg10)))
/-- The second neighbour sum (`main_v65`). -/
def a2 (V : Valuation τ sig (Elt F)) : FVec F S50000x128 .f32 :=
  aggT (h2 V) (V (Proc.devRef .tc main_arg1)) (V (Proc.devRef .tc main_arg2))
/-- The third linear layer (`main_v69`). -/
def z3 (V : Valuation τ sig (Elt F)) : FVec F S50000x128 .f32 := linT (a2 V) (V (Proc.devRef .tc main_arg11)) (V (Proc.devRef .tc main_arg12))
/-- Its normalisation and positive part (`main_v87`). -/
def h3 (V : Valuation τ sig (Elt F)) : FVec F S50000x128 .f32 :=
  reluT (bnT (z3 V) (meanT (z3 V)) (varT (z3 V)) (V (Proc.devRef .tc main_arg13)) (V (Proc.devRef .tc main_arg14)))
/-- The fourth linear layer, to 16 columns (`main_v91`). -/
def z4 (V : Valuation τ sig (Elt F)) : FVec F S50000x16 .f32 := linT16 (h3 V) (V (Proc.devRef .tc main_arg15)) (V (Proc.devRef .tc main_arg16))
/-- Its normalisation (`main_v108`). -/
def y4 (V : Valuation τ sig (Elt F)) : FVec F S50000x16 .f32 :=
  bnT16 (z4 V) (meanT16 (z4 V)) (varT16 (z4 V)) (V (Proc.devRef .tc main_arg17)) (V (Proc.devRef .tc main_arg18))
/-- The mean over the rows (`main_v111`): the result. -/
def outV (V : Valuation τ sig (Elt F)) : FVec F S16 .f32 := meanT16 (y4 V)

/-! ## The contents after each stretch

`val k V` is what the device's buffers hold after the first `k` stretches, from contents `V`. A reference a stretch
does not write keeps its contents through it; a reference none of the first `k` stretches writes holds what `V` gave it. -/

theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

def val0 (V : Valuation τ sig (Elt F)) : Valuation τ sig (Elt F) := V

def val1 (V : Valuation τ sig (Elt F)) : Valuation τ sig (Elt F) := after w0 (val0 V)
theorem val1_keep (V : Valuation τ sig (Elt F)) (r : Ref sig .tc) (h : r ∉ w0_W) :
    val1 V (Proc.devRef .tc r) = val0 V (Proc.devRef .tc r) :=
  after_of_writes_sub w0 _ w0_writes h
/-- The references the first 1 stretch write. -/
abbrev U1 : List (Ref sig .tc) := w0_W
theorem val1_old (V : Valuation τ sig (Elt F)) (r : Ref sig .tc) (h : r ∉ U1) :
    val1 V (no_index (Proc.devRef .tc r)) = V (Proc.devRef .tc r) := by
  exact val1_keep V r h

def val2 (V : Valuation τ sig (Elt F)) : Valuation τ sig (Elt F) := after w1 (val1 V)
theorem val2_keep (V : Valuation τ sig (Elt F)) (r : Ref sig .tc) (h : r ∉ w1_W) :
    val2 V (Proc.devRef .tc r) = val1 V (Proc.devRef .tc r) :=
  after_of_writes_sub w1 _ w1_writes h
/-- The references the first 2 stretches write. -/
abbrev U2 : List (Ref sig .tc) := U1 ++ w1_W
theorem val2_old (V : Valuation τ sig (Elt F)) (r : Ref sig .tc) (h : r ∉ U2) :
    val2 V (no_index (Proc.devRef .tc r)) = V (Proc.devRef .tc r) := by
  have h' : r ∉ U1 ∧ r ∉ w1_W := by
    simpa only [U2, List.mem_append, not_or] using h
  exact (val2_keep V r h'.2).trans (val1_old V r h'.1)

def val3 (V : Valuation τ sig (Elt F)) : Valuation τ sig (Elt F) := after w2 (val2 V)
theorem val3_keep (V : Valuation τ sig (Elt F)) (r : Ref sig .tc) (h : r ∉ w2_W) :
    val3 V (Proc.devRef .tc r) = val2 V (Proc.devRef .tc r) :=
  after_of_writes_sub w2 _ w2_writes h
/-- The references the first 3 stretches write. -/
abbrev U3 : List (Ref sig .tc) := U2 ++ w2_W
theorem val3_old (V : Valuation τ sig (Elt F)) (r : Ref sig .tc) (h : r ∉ U3) :
    val3 V (no_index (Proc.devRef .tc r)) = V (Proc.devRef .tc r) := by
  have h' : r ∉ U2 ∧ r ∉ w2_W := by
    simpa only [U3, List.mem_append, not_or] using h
  exact (val3_keep V r h'.2).trans (val2_old V r h'.1)

def val4 (V : Valuation τ sig (Elt F)) : Valuation τ sig (Elt F) := after w3 (val3 V)
theorem val4_keep (V : Valuation τ sig (Elt F)) (r : Ref sig .tc) (h : r ∉ w3_W) :
    val4 V (Proc.devRef .tc r) = val3 V (Proc.devRef .tc r) :=
  after_of_writes_sub w3 _ w3_writes h
/-- The references the first 4 stretches write. -/
abbrev U4 : List (Ref sig .tc) := U3 ++ w3_W
theorem val4_old (V : Valuation τ sig (Elt F)) (r : Ref sig .tc) (h : r ∉ U4) :
    val4 V (no_index (Proc.devRef .tc r)) = V (Proc.devRef .tc r) := by
  have h' : r ∉ U3 ∧ r ∉ w3_W := by
    simpa only [U4, List.mem_append, not_or] using h
  exact (val4_keep V r h'.2).trans (val3_old V r h'.1)

def val5 (V : Valuation τ sig (Elt F)) : Valuation τ sig (Elt F) := after w4 (val4 V)
theorem val5_keep (V : Valuation τ sig (Elt F)) (r : Ref sig .tc) (h : r ∉ w4_W) :
    val5 V (Proc.devRef .tc r) = val4 V (Proc.devRef .tc r) :=
  after_of_writes_sub w4 _ w4_writes h
/-- The references the first 5 stretches write. -/
abbrev U5 : List (Ref sig .tc) := U4 ++ w4_W
theorem val5_old (V : Valuation τ sig (Elt F)) (r : Ref sig .tc) (h : r ∉ U5) :
    val5 V (no_index (Proc.devRef .tc r)) = V (Proc.devRef .tc r) := by
  have h' : r ∉ U4 ∧ r ∉ w4_W := by
    simpa only [U5, List.mem_append, not_or] using h
  exact (val5_keep V r h'.2).trans (val4_old V r h'.1)

def val6 (V : Valuation τ sig (Elt F)) : Valuation τ sig (Elt F) := after w5 (val5 V)
theorem val6_keep (V : Valuation τ sig (Elt F)) (r : Ref sig .tc) (h : r ∉ w5_W) :
    val6 V (Proc.devRef .tc r) = val5 V (Proc.devRef .tc r) :=
  after_of_writes_sub w5 _ w5_writes h
/-- The references the first 6 stretches write. -/
abbrev U6 : List (Ref sig .tc) := U5 ++ w5_W
theorem val6_old (V : Valuation τ sig (Elt F)) (r : Ref sig .tc) (h : r ∉ U6) :
    val6 V (no_index (Proc.devRef .tc r)) = V (Proc.devRef .tc r) := by
  have h' : r ∉ U5 ∧ r ∉ w5_W := by
    simpa only [U6, List.mem_append, not_or] using h
  exact (val6_keep V r h'.2).trans (val5_old V r h'.1)

def val7 (V : Valuation τ sig (Elt F)) : Valuation τ sig (Elt F) := after w6 (val6 V)
theorem val7_keep (V : Valuation τ sig (Elt F)) (r : Ref sig .tc) (h : r ∉ w6_W) :
    val7 V (Proc.devRef .tc r) = val6 V (Proc.devRef .tc r) :=
  after_of_writes_sub w6 _ w6_writes h
/-- The references the first 7 stretches write. -/
abbrev U7 : List (Ref sig .tc) := U6 ++ w6_W
theorem val7_old (V : Valuation τ sig (Elt F)) (r : Ref sig .tc) (h : r ∉ U7) :
    val7 V (no_index (Proc.devRef .tc r)) = V (Proc.devRef .tc r) := by
  have h' : r ∉ U6 ∧ r ∉ w6_W := by
    simpa only [U7, List.mem_append, not_or] using h
  exact (val7_keep V r h'.2).trans (val6_old V r h'.1)

def val8 (V : Valuation τ sig (Elt F)) : Valuation τ sig (Elt F) := after w7 (val7 V)
theorem val8_keep (V : Valuation τ sig (Elt F)) (r : Ref sig .tc) (h : r ∉ w7_W) :
    val8 V (Proc.devRef .tc r) = val7 V (Proc.devRef .tc r) :=
  after_of_writes_sub w7 _ w7_writes h
/-- The references the first 8 stretches write. -/
abbrev U8 : List (Ref sig .tc) := U7 ++ w7_W
theorem val8_old (V : Valuation τ sig (Elt F)) (r : Ref sig .tc) (h : r ∉ U8) :
    val8 V (no_index (Proc.devRef .tc r)) = V (Proc.devRef .tc r) := by
  have h' : r ∉ U7 ∧ r ∉ w7_W := by
    simpa only [U8, List.mem_append, not_or] using h
  exact (val8_keep V r h'.2).trans (val7_old V r h'.1)

def val9 (V : Valuation τ sig (Elt F)) : Valuation τ sig (Elt F) := after w8 (val8 V)
theorem val9_keep (V : Valuation τ sig (Elt F)) (r : Ref sig .tc) (h : r ∉ w8_W) :
    val9 V (Proc.devRef .tc r) = val8 V (Proc.devRef .tc r) :=
  after_of_writes_sub w8 _ w8_writes h
/-- The references the first 9 stretches write. -/
abbrev U9 : List (Ref sig .tc) := U8 ++ w8_W
theorem val9_old (V : Valuation τ sig (Elt F)) (r : Ref sig .tc) (h : r ∉ U9) :
    val9 V (no_index (Proc.devRef .tc r)) = V (Proc.devRef .tc r) := by
  have h' : r ∉ U8 ∧ r ∉ w8_W := by
    simpa only [U9, List.mem_append, not_or] using h
  exact (val9_keep V r h'.2).trans (val8_old V r h'.1)

def val10 (V : Valuation τ sig (Elt F)) : Valuation τ sig (Elt F) := after w9 (val9 V)
theorem val10_keep (V : Valuation τ sig (Elt F)) (r : Ref sig .tc) (h : r ∉ w9_W) :
    val10 V (Proc.devRef .tc r) = val9 V (Proc.devRef .tc r) :=
  after_of_writes_sub w9 _ w9_writes h
/-- The references the first 10 stretches write. -/
abbrev U10 : List (Ref sig .tc) := U9 ++ w9_W
theorem val10_old (V : Valuation τ sig (Elt F)) (r : Ref sig .tc) (h : r ∉ U10) :
    val10 V (no_index (Proc.devRef .tc r)) = V (Proc.devRef .tc r) := by
  have h' : r ∉ U9 ∧ r ∉ w9_W := by
    simpa only [U10, List.mem_append, not_or] using h
  exact (val10_keep V r h'.2).trans (val9_old V r h'.1)

def val11 (V : Valuation τ sig (Elt F)) : Valuation τ sig (Elt F) := after w10 (val10 V)
theorem val11_keep (V : Valuation τ sig (Elt F)) (r : Ref sig .tc) (h : r ∉ w10_W) :
    val11 V (Proc.devRef .tc r) = val10 V (Proc.devRef .tc r) :=
  after_of_writes_sub w10 _ w10_writes h
/-- The references the first 11 stretches write. -/
abbrev U11 : List (Ref sig .tc) := U10 ++ w10_W
theorem val11_old (V : Valuation τ sig (Elt F)) (r : Ref sig .tc) (h : r ∉ U11) :
    val11 V (no_index (Proc.devRef .tc r)) = V (Proc.devRef .tc r) := by
  have h' : r ∉ U10 ∧ r ∉ w10_W := by
    simpa only [U11, List.mem_append, not_or] using h
  exact (val11_keep V r h'.2).trans (val10_old V r h'.1)

def val12 (V : Valuation τ sig (Elt F)) : Valuation τ sig (Elt F) := after w11 (val11 V)
theorem val12_keep (V : Valuation τ sig (Elt F)) (r : Ref sig .tc) (h : r ∉ w11_W) :
    val12 V (Proc.devRef .tc r) = val11 V (Proc.devRef .tc r) :=
  after_of_writes_sub w11 _ w11_writes h
/-- The references the first 12 stretches write. -/
abbrev U12 : List (Ref sig .tc) := U11 ++ w11_W
theorem val12_old (V : Valuation τ sig (Elt F)) (r : Ref sig .tc) (h : r ∉ U12) :
    val12 V (no_index (Proc.devRef .tc r)) = V (Proc.devRef .tc r) := by
  have h' : r ∉ U11 ∧ r ∉ w11_W := by
    simpa only [U12, List.mem_append, not_or] using h
  exact (val12_keep V r h'.2).trans (val11_old V r h'.1)

def val13 (V : Valuation τ sig (Elt F)) : Valuation τ sig (Elt F) := after w12 (val12 V)
theorem val13_keep (V : Valuation τ sig (Elt F)) (r : Ref sig .tc) (h : r ∉ w12_W) :
    val13 V (Proc.devRef .tc r) = val12 V (Proc.devRef .tc r) :=
  after_of_writes_sub w12 _ w12_writes h
/-- The references the first 13 stretches write. -/
abbrev U13 : List (Ref sig .tc) := U12 ++ w12_W
theorem val13_old (V : Valuation τ sig (Elt F)) (r : Ref sig .tc) (h : r ∉ U13) :
    val13 V (no_index (Proc.devRef .tc r)) = V (Proc.devRef .tc r) := by
  have h' : r ∉ U12 ∧ r ∉ w12_W := by
    simpa only [U13, List.mem_append, not_or] using h
  exact (val13_keep V r h'.2).trans (val12_old V r h'.1)

theorem after_ops (V : Valuation τ sig (Elt F)) : after ops V = val13 V := by
  simp only [ops, after_append']
  rfl

/-! ## The stretches read: each buffer a later stretch needs, as its layer of the network -/

set_option maxRecDepth 8192 in
set_option maxHeartbeats 4000000 in
theorem val1_v10 (V : Valuation τ sig (Elt F)) : val1 V (no_index (Proc.devRef .tc main_v10)) = a1 V := by
  unfold val1
  simp only [w0]
  after_results_simp
  rfl

set_option maxRecDepth 8192 in
set_option maxHeartbeats 4000000 in
theorem val2_v14 (V : Valuation τ sig (Elt F)) : val2 V (no_index (Proc.devRef .tc main_v14)) = z1 V := by
  unfold val2
  simp only [w1]
  after_results_simp
  simp only [val1_v10, val1_old V main_arg3 (by decide), val1_old V main_arg4 (by decide)]
  rfl

set_option maxRecDepth 8192 in
set_option maxHeartbeats 4000000 in
theorem val2_v17 (V : Valuation τ sig (Elt F)) : val2 V (no_index (Proc.devRef .tc main_v17)) = meanT (z1 V) := by
  unfold val2
  simp only [w1]
  after_results_simp
  simp only [val1_v10, val1_old V main_arg3 (by decide), val1_old V main_arg4 (by decide)]
  rfl

set_option maxRecDepth 8192 in
set_option maxHeartbeats 4000000 in
theorem val2_v18 (V : Valuation τ sig (Elt F)) : val2 V (no_index (Proc.devRef .tc main_v18)) = varT (z1 V) := by
  unfold val2
  simp only [w1]
  after_results_simp
  simp only [val1_v10, val1_old V main_arg3 (by decide), val1_old V main_arg4 (by decide)]
  rfl

set_option maxRecDepth 8192 in
set_option maxHeartbeats 4000000 in
theorem val3_v32 (V : Valuation τ sig (Elt F)) : val3 V (no_index (Proc.devRef .tc main_v32)) = h1 V := by
  unfold val3
  simp only [w2]
  after_results_simp
  simp only [val2_v14, val2_v17, val2_v18, val2_old V main_arg5 (by decide), val2_old V main_arg6 (by decide)]
  rfl

set_option maxRecDepth 8192 in
set_option maxHeartbeats 4000000 in
theorem val4_v36 (V : Valuation τ sig (Elt F)) : val4 V (no_index (Proc.devRef .tc main_v36)) = z2 V := by
  unfold val4
  simp only [w3]
  after_results_simp
  simp only [val3_v32, val3_old V main_arg7 (by decide), val3_old V main_arg8 (by decide)]
  rfl

set_option maxRecDepth 8192 in
set_option maxHeartbeats 4000000 in
theorem val4_v39 (V : Valuation τ sig (Elt F)) : val4 V (no_index (Proc.devRef .tc main_v39)) = meanT (z2 V) := by
  unfold val4
  simp only [w3]
  after_results_simp
  simp only [val3_v32, val3_old V main_arg7 (by decide), val3_old V main_arg8 (by decide)]
  rfl

set_option maxRecDepth 8192 in
set_option maxHeartbeats 4000000 in
theorem val4_v40 (V : Valuation τ sig (Elt F)) : val4 V (no_index (Proc.devRef .tc main_v40)) = varT (z2 V) := by
  unfold val4
  simp only [w3]
  after_results_simp
  simp only [val3_v32, val3_old V main_arg7 (by decide), val3_old V main_arg8 (by decide)]
  rfl

set_option maxRecDepth 8192 in
set_option maxHeartbeats 4000000 in
theorem val5_v43 (V : Valuation τ sig (Elt F)) : val5 V (no_index (Proc.devRef .tc main_v43)) = subf (z2 V) (rows128 (meanT (z2 V))) := by
  unfold val5
  simp only [w4]
  after_results_simp
  simp only [val4_v36, val4_v39]
  rfl

set_option maxRecDepth 8192 in
set_option maxHeartbeats 4000000 in
theorem val5_v48 (V : Valuation τ sig (Elt F)) : val5 V (no_index (Proc.devRef .tc main_v48)) = scaleT (varT (z2 V)) (V (Proc.devRef .tc main_arg9)) := by
  unfold val5
  simp only [w4]
  after_results_simp
  simp only [val4_v40, val4_old V main_arg9 (by decide)]
  rfl

set_option maxRecDepth 8192 in
set_option maxHeartbeats 4000000 in
theorem val6_v54 (V : Valuation τ sig (Elt F)) : val6 V (no_index (Proc.devRef .tc main_v54)) = h2 V := by
  unfold val6
  simp only [w5]
  after_results_simp
  simp only [val5_v43, val5_v48, val5_old V main_arg10 (by decide)]
  rfl

set_option maxRecDepth 8192 in
set_option maxHeartbeats 4000000 in
theorem val7_v65 (V : Valuation τ sig (Elt F)) : val7 V (no_index (Proc.devRef .tc main_v65)) = a2 V := by
  unfold val7
  simp only [w6]
  after_results_simp
  simp only [val6_v54, val6_old V main_arg1 (by decide), val6_old V main_arg2 (by decide)]
  rfl

set_option maxRecDepth 8192 in
set_option maxHeartbeats 4000000 in
theorem val8_v69 (V : Valuation τ sig (Elt F)) : val8 V (no_index (Proc.devRef .tc main_v69)) = z3 V := by
  unfold val8
  simp only [w7]
  after_results_simp
  simp only [val7_v65, val7_old V main_arg11 (by decide), val7_old V main_arg12 (by decide)]
  rfl

set_option maxRecDepth 8192 in
set_option maxHeartbeats 4000000 in
theorem val8_v72 (V : Valuation τ sig (Elt F)) : val8 V (no_index (Proc.devRef .tc main_v72)) = meanT (z3 V) := by
  unfold val8
  simp only [w7]
  after_results_simp
  simp only [val7_v65, val7_old V main_arg11 (by decide), val7_old V main_arg12 (by decide)]
  rfl

set_option maxRecDepth 8192 in
set_option maxHeartbeats 4000000 in
theorem val8_v73 (V : Valuation τ sig (Elt F)) : val8 V (no_index (Proc.devRef .tc main_v73)) = varT (z3 V) := by
  unfold val8
  simp only [w7]
  after_results_simp
  simp only [val7_v65, val7_old V main_arg11 (by decide), val7_old V main_arg12 (by decide)]
  rfl

set_option maxRecDepth 8192 in
set_option maxHeartbeats 4000000 in
theorem val9_v87 (V : Valuation τ sig (Elt F)) : val9 V (no_index (Proc.devRef .tc main_v87)) = h3 V := by
  unfold val9
  simp only [w8]
  after_results_simp
  simp only [val8_v69, val8_v72, val8_v73, val8_old V main_arg13 (by decide), val8_old V main_arg14 (by decide)]
  rfl

set_option maxRecDepth 8192 in
set_option maxHeartbeats 4000000 in
theorem val10_v91 (V : Valuation τ sig (Elt F)) : val10 V (no_index (Proc.devRef .tc main_v91)) = z4 V := by
  unfold val10
  simp only [w9]
  after_results_simp
  simp only [val9_v87, val9_old V main_arg15 (by decide), val9_old V main_arg16 (by decide)]
  rfl

set_option maxRecDepth 8192 in
set_option maxHeartbeats 4000000 in
theorem val10_v94 (V : Valuation τ sig (Elt F)) : val10 V (no_index (Proc.devRef .tc main_v94)) = meanT16 (z4 V) := by
  unfold val10
  simp only [w9]
  after_results_simp
  simp only [val9_v87, val9_old V main_arg15 (by decide), val9_old V main_arg16 (by decide)]
  rfl

set_option maxRecDepth 8192 in
set_option maxHeartbeats 4000000 in
theorem val10_v95 (V : Valuation τ sig (Elt F)) : val10 V (no_index (Proc.devRef .tc main_v95)) = varT16 (z4 V) := by
  unfold val10
  simp only [w9]
  after_results_simp
  simp only [val9_v87, val9_old V main_arg15 (by decide), val9_old V main_arg16 (by decide)]
  rfl

set_option maxRecDepth 8192 in
set_option maxHeartbeats 4000000 in
theorem val11_v98 (V : Valuation τ sig (Elt F)) : val11 V (no_index (Proc.devRef .tc main_v98)) = subf (z4 V) (rows16 (meanT16 (z4 V))) := by
  unfold val11
  simp only [w10]
  after_results_simp
  simp only [val10_v91, val10_v94]
  rfl

theorem val11_v95 (V : Valuation τ sig (Elt F)) : val11 V (no_index (Proc.devRef .tc main_v95)) = varT16 (z4 V) :=
  (val11_keep V main_v95 (by decide)).trans (val10_v95 V)

set_option maxRecDepth 8192 in
set_option maxHeartbeats 4000000 in
theorem val12_v108 (V : Valuation τ sig (Elt F)) : val12 V (no_index (Proc.devRef .tc main_v108)) = y4 V := by
  unfold val12
  simp only [w11]
  after_results_simp
  simp only [val11_v98, val11_v95, val11_old V main_arg17 (by decide), val11_old V main_arg18 (by decide)]
  rfl

set_option maxRecDepth 8192 in
set_option maxHeartbeats 4000000 in
theorem val13_v111 (V : Valuation τ sig (Elt F)) : val13 V (no_index (Proc.devRef .tc main_v111)) = outV V := by
  unfold val13
  simp only [w12]
  after_results_simp
  simp only [val12_v108]
  rfl

/-! ## The run -/

/-- The result's term: the network's layers composed over the launch contents of the arguments. -/
def res (m : (ℓ : Loc nD τ sig) → Buf (Elt F) ℓ) (c : Dev nD) : Buf (Elt F) ((c.tc : Thread nD τ).loc main_v111) :=
  outV (launchContents m c)

/-- An argument of @main — a reference no stretch writes — holds at the end what it held at launch. -/
theorem after_ops_old (V : Valuation τ sig (Elt F)) (r : Ref sig .tc) (h : r ∉ U13) :
    after ops V (Proc.devRef .tc r) = V (Proc.devRef .tc r) := by
  rw [after_ops]; exact val13_old V r h

/-- On every device, for any float values, from any memory with zero counters: every weakly fair execution of
    @main terminates with the result at the layers' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v111).trans (by rw [after_ops]; exact val13_v111 (launchContents m c)),
      (h c main_arg0).trans (after_ops_old (launchContents m c) main_arg0 (by decide)),
      (h c main_arg1).trans (after_ops_old (launchContents m c) main_arg1 (by decide)),
      (h c main_arg2).trans (after_ops_old (launchContents m c) main_arg2 (by decide)),
      (h c main_arg3).trans (after_ops_old (launchContents m c) main_arg3 (by decide)),
      (h c main_arg4).trans (after_ops_old (launchContents m c) main_arg4 (by decide)),
      (h c main_arg5).trans (after_ops_old (launchContents m c) main_arg5 (by decide)),
      (h c main_arg6).trans (after_ops_old (launchContents m c) main_arg6 (by decide)),
      (h c main_arg7).trans (after_ops_old (launchContents m c) main_arg7 (by decide)),
      (h c main_arg8).trans (after_ops_old (launchContents m c) main_arg8 (by decide)),
      (h c main_arg9).trans (after_ops_old (launchContents m c) main_arg9 (by decide)),
      (h c main_arg10).trans (after_ops_old (launchContents m c) main_arg10 (by decide)),
      (h c main_arg11).trans (after_ops_old (launchContents m c) main_arg11 (by decide)),
      (h c main_arg12).trans (after_ops_old (launchContents m c) main_arg12 (by decide)),
      (h c main_arg13).trans (after_ops_old (launchContents m c) main_arg13 (by decide)),
      (h c main_arg14).trans (after_ops_old (launchContents m c) main_arg14 (by decide)),
      (h c main_arg15).trans (after_ops_old (launchContents m c) main_arg15 (by decide)),
      (h c main_arg16).trans (after_ops_old (launchContents m c) main_arg16 (by decide)),
      (h c main_arg17).trans (after_ops_old (launchContents m c) main_arg17 (by decide)),
      (h c main_arg18).trans (after_ops_old (launchContents m c) main_arg18 (by decide))⟩)
    (run_seq scopedRefs_eq scopedSems_eq defs main (fun _ => ops) main_eq (fun _ => ops_sub) m ρ)

end Cert.ReferenceIdeal.HandRun

end
-- ==== Proof.RefRead.lean ====
/-
  The reference's result, read at the exact values: each layer function of the run, index by index, is the network's
  layer over the extended reals — the linear layer a sum of products plus the bias, the column mean and variance the
  sums from zero over the row count (the variance's guard decided: the count is positive), the normalisation the
  scaled deviation plus the shift, the positive part a maximum with zero — so the result is the column mean of the
  network of those layers. The neighbour sum is kept as one unopened function of its three arrays.
-/
import proofs.«105059_j20856361189655_1_alg».proof.Proof.RefRun
import proofs.«105059_j20856361189655_1_alg».proof.Proof.Spec
import proofs.«105059_j20856361189655_1_alg».proof.Proof.LibReal
import proofs.«105059_j20856361189655_1_alg».proof.Proof.Net
import Idealize.ShloMosaic.Lib.IdealHost
import Idealize.ShloMosaic.Lib.StackMember

noncomputable section

namespace Cert.ReferenceIdeal.HandRead

open Cert.ReferenceIdeal Cert.ReferenceIdeal.Gen Cert.ReferenceIdeal.HandRun Idealize.ShloMosaic Idealize.ShloMosaic.TcCoe
  Idealize.SL.Sem Idealize.ShloMosaic.StableHlo Idealize.ShloMosaic.ValueIdx Cert.Gin
open scoped BigOperators

/-! ## The neighbour sum, unopened -/

/-- The neighbour sum added to the node's own row, at the exact values: the gather of the source rows (a negative index
    wrapped by 50000), their scatter-add into zeros at the destination rows, plus the array itself. Never opened. -/
def aggR (h : Mat 50000 128) (src dst : IVec S600000 32) : Mat 50000 128 :=
  addf (F := Ideal) h (Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src))))

theorem aggT_eq (h : Mat 50000 128) (src dst : IVec S600000 32) : aggT (F := Ideal) h src dst = aggR h src dst := rfl

/-! ## Broadcasts read at an index -/

theorem bc01_128 {α : Type} (v : S1x128.Idx → α) (i : S50000x128.Idx) :
    broadcastInDim S50000x128 ![0, 1] bcast_S1x128_S50000x128_0_1 v i = v (ix2 0 (i 1)) :=
  broadcastInDim_apply _ _ v i _ (by intro a; fin_cases a <;> rfl)

theorem bc1_128 {α : Type} (v : S128.Idx → α) (j : S1x128.Idx) :
    broadcastInDim S1x128 ![1] bcast_S128_S1x128_1 v j = v (ix1 (j 1)) :=
  broadcastInDim_apply _ _ v j _ (by intro a; fin_cases a; rfl)

theorem bc01_16 {α : Type} (v : S1x16.Idx → α) (i : S50000x16.Idx) :
    broadcastInDim S50000x16 ![0, 1] bcast_S1x16_S50000x16_0_1 v i = v (ix2 0 (i 1)) :=
  broadcastInDim_apply _ _ v i _ (by intro a; fin_cases a <;> rfl)

theorem bc1_16 {α : Type} (v : S16.Idx → α) (j : S1x16.Idx) :
    broadcastInDim S1x16 ![1] bcast_S16_S1x16_1 v j = v (ix1 (j 1)) :=
  broadcastInDim_apply _ _ v j _ (by intro a; fin_cases a; rfl)

theorem rows128_apply (v : FVec Ideal S128 .f32) (i : S50000x128.Idx) : rows128 v i = v (ix1 (i 1)) := by
  unfold rows128; rw [bc01_128, bc1_128]

theorem rows16_apply (v : FVec Ideal S16 .f32) (i : S50000x16.Idx) : rows16 v i = v (ix1 (i 1)) := by
  unfold rows16; rw [bc01_16, bc1_16]

/-! ## The column sums -/

theorem lift128 (h : S50000x128.Reduces [0] S128) (j : S128.Idx) (k : Fin 50000) : h.lift j k = ix2 k (j 0) := by
  funext a; apply Fin.ext; fin_cases a <;> rfl

theorem lift16 (h : S50000x16.Reduces [0] S16) (j : S16.Idx) (k : Fin 50000) : h.lift j k = ix2 k (j 0) := by
  funext a; apply Fin.ext; fin_cases a <;> rfl

theorem colsum128 (z : Mat 50000 128) (init : EReal) (j : S128.Idx) :
    Ideal.hostReduceAdd reducesTo_S50000x128_S128_d0 z init j = init + ∑ r : Fin 50000, z (ix2 r (j 0)) := by
  rw [Ideal.hostReduceAdd_single reducesTo_S50000x128_S128_d0 (by decide) z init j]
  exact congrArg (init + ·) (Finset.sum_congr rfl fun k _ => congrArg z (lift128 _ j k))

theorem colsum16 (z : Mat 50000 16) (init : EReal) (j : S16.Idx) :
    Ideal.hostReduceAdd reducesTo_S50000x16_S16_d0 z init j = init + ∑ r : Fin 50000, z (ix2 r (j 0)) := by
  rw [Ideal.hostReduceAdd_single reducesTo_S50000x16_S16_d0 (by decide) z init j]
  exact congrArg (init + ·) (Finset.sum_congr rfl fun k _ => congrArg z (lift16 _ j k))

/-! ## The layers, index by index -/

/-- The linear layer is the sum of products plus the bias row's entry. -/
theorem linT_eq (h : Mat 50000 128) (w : Mat 128 128) (b : FVec Ideal S128 .f32) :
    linT (F := Ideal) h w b = lin h w (rowOf b) := by
  funext i
  obtain ⟨a, c, rfl⟩ : ∃ (a : Fin 50000) (c : Fin 128), i = ix2 a c := ⟨i 0, i 1, eq_ix2 i⟩
  show Host.dotGeneral (DotDims.plain 50000 128 128) none h w (ix2 a c) + rows128 b (ix2 a c) = _
  rw [StackMember.dotGeneral_plain_apply, rows128_apply]
  rfl

theorem linT16_eq (h : Mat 50000 128) (w : Mat 128 16) (b : FVec Ideal S16 .f32) :
    linT16 (F := Ideal) h w b = lin h w (rowOf b) := by
  funext i
  obtain ⟨a, c, rfl⟩ : ∃ (a : Fin 50000) (c : Fin 16), i = ix2 a c := ⟨i 0, i 1, eq_ix2 i⟩
  show Host.dotGeneral (DotDims.plain 50000 128 16) none h w (ix2 a c) + rows16 b (ix2 a c) = _
  rw [StackMember.dotGeneral_plain_apply, rows16_apply]
  rfl

/-- The positive part is the maximum with zero. -/
theorem reluT_eq (y : Mat 50000 128) : reluT (F := Ideal) y = relu y := by
  funext i
  show max (y i) (broadcastInDim S50000x128 ![] bcast_S_S50000x128 (constant (F := Ideal) S_ .f32 0x00000000#32) i) = _
  rw [broadcastInDim_scalar_apply]
  show max (y i) (Ideal.ofBits .f32 0x00000000#32) = _
  rw [Ideal.ofBits_zero_f32]
  rfl

/-- The column mean is the column sum from zero over the row count. -/
theorem meanT_apply (z : Mat 50000 128) (j : S128.Idx) : meanT (F := Ideal) z j = meanR z (ix2 0 (j 0)) := by
  show Ideal.div (Ideal.hostReduceAdd reducesTo_S50000x128_S128_d0 z (Ideal.ofBits .f32 0x00000000#32) j)
      (broadcastInDim S128 ![] bcast_S_S128 (constant (F := Ideal) S_ .f32 0x47435000#32) j) = _
  rw [colsum128, Ideal.ofBits_zero_f32, broadcastInDim_scalar_apply]
  rfl

theorem meanT16_apply (z : Mat 50000 16) (j : S16.Idx) : meanT16 (F := Ideal) z j = meanR z (ix2 0 (j 0)) := by
  show Ideal.div (Ideal.hostReduceAdd reducesTo_S50000x16_S16_d0 z (Ideal.ofBits .f32 0x00000000#32) j)
      (broadcastInDim S16 ![] bcast_S_S16 (constant (F := Ideal) S_ .f32 0x47435000#32) j) = _
  rw [colsum16, Ideal.ofBits_zero_f32, broadcastInDim_scalar_apply]
  rfl

/-- The deviation is the entry less its column's mean. -/
theorem devT_apply (z : Mat 50000 128) (i : S50000x128.Idx) : devT (F := Ideal) z i = z i - meanR z (ix2 0 (i 1)) := by
  show z i - broadcastInDim S50000x128 ![0, 1] bcast_S1x128_S50000x128_0_1
      (Host.divf (F := Ideal) (φ := .f32)
        (broadcastInDim S1x128 ![1] bcast_S128_S1x128_1
          (Host.reduceAdd (F := Ideal) z (constant S_ .f32 0x00000000#32) reducesTo_S50000x128_S128_d0 h_S_))
        (broadcastInDim S1x128 ![] bcast_S_S1x128 (constant (F := Ideal) S_ .f32 0x47435000#32))) i = _
  rw [bc01_128]
  show z i - Ideal.div
      (broadcastInDim S1x128 ![1] bcast_S128_S1x128_1
        (Host.reduceAdd (F := Ideal) z (constant S_ .f32 0x00000000#32) reducesTo_S50000x128_S128_d0 h_S_) (ix2 0 (i 1)))
      (broadcastInDim S1x128 ![] bcast_S_S1x128 (constant (F := Ideal) S_ .f32 0x47435000#32) (ix2 0 (i 1))) = _
  rw [bc1_128, broadcastInDim_scalar_apply]
  show z i - Ideal.div (Ideal.hostReduceAdd reducesTo_S50000x128_S128_d0 z (Ideal.ofBits .f32 0x00000000#32) (ix1 (i 1))) _ = _
  rw [colsum128, Ideal.ofBits_zero_f32]
  rfl

theorem devT16_apply (z : Mat 50000 16) (i : S50000x16.Idx) : devT16 (F := Ideal) z i = z i - meanR z (ix2 0 (i 1)) := by
  show z i - broadcastInDim S50000x16 ![0, 1] bcast_S1x16_S50000x16_0_1
      (Host.divf (F := Ideal) (φ := .f32)
        (broadcastInDim S1x16 ![1] bcast_S16_S1x16_1
          (Host.reduceAdd (F := Ideal) z (constant S_ .f32 0x00000000#32) reducesTo_S50000x16_S16_d0 h_S_))
        (broadcastInDim S1x16 ![] bcast_S_S1x16 (constant (F := Ideal) S_ .f32 0x47435000#32))) i = _
  rw [bc01_16]
  show z i - Ideal.div
      (broadcastInDim S1x16 ![1] bcast_S16_S1x16_1
        (Host.reduceAdd (F := Ideal) z (constant S_ .f32 0x00000000#32) reducesTo_S50000x16_S16_d0 h_S_) (ix2 0 (i 1)))
      (broadcastInDim S1x16 ![] bcast_S_S1x16 (constant (F := Ideal) S_ .f32 0x47435000#32) (ix2 0 (i 1))) = _
  rw [bc1_16, broadcastInDim_scalar_apply]
  show z i - Ideal.div (Ideal.hostReduceAdd reducesTo_S50000x16_S16_d0 z (Ideal.ofBits .f32 0x00000000#32) (ix1 (i 1))) _ = _
  rw [colsum16, Ideal.ofBits_zero_f32]
  rfl

/-- The variance's divisor is the row count: the count less the integer zero. -/
theorem cntT_apply (k : S_.Idx) : cntT (F := Ideal) k = cnt := by
  show Ideal.ofBits .f32 0x47435000#32 - (((0#32 : BitVec 32).toInt : ℝ) : EReal) = cnt
  rw [show (0#32 : BitVec 32).toInt = 0 from rfl, Int.cast_zero, EReal.coe_zero, sub_zero]
  rfl

/-- The row count is positive, so the variance's guard holds. -/
theorem cnt_guard : Ideal.cmp .ogt cnt (Ideal.ofBits .f32 0x00000000#32) = 1#1 := by
  rw [Ideal.ofBits_zero_f32, cnt_eq]
  have h : (0 : EReal) < ((50000 : ℝ) : EReal) := by exact_mod_cast (by norm_num : (0 : ℝ) < 50000)
  show BitVec.ofBool (decide ((0 : EReal) < ((50000 : ℝ) : EReal))) = 1#1
  rw [decide_eq_true h]
  rfl

/-- The column variance is the column sum, from zero, of the squared deviations over the row count. -/
theorem varT_apply (z : Mat 50000 128) (j : S128.Idx) : varT (F := Ideal) z j = varR z (ix2 0 (j 0)) := by
  show Scalar.select
      (broadcastInDim S128 ![] bcast_S_S128 (cmpf (F := Ideal) (φ := .f32) .ogt cntT (constant S_ .f32 0x00000000#32)) j)
      (Ideal.div
        (Ideal.hostReduceAdd reducesTo_S50000x128_S128_d0 (mulf (devT (F := Ideal) z) (devT z)) (Ideal.ofBits .f32 0x00000000#32) j)
        (broadcastInDim S128 ![] bcast_S_S128 (cntT (F := Ideal)) j))
      (broadcastInDim S128 ![] bcast_S_S128 (id (constant (F := Ideal) S_ .f32 0x7FC00000#32)) j) = _
  rw [broadcastInDim_scalar_apply, broadcastInDim_scalar_apply, colsum128, Ideal.ofBits_zero_f32]
  show Scalar.select (Ideal.cmp .ogt (cntT (F := Ideal) ix0) (Ideal.ofBits .f32 0x00000000#32)) _ _ = _
  rw [cntT_apply, cnt_guard, select_one]
  show Ideal.div (0 + ∑ r : Fin 50000, devT (F := Ideal) z (ix2 r (j 0)) * devT z (ix2 r (j 0))) cnt = _
  simp only [devT_apply]
  rfl

theorem varT16_apply (z : Mat 50000 16) (j : S16.Idx) : varT16 (F := Ideal) z j = varR z (ix2 0 (j 0)) := by
  show Scalar.select
      (broadcastInDim S16 ![] bcast_S_S16 (cmpf (F := Ideal) (φ := .f32) .ogt cntT (constant S_ .f32 0x00000000#32)) j)
      (Ideal.div
        (Ideal.hostReduceAdd reducesTo_S50000x16_S16_d0 (mulf (devT16 (F := Ideal) z) (devT16 z)) (Ideal.ofBits .f32 0x00000000#32) j)
        (broadcastInDim S16 ![] bcast_S_S16 (cntT (F := Ideal)) j))
      (broadcastInDim S16 ![] bcast_S_S16 (id (constant (F := Ideal) S_ .f32 0x7FC00000#32)) j) = _
  rw [broadcastInDim_scalar_apply, broadcastInDim_scalar_apply, colsum16, Ideal.ofBits_zero_f32]
  show Scalar.select (Ideal.cmp .ogt (cntT (F := Ideal) ix0) (Ideal.ofBits .f32 0x00000000#32)) _ _ = _
  rw [cntT_apply, cnt_guard, select_one]
  show Ideal.div (0 + ∑ r : Fin 50000, devT16 (F := Ideal) z (ix2 r (j 0)) * devT16 z (ix2 r (j 0))) cnt = _
  simp only [devT16_apply]
  rfl

/-- Normalisation by given column statistics, at an index. -/
theorem bnT_apply (z : Mat 50000 128) (mean var g be : FVec Ideal S128 .f32) (i : S50000x128.Idx) :
    bnT (F := Ideal) z mean var g be i
      = (z i - mean (ix1 (i 1))) * (g (ix1 (i 1)) * Ideal.rsqrt (var (ix1 (i 1)) + eps)) + be (ix1 (i 1)) := by
  show (z i - rows128 mean i) * (broadcastInDim S50000x128 ![0, 1] bcast_S1x128_S50000x128_0_1 (scaleT var g) i) + rows128 be i = _
  rw [rows128_apply, rows128_apply, bc01_128]
  show _ * (broadcastInDim S1x128 ![1] bcast_S128_S1x128_1
      (mulf g (Host.rsqrt (addf var (broadcastInDim S128 ![] bcast_S_S128 (constant (F := Ideal) S_ .f32 0x3727C5AC#32))))) (ix2 0 (i 1))) + _ = _
  rw [bc1_128]
  show _ * (g (ix1 (i 1)) * Ideal.rsqrt (var (ix1 (i 1))
      + broadcastInDim S128 ![] bcast_S_S128 (constant (F := Ideal) S_ .f32 0x3727C5AC#32) (ix1 (i 1)))) + _ = _
  rw [broadcastInDim_scalar_apply]
  rfl

theorem bnT16_apply (z : Mat 50000 16) (mean var g be : FVec Ideal S16 .f32) (i : S50000x16.Idx) :
    bnT16 (F := Ideal) z mean var g be i
      = (z i - mean (ix1 (i 1))) * (g (ix1 (i 1)) * Ideal.rsqrt (var (ix1 (i 1)) + eps)) + be (ix1 (i 1)) := by
  show (z i - rows16 mean i) * (broadcastInDim S50000x16 ![0, 1] bcast_S1x16_S50000x16_0_1 (scaleT16 var g) i) + rows16 be i = _
  rw [rows16_apply, rows16_apply, bc01_16]
  show _ * (broadcastInDim S1x16 ![1] bcast_S16_S1x16_1
      (mulf g (Host.rsqrt (addf var (broadcastInDim S16 ![] bcast_S_S16 (constant (F := Ideal) S_ .f32 0x3727C5AC#32))))) (ix2 0 (i 1))) + _ = _
  rw [bc1_16]
  show _ * (g (ix1 (i 1)) * Ideal.rsqrt (var (ix1 (i 1))
      + broadcastInDim S16 ![] bcast_S_S16 (constant (F := Ideal) S_ .f32 0x3727C5AC#32) (ix1 (i 1)))) + _ = _
  rw [broadcastInDim_scalar_apply]
  rfl

/-- Normalisation by the array's own column statistics is the network's. -/
theorem bnT_eq (z : Mat 50000 128) (g be : FVec Ideal S128 .f32) :
    bnT (F := Ideal) z (meanT z) (varT z) g be = bnR z (rowOf g) (rowOf be) := by
  funext i
  rw [bnT_apply, meanT_apply, varT_apply]
  rfl

theorem bnT16_eq (z : Mat 50000 16) (g be : FVec Ideal S16 .f32) :
    bnT16 (F := Ideal) z (meanT16 z) (varT16 z) g be = bnR z (rowOf g) (rowOf be) := by
  funext i
  rw [bnT16_apply, meanT16_apply, varT16_apply]
  rfl

/-! ## The result -/

/-- The reference's result over the arguments' contents: the column means, the sum started from zero, of the network
    with the neighbour sum unopened and the column statistics as mean and mean of squared deviations. -/
def refOut (x : Mat 50000 128) (src dst : IVec S600000 32)
    (w11 : Mat 128 128) (b11 g11 be11 : FVec Ideal S128 .f32) (w12 : Mat 128 128) (b12 g12 be12 : FVec Ideal S128 .f32)
    (w21 : Mat 128 128) (b21 g21 be21 : FVec Ideal S128 .f32) (w22 : Mat 128 16) (b22 g22 be22 : FVec Ideal S16 .f32) :
    FVec Ideal S16 .f32 := fun j =>
  Ideal.div (0 + ∑ r : Fin 50000, net (fun h => aggR h src dst) bnR bnR x w11 (rowOf b11) (rowOf g11) (rowOf be11)
    w12 (rowOf b12) (rowOf g12) (rowOf be12) w21 (rowOf b21) (rowOf g21) (rowOf be21)
    w22 (rowOf b22) (rowOf g22) (rowOf be22) (ix2 r (j 0))) cnt

/-- The layers composed over any contents are the network over those contents. -/
theorem outV_eq (V : Valuation τ sig (Elt Ideal)) :
    outV V = refOut (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6))
      (V (Proc.devRef .tc main_arg7)) (V (Proc.devRef .tc main_arg8)) (V (Proc.devRef .tc main_arg9)) (V (Proc.devRef .tc main_arg10))
      (V (Proc.devRef .tc main_arg11)) (V (Proc.devRef .tc main_arg12)) (V (Proc.devRef .tc main_arg13)) (V (Proc.devRef .tc main_arg14))
      (V (Proc.devRef .tc main_arg15)) (V (Proc.devRef .tc main_arg16)) (V (Proc.devRef .tc main_arg17)) (V (Proc.devRef .tc main_arg18)) := by
  funext j
  unfold outV
  rw [meanT16_apply]
  unfold y4 z4 h3 z3 a2 h2 z2 h1 z1 a1
  simp only [linT_eq, linT16_eq, bnT_eq, bnT16_eq, reluT_eq, aggT_eq]
  rfl

/-- The run's result, at the exact values, is the network's column means over the launch contents of the arguments. -/
theorem res_eq (m : (ℓ : Loc nD τ sig) → Buf (Elt Ideal) ℓ) (c : Dev nD) :
    res (F := Ideal) m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) (m ((c.tc : Thread nD τ).loc main_arg15)) (m ((c.tc : Thread nD τ).loc main_arg16))
      (m ((c.tc : Thread nD τ).loc main_arg17)) (m ((c.tc : Thread nD τ).loc main_arg18)) :=
  outV_eq (launchContents m c)

/-- The same with the network written out over the launch contents of the arguments. -/
theorem res_eq_net (m : (ℓ : Loc nD τ sig) → Buf (Elt Ideal) ℓ) (c : Dev nD) :
    res (F := Ideal) m c = fun (j : S16.Idx) =>
      Ideal.div (0 + ∑ r : Fin 50000, net (fun h => aggR h (m ((c.tc : Thread nD τ).loc main_arg1)) (m ((c.tc : Thread nD τ).loc main_arg2))) bnR bnR
        (m ((c.tc : Thread nD τ).loc main_arg0)) (m ((c.tc : Thread nD τ).loc main_arg3)) (rowOf (m ((c.tc : Thread nD τ).loc main_arg4))) (rowOf (m ((c.tc : Thread nD τ).loc main_arg5))) (rowOf (m ((c.tc : Thread nD τ).loc main_arg6)))
        (m ((c.tc : Thread nD τ).loc main_arg7)) (rowOf (m ((c.tc : Thread nD τ).loc main_arg8))) (rowOf (m ((c.tc : Thread nD τ).loc main_arg9))) (rowOf (m ((c.tc : Thread nD τ).loc main_arg10)))
        (m ((c.tc : Thread nD τ).loc main_arg11)) (rowOf (m ((c.tc : Thread nD τ).loc main_arg12))) (rowOf (m ((c.tc : Thread nD τ).loc main_arg13))) (rowOf (m ((c.tc : Thread nD τ).loc main_arg14)))
        (m ((c.tc : Thread nD τ).loc main_arg15)) (rowOf (m ((c.tc : Thread nD τ).loc main_arg16))) (rowOf (m ((c.tc : Thread nD τ).loc main_arg17))) (rowOf (m ((c.tc : Thread nD τ).loc main_arg18))) (ix2 r (j 0))) cnt :=
  res_eq m c

end Cert.ReferenceIdeal.HandRead

end
-- ==== Proof.PreReal.lean ====
/-
  From the precondition to real entries.

  The precondition is one word: the conjunction, over the seventeen float argument arrays, of "every entry's absolute
  value is below +infinity".  The word being 1 makes every conjunct 1; a conjunct is a reduction by `and` over all
  the axes of an array of comparison words, so every comparison word is 1; and an extended real whose absolute value
  is below +infinity is neither infinity, that is, it is the image of a real number.
-/
import proofs.«105059_j20856361189655_1_alg».proof.Pre_finite_inputs
import proofs.«105059_j20856361189655_1_alg».proof.Proof.Gen.Pre_finite_inputs
import Idealize.ShloMosaic.Lib.ReduceAll
import Idealize.ShloMosaic.Lib.ValueIdx
import proofs.«105059_j20856361189655_1_alg».proof.Proof.LibReal

noncomputable section

namespace Cert.PreReal

open Idealize.ShloMosaic Cert.Lib Cert.Pre_finite_inputs

/-- A rank-0 shape has one index. -/
instance : Subsingleton S_.Idx := ⟨fun a b => funext fun d => d.elim0⟩

/-- The word `0x7F800000` denotes +infinity. -/
theorem ofBits_inf : Ideal.ofBits .f32 0x7F800000#32 = ⊤ := by
  simp [Ideal.ofBits, Ideal.ieee]

/-- An extended real whose absolute value compares below +infinity is real. -/
theorem isReal_of_abs_lt (x : EReal)
    (h : Ideal.cmp .olt (max x (-x)) (Ideal.ofBits .f32 0x7F800000#32) = 1#1) : IsReal x := by
  rw [ofBits_inf] at h
  induction x using EReal.rec with
  | bot => simp [Ideal.cmp] at h
  | coe a => exact ⟨a, rfl⟩
  | top => simp [Ideal.cmp] at h

/-- One conjunct of the precondition: if the reduction by `and`, over all axes, of the comparisons
    `|a i| < +infinity` is 1, every entry of `a` is real. -/
theorem all_real {s : Shape} {axes : List (Fin s.rank)} (a : FVec Ideal s .f32)
    (bc : S_.BroadcastsInDim s (![] : Fin 0 → Fin s.rank)) (hred : s.ReducesTo axes S_) (hS : 0 < S_.numel)
    (j : S_.Idx)
    (e : Host.reduce IntOp.andi
          (cmpf .olt (Host.absf a) (broadcastInDim s ![] bc (constant (F := Ideal) S_ .f32 0x7F800000#32)))
          (constantI S_ 1 1#1) hred hS j = 1#1) :
    ∀ i, IsReal (a i) := fun i =>
  isReal_of_abs_lt (a i) (Host.reduce_andi_all _ _ hred hS j e i)

/-- Under the precondition, every entry of each of the seventeen float argument arrays is real. -/
theorem finite_of_pre (a0 : FVec Ideal S50000x128 .f32) (a1 a2 : IVec S600000 32) (a3 : FVec Ideal S128x128 .f32)
    (a4 a5 a6 : FVec Ideal S128 .f32) (a7 : FVec Ideal S128x128 .f32) (a8 a9 a10 : FVec Ideal S128 .f32)
    (a11 : FVec Ideal S128x128 .f32) (a12 a13 a14 : FVec Ideal S128 .f32) (a15 : FVec Ideal S128x16 .f32)
    (a16 a17 a18 : FVec Ideal S16 .f32)
    (h : Cert.Pre_finite_inputs.fn (F := Ideal) a0 a1 a2 a3 a4 a5 a6 a7 a8 a9 a10 a11 a12 a13 a14 a15 a16 a17 a18
          = fun _ => 1#1) :
    (∀ i, IsReal (a0 i)) ∧ (∀ i, IsReal (a3 i)) ∧ (∀ i, IsReal (a4 i)) ∧ (∀ i, IsReal (a5 i)) ∧
    (∀ i, IsReal (a6 i)) ∧ (∀ i, IsReal (a7 i)) ∧ (∀ i, IsReal (a8 i)) ∧ (∀ i, IsReal (a9 i)) ∧
    (∀ i, IsReal (a10 i)) ∧ (∀ i, IsReal (a11 i)) ∧ (∀ i, IsReal (a12 i)) ∧ (∀ i, IsReal (a13 i)) ∧
    (∀ i, IsReal (a14 i)) ∧ (∀ i, IsReal (a15 i)) ∧ (∀ i, IsReal (a16 i)) ∧ (∀ i, IsReal (a17 i)) ∧
    (∀ i, IsReal (a18 i)) := by
  have h0 := congrFun h ValueIdx.ix0
  dsimp only [fn, fn_part1, fn_part2, fn_part3, fn_part4, andi] at h0
  simp only [IntOp.andi_eq_one] at h0
  obtain ⟨⟨⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩, e17⟩, e18⟩ := h0
  exact ⟨all_real a0 _ _ _ _ e0, all_real a3 _ _ _ _ e3, all_real a4 _ _ _ _ e4, all_real a5 _ _ _ _ e5,
    all_real a6 _ _ _ _ e6, all_real a7 _ _ _ _ e7, all_real a8 _ _ _ _ e8, all_real a9 _ _ _ _ e9,
    all_real a10 _ _ _ _ e10, all_real a11 _ _ _ _ e11, all_real a12 _ _ _ _ e12, all_real a13 _ _ _ _ e13,
    all_real a14 _ _ _ _ e14, all_real a15 _ _ _ _ e15, all_real a16 _ _ _ _ e16, all_real a17 _ _ _ _ e17,
    all_real a18 _ _ _ _ e18⟩

end Cert.PreReal

end
-- ==== Proof.AggEq.lean ====
/-
  The neighbour sum is one function under either program's names: the two programs print the same gather, scatter-add
  and addition, over dimension records with the same fields and shape facts that are proofs.
-/
import proofs.«105059_j20856361189655_1_alg».proof.Proof.RefRead
import proofs.«105059_j20856361189655_1_alg».proof.Proof.KHost

noncomputable section

namespace Cert.AggEq

open Idealize.ShloMosaic Cert.Gin

/-- The reference's neighbour sum and the kernel program's are the same function of the three arrays. -/
theorem aggR_eq_agg (h : Mat 50000 128) (src dst : IVec Cert.ReferenceIdeal.S600000 32) :
    Cert.ReferenceIdeal.HandRead.aggR h src dst = Cert.KernelIdeal.KHost.agg h src dst := rfl

/-- The same as functions of the feature array, the two index arrays fixed. -/
theorem aggR_fun_eq (src dst : IVec Cert.ReferenceIdeal.S600000 32) :
    (fun h : Mat 50000 128 => Cert.ReferenceIdeal.HandRead.aggR h src dst)
      = (fun h => Cert.KernelIdeal.KHost.agg h src dst) :=
  funext fun h => aggR_eq_agg h src dst

end Cert.AggEq

end
-- ==== Proof.Claims.lean ====
/-
  The five conjuncts. The three frames: the two kernel programs' are the generated frame theorems; the reference has
  no kernel, and its frame is its run with the result dropped. The idealization rewrote nothing. The two idealized
  programs compute the same sixteen numbers: both are the network of Proof/Net.lean — two graph layers, each a
  neighbour sum followed by two linear layers with batch normalisation, then the mean over the nodes — and differ only
  in how each normalisation's variance is arranged (the mean of the squares less the square of the mean, against the
  mean of the squared deviations), which agree on real entries; the precondition makes every entry real, and
  realness passes through every layer.
-/
import proofs.«105059_j20856361189655_1_alg».proof.Defs
import proofs.«105059_j20856361189655_1_alg».proof.Proof.Gen.Kernel.Frame
import proofs.«105059_j20856361189655_1_alg».proof.Proof.Gen.KernelIdeal.Frame
import proofs.«105059_j20856361189655_1_alg».proof.Proof.KRun
import proofs.«105059_j20856361189655_1_alg».proof.Proof.KValue
import proofs.«105059_j20856361189655_1_alg».proof.Proof.RefRun
import proofs.«105059_j20856361189655_1_alg».proof.Proof.RefRead
import proofs.«105059_j20856361189655_1_alg».proof.Proof.PreReal
import proofs.«105059_j20856361189655_1_alg».proof.Proof.Net
import proofs.«105059_j20856361189655_1_alg».proof.Proof.KStats
import proofs.«105059_j20856361189655_1_alg».proof.Proof.AggEq

set_option maxRecDepth 16384

noncomputable section

namespace Cert.Proof.Claims

open Idealize.ShloMosaic Idealize.ShloMosaic.TcCoe Idealize.SL.Sem Idealize.ShloMosaic.ValueIdx
open Cert.Gin Cert.Lib

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- The two results agree: each is, entry by entry, the column sum of the last normalised array over the row count,
    and the two last normalised arrays are one array when every argument entry is real. -/
theorem algebraic : Cert.algebraic_KernelIdeal_ReferenceIdeal := by
  intro m ρ m' ρ' hpre hagree
  refine ⟨fun c => Cert.KernelIdeal.Gen.W13 m ρ c (Proc.devRef .tc Cert.KernelIdeal.main_v66), Cert.KernelIdeal.KRun.run_value m ρ, ?_⟩
  refine (θ_run Cert.ReferenceIdeal.defs _ _).mono (fun _ h c => ⟨(h c).1.trans ?_, (h c).2⟩)
    (Cert.ReferenceIdeal.HandRun.run (F := Ideal) m' ρ')
  obtain ⟨e0, e1, e2, e3, e4, e5, e6, e7, e8, e9, e10, e11, e12, e13, e14, e15, e16, e17, e18⟩ := hagree c
  obtain ⟨r0, r3, r4, r5, r6, r7, r8, r9, r10, r11, r12, r13, r14, r15, r16, r17, r18⟩ :=
    Cert.PreReal.finite_of_pre _ _ _ _ _ _ _ _ _ _ _ _ _ _ _ _ _ _ _ (hpre c)
  show _ = Cert.KernelIdeal.Gen.W13 m ρ c (Proc.devRef .tc Cert.KernelIdeal.main_v66)
  rw [Cert.ReferenceIdeal.HandRead.res_eq_net m' c, Cert.KernelIdeal.KValue.result m ρ c,
    e0, e1, e2, e3, e4, e5, e6, e7, e8, e9, e10, e11, e12, e13, e14, e15, e16, e17, e18]
  funext j
  rw [Cert.KernelIdeal.KValue.o4_eq_net, Cert.AggEq.aggR_fun_eq]
  exact out_eq (Cert.KernelIdeal.KValue.aggf m c) _ _ _ _ _ _ _ _ _ _ _ _ _ _ _ _ _
    (fun h hh => Cert.KernelIdeal.KStats.agg_real h _ _ hh)
    r0 r3 (rowOf_real _ r4) (rowOf_real _ r5) (rowOf_real _ r6) r7 (rowOf_real _ r8) (rowOf_real _ r9) (rowOf_real _ r10)
    r11 (rowOf_real _ r12) (rowOf_real _ r13) (rowOf_real _ r14) r15 (rowOf_real _ r16) (rowOf_real _ r17) (rowOf_real _ r18)
    (ix2 0 (j 0))

end Cert.Proof.Claims

end
-- ==== Proof.lean ====
/-
  The certificate's claim: the three frames, the (empty) idealization ledger, and the agreement of the two idealized
  programs' results on finite inputs. The conjuncts are proved in Proof/Claims.lean; the witnesses of the programs'
  stated side conditions are the generated facts.
-/
import proofs.«105059_j20856361189655_1_alg».proof.Defs
import proofs.«105059_j20856361189655_1_alg».proof.Proof.Gen.Kernel
import proofs.«105059_j20856361189655_1_alg».proof.Proof.Gen.Kernel.Skeleton
import proofs.«105059_j20856361189655_1_alg».proof.Proof.Gen.Kernel.Launch
import proofs.«105059_j20856361189655_1_alg».proof.Proof.Gen.Kernel.Points
import proofs.«105059_j20856361189655_1_alg».proof.Proof.Gen.Kernel.Frame
import proofs.«105059_j20856361189655_1_alg».proof.Proof.Gen.KernelIdeal
import proofs.«105059_j20856361189655_1_alg».proof.Proof.Gen.KernelIdeal.Skeleton
import proofs.«105059_j20856361189655_1_alg».proof.Proof.Gen.KernelIdeal.Launch
import proofs.«105059_j20856361189655_1_alg».proof.Proof.Gen.KernelIdeal.Points
import proofs.«105059_j20856361189655_1_alg».proof.Proof.Gen.KernelIdeal.Frame
import proofs.«105059_j20856361189655_1_alg».proof.Proof.Gen.ReferenceIdeal
import proofs.«105059_j20856361189655_1_alg».proof.Proof.Gen.Pre_finite_inputs
import proofs.«105059_j20856361189655_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
